-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v76) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16384x3 : Shape := ⟨3, ![2, 16384, 3]⟩
abbrev S2x2048x3 : Shape := ⟨3, ![2, 2048, 3]⟩
abbrev S2x64x16384 : Shape := ⟨3, ![2, 64, 16384]⟩
abbrev S_ : Shape := ⟨0, ![]⟩

class Facts : Prop where
  bcast_S_S2x16384x3 : S_.BroadcastsInDim S2x16384x3 (![] : Fin 0 → Fin S2x16384x3.rank)
  reducesTo_S2x16384x3_S_d0_1_2 : S2x16384x3.ReducesTo [0, 1, 2] S_
  h_S_ : 0 < S_.numel
  bcast_S_S2x2048x3 : S_.BroadcastsInDim S2x2048x3 (![] : Fin 0 → Fin S2x2048x3.rank)
  reducesTo_S2x2048x3_S_d0_1_2 : S2x2048x3.ReducesTo [0, 1, 2] S_
  bcast_S_S2x64x16384 : S_.BroadcastsInDim S2x64x16384 (![] : Fin 0 → Fin S2x64x16384.rank)
  reducesTo_S2x64x16384_S_d0_1_2 : S2x64x16384.ReducesTo [0, 1, 2] S_

variable [Facts]

def fn {F : FTy → Type} [FloatOps F] (main_arg0 : FVec F S2x16384x3 .f32) (main_arg1 : FVec F S2x2048x3 .f32) (main_arg2 : FVec F S2x64x16384 .f32) : IVec S_ 1 :=
  let main_v0 : FVec F S2x16384x3 .f32 := Host.absf main_arg0
  let main_cst : FVec F S_ .f32 := constant S_ .f32 0x7F800000#32
  let main_v1 : FVec F S2x16384x3 .f32 := broadcastInDim S2x16384x3 ![] bcast_S_S2x16384x3 main_cst
  let main_v2 : IVec S2x16384x3 1 := cmpf .olt main_v0 main_v1
  let main_c : IVec S_ 1 := constantI S_ 1 1#1
  let main_v3 : IVec S_ 1 := (fun x v => Host.reduce IntOp.andi x v reducesTo_S2x16384x3_S_d0_1_2 h_S_) main_v2 main_c
  let main_v4 : FVec F S2x2048x3 .f32 := Host.absf main_arg1
  let main_cst_0 : FVec F S_ .f32 := constant S_ .f32 0x7F800000#32
  let main_v5 : FVec F S2x2048x3 .f32 := broadcastInDim S2x2048x3 ![] bcast_S_S2x2048x3 main_cst_0
  let main_v6 : IVec S2x2048x3 1 := cmpf .olt main_v4 main_v5
  let main_c_1 : IVec S_ 1 := constantI S_ 1 1#1
  let main_v7 : IVec S_ 1 := (fun x v => Host.reduce IntOp.andi x v reducesTo_S2x2048x3_S_d0_1_2 h_S_) main_v6 main_c_1
  let main_v8 : IVec S_ 1 := andi main_v3 main_v7
  let main_v9 : FVec F S2x64x16384 .f32 := Host.absf main_arg2
  let main_cst_2 : FVec F S_ .f32 := constant S_ .f32 0x7F800000#32
  let main_v10 : FVec F S2x64x16384 .f32 := broadcastInDim S2x64x16384 ![] bcast_S_S2x64x16384 main_cst_2
  let main_v11 : IVec S2x64x16384 1 := cmpf .olt main_v9 main_v10
  let main_c_3 : IVec S_ 1 := constantI S_ 1 1#1
  let main_v12 : IVec S_ 1 := (fun x v => Host.reduce IntOp.andi x v reducesTo_S2x64x16384_S_d0_1_2 h_S_) main_v11 main_c_3
  let main_v13 : IVec S_ 1 := andi main_v8 main_v12
  main_v13
-- ==== Kernel.lean ====
abbrev S2x16384x3 : Shape := ⟨3, ![2, 16384, 3]⟩
abbrev S2x2048x3 : Shape := ⟨3, ![2, 2048, 3]⟩
abbrev S2x64x16384 : Shape := ⟨3, ![2, 64, 16384]⟩
abbrev S2x2048x1x3 : Shape := ⟨4, ![2, 2048, 1, 3]⟩
abbrev S2x1x16384x3 : Shape := ⟨4, ![2, 1, 16384, 3]⟩
abbrev S2x2048x16384x3 : Shape := ⟨4, ![2, 2048, 16384, 3]⟩
abbrev S_ : Shape := ⟨0, ![]⟩
abbrev S2x2048x16384 : Shape := ⟨3, ![2, 2048, 16384]⟩
abbrev S2x2048 : Shape := ⟨2, ![2, 2048]⟩
abbrev S2 : Shape := ⟨1, ![2]⟩
abbrev S2x1x1 : Shape := ⟨3, ![2, 1, 1]⟩
abbrev S2048 : Shape := ⟨1, ![2048]⟩
abbrev S1x2048x1 : Shape := ⟨3, ![1, 2048, 1]⟩
abbrev S16384 : Shape := ⟨1, ![16384]⟩
abbrev S1x1x16384 : Shape := ⟨3, ![1, 1, 16384]⟩
abbrev S2x2048x33 : Shape := ⟨3, ![2, 2048, 33]⟩
abbrev S2x2048x16384x1 : Shape := ⟨4, ![2, 2048, 16384, 1]⟩
abbrev S2x2048x32 : Shape := ⟨3, ![2, 2048, 32]⟩
abbrev S32 : Shape := ⟨1, ![32]⟩
abbrev S1x1x32 : Shape := ⟨3, ![1, 1, 32]⟩
abbrev S2x2048x1 : Shape := ⟨3, ![2, 2048, 1]⟩
abbrev S2x16384x64 : Shape := ⟨3, ![2, 16384, 64]⟩
abbrev S2x16384x67 : Shape := ⟨3, ![2, 16384, 67]⟩
abbrev S2x16384x128 : Shape := ⟨3, ![2, 16384, 128]⟩
abbrev S2x65536x1 : Shape := ⟨3, ![2, 65536, 1]⟩
abbrev S2x2048x32x3 : Shape := ⟨4, ![2, 2048, 32, 3]⟩
abbrev S2x65536x3 : Shape := ⟨3, ![2, 65536, 3]⟩
abbrev S2x65536x128 : Shape := ⟨3, ![2, 65536, 128]⟩
abbrev S1x1024x1 : Shape := ⟨3, ![1, 1024, 1]⟩
abbrev S1x16384x128 : Shape := ⟨3, ![1, 16384, 128]⟩
abbrev S1x1024x128 : Shape := ⟨3, ![1, 1024, 128]⟩
abbrev S1024x128 : Shape := ⟨2, ![1024, 128]⟩
abbrev S1024x1024 : Shape := ⟨2, ![1024, 1024]⟩
abbrev S1024x1 : Shape := ⟨2, ![1024, 1]⟩
abbrev S2x65536x67 : Shape := ⟨3, ![2, 65536, 67]⟩
abbrev S2x2048x32x67 : Shape := ⟨4, ![2, 2048, 32, 67]⟩
abbrev S2x67x2048x32 : Shape := ⟨4, ![2, 67, 2048, 32]⟩

abbrev nBuf : Space → Nat
  | .hbm => 105
  | .vmem => 9
  | .smem => 0
  | _ => 0

abbrev bufTy : (tb : Table) → Fin (tcTables nBuf tb) → BufTy
  | .hbm, ⟨0, _⟩ => ⟨S2x16384x3, .f32⟩
  | .hbm, ⟨1, _⟩ => ⟨S2x2048x3, .f32⟩
  | .hbm, ⟨2, _⟩ => ⟨S2x64x16384, .f32⟩
  | .hbm, ⟨3, _⟩ => ⟨S2x2048x1x3, .f32⟩
  | .hbm, ⟨4, _⟩ => ⟨S2x1x16384x3, .f32⟩
  | .hbm, ⟨5, _⟩ => ⟨S2x2048x16384x3, .f32⟩
  | .hbm, ⟨6, _⟩ => ⟨S2x2048x16384x3, .f32⟩
  | .hbm, ⟨7, _⟩ => ⟨S2x2048x16384x3, .f32⟩
  | .hbm, ⟨8, _⟩ => ⟨S2x2048x16384x3, .f32⟩
  | .hbm, ⟨9, _⟩ => ⟨S_, .f32⟩
  | .hbm, ⟨10, _⟩ => ⟨S2x2048x16384, .f32⟩
  | .hbm, ⟨11, _⟩ => ⟨S_, .f32⟩
  | .hbm, ⟨12, _⟩ => ⟨S2x2048x16384, .f32⟩
  | .hbm, ⟨13, _⟩ => ⟨S2x2048x16384, .i1⟩
  | .hbm, ⟨14, _⟩ => ⟨S_, .f32⟩
  | .hbm, ⟨15, _⟩ => ⟨S2x2048x16384, .f32⟩
  | .hbm, ⟨16, _⟩ => ⟨S2x2048x16384, .i1⟩
  | .hbm, ⟨17, _⟩ => ⟨S2x2048x16384, .i1⟩
  | .hbm, ⟨18, _⟩ => ⟨S2x2048x16384, .i32⟩
  | .hbm, ⟨19, _⟩ => ⟨S_, .i32⟩
  | .hbm, ⟨20, _⟩ => ⟨S_, .i32⟩
  | .hbm, ⟨21, _⟩ => ⟨S2x2048x16384, .i32⟩
  | .hbm, ⟨22, _⟩ => ⟨S_, .i32⟩
  | .hbm, ⟨23, _⟩ => ⟨S2x2048x16384, .i32⟩
  | .hbm, ⟨24, _⟩ => ⟨S2x2048x16384, .i32⟩
  | .hbm, ⟨25, _⟩ => ⟨S2x2048x16384, .i32⟩
  | .hbm, ⟨26, _⟩ => ⟨S_, .i32⟩
  | .hbm, ⟨27, _⟩ => ⟨S2x2048, .i32⟩
  | .hbm, ⟨28, _⟩ => ⟨S_, .i32⟩
  | .hbm, ⟨29, _⟩ => ⟨S2x2048, .i32⟩
  | .hbm, ⟨30, _⟩ => ⟨S2x2048, .i32⟩
  | .hbm, ⟨31, _⟩ => ⟨S_, .i32⟩
  | .hbm, ⟨32, _⟩ => ⟨S2x2048x16384, .i32⟩
  | .hbm, ⟨33, _⟩ => ⟨S2x2048x16384, .i1⟩
  | .hbm, ⟨34, _⟩ => ⟨S2x2048x16384, .i1⟩
  | .hbm, ⟨35, _⟩ => ⟨S_, .i32⟩
  | .hbm, ⟨36, _⟩ => ⟨S_, .i32⟩
  | .hbm, ⟨37, _⟩ => ⟨S2x2048x16384, .i32⟩
  | .hbm, ⟨38, _⟩ => ⟨S2x2048x16384, .i32⟩
  | .hbm, ⟨39, _⟩ => ⟨S2, .i32⟩
  | .hbm, ⟨40, _⟩ => ⟨S2x1x1, .i32⟩
  | .hbm, ⟨41, _⟩ => ⟨S2048, .i32⟩
  | .hbm, ⟨42, _⟩ => ⟨S1x2048x1, .i32⟩
  | .hbm, ⟨43, _⟩ => ⟨S16384, .i32⟩
  | .hbm, ⟨44, _⟩ => ⟨S1x1x16384, .i32⟩
  | .hbm, ⟨45, _⟩ => ⟨S2x2048x16384, .i32⟩
  | .hbm, ⟨46, _⟩ => ⟨S_, .i32⟩
  | .hbm, ⟨47, _⟩ => ⟨S2x2048x33, .i32⟩
  | .hbm, ⟨48, _⟩ => ⟨S_, .i32⟩
  | .hbm, ⟨49, _⟩ => ⟨S2x1x1, .i32⟩
  | .hbm, ⟨50, _⟩ => ⟨S2x1x1, .i1⟩
  | .hbm, ⟨51, _⟩ => ⟨S_, .i32⟩
  | .hbm, ⟨52, _⟩ => ⟨S2x1x1, .i32⟩
  | .hbm, ⟨53, _⟩ => ⟨S2x1x1, .i32⟩
  | .hbm, ⟨54, _⟩ => ⟨S2x1x1, .i32⟩
  | .hbm, ⟨55, _⟩ => ⟨S_, .i32⟩
  | .hbm, ⟨56, _⟩ => ⟨S1x2048x1, .i32⟩
  | .hbm, ⟨57, _⟩ => ⟨S1x2048x1, .i1⟩
  | .hbm, ⟨58, _⟩ => ⟨S_, .i32⟩
  | .hbm, ⟨59, _⟩ => ⟨S1x2048x1, .i32⟩
  | .hbm, ⟨60, _⟩ => ⟨S1x2048x1, .i32⟩
  | .hbm, ⟨61, _⟩ => ⟨S1x2048x1, .i32⟩
  | .hbm, ⟨62, _⟩ => ⟨S_, .i32⟩
  | .hbm, ⟨63, _⟩ => ⟨S2x2048x16384, .i32⟩
  | .hbm, ⟨64, _⟩ => ⟨S2x2048x16384, .i1⟩
  | .hbm, ⟨65, _⟩ => ⟨S_, .i32⟩
  | .hbm, ⟨66, _⟩ => ⟨S2x2048x16384, .i32⟩
  | .hbm, ⟨67, _⟩ => ⟨S2x2048x16384, .i32⟩
  | .hbm, ⟨68, _⟩ => ⟨S2x2048x16384, .i32⟩
  | .hbm, ⟨69, _⟩ => ⟨S2x2048x16384, .i32⟩
  | .hbm, ⟨70, _⟩ => ⟨S2x2048x16384, .i32⟩
  | .hbm, ⟨71, _⟩ => ⟨S2x2048x16384x1, .i32⟩
  | .hbm, ⟨72, _⟩ => ⟨S2x2048x16384x1, .i32⟩
  | .hbm, ⟨73, _⟩ => ⟨S2x2048x16384x1, .i32⟩
  | .hbm, ⟨74, _⟩ => ⟨S2x2048x16384x3, .i32⟩
  | .hbm, ⟨75, _⟩ => ⟨S2x2048x33, .i32⟩
  | .hbm, ⟨76, _⟩ => ⟨S2x2048x32, .i32⟩
  | .hbm, ⟨77, _⟩ => ⟨S32, .i32⟩
  | .hbm, ⟨78, _⟩ => ⟨S1x1x32, .i32⟩
  | .hbm, ⟨79, _⟩ => ⟨S2x2048x1, .i32⟩
  | .hbm, ⟨80, _⟩ => ⟨S2x2048x32, .i32⟩
  | .hbm, ⟨81, _⟩ => ⟨S2x2048x32, .i32⟩
  | .hbm, ⟨82, _⟩ => ⟨S2x2048x32, .i1⟩
  | .hbm, ⟨83, _⟩ => ⟨S2x2048x1, .i32⟩
  | .hbm, ⟨84, _⟩ => ⟨S2x2048x32, .i32⟩
  | .hbm, ⟨85, _⟩ => ⟨S2x2048x32, .i32⟩
  | .hbm, ⟨86, _⟩ => ⟨S2x16384x64, .f32⟩
  | .hbm, ⟨87, _⟩ => ⟨S2x16384x67, .f32⟩
  | .hbm, ⟨88, _⟩ => ⟨S_, .i32⟩
  | .hbm, ⟨89, _⟩ => ⟨S_, .f32⟩
  | .hbm, ⟨90, _⟩ => ⟨S2x16384x128, .f32⟩
  | .hbm, ⟨91, _⟩ => ⟨S2x16384x128, .bf16⟩
  | .hbm, ⟨92, _⟩ => ⟨S2x16384x128, .f32⟩
  | .hbm, ⟨93, _⟩ => ⟨S2x16384x128, .f32⟩
  | .hbm, ⟨94, _⟩ => ⟨S2x16384x128, .bf16⟩
  | .hbm, ⟨95, _⟩ => ⟨S2x65536x1, .i32⟩
  | .hbm, ⟨96, _⟩ => ⟨S2x2048x32x3, .f32⟩
  | .hbm, ⟨97, _⟩ => ⟨S2x65536x3, .f32⟩
  | .hbm, ⟨98, _⟩ => ⟨S_, .i32⟩
  | .hbm, ⟨99, _⟩ => ⟨S_, .f32⟩
  | .hbm, ⟨100, _⟩ => ⟨S2x65536x128, .f32⟩
  | .hbm, ⟨101, _⟩ => ⟨S2x65536x128, .f32⟩
  | .hbm, ⟨102, _⟩ => ⟨S2x65536x67, .f32⟩
  | .hbm, ⟨103, _⟩ => ⟨S2x2048x32x67, .f32⟩
  | .hbm, ⟨104, _⟩ => ⟨S2x67x2048x32, .f32⟩
  | .local _ .vmem, ⟨0, _⟩ => ⟨S1x1024x1, .i32⟩
  | .local _ .vmem, ⟨1, _⟩ => ⟨S1x1024x1, .i32⟩
  | .local _ .vmem, ⟨2, _⟩ => ⟨S1x16384x128, .bf16⟩
  | .local _ .vmem, ⟨3, _⟩ => ⟨S1x16384x128, .bf16⟩
  | .local _ .vmem, ⟨4, _⟩ => ⟨S1x1024x128, .f32⟩
  | .local _ .vmem, ⟨5, _⟩ => ⟨S1x1024x128, .f32⟩
  | .local _ .vmem, ⟨6, _⟩ => ⟨S1x1024x128, .f32⟩
  | .local _ .vmem, ⟨7, _⟩ => ⟨S1x1024x128, .f32⟩
  | .local _ .vmem, ⟨8, _⟩ => ⟨S1024x128, .f32⟩
  | _, _ => ⟨S2x16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call0_v0 : Ref sig .tc := ⟨.hbm, 18, rfl⟩
abbrev main_call0_call0_c : Ref sig .tc := ⟨.hbm, 19, rfl⟩
abbrev main_call0_call0_v0 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_5 : Ref sig .tc := ⟨.hbm, 35, rfl⟩
abbrev main_call1_v0 : Ref sig .tc := ⟨.hbm, 36, rfl⟩
abbrev main_call1_v1 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_c_7 : Ref sig .tc := ⟨.hbm, 48, rfl⟩
abbrev main_v31 : Ref sig .tc := ⟨.hbm, 49, rfl⟩
abbrev main_v32 : Ref sig .tc := ⟨.hbm, 50, rfl⟩
abbrev main_c_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_9 : Ref sig .tc := ⟨.hbm, 55, rfl⟩
abbrev main_v36 : Ref sig .tc := ⟨.hbm, 56, rfl⟩
abbrev main_v37 : Ref sig .tc := ⟨.hbm, 57, rfl⟩
abbrev main_c_10 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_11 : Ref sig .tc := ⟨.hbm, 62, rfl⟩
abbrev main_v41 : Ref sig .tc := ⟨.hbm, 63, rfl⟩
abbrev main_v42 : Ref sig .tc := ⟨.hbm, 64, rfl⟩
abbrev main_c_12 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_call2_v0 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c_13 : Ref sig .tc := ⟨.hbm, 88, rfl⟩
abbrev main_call3_v0 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_c_14 : Ref sig .tc := ⟨.hbm, 98, rfl⟩
abbrev main_call4_v0 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![2, 64, 16], ![false, false, false]⟩

def k0_mult1 (i : grid0.Coords) : BitVec 32 :=
  let arg2 : BitVec 32 := BitVec.ofNat 32 (i 2).val
  let c1024_i32 : BitVec 32 := 1024#32
  let v3 : BitVec 32 := Scalar.muli arg2 c1024_i32
  v3
def k0_off1 (i : grid0.Coords) : Fin 3 → Nat :=
  let c0_3 : Index := 0#32
  let arg2 : BitVec 32 := BitVec.ofNat 32 (i 2).val
  let c1024_i32 : BitVec 32 := 1024#32
  let v3 : BitVec 32 := Scalar.muli arg2 c1024_i32
  let v4 : BitVec 32 := v3
  let v15 : Index := Scalar.indexCast v4
  let c0_4 : Index := 0#32
  ![0, v15.toNat, 0]
def k0_cond2 (i : grid0.Coords) : BitVec 1 :=
  let arg2 : BitVec 32 := BitVec.ofNat 32 (i 2).val
  let c15_i32 : BitVec 32 := 15#32
  let v33 : BitVec 1 := Scalar.cmpi .eq arg2 c15_i32
  let v34 : BitVec 32 := Scalar.extui v33
  let c0_i32_16 : BitVec 32 := 0#32
  let v35 : BitVec 1 := Scalar.cmpi .ne v34 c0_i32_16
  v35

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x16384x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, false]

abbrev stage0_2 : Fin 1 → Memref sig .tc .vmem S1x16384x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  bcast_S2x2048x3_S2x2048x1x3_0_1_3 : S2x2048x3.BroadcastsInDim S2x2048x1x3 (![0, 1, 3] : Fin 3 → Fin S2x2048x1x3.rank)
  bcast_S2x16384x3_S2x1x16384x3_0_2_3 : S2x16384x3.BroadcastsInDim S2x1x16384x3 (![0, 2, 3] : Fin 3 → Fin S2x1x16384x3.rank)
  bcast_S2x2048x1x3_S2x2048x16384x3_0_1_2_3 : S2x2048x1x3.BroadcastsInDim S2x2048x16384x3 (![0, 1, 2, 3] : Fin 4 → Fin S2x2048x16384x3.rank)
  bcast_S2x1x16384x3_S2x2048x16384x3_0_1_2_3 : S2x1x16384x3.BroadcastsInDim S2x2048x16384x3 (![0, 1, 2, 3] : Fin 4 → Fin S2x2048x16384x3.rank)
  reducesTo_S2x2048x16384x3_S2x2048x16384_d3 : S2x2048x16384x3.ReducesTo [3] S2x2048x16384
  h_S_ : 0 < S_.numel
  bcast_S_S2x2048x16384 : S_.BroadcastsInDim S2x2048x16384 (![] : Fin 0 → Fin S2x2048x16384.rank)
  natLt_1_32 : 1 < 32
  bcast_S_S_ : S_.BroadcastsInDim S_ (![] : Fin 0 → Fin S_.rank)
  reduceWindows_S2x2048x16384_S2x2048x16384_w1s1p0_0_w1s1p0_0_w16384s1p16383_0 : S2x2048x16384.ReduceWindows (![1, 1, 16384] : Fin 3 → Nat) ![1, 1, 1] ![0, 0, 16383] ![0, 0, 0] S2x2048x16384
  reducesTo_S2x2048x16384_S2x2048_d2 : S2x2048x16384.ReducesTo [2] S2x2048
  bcast_S_S2x2048 : S_.BroadcastsInDim S2x2048 (![] : Fin 0 → Fin S2x2048.rank)
  bcast_S2_S2x1x1_0 : S2.BroadcastsInDim S2x1x1 (![0] : Fin 1 → Fin S2x1x1.rank)
  bcast_S2048_S1x2048x1_1 : S2048.BroadcastsInDim S1x2048x1 (![1] : Fin 1 → Fin S1x2048x1.rank)
  bcast_S16384_S1x1x16384_2 : S16384.BroadcastsInDim S1x1x16384 (![2] : Fin 1 → Fin S1x1x16384.rank)
  bcast_S1x1x16384_S2x2048x16384_0_1_2 : S1x1x16384.BroadcastsInDim S2x2048x16384 (![0, 1, 2] : Fin 3 → Fin S2x2048x16384.rank)
  bcast_S_S2x2048x33 : S_.BroadcastsInDim S2x2048x33 (![] : Fin 0 → Fin S2x2048x33.rank)
  bcast_S_S2x1x1 : S_.BroadcastsInDim S2x1x1 (![] : Fin 0 → Fin S2x1x1.rank)
  bcast_S_S1x2048x1 : S_.BroadcastsInDim S1x2048x1 (![] : Fin 0 → Fin S1x2048x1.rank)
  bcast_S2x1x1_S2x2048x16384_0_1_2 : S2x1x1.BroadcastsInDim S2x2048x16384 (![0, 1, 2] : Fin 3 → Fin S2x2048x16384.rank)
  bcast_S1x2048x1_S2x2048x16384_0_1_2 : S1x2048x1.BroadcastsInDim S2x2048x16384 (![0, 1, 2] : Fin 3 → Fin S2x2048x16384.rank)
  bcast_S2x2048x16384_S2x2048x16384x1_0_1_2 : S2x2048x16384.BroadcastsInDim S2x2048x16384x1 (![0, 1, 2] : Fin 3 → Fin S2x2048x16384x1.rank)
  concatenates_S2x2048x16384x1_S2x2048x16384x1_S2x2048x16384x1_S2x2048x16384x3_d3 : Shape.Concatenates [S2x2048x16384x1, S2x2048x16384x1, S2x2048x16384x1] S2x2048x16384x3 3
  slices_S2x2048x33_S2x2048x32_0_0_0 : S2x2048x33.Slices ![0, 0, 0] S2x2048x32
  bcast_S32_S1x1x32_2 : S32.BroadcastsInDim S1x1x32 (![2] : Fin 1 → Fin S1x1x32.rank)
  bcast_S2x2048_S2x2048x1_0_1 : S2x2048.BroadcastsInDim S2x2048x1 (![0, 1] : Fin 2 → Fin S2x2048x1.rank)
  bcast_S1x1x32_S2x2048x32_0_1_2 : S1x1x32.BroadcastsInDim S2x2048x32 (![0, 1, 2] : Fin 3 → Fin S2x2048x32.rank)
  bcast_S2x2048x1_S2x2048x32_0_1_2 : S2x2048x1.BroadcastsInDim S2x2048x32 (![0, 1, 2] : Fin 3 → Fin S2x2048x32.rank)
  slices_S2x2048x32_S2x2048x1_0_0_0 : S2x2048x32.Slices ![0, 0, 0] S2x2048x1
  transposes_S2x64x16384_S2x16384x64_0_2_1 : S2x64x16384.Transposes [0, 2, 1] S2x16384x64
  concatenates_S2x16384x3_S2x16384x64_S2x16384x67_d2 : Shape.Concatenates [S2x16384x3, S2x16384x64] S2x16384x67 2
  pads_S2x16384x67_S2x16384x128_000_000_0610 : S2x16384x67.Pads (![0, 0, 0] : Fin 3 → Nat) ![0, 0, 61] ![0, 0, 0] S2x16384x128
  bitsLt_bf16_f32 : FTy.bits .bf16 < FTy.bits .f32
  shapeCasts_S2x2048x32_S2x65536x1 : S2x2048x32.ShapeCasts S2x65536x1
  bcast_S2x2048x3_S2x2048x32x3_0_1_3 : S2x2048x3.BroadcastsInDim S2x2048x32x3 (![0, 1, 3] : Fin 3 → Fin S2x2048x32x3.rank)
  shapeCasts_S2x2048x32x3_S2x65536x3 : S2x2048x32x3.ShapeCasts S2x65536x3
  pads_S2x65536x3_S2x65536x128_000_000_01250 : S2x65536x3.Pads (![0, 0, 0] : Fin 3 → Nat) ![0, 0, 125] ![0, 0, 0] S2x65536x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  iota_S1024x1024_d1_w32 : S1024x1024.Iotas .tc 32 [1]
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  broadcasts_S1024x1_S1024x1024 : S1024x1.Broadcasts S1024x1024
  h_S1x1024x128 : 0 < S1x1024x128.numel
  shapeCasts_S1x1024x128_S1024x128 : S1x1024x128.ShapeCasts S1024x128
  inb_S1x1024x128_S1x1024x128_0_0_0 : ∀ a, (![0, 0, 0] : Fin 3 → Nat) a + S1x1024x128.size a ≤ S1x1024x128.size a
  shapeCasts_S1024x128_S1x1024x128 : S1024x128.ShapeCasts S1x1024x128
  slices_S2x65536x128_S2x65536x67_0_0_0 : S2x65536x128.Slices ![0, 0, 0] S2x65536x67
  shapeCasts_S2x65536x67_S2x2048x32x67 : S2x65536x67.ShapeCasts S2x2048x32x67
  transposes_S2x2048x32x67_S2x67x2048x32_0_3_1_2 : S2x2048x32x67.Transposes [0, 3, 1, 2] S2x67x2048x32
  scatter_S2x2048x33_S2x2048x16384x3_S2x2048x16384_n_012_012_3_wf : ScatterDims.WF S2x2048x33 S2x2048x16384x3 S2x2048x16384 [] [0, 1, 2] [0, 1, 2] 3
  dot_S1024x1024_S1024x128_S1024x128_1_0_0_1_n_n_wf : DotDims.WF S1024x1024 S1024x128 S1024x128 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1x1024x128.size a ≤ S1x16384x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1.size a ≤ S2x65536x1.size a
  hwx0_0 : ∀ i : grid0.Coords, EltTy.bits .i32 = 32 ∨ (Rect.block (s := S2x65536x1) S1x1024x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x16384x128.size a ≤ S2x16384x128.size a
  hwx0_1 : ∀ i : grid0.Coords, EltTy.bits .bf16 = 32 ∨ (Rect.block (s := S2x16384x128) S1x16384x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16384x128.size a ≤ S2x16384x128.size a
  hwx0_2 : ∀ i : grid0.Coords, EltTy.bits .bf16 = 32 ∨ (Rect.block (s := S2x16384x128) S1x16384x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x128.size a ≤ S2x65536x128.size a
  hwx0_3 : ∀ i : grid0.Coords, EltTy.bits .f32 = 32 ∨ (Rect.block (s := S2x65536x128) S1x1024x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x128.size a ≤ S2x65536x128.size a
  hwx0_4 : ∀ i : grid0.Coords, EltTy.bits .f32 = 32 ∨ (Rect.block (s := S2x65536x128) S1x1024x128.size (cc0_transform_4 i) (hinb0_4 i)).WholeWords (EltTy.packing .f32)

variable [Facts₀]

def scatter_S2x2048x33_S2x2048x16384x3_S2x2048x16384_n_012_012_3 : ScatterDims S2x2048x33 S2x2048x16384x3 S2x2048x16384 where
  updateWindowDims := []
  insertedWindowDims := [0, 1, 2]
  scatterDimsToOperandDims := [0, 1, 2]
  indexVectorDim := 3
  wf := scatter_S2x2048x33_S2x2048x16384x3_S2x2048x16384_n_012_012_3_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_v69) S1x1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v65) S1x16384x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v68) S1x16384x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v72) S1x1024x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v73) S1x1024x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2x16384x3 : Shape := ⟨3, ![2, 16384, 3]⟩
abbrev S2x2048x3 : Shape := ⟨3, ![2, 2048, 3]⟩
abbrev S2x64x16384 : Shape := ⟨3, ![2, 64, 16384]⟩
abbrev S2x2048x1x3 : Shape := ⟨4, ![2, 2048, 1, 3]⟩
abbrev S2x1x16384x3 : Shape := ⟨4, ![2, 1, 16384, 3]⟩
abbrev S2x2048x16384x3 : Shape := ⟨4, ![2, 2048, 16384, 3]⟩
abbrev S_ : Shape := ⟨0, ![]⟩
abbrev S2x2048x16384 : Shape := ⟨3, ![2, 2048, 16384]⟩
abbrev S2x2048 : Shape := ⟨2, ![2, 2048]⟩
abbrev S2 : Shape := ⟨1, ![2]⟩
abbrev S2x1x1 : Shape := ⟨3, ![2, 1, 1]⟩
abbrev S2048 : Shape := ⟨1, ![2048]⟩
abbrev S1x2048x1 : Shape := ⟨3, ![1, 2048, 1]⟩
abbrev S16384 : Shape := ⟨1, ![16384]⟩
abbrev S1x1x16384 : Shape := ⟨3, ![1, 1, 16384]⟩
abbrev S2x2048x33 : Shape := ⟨3, ![2, 2048, 33]⟩
abbrev S2x2048x16384x1 : Shape := ⟨4, ![2, 2048, 16384, 1]⟩
abbrev S2x2048x32 : Shape := ⟨3, ![2, 2048, 32]⟩
abbrev S32 : Shape := ⟨1, ![32]⟩
abbrev S1x1x32 : Shape := ⟨3, ![1, 1, 32]⟩
abbrev S2x2048x1 : Shape := ⟨3, ![2, 2048, 1]⟩
abbrev S2x3x16384 : Shape := ⟨3, ![2, 3, 16384]⟩
abbrev S2x1x65536 : Shape := ⟨3, ![2, 1, 65536]⟩
abbrev S2x65536x1 : Shape := ⟨3, ![2, 65536, 1]⟩
abbrev S1 : Shape := ⟨1, ![1]⟩
abbrev S1x1x1 : Shape := ⟨3, ![1, 1, 1]⟩
abbrev S2x65536 : Shape := ⟨2, ![2, 65536]⟩
abbrev S2x3x65536 : Shape := ⟨3, ![2, 3, 65536]⟩
abbrev S2x3x2048x32 : Shape := ⟨4, ![2, 3, 2048, 32]⟩
abbrev S2x3x2048 : Shape := ⟨3, ![2, 3, 2048]⟩
abbrev S2x3x2048x1 : Shape := ⟨4, ![2, 3, 2048, 1]⟩
abbrev S2x64x65536 : Shape := ⟨3, ![2, 64, 65536]⟩
abbrev S2x64x2048x32 : Shape := ⟨4, ![2, 64, 2048, 32]⟩
abbrev S2x67x2048x32 : Shape := ⟨4, ![2, 67, 2048, 32]⟩

abbrev nBuf : Space → Nat
  | .hbm => 142
  | .vmem => 0
  | .smem => 0
  | _ => 0

abbrev hbmTy0_0 (i : Nat) : BufTy := match i % 128 with
  | 0 => ⟨S2x16384x3, .f32⟩
  | 1 => ⟨S2x2048x3, .f32⟩
  | 2 => ⟨S2x64x16384, .f32⟩
  | 3 => ⟨S2x2048x1x3, .f32⟩
  | 4 => ⟨S2x1x16384x3, .f32⟩
  | 5 => ⟨S2x2048x16384x3, .f32⟩
  | 6 => ⟨S2x2048x16384x3, .f32⟩
  | 7 => ⟨S2x2048x16384x3, .f32⟩
  | 8 => ⟨S2x2048x16384x3, .f32⟩
  | 9 => ⟨S_, .f32⟩
  | 10 => ⟨S2x2048x16384, .f32⟩
  | 11 => ⟨S_, .f32⟩
  | 12 => ⟨S2x2048x16384, .f32⟩
  | 13 => ⟨S2x2048x16384, .i1⟩
  | 14 => ⟨S_, .f32⟩
  | 15 => ⟨S2x2048x16384, .f32⟩
  | 16 => ⟨S2x2048x16384, .i1⟩
  | 17 => ⟨S2x2048x16384, .i1⟩
  | 18 => ⟨S2x2048x16384, .i32⟩
  | 19 => ⟨S_, .i32⟩
  | 20 => ⟨S_, .i32⟩
  | 21 => ⟨S2x2048x16384, .i32⟩
  | 22 => ⟨S_, .i32⟩
  | 23 => ⟨S2x2048x16384, .i32⟩
  | 24 => ⟨S2x2048x16384, .i32⟩
  | 25 => ⟨S2x2048x16384, .i32⟩
  | 26 => ⟨S_, .i32⟩
  | 27 => ⟨S2x2048, .i32⟩
  | 28 => ⟨S_, .i32⟩
  | 29 => ⟨S2x2048, .i32⟩
  | 30 => ⟨S2x2048, .i32⟩
  | 31 => ⟨S_, .i32⟩
  | 32 => ⟨S2x2048x16384, .i32⟩
  | 33 => ⟨S2x2048x16384, .i1⟩
  | 34 => ⟨S2x2048x16384, .i1⟩
  | 35 => ⟨S_, .i32⟩
  | 36 => ⟨S_, .i32⟩
  | 37 => ⟨S2x2048x16384, .i32⟩
  | 38 => ⟨S2x2048x16384, .i32⟩
  | 39 => ⟨S2, .i32⟩
  | 40 => ⟨S2x1x1, .i32⟩
  | 41 => ⟨S2048, .i32⟩
  | 42 => ⟨S1x2048x1, .i32⟩
  | 43 => ⟨S16384, .i32⟩
  | 44 => ⟨S1x1x16384, .i32⟩
  | 45 => ⟨S2x2048x16384, .i32⟩
  | 46 => ⟨S_, .i32⟩
  | 47 => ⟨S2x2048x33, .i32⟩
  | 48 => ⟨S_, .i32⟩
  | 49 => ⟨S2x1x1, .i32⟩
  | 50 => ⟨S2x1x1, .i1⟩
  | 51 => ⟨S_, .i32⟩
  | 52 => ⟨S2x1x1, .i32⟩
  | 53 => ⟨S2x1x1, .i32⟩
  | 54 => ⟨S2x1x1, .i32⟩
  | 55 => ⟨S_, .i32⟩
  | 56 => ⟨S1x2048x1, .i32⟩
  | 57 => ⟨S1x2048x1, .i1⟩
  | 58 => ⟨S_, .i32⟩
  | 59 => ⟨S1x2048x1, .i32⟩
  | 60 => ⟨S1x2048x1, .i32⟩
  | 61 => ⟨S1x2048x1, .i32⟩
  | 62 => ⟨S_, .i32⟩
  | 63 => ⟨S2x2048x16384, .i32⟩
  | 64 => ⟨S2x2048x16384, .i1⟩
  | 65 => ⟨S_, .i32⟩
  | 66 => ⟨S2x2048x16384, .i32⟩
  | 67 => ⟨S2x2048x16384, .i32⟩
  | 68 => ⟨S2x2048x16384, .i32⟩
  | 69 => ⟨S2x2048x16384, .i32⟩
  | 70 => ⟨S2x2048x16384, .i32⟩
  | 71 => ⟨S2x2048x16384x1, .i32⟩
  | 72 => ⟨S2x2048x16384x1, .i32⟩
  | 73 => ⟨S2x2048x16384x1, .i32⟩
  | 74 => ⟨S2x2048x16384x3, .i32⟩
  | 75 => ⟨S2x2048x33, .i32⟩
  | 76 => ⟨S2x2048x32, .i32⟩
  | 77 => ⟨S32, .i32⟩
  | 78 => ⟨S1x1x32, .i32⟩
  | 79 => ⟨S2x2048x1, .i32⟩
  | 80 => ⟨S2x2048x32, .i32⟩
  | 81 => ⟨S2x2048x32, .i32⟩
  | 82 => ⟨S2x2048x32, .i1⟩
  | 83 => ⟨S2x2048x1, .i32⟩
  | 84 => ⟨S2x2048x32, .i32⟩
  | 85 => ⟨S2x2048x32, .i32⟩
  | 86 => ⟨S2x3x16384, .f32⟩
  | 87 => ⟨S2x1x65536, .i32⟩
  | 88 => ⟨S_, .i32⟩
  | 89 => ⟨S2x1x65536, .i32⟩
  | 90 => ⟨S2x1x65536, .i1⟩
  | 91 => ⟨S_, .i32⟩
  | 92 => ⟨S2x1x65536, .i32⟩
  | 93 => ⟨S2x1x65536, .i32⟩
  | 94 => ⟨S2x1x65536, .i32⟩
  | 95 => ⟨S2x65536x1, .i32⟩
  | 96 => ⟨S1, .i32⟩
  | 97 => ⟨S_, .i32⟩
  | 98 => ⟨S2x65536x1, .i32⟩
  | 99 => ⟨S2x65536x1, .i1⟩
  | 100 => ⟨S1x1x1, .i32⟩
  | 101 => ⟨S2x65536x1, .i32⟩
  | 102 => ⟨S2x65536x1, .i1⟩
  | 103 => ⟨S2x65536x1, .i1⟩
  | 104 => ⟨S_, .i1⟩
  | 105 => ⟨S2x65536, .i1⟩
  | 106 => ⟨S2x3x65536, .f32⟩
  | 107 => ⟨S2x3x65536, .i1⟩
  | 108 => ⟨S_, .f32⟩
  | 109 => ⟨S2x3x65536, .f32⟩
  | 110 => ⟨S2x3x65536, .f32⟩
  | 111 => ⟨S2x3x2048x32, .f32⟩
  | 112 => ⟨S2x3x2048, .f32⟩
  | 113 => ⟨S2x3x2048x1, .f32⟩
  | 114 => ⟨S2x3x2048x32, .f32⟩
  | 115 => ⟨S2x3x2048x32, .f32⟩
  | 116 => ⟨S2x1x65536, .i32⟩
  | 117 => ⟨S_, .i32⟩
  | 118 => ⟨S2x1x65536, .i32⟩
  | 119 => ⟨S2x1x65536, .i1⟩
  | 120 => ⟨S_, .i32⟩
  | 121 => ⟨S2x1x65536, .i32⟩
  | 122 => ⟨S2x1x65536, .i32⟩
  | 123 => ⟨S2x1x65536, .i32⟩
  | 124 => ⟨S2x65536x1, .i32⟩
  | 125 => ⟨S1, .i32⟩
  | 126 => ⟨S_, .i32⟩
  | 127 => ⟨S2x65536x1, .i32⟩
  | _ => ⟨S2x16384x3, .f32⟩

abbrev hbmTy0_1 (i : Nat) : BufTy := match i % 128 with
  | 0 => ⟨S2x65536x1, .i1⟩
  | 1 => ⟨S1x1x1, .i32⟩
  | 2 => ⟨S2x65536x1, .i32⟩
  | 3 => ⟨S2x65536x1, .i1⟩
  | 4 => ⟨S2x65536x1, .i1⟩
  | 5 => ⟨S_, .i1⟩
  | 6 => ⟨S2x65536, .i1⟩
  | 7 => ⟨S2x64x65536, .f32⟩
  | 8 => ⟨S2x64x65536, .i1⟩
  | 9 => ⟨S_, .f32⟩
  | 10 => ⟨S2x64x65536, .f32⟩
  | 11 => ⟨S2x64x65536, .f32⟩
  | 12 => ⟨S2x64x2048x32, .f32⟩
  | 13 => ⟨S2x67x2048x32, .f32⟩
  | _ => ⟨S2x16384x3, .f32⟩

abbrev hbmTy (i : Nat) : BufTy := match i / 128 with
  | 0 => hbmTy0_0 i
  | 1 => hbmTy0_1 i
  | _ => ⟨S2x16384x3, .f32⟩

abbrev bufTy : (tb : Table) → Fin (tcTables nBuf tb) → BufTy
  | .hbm, ⟨i, _⟩ => hbmTy i
  | _, _ => ⟨S2x16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call0_v0 : Ref sig .tc := ⟨.hbm, 18, rfl⟩
abbrev main_call0_call0_c : Ref sig .tc := ⟨.hbm, 19, rfl⟩
abbrev main_call0_call0_v0 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_5 : Ref sig .tc := ⟨.hbm, 35, rfl⟩
abbrev main_call1_v0 : Ref sig .tc := ⟨.hbm, 36, rfl⟩
abbrev main_call1_v1 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_c_7 : Ref sig .tc := ⟨.hbm, 48, rfl⟩
abbrev main_v31 : Ref sig .tc := ⟨.hbm, 49, rfl⟩
abbrev main_v32 : Ref sig .tc := ⟨.hbm, 50, rfl⟩
abbrev main_c_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_9 : Ref sig .tc := ⟨.hbm, 55, rfl⟩
abbrev main_v36 : Ref sig .tc := ⟨.hbm, 56, rfl⟩
abbrev main_v37 : Ref sig .tc := ⟨.hbm, 57, rfl⟩
abbrev main_c_10 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_11 : Ref sig .tc := ⟨.hbm, 62, rfl⟩
abbrev main_v41 : Ref sig .tc := ⟨.hbm, 63, rfl⟩
abbrev main_v42 : Ref sig .tc := ⟨.hbm, 64, rfl⟩
abbrev main_c_12 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_call2_v0 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_call3_c : Ref sig .tc := ⟨.hbm, 88, rfl⟩
abbrev main_call3_v0 : Ref sig .tc := ⟨.hbm, 89, rfl⟩
abbrev main_call3_v1 : Ref sig .tc := ⟨.hbm, 90, rfl⟩
abbrev main_call3_c_0 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_call3_v5 : Ref sig .tc := ⟨.hbm, 95, rfl⟩
abbrev main_call3_c_1 : Ref sig .tc := ⟨.hbm, 96, rfl⟩
abbrev main_call3_c_2 : Ref sig .tc := ⟨.hbm, 97, rfl⟩
abbrev main_call3_v6 : Ref sig .tc := ⟨.hbm, 98, rfl⟩
abbrev main_call3_v7 : Ref sig .tc := ⟨.hbm, 99, rfl⟩
abbrev main_call3_v8 : Ref sig .tc := ⟨.hbm, 100, rfl⟩
abbrev main_call3_v9 : Ref sig .tc := ⟨.hbm, 101, rfl⟩
abbrev main_call3_v10 : Ref sig .tc := ⟨.hbm, 102, rfl⟩
abbrev main_call3_v11 : Ref sig .tc := ⟨.hbm, 103, rfl⟩
abbrev main_call3_c_3 : Ref sig .tc := ⟨.hbm, 104, rfl⟩
abbrev main_call3_v12 : Ref sig .tc := ⟨.hbm, 105, rfl⟩
abbrev main_call3_v13 : Ref sig .tc := ⟨.hbm, 106, rfl⟩
abbrev main_call3_v14 : Ref sig .tc := ⟨.hbm, 107, rfl⟩
abbrev main_call3_cst : Ref sig .tc := ⟨.hbm, 108, rfl⟩
abbrev main_call3_v15 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_call4_c : Ref sig .tc := ⟨.hbm, 117, rfl⟩
abbrev main_call4_v0 : Ref sig .tc := ⟨.hbm, 118, rfl⟩
abbrev main_call4_v1 : Ref sig .tc := ⟨.hbm, 119, rfl⟩
abbrev main_call4_c_0 : Ref sig .tc := ⟨.hbm, 120, rfl⟩
abbrev main_call4_v2 : Ref sig .tc := ⟨.hbm, 121, rfl⟩
abbrev main_call4_v3 : Ref sig .tc := ⟨.hbm, 122, rfl⟩
abbrev main_call4_v4 : Ref sig .tc := ⟨.hbm, 123, rfl⟩
abbrev main_call4_v5 : Ref sig .tc := ⟨.hbm, 124, rfl⟩
abbrev main_call4_c_1 : Ref sig .tc := ⟨.hbm, 125, rfl⟩
abbrev main_call4_c_2 : Ref sig .tc := ⟨.hbm, 126, rfl⟩
abbrev main_call4_v6 : Ref sig .tc := ⟨.hbm, 127, rfl⟩
abbrev main_call4_v7 : Ref sig .tc := ⟨.hbm, 128, rfl⟩
abbrev main_call4_v8 : Ref sig .tc := ⟨.hbm, 129, rfl⟩
abbrev main_call4_v9 : Ref sig .tc := ⟨.hbm, 130, rfl⟩
abbrev main_call4_v10 : Ref sig .tc := ⟨.hbm, 131, rfl⟩
abbrev main_call4_v11 : Ref sig .tc := ⟨.hbm, 132, rfl⟩
abbrev main_call4_c_3 : Ref sig .tc := ⟨.hbm, 133, rfl⟩
abbrev main_call4_v12 : Ref sig .tc := ⟨.hbm, 134, rfl⟩
abbrev main_call4_v13 : Ref sig .tc := ⟨.hbm, 135, rfl⟩
abbrev main_call4_v14 : Ref sig .tc := ⟨.hbm, 136, rfl⟩
abbrev main_call4_cst : Ref sig .tc := ⟨.hbm, 137, rfl⟩
abbrev main_call4_v15 : Ref sig .tc := ⟨.hbm, 138, rfl⟩
abbrev main_v71 : Ref sig .tc := ⟨.hbm, 139, rfl⟩
abbrev main_v72 : Ref sig .tc := ⟨.hbm, 140, rfl⟩
abbrev main_v73 : Ref sig .tc := ⟨.hbm, 141, rfl⟩

abbrev nD : Nat := 1
abbrev τ : Topo := Topo.v7x

variable {F : FTy → Type} [FloatOps F]

class Facts₀ : Prop where
  bcast_S2x2048x3_S2x2048x1x3_0_1_3 : S2x2048x3.BroadcastsInDim S2x2048x1x3 (![0, 1, 3] : Fin 3 → Fin S2x2048x1x3.rank)
  bcast_S2x16384x3_S2x1x16384x3_0_2_3 : S2x16384x3.BroadcastsInDim S2x1x16384x3 (![0, 2, 3] : Fin 3 → Fin S2x1x16384x3.rank)
  bcast_S2x2048x1x3_S2x2048x16384x3_0_1_2_3 : S2x2048x1x3.BroadcastsInDim S2x2048x16384x3 (![0, 1, 2, 3] : Fin 4 → Fin S2x2048x16384x3.rank)
  bcast_S2x1x16384x3_S2x2048x16384x3_0_1_2_3 : S2x1x16384x3.BroadcastsInDim S2x2048x16384x3 (![0, 1, 2, 3] : Fin 4 → Fin S2x2048x16384x3.rank)
  reducesTo_S2x2048x16384x3_S2x2048x16384_d3 : S2x2048x16384x3.ReducesTo [3] S2x2048x16384
  h_S_ : 0 < S_.numel
  bcast_S_S2x2048x16384 : S_.BroadcastsInDim S2x2048x16384 (![] : Fin 0 → Fin S2x2048x16384.rank)
  natLt_1_32 : 1 < 32
  bcast_S_S_ : S_.BroadcastsInDim S_ (![] : Fin 0 → Fin S_.rank)
  reduceWindows_S2x2048x16384_S2x2048x16384_w1s1p0_0_w1s1p0_0_w16384s1p16383_0 : S2x2048x16384.ReduceWindows (![1, 1, 16384] : Fin 3 → Nat) ![1, 1, 1] ![0, 0, 16383] ![0, 0, 0] S2x2048x16384
  reducesTo_S2x2048x16384_S2x2048_d2 : S2x2048x16384.ReducesTo [2] S2x2048
  bcast_S_S2x2048 : S_.BroadcastsInDim S2x2048 (![] : Fin 0 → Fin S2x2048.rank)
  bcast_S2_S2x1x1_0 : S2.BroadcastsInDim S2x1x1 (![0] : Fin 1 → Fin S2x1x1.rank)
  bcast_S2048_S1x2048x1_1 : S2048.BroadcastsInDim S1x2048x1 (![1] : Fin 1 → Fin S1x2048x1.rank)
  bcast_S16384_S1x1x16384_2 : S16384.BroadcastsInDim S1x1x16384 (![2] : Fin 1 → Fin S1x1x16384.rank)
  bcast_S1x1x16384_S2x2048x16384_0_1_2 : S1x1x16384.BroadcastsInDim S2x2048x16384 (![0, 1, 2] : Fin 3 → Fin S2x2048x16384.rank)
  bcast_S_S2x2048x33 : S_.BroadcastsInDim S2x2048x33 (![] : Fin 0 → Fin S2x2048x33.rank)
  bcast_S_S2x1x1 : S_.BroadcastsInDim S2x1x1 (![] : Fin 0 → Fin S2x1x1.rank)
  bcast_S_S1x2048x1 : S_.BroadcastsInDim S1x2048x1 (![] : Fin 0 → Fin S1x2048x1.rank)
  bcast_S2x1x1_S2x2048x16384_0_1_2 : S2x1x1.BroadcastsInDim S2x2048x16384 (![0, 1, 2] : Fin 3 → Fin S2x2048x16384.rank)
  bcast_S1x2048x1_S2x2048x16384_0_1_2 : S1x2048x1.BroadcastsInDim S2x2048x16384 (![0, 1, 2] : Fin 3 → Fin S2x2048x16384.rank)
  bcast_S2x2048x16384_S2x2048x16384x1_0_1_2 : S2x2048x16384.BroadcastsInDim S2x2048x16384x1 (![0, 1, 2] : Fin 3 → Fin S2x2048x16384x1.rank)
  concatenates_S2x2048x16384x1_S2x2048x16384x1_S2x2048x16384x1_S2x2048x16384x3_d3 : Shape.Concatenates [S2x2048x16384x1, S2x2048x16384x1, S2x2048x16384x1] S2x2048x16384x3 3
  slices_S2x2048x33_S2x2048x32_0_0_0 : S2x2048x33.Slices ![0, 0, 0] S2x2048x32
  bcast_S32_S1x1x32_2 : S32.BroadcastsInDim S1x1x32 (![2] : Fin 1 → Fin S1x1x32.rank)
  bcast_S2x2048_S2x2048x1_0_1 : S2x2048.BroadcastsInDim S2x2048x1 (![0, 1] : Fin 2 → Fin S2x2048x1.rank)
  bcast_S1x1x32_S2x2048x32_0_1_2 : S1x1x32.BroadcastsInDim S2x2048x32 (![0, 1, 2] : Fin 3 → Fin S2x2048x32.rank)
  bcast_S2x2048x1_S2x2048x32_0_1_2 : S2x2048x1.BroadcastsInDim S2x2048x32 (![0, 1, 2] : Fin 3 → Fin S2x2048x32.rank)
  slices_S2x2048x32_S2x2048x1_0_0_0 : S2x2048x32.Slices ![0, 0, 0] S2x2048x1
  transposes_S2x16384x3_S2x3x16384_0_2_1 : S2x16384x3.Transposes [0, 2, 1] S2x3x16384
  shapeCasts_S2x2048x32_S2x1x65536 : S2x2048x32.ShapeCasts S2x1x65536
  bcast_S_S2x1x65536 : S_.BroadcastsInDim S2x1x65536 (![] : Fin 0 → Fin S2x1x65536.rank)
  shapeCasts_S2x1x65536_S2x65536x1 : S2x1x65536.ShapeCasts S2x65536x1
  bcast_S_S2x65536x1 : S_.BroadcastsInDim S2x65536x1 (![] : Fin 0 → Fin S2x65536x1.rank)
  bcast_S1_S1x1x1_2 : S1.BroadcastsInDim S1x1x1 (![2] : Fin 1 → Fin S1x1x1.rank)
  bcast_S1x1x1_S2x65536x1_0_1_2 : S1x1x1.BroadcastsInDim S2x65536x1 (![0, 1, 2] : Fin 3 → Fin S2x65536x1.rank)
  reducesTo_S2x65536x1_S2x65536_d2 : S2x65536x1.ReducesTo [2] S2x65536
  bcast_S2x65536_S2x3x65536_0_2 : S2x65536.BroadcastsInDim S2x3x65536 (![0, 2] : Fin 2 → Fin S2x3x65536.rank)
  bcast_S_S2x3x65536 : S_.BroadcastsInDim S2x3x65536 (![] : Fin 0 → Fin S2x3x65536.rank)
  shapeCasts_S2x3x65536_S2x3x2048x32 : S2x3x65536.ShapeCasts S2x3x2048x32
  transposes_S2x2048x3_S2x3x2048_0_2_1 : S2x2048x3.Transposes [0, 2, 1] S2x3x2048
  bcast_S2x3x2048_S2x3x2048x1_0_1_2 : S2x3x2048.BroadcastsInDim S2x3x2048x1 (![0, 1, 2] : Fin 3 → Fin S2x3x2048x1.rank)
  bcast_S2x3x2048x1_S2x3x2048x32_0_1_2_3 : S2x3x2048x1.BroadcastsInDim S2x3x2048x32 (![0, 1, 2, 3] : Fin 4 → Fin S2x3x2048x32.rank)
  bcast_S2x65536_S2x64x65536_0_2 : S2x65536.BroadcastsInDim S2x64x65536 (![0, 2] : Fin 2 → Fin S2x64x65536.rank)
  bcast_S_S2x64x65536 : S_.BroadcastsInDim S2x64x65536 (![] : Fin 0 → Fin S2x64x65536.rank)
  shapeCasts_S2x64x65536_S2x64x2048x32 : S2x64x65536.ShapeCasts S2x64x2048x32
  concatenates_S2x3x2048x32_S2x64x2048x32_S2x67x2048x32_d1 : Shape.Concatenates [S2x3x2048x32, S2x64x2048x32] S2x67x2048x32 1
  scatter_S2x2048x33_S2x2048x16384x3_S2x2048x16384_n_012_012_3_wf : ScatterDims.WF S2x2048x33 S2x2048x16384x3 S2x2048x16384 [] [0, 1, 2] [0, 1, 2] 3
  gather_S2x3x16384_S2x65536x1_S2x3x65536_1_2_0_0_2_2_131_wf : GatherDims.WF S2x3x16384 S2x65536x1 S2x3x65536 [1] [2] [0] [2] [0] 2 ![1, 3, 1]
  gather_S2x64x16384_S2x65536x1_S2x64x65536_1_2_0_0_2_2_1641_wf : GatherDims.WF S2x64x16384 S2x65536x1 S2x64x65536 [1] [2] [0] [2] [0] 2 ![1, 64, 1]

variable [Facts₀]

def scatter_S2x2048x33_S2x2048x16384x3_S2x2048x16384_n_012_012_3 : ScatterDims S2x2048x33 S2x2048x16384x3 S2x2048x16384 where
  updateWindowDims := []
  insertedWindowDims := [0, 1, 2]
  scatterDimsToOperandDims := [0, 1, 2]
  indexVectorDim := 3
  wf := scatter_S2x2048x33_S2x2048x16384x3_S2x2048x16384_n_012_012_3_wf
def gather_S2x3x16384_S2x65536x1_S2x3x65536_1_2_0_0_2_2_131 : GatherDims S2x3x16384 S2x65536x1 S2x3x65536 where
  offsetDims := [1]
  collapsedSliceDims := [2]
  operandBatchingDims := [0]
  startIndicesBatchingDims := [0]
  startIndexMap := [2]
  indexVectorDim := 2
  sliceSizes := ![1, 3, 1]
  wf := gather_S2x3x16384_S2x65536x1_S2x3x65536_1_2_0_0_2_2_131_wf
def gather_S2x64x16384_S2x65536x1_S2x64x65536_1_2_0_0_2_2_1641 : GatherDims S2x64x16384 S2x65536x1 S2x64x65536 where
  offsetDims := [1]
  collapsedSliceDims := [2]
  operandBatchingDims := [0]
  startIndicesBatchingDims := [0]
  startIndexMap := [2]
  indexVectorDim := 2
  sliceSizes := ![1, 64, 1]
  wf := gather_S2x64x16384_S2x65536x1_S2x64x65536_1_2_0_0_2_2_1641_wf

class Facts : Prop extends Facts₀ where

variable [Facts]
-- ==== Proof.Bits.Around.lean ====
/-
  The setting of the gather region inside @main. Before the region @main runs ten stretches of host
  operations (the ball query, the table and its two bf16 halves, the flattened index column, the padded
  centres); after it three more (slice to 67 channels, reshape, transpose). This module names the buffer
  contents at the region's entry (`V`), reduces @main to "region, then the three later lines", records that
  the later lines touch no scoped buffer and write no array of the region, names each window's block at a
  grid point, decides the body's two branch conditions over the grid (the first tile of a row of sixteen
  clears the accumulator, the last one writes the block back), and says where the output window is idle.
-/
import proofs.«128314_j31576599560762_2_alg».proof.Proof.Gen.Kernel.Launch
import proofs.«128314_j31576599560762_2_alg».proof.Proof.Gen.Kernel.Skeleton
import proofs.«128314_j31576599560762_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffer contents on core `c` when the region is entered: the initial memory after the ten stretches of
    host operations that precede it. -/
abbrev V0 (c : Dev nD) : Valuation τ sig (Elt F) :=
  StableHlo.after (List.flatten [hostOps0, hostOps0_1, hostOps0_2, hostOps0_3, hostOps0_4, hostOps0_5, hostOps0_6, hostOps0_7, hostOps0_8, hostOps0_9]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the ten earlier stretches, the region, the three later lines: it reduces to the region continued by
    the later lines, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main
    [hostOps0, hostOps0_1, hostOps0_2, hostOps0_3, hostOps0_4, hostOps0_5, hostOps0_6, hostOps0_7, hostOps0_8, hostOps0_9] [hostOps1]
    ⟨hostOps0_sub, hostOps0_1_sub, hostOps0_2_sub, hostOps0_3_sub, hostOps0_4_sub, hostOps0_5_sub, hostOps0_6_sub, hostOps0_7_sub, hostOps0_8_sub, hostOps0_9_sub⟩
    ⟨hostOps0_fresh, hostOps0_1_fresh, hostOps0_2_fresh, hostOps0_3_fresh, hostOps0_4_fresh, hostOps0_5_fresh, hostOps0_6_fresh, hostOps0_7_fresh, hostOps0_8_fresh, hostOps0_9_fresh⟩
    main_chain

/-- The later lines touch only the region's arrays and the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result buffer, which is no array of the region. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's two branch conditions -/

/-- The first condition (clear the accumulator): the tile coordinate is zero. -/
abbrev cond0_0 (i : grid0.Coords) : Prop := (Scalar.cmpi .ne (Scalar.extui (Scalar.cmpi .eq (BitVec.ofNat 32 (i 2).val) 0#32)) 0#32) = 1#1
/-- It holds at the points ≡ 0 (mod 16). -/
theorem hcond0_0 : ∀ t : Fin cfg0.N, cond0_0 (grid0.coords t) ↔ t.val % 16 = 0 :=
  (by decide +kernel : ∀ t : Fin grid0.N, cond0_0 (grid0.coords t) ↔ t.val % 16 = 0)

/-- The second condition (subtract the centre and store the block): the tile coordinate is fifteen. -/
abbrev cond0_1 (i : grid0.Coords) : Prop := k0_cond2 i = 1#1
/-- It holds at the points ≡ 15 (mod 16). -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last tile of a row the output window is idle and is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At the last tile it is live. -/
theorem liveAt0_4 : ∀ t : Fin cfg0.N, cond0_1 (grid0.coords t) → cfg0.idle 4 (grid0.coords t) = false := by decide +kernel

/-! ## The staging and scratch memrefs -/

/-- One staging buffer of the output window, through which its contents are stated. -/
abbrev VO0_4 : View sig .tc .vmem S1x1024x128 .f32 := (Memref.whole cc0_stg4_0 : Memref sig .tc .vmem S1x1024x128 .f32).view
abbrev ms0_0 (t : Fin cfg0.N) : Memref sig .tc .vmem S1x1024x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x16384x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x16384x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024x128 .f32 := win0_4.stage (cfg0.slots t 4)
abbrev hs0_4 (t : Fin cfg0.N) : (ms0_4 t).IsWhole := hstage0_4 ((cfg0.slots t 4).cast nbuf0_4)
/-- The accumulator: a whole scoped buffer of the kernel's own, carried from one tile to the next. -/
abbrev scM0_0 : Memref sig .tc .vmem S1024x128 .f32 := Memref.whole cc0_scratch0
abbrev VS0_0 : View sig .tc .vmem S1024x128 .f32 := scM0_0.view

/-- The region's invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.Bits.RunFirst.lean ====
/-
  The body at the first tile of a row of sixteen: the accumulator is cleared, then the two one-hot products of this tile are added to it; the output block is not touched.
-/
import proofs.«128314_j31576599560762_2_alg».proof.Proof.Bits.Around

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's stores as pieces per buffer, with the proof that from whole staging memrefs at the stated contents the
    body runs to its continuation holding the inputs as they were and each stored buffer with its pieces written. -/
noncomputable def runFirst (c : Dev nD) (i : grid0.Coords) (arg3 : Memref sig .tc .vmem S1x1024x1 .i32) (harg3 : arg3.IsWhole) (arg4 : Memref sig .tc .vmem S1x16384x128 .bf16) (harg4 : arg4.IsWhole) (arg5 : Memref sig .tc .vmem S1x16384x128 .bf16) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1024x128 .f32) (harg8 : arg8.IsWhole) (hc0 : cond0_0 i) (hc1 : ¬cond0_1 i)
    (x0 : Vec F S1x1024x1 .i32) (x1 : Vec F S1x16384x128 .bf16) (x2 : Vec F S1x16384x128 .bf16) (x3 : Vec F S1x1024x128 .f32) :
    Σ' (L4 : List (View.Piece (Elt F) S1x1024x128 .f32)), { LS0 : List (View.Piece (Elt F) S1024x128 .f32) //
      ∀ (xi4 : Vec F S1x1024x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc0__gather_kernel i arg3 harg3 arg4 harg4 arg5 harg5 arg6 harg6 arg7 harg7 arg8 harg8) K } := by
  refine ⟨[], ?_, fun xi4 E K => ?run⟩
  case run =>
    simp only [cc0__gather_kernel_eq_skeleton]; unfold cc0__gather_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Hand

end
-- ==== Proof.Bits.RunMid.lean ====
/-
  The body at a middle tile: the two one-hot products of this tile are added to what the tile before left in the accumulator; the output block is not touched.
-/
import proofs.«128314_j31576599560762_2_alg».proof.Proof.Bits.Around

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's stores as pieces per buffer, with the proof that from whole staging memrefs at the stated contents the
    body runs to its continuation holding the inputs as they were and each stored buffer with its pieces written. -/
noncomputable def runMid (c : Dev nD) (i : grid0.Coords) (arg3 : Memref sig .tc .vmem S1x1024x1 .i32) (harg3 : arg3.IsWhole) (arg4 : Memref sig .tc .vmem S1x16384x128 .bf16) (harg4 : arg4.IsWhole) (arg5 : Memref sig .tc .vmem S1x16384x128 .bf16) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1024x128 .f32) (harg8 : arg8.IsWhole) (hc0 : ¬cond0_0 i) (hc1 : ¬cond0_1 i)
    (x0 : Vec F S1x1024x1 .i32) (x1 : Vec F S1x16384x128 .bf16) (x2 : Vec F S1x16384x128 .bf16) (x3 : Vec F S1x1024x128 .f32) (xs0 : Vec F S1024x128 .f32) :
    Σ' (L4 : List (View.Piece (Elt F) S1x1024x128 .f32)), { LS0 : List (View.Piece (Elt F) S1024x128 .f32) //
      ∀ (xi4 : Vec F S1x1024x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc0__gather_kernel i arg3 harg3 arg4 harg4 arg5 harg5 arg6 harg6 arg7 harg7 arg8 harg8) K } := by
  refine ⟨[], ?_, fun xi4 E K => ?run⟩
  case run =>
    simp only [cc0__gather_kernel_eq_skeleton]; unfold cc0__gather_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Hand

end
-- ==== Proof.Bits.RunLast.lean ====
/-
  The body at the last tile of a row: the two one-hot products are added to the accumulator, and the accumulator less the padded centre is stored as the output block.
-/
import proofs.«128314_j31576599560762_2_alg».proof.Proof.Bits.Around

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's stores as pieces per buffer, with the proof that from whole staging memrefs at the stated contents the
    body runs to its continuation holding the inputs as they were and each stored buffer with its pieces written. -/
noncomputable def runLast (c : Dev nD) (i : grid0.Coords) (arg3 : Memref sig .tc .vmem S1x1024x1 .i32) (harg3 : arg3.IsWhole) (arg4 : Memref sig .tc .vmem S1x16384x128 .bf16) (harg4 : arg4.IsWhole) (arg5 : Memref sig .tc .vmem S1x16384x128 .bf16) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1024x128 .f32) (harg8 : arg8.IsWhole) (hc0 : ¬cond0_0 i) (hc1 : cond0_1 i)
    (x0 : Vec F S1x1024x1 .i32) (x1 : Vec F S1x16384x128 .bf16) (x2 : Vec F S1x16384x128 .bf16) (x3 : Vec F S1x1024x128 .f32) (xs0 : Vec F S1024x128 .f32) :
    Σ' (L4 : List (View.Piece (Elt F) S1x1024x128 .f32)), { LS0 : List (View.Piece (Elt F) S1024x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc0__gather_kernel i arg3 harg3 arg4 harg4 arg5 harg5 arg6 harg6 arg7 harg7 arg8 harg8) K } := by
  refine ⟨?_, ?_, fun E K => ?run⟩
  case run =>
    simp only [cc0__gather_kernel_eq_skeleton]; unfold cc0__gather_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.Kernel.Hand

end
-- ==== Proof.Bits.Accum.lean ====
/-
  The accumulation over a row of sixteen tiles, and the run of the whole program. After the body at grid
  point t the accumulator holds: at the first tile of a row, the two one-hot products of that tile added to
  zero; at a later tile, those of that tile added to what the tile before left. The output window's buffer is
  stored only at the last tile of a row (accumulator less the padded centre) and is idle elsewhere. With this
  as proof data the body's triple holds at every point (by cases on the tile's position in its row), and the
  launch theorem for "host lines, one region with a carried scratch, host lines" gives the run of @main: the
  region's arrays end at what the proof data says, every other unscoped buffer at the later lines' result.
-/
import proofs.«128314_j31576599560762_2_alg».proof.Proof.Bits.RunFirst
import proofs.«128314_j31576599560762_2_alg».proof.Proof.Bits.RunMid
import proofs.«128314_j31576599560762_2_alg».proof.Proof.Bits.RunLast

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three cases at a grid point -/

abbrev atFirst (c : Dev nD) (t : Fin cfg0.N) (h0 : t.val % 16 = 0) (h1 : ¬t.val % 16 = 15) :=
  runFirst (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)
abbrev atMid (c : Dev nD) (t : Fin cfg0.N) (h0 : ¬t.val % 16 = 0) (h1 : ¬t.val % 16 = 15) (xs0 : Vec F S1024x128 .f32) :=
  runMid (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) xs0
abbrev atLast (c : Dev nD) (t : Fin cfg0.N) (h0 : ¬t.val % 16 = 0) (h1 : t.val % 16 = 15) (xs0 : Vec F S1024x128 .f32) :=
  runLast (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) xs0

/-- The accumulator's pieces at a first tile cover it. -/
theorem scoverFirst (c : Dev nD) (t : Fin cfg0.N) (h0 : t.val % 16 = 0) (h1 : ¬t.val % 16 = 15) (y : S1024x128.Idx) :
    ∃ pc ∈ (atFirst m c t h0 h1).2.1, y ∈ pc.1.set :=
  View.cover_of_tiledL (atFirst m c t h0 h1).2.1 S1024x128.size (by sl_kernel_rfl) y
theorem scoverMid (c : Dev nD) (t : Fin cfg0.N) (h0 : ¬t.val % 16 = 0) (h1 : ¬t.val % 16 = 15) (xs0 : Vec F S1024x128 .f32) (y : S1024x128.Idx) :
    ∃ pc ∈ (atMid m c t h0 h1 xs0).2.1, y ∈ pc.1.set :=
  View.cover_of_tiledL (atMid m c t h0 h1 xs0).2.1 S1024x128.size (by sl_kernel_rfl) y
theorem scoverLast (c : Dev nD) (t : Fin cfg0.N) (h0 : ¬t.val % 16 = 0) (h1 : t.val % 16 = 15) (xs0 : Vec F S1024x128 .f32) (y : S1024x128.Idx) :
    ∃ pc ∈ (atLast m c t h0 h1 xs0).2.1, y ∈ pc.1.set :=
  View.cover_of_tiledL (atLast m c t h0 h1 xs0).2.1 S1024x128.size (by sl_kernel_rfl) y
/-- The output block's one store at a last tile covers it. -/
theorem coverLast (c : Dev nD) (t : Fin cfg0.N) (h0 : ¬t.val % 16 = 0) (h1 : t.val % 16 = 15) (xs0 : Vec F S1024x128 .f32) (y : S1x1024x128.Idx) :
    ∃ pc ∈ (atLast m c t h0 h1 xs0).1, y ∈ pc.1.set :=
  View.cover_of_tiledL (atLast m c t h0 h1 xs0).1 S1x1024x128.size (by sl_kernel_rfl) y

/-- What each case leaves in the accumulator: its pieces read back. -/
def soutFirst (c : Dev nD) (t : Fin cfg0.N) (h0 : t.val % 16 = 0) (h1 : ¬t.val % 16 = 15) : Vec F S1024x128 .f32 :=
  VS0_0.read (Elt F) (VS0_0.writes (Elt F) VS0_0.junk (atFirst m c t h0 h1).2.1)
def soutMid (c : Dev nD) (t : Fin cfg0.N) (h0 : ¬t.val % 16 = 0) (h1 : ¬t.val % 16 = 15) (xs0 : Vec F S1024x128 .f32) : Vec F S1024x128 .f32 :=
  VS0_0.read (Elt F) (VS0_0.writes (Elt F) VS0_0.junk (atMid m c t h0 h1 xs0).2.1)
def soutLast (c : Dev nD) (t : Fin cfg0.N) (h0 : ¬t.val % 16 = 0) (h1 : t.val % 16 = 15) (xs0 : Vec F S1024x128 .f32) : Vec F S1024x128 .f32 :=
  VS0_0.read (Elt F) (VS0_0.writes (Elt F) VS0_0.junk (atLast m c t h0 h1 xs0).2.1)
/-- What each case leaves in the output window's buffer (nothing is stored except at a last tile: there the placeholder
    is consulted by nobody). -/
def outFirst (c : Dev nD) (t : Fin cfg0.N) (h0 : t.val % 16 = 0) (h1 : ¬t.val % 16 = 15) : Vec F S1x1024x128 .f32 :=
  VO0_4.read (Elt F) (VO0_4.writes (Elt F) VO0_4.junk (atFirst m c t h0 h1).1)
def outMid (c : Dev nD) (t : Fin cfg0.N) (h0 : ¬t.val % 16 = 0) (h1 : ¬t.val % 16 = 15) (xs0 : Vec F S1024x128 .f32) : Vec F S1x1024x128 .f32 :=
  VO0_4.read (Elt F) (VO0_4.writes (Elt F) VO0_4.junk (atMid m c t h0 h1 xs0).1)
def outLast (c : Dev nD) (t : Fin cfg0.N) (h0 : ¬t.val % 16 = 0) (h1 : t.val % 16 = 15) (xs0 : Vec F S1024x128 .f32) : Vec F S1x1024x128 .f32 :=
  VO0_4.read (Elt F) (VO0_4.writes (Elt F) VO0_4.junk (atLast m c t h0 h1 xs0).1)

/-! ## What the output buffer and the accumulator hold after each point -/

/-- After the body at position `n`: the output window's buffer and the accumulator, by recursion on the position —
    a later tile of a row starts from what the tile before left in the accumulator. -/
def outsAt (c : Dev nD) : (n : ℕ) → n < cfg0.N → Vec F S1x1024x128 .f32 × Vec F S1024x128 .f32
  | 0, hn => (outFirst m c ⟨0, hn⟩ (Nat.zero_mod _) (show ¬(0 % 16 = 15) by decide), soutFirst m c ⟨0, hn⟩ (Nat.zero_mod _) (show ¬(0 % 16 = 15) by decide))
  | n + 1, hn =>
    if h0 : (n + 1) % 16 = 0 then
      if h1 : (n + 1) % 16 = 15 then
        False.elim (by omega)
      else
        (outFirst m c ⟨n + 1, hn⟩ h0 h1, soutFirst m c ⟨n + 1, hn⟩ h0 h1)
    else
      if h1 : (n + 1) % 16 = 15 then
        (outLast m c ⟨n + 1, hn⟩ h0 h1 (outsAt c n (Nat.lt_of_succ_lt hn)).2, soutLast m c ⟨n + 1, hn⟩ h0 h1 (outsAt c n (Nat.lt_of_succ_lt hn)).2)
      else
        (outMid m c ⟨n + 1, hn⟩ h0 h1 (outsAt c n (Nat.lt_of_succ_lt hn)).2, soutMid m c ⟨n + 1, hn⟩ h0 h1 (outsAt c n (Nat.lt_of_succ_lt hn)).2)

theorem outsAt_first (c : Dev nD) (t : Fin cfg0.N) (h0 : t.val % 16 = 0) (h1 : ¬t.val % 16 = 15) :
    outsAt m c t.val t.isLt = (outFirst m c t h0 h1, soutFirst m c t h0 h1) := by
  obtain ⟨n, hn⟩ := t
  cases n with
  | zero => exact rfl
  | succ n => exact (dif_pos h0).trans ((dif_neg h1).trans rfl)

theorem outsAt_mid (c : Dev nD) (t : Fin cfg0.N) (h0 : ¬t.val % 16 = 0) (h1 : ¬t.val % 16 = 15) :
    outsAt m c t.val t.isLt = (outMid m c t h0 h1 (outsAt m c (t.val - 1) (Nat.lt_of_le_of_lt (Nat.sub_le _ _) t.isLt)).2,
      soutMid m c t h0 h1 (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg0.N) (h0 : ¬t.val % 16 = 0) (h1 : t.val % 16 = 15) :
    outsAt m c t.val t.isLt = (outLast m c t h0 h1 (outsAt m c (t.val - 1) (Nat.lt_of_le_of_lt (Nat.sub_le _ _) t.isLt)).2,
      soutLast m c t h0 h1 (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant: the accumulator carried between points -/

def PhiS (c : Dev nD) : (n : ℕ) → n ≤ cfg0.N → sProp 𝕄
  | 0, _ => Pipeline.ΦA spec0 c
  | n + 1, hn => iprop(iprop(owns (c : Thread nD τ) scM0_0 fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((outsAt m c n hn).2)) ∗ (∃ r, prngReg c r)) := rfl
theorem PhiS_pos (c : Dev nD) (n : ℕ) (h : n ≤ cfg0.N) (hz : n ≠ 0) :
    PhiS m c n h = iprop(iprop(owns (c : Thread nD τ) scM0_0 fullShare ((outsAt m c (n - 1) (by omega)).2)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt m c t.val t.isLt).1 := by dsimp only [dats]

/-- Each input's current staging buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point. The inputs' buffers hold their blocks; the tile's position in its row selects the case; the
    invariant hands the body the accumulator at what the tile before left (at anything before the first point) and takes
    it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 2048 := lt_of_lt_of_eq t.isLt (show cfg0.N = 2048 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  by_cases h0 : t.val % 16 = 0
  · have h1 : ¬t.val % 16 = 15 := by omega
    rw [Dat.leavesExact_idle (dats m 0 c) 4 t (idleAt0_4 t (fun h => h1 ((hcond0_1 t).mp h))) (noFlush0_4 t (fun h => h1 ((hcond0_1 t).mp h)))]
    rw [outsAt_first m c t h0 h1]
    unfold soutFirst; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩⟩
      iapply ((atFirst m c t h0 h1).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scoverFirst m c t h0 h1)
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((atFirst m c t h0 h1).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scoverFirst m c t h0 h1)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun hz => h0 (by rw [hz])
    by_cases h1 : t.val % 16 = 15
    · rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt_last m c t h0 h1]
      unfold outLast soutLast; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((atLast m c t h0 h1 _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_of_cover _ _ _ _ _ (scoverLast m c t h0 h1 _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverLast m c t h0 h1 _)
    · rw [Dat.leavesExact_idle (dats m 0 c) 4 t (idleAt0_4 t (fun h => h1 ((hcond0_1 t).mp h))) (noFlush0_4 t (fun h => h1 ((hcond0_1 t).mp h)))]
      rw [outsAt_mid m c t h0 h1]
      unfold soutMid; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((atMid m c t h0 h1 _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scoverMid m c t h0 h1 _)
        iexact Hg
      isplitl [Ho]; · iexact Ho
      isplitl [H0]; · iexact H0
      isplitl [H1]; · iexact H1
      isplitl [H2]; · iexact H2
      isplitl [H3]; · iexact H3
      iexists _; iexact H4

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 2048 := N_0; omega)

/-! ## The run -/

set_option backward.isDefEq.respectTransparency.types false in
/-- Every weakly fair execution of @main terminates without a fault, the region's arrays at what the proof data says and
    every other unscoped buffer at what the three later lines leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

end Cert.Kernel.Hand

end
-- ==== Proof.Bits.Kept.lean ====
/-
  The three argument arrays are written by no host operation, before or after the region, and are no window's
  array: whatever the proof data, they end as launched.
-/
import proofs.«128314_j31576599560762_2_alg».proof.Proof.Bits.Around

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No host operation before the region writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does a line after it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does a line after it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does a line after it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- The frame claim's post from a frame run's: each argument array is an unscoped buffer the region bypasses. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c)⟩) h

end Cert.Kernel.Hand

end
-- ==== Proof.Ideal.Around.lean ====
/-
  The setting of the gather region inside @main. Before the region @main runs ten stretches of host
  operations (the ball query, the table and its two bf16 halves, the flattened index column, the padded
  centres); after it three more (slice to 67 channels, reshape, transpose). This module names the buffer
  contents at the region's entry (`V`), reduces @main to "region, then the three later lines", records that
  the later lines touch no scoped buffer and write no array of the region, names each window's block at a
  grid point, decides the body's two branch conditions over the grid (the first tile of a row of sixteen
  clears the accumulator, the last one writes the block back), and says where the output window is idle.
-/
import proofs.«128314_j31576599560762_2_alg».proof.Proof.Gen.KernelIdeal.Launch
import proofs.«128314_j31576599560762_2_alg».proof.Proof.Gen.KernelIdeal.Skeleton
import proofs.«128314_j31576599560762_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffer contents on core `c` when the region is entered: the initial memory after the ten stretches of
    host operations that precede it. -/
abbrev V0 (c : Dev nD) : Valuation τ sig (Elt F) :=
  StableHlo.after (List.flatten [hostOps0, hostOps0_1, hostOps0_2, hostOps0_3, hostOps0_4, hostOps0_5, hostOps0_6, hostOps0_7, hostOps0_8, hostOps0_9]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the ten earlier stretches, the region, the three later lines: it reduces to the region continued by
    the later lines, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main
    [hostOps0, hostOps0_1, hostOps0_2, hostOps0_3, hostOps0_4, hostOps0_5, hostOps0_6, hostOps0_7, hostOps0_8, hostOps0_9] [hostOps1]
    ⟨hostOps0_sub, hostOps0_1_sub, hostOps0_2_sub, hostOps0_3_sub, hostOps0_4_sub, hostOps0_5_sub, hostOps0_6_sub, hostOps0_7_sub, hostOps0_8_sub, hostOps0_9_sub⟩
    ⟨hostOps0_fresh, hostOps0_1_fresh, hostOps0_2_fresh, hostOps0_3_fresh, hostOps0_4_fresh, hostOps0_5_fresh, hostOps0_6_fresh, hostOps0_7_fresh, hostOps0_8_fresh, hostOps0_9_fresh⟩
    main_chain

/-- The later lines touch only the region's arrays and the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result buffer, which is no array of the region. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's two branch conditions -/

/-- The first condition (clear the accumulator): the tile coordinate is zero. -/
abbrev cond0_0 (i : grid0.Coords) : Prop := (Scalar.cmpi .ne (Scalar.extui (Scalar.cmpi .eq (BitVec.ofNat 32 (i 2).val) 0#32)) 0#32) = 1#1
/-- It holds at the points ≡ 0 (mod 16). -/
theorem hcond0_0 : ∀ t : Fin cfg0.N, cond0_0 (grid0.coords t) ↔ t.val % 16 = 0 :=
  (by decide +kernel : ∀ t : Fin grid0.N, cond0_0 (grid0.coords t) ↔ t.val % 16 = 0)

/-- The second condition (subtract the centre and store the block): the tile coordinate is fifteen. -/
abbrev cond0_1 (i : grid0.Coords) : Prop := k0_cond2 i = 1#1
/-- It holds at the points ≡ 15 (mod 16). -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last tile of a row the output window is idle and is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At the last tile it is live. -/
theorem liveAt0_4 : ∀ t : Fin cfg0.N, cond0_1 (grid0.coords t) → cfg0.idle 4 (grid0.coords t) = false := by decide +kernel

/-! ## The staging and scratch memrefs -/

/-- One staging buffer of the output window, through which its contents are stated. -/
abbrev VO0_4 : View sig .tc .vmem S1x1024x128 .f32 := (Memref.whole cc0_stg4_0 : Memref sig .tc .vmem S1x1024x128 .f32).view
abbrev ms0_0 (t : Fin cfg0.N) : Memref sig .tc .vmem S1x1024x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x16384x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x16384x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024x128 .f32 := win0_4.stage (cfg0.slots t 4)
abbrev hs0_4 (t : Fin cfg0.N) : (ms0_4 t).IsWhole := hstage0_4 ((cfg0.slots t 4).cast nbuf0_4)
/-- The accumulator: a whole scoped buffer of the kernel's own, carried from one tile to the next. -/
abbrev scM0_0 : Memref sig .tc .vmem S1024x128 .f32 := Memref.whole cc0_scratch0
abbrev VS0_0 : View sig .tc .vmem S1024x128 .f32 := scM0_0.view

/-- The region's invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.Ideal.RunFirst.lean ====
/-
  The body at the first tile of a row of sixteen: the accumulator is cleared, then the two one-hot products of this tile are added to it; the output block is not touched.
-/
import proofs.«128314_j31576599560762_2_alg».proof.Proof.Ideal.Around

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's stores as pieces per buffer, with the proof that from whole staging memrefs at the stated contents the
    body runs to its continuation holding the inputs as they were and each stored buffer with its pieces written. -/
noncomputable def runFirst (c : Dev nD) (i : grid0.Coords) (arg3 : Memref sig .tc .vmem S1x1024x1 .i32) (harg3 : arg3.IsWhole) (arg4 : Memref sig .tc .vmem S1x16384x128 .bf16) (harg4 : arg4.IsWhole) (arg5 : Memref sig .tc .vmem S1x16384x128 .bf16) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1024x128 .f32) (harg8 : arg8.IsWhole) (hc0 : cond0_0 i) (hc1 : ¬cond0_1 i)
    (x0 : Vec F S1x1024x1 .i32) (x1 : Vec F S1x16384x128 .bf16) (x2 : Vec F S1x16384x128 .bf16) (x3 : Vec F S1x1024x128 .f32) :
    Σ' (L4 : List (View.Piece (Elt F) S1x1024x128 .f32)), { LS0 : List (View.Piece (Elt F) S1024x128 .f32) //
      ∀ (xi4 : Vec F S1x1024x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc0__gather_kernel i arg3 harg3 arg4 harg4 arg5 harg5 arg6 harg6 arg7 harg7 arg8 harg8) K } := by
  refine ⟨[], ?_, fun xi4 E K => ?run⟩
  case run =>
    simp only [cc0__gather_kernel_eq_skeleton]; unfold cc0__gather_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Hand

end
-- ==== Proof.Ideal.RunMid.lean ====
/-
  The body at a middle tile: the two one-hot products of this tile are added to what the tile before left in the accumulator; the output block is not touched.
-/
import proofs.«128314_j31576599560762_2_alg».proof.Proof.Ideal.Around

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's stores as pieces per buffer, with the proof that from whole staging memrefs at the stated contents the
    body runs to its continuation holding the inputs as they were and each stored buffer with its pieces written. -/
noncomputable def runMid (c : Dev nD) (i : grid0.Coords) (arg3 : Memref sig .tc .vmem S1x1024x1 .i32) (harg3 : arg3.IsWhole) (arg4 : Memref sig .tc .vmem S1x16384x128 .bf16) (harg4 : arg4.IsWhole) (arg5 : Memref sig .tc .vmem S1x16384x128 .bf16) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1024x128 .f32) (harg8 : arg8.IsWhole) (hc0 : ¬cond0_0 i) (hc1 : ¬cond0_1 i)
    (x0 : Vec F S1x1024x1 .i32) (x1 : Vec F S1x16384x128 .bf16) (x2 : Vec F S1x16384x128 .bf16) (x3 : Vec F S1x1024x128 .f32) (xs0 : Vec F S1024x128 .f32) :
    Σ' (L4 : List (View.Piece (Elt F) S1x1024x128 .f32)), { LS0 : List (View.Piece (Elt F) S1024x128 .f32) //
      ∀ (xi4 : Vec F S1x1024x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc0__gather_kernel i arg3 harg3 arg4 harg4 arg5 harg5 arg6 harg6 arg7 harg7 arg8 harg8) K } := by
  refine ⟨[], ?_, fun xi4 E K => ?run⟩
  case run =>
    simp only [cc0__gather_kernel_eq_skeleton]; unfold cc0__gather_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Hand

end
-- ==== Proof.Ideal.RunLast.lean ====
/-
  The body at the last tile of a row: the two one-hot products are added to the accumulator, and the accumulator less the padded centre is stored as the output block.
-/
import proofs.«128314_j31576599560762_2_alg».proof.Proof.Ideal.Around

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's stores as pieces per buffer, with the proof that from whole staging memrefs at the stated contents the
    body runs to its continuation holding the inputs as they were and each stored buffer with its pieces written. -/
noncomputable def runLast (c : Dev nD) (i : grid0.Coords) (arg3 : Memref sig .tc .vmem S1x1024x1 .i32) (harg3 : arg3.IsWhole) (arg4 : Memref sig .tc .vmem S1x16384x128 .bf16) (harg4 : arg4.IsWhole) (arg5 : Memref sig .tc .vmem S1x16384x128 .bf16) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1024x128 .f32) (harg8 : arg8.IsWhole) (hc0 : ¬cond0_0 i) (hc1 : cond0_1 i)
    (x0 : Vec F S1x1024x1 .i32) (x1 : Vec F S1x16384x128 .bf16) (x2 : Vec F S1x16384x128 .bf16) (x3 : Vec F S1x1024x128 .f32) (xs0 : Vec F S1024x128 .f32) :
    Σ' (L4 : List (View.Piece (Elt F) S1x1024x128 .f32)), { LS0 : List (View.Piece (Elt F) S1024x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc0__gather_kernel i arg3 harg3 arg4 harg4 arg5 harg5 arg6 harg6 arg7 harg7 arg8 harg8) K } := by
  refine ⟨?_, ?_, fun E K => ?run⟩
  case run =>
    simp only [cc0__gather_kernel_eq_skeleton]; unfold cc0__gather_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.KernelIdeal.Hand

end
-- ==== Proof.Ideal.Accum.lean ====
/-
  The accumulation over a row of sixteen tiles, and the run of the whole program. After the body at grid
  point t the accumulator holds: at the first tile of a row, the two one-hot products of that tile added to
  zero; at a later tile, those of that tile added to what the tile before left. The output window's buffer is
  stored only at the last tile of a row (accumulator less the padded centre) and is idle elsewhere. With this
  as proof data the body's triple holds at every point (by cases on the tile's position in its row), and the
  launch theorem for "host lines, one region with a carried scratch, host lines" gives the run of @main: the
  region's arrays end at what the proof data says, every other unscoped buffer at the later lines' result.
-/
import proofs.«128314_j31576599560762_2_alg».proof.Proof.Ideal.RunFirst
import proofs.«128314_j31576599560762_2_alg».proof.Proof.Ideal.RunMid
import proofs.«128314_j31576599560762_2_alg».proof.Proof.Ideal.RunLast

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three cases at a grid point -/

abbrev atFirst (c : Dev nD) (t : Fin cfg0.N) (h0 : t.val % 16 = 0) (h1 : ¬t.val % 16 = 15) :=
  runFirst (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)
abbrev atMid (c : Dev nD) (t : Fin cfg0.N) (h0 : ¬t.val % 16 = 0) (h1 : ¬t.val % 16 = 15) (xs0 : Vec F S1024x128 .f32) :=
  runMid (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) xs0
abbrev atLast (c : Dev nD) (t : Fin cfg0.N) (h0 : ¬t.val % 16 = 0) (h1 : t.val % 16 = 15) (xs0 : Vec F S1024x128 .f32) :=
  runLast (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) xs0

/-- The accumulator's pieces at a first tile cover it. -/
theorem scoverFirst (c : Dev nD) (t : Fin cfg0.N) (h0 : t.val % 16 = 0) (h1 : ¬t.val % 16 = 15) (y : S1024x128.Idx) :
    ∃ pc ∈ (atFirst m c t h0 h1).2.1, y ∈ pc.1.set :=
  View.cover_of_tiledL (atFirst m c t h0 h1).2.1 S1024x128.size (by sl_kernel_rfl) y
theorem scoverMid (c : Dev nD) (t : Fin cfg0.N) (h0 : ¬t.val % 16 = 0) (h1 : ¬t.val % 16 = 15) (xs0 : Vec F S1024x128 .f32) (y : S1024x128.Idx) :
    ∃ pc ∈ (atMid m c t h0 h1 xs0).2.1, y ∈ pc.1.set :=
  View.cover_of_tiledL (atMid m c t h0 h1 xs0).2.1 S1024x128.size (by sl_kernel_rfl) y
theorem scoverLast (c : Dev nD) (t : Fin cfg0.N) (h0 : ¬t.val % 16 = 0) (h1 : t.val % 16 = 15) (xs0 : Vec F S1024x128 .f32) (y : S1024x128.Idx) :
    ∃ pc ∈ (atLast m c t h0 h1 xs0).2.1, y ∈ pc.1.set :=
  View.cover_of_tiledL (atLast m c t h0 h1 xs0).2.1 S1024x128.size (by sl_kernel_rfl) y
/-- The output block's one store at a last tile covers it. -/
theorem coverLast (c : Dev nD) (t : Fin cfg0.N) (h0 : ¬t.val % 16 = 0) (h1 : t.val % 16 = 15) (xs0 : Vec F S1024x128 .f32) (y : S1x1024x128.Idx) :
    ∃ pc ∈ (atLast m c t h0 h1 xs0).1, y ∈ pc.1.set :=
  View.cover_of_tiledL (atLast m c t h0 h1 xs0).1 S1x1024x128.size (by sl_kernel_rfl) y

/-- What each case leaves in the accumulator: its pieces read back. -/
def soutFirst (c : Dev nD) (t : Fin cfg0.N) (h0 : t.val % 16 = 0) (h1 : ¬t.val % 16 = 15) : Vec F S1024x128 .f32 :=
  VS0_0.read (Elt F) (VS0_0.writes (Elt F) VS0_0.junk (atFirst m c t h0 h1).2.1)
def soutMid (c : Dev nD) (t : Fin cfg0.N) (h0 : ¬t.val % 16 = 0) (h1 : ¬t.val % 16 = 15) (xs0 : Vec F S1024x128 .f32) : Vec F S1024x128 .f32 :=
  VS0_0.read (Elt F) (VS0_0.writes (Elt F) VS0_0.junk (atMid m c t h0 h1 xs0).2.1)
def soutLast (c : Dev nD) (t : Fin cfg0.N) (h0 : ¬t.val % 16 = 0) (h1 : t.val % 16 = 15) (xs0 : Vec F S1024x128 .f32) : Vec F S1024x128 .f32 :=
  VS0_0.read (Elt F) (VS0_0.writes (Elt F) VS0_0.junk (atLast m c t h0 h1 xs0).2.1)
/-- What each case leaves in the output window's buffer (nothing is stored except at a last tile: there the placeholder
    is consulted by nobody). -/
def outFirst (c : Dev nD) (t : Fin cfg0.N) (h0 : t.val % 16 = 0) (h1 : ¬t.val % 16 = 15) : Vec F S1x1024x128 .f32 :=
  VO0_4.read (Elt F) (VO0_4.writes (Elt F) VO0_4.junk (atFirst m c t h0 h1).1)
def outMid (c : Dev nD) (t : Fin cfg0.N) (h0 : ¬t.val % 16 = 0) (h1 : ¬t.val % 16 = 15) (xs0 : Vec F S1024x128 .f32) : Vec F S1x1024x128 .f32 :=
  VO0_4.read (Elt F) (VO0_4.writes (Elt F) VO0_4.junk (atMid m c t h0 h1 xs0).1)
def outLast (c : Dev nD) (t : Fin cfg0.N) (h0 : ¬t.val % 16 = 0) (h1 : t.val % 16 = 15) (xs0 : Vec F S1024x128 .f32) : Vec F S1x1024x128 .f32 :=
  VO0_4.read (Elt F) (VO0_4.writes (Elt F) VO0_4.junk (atLast m c t h0 h1 xs0).1)

/-! ## What the output buffer and the accumulator hold after each point -/

/-- After the body at position `n`: the output window's buffer and the accumulator, by recursion on the position —
    a later tile of a row starts from what the tile before left in the accumulator. -/
def outsAt (c : Dev nD) : (n : ℕ) → n < cfg0.N → Vec F S1x1024x128 .f32 × Vec F S1024x128 .f32
  | 0, hn => (outFirst m c ⟨0, hn⟩ (Nat.zero_mod _) (show ¬(0 % 16 = 15) by decide), soutFirst m c ⟨0, hn⟩ (Nat.zero_mod _) (show ¬(0 % 16 = 15) by decide))
  | n + 1, hn =>
    if h0 : (n + 1) % 16 = 0 then
      if h1 : (n + 1) % 16 = 15 then
        False.elim (by omega)
      else
        (outFirst m c ⟨n + 1, hn⟩ h0 h1, soutFirst m c ⟨n + 1, hn⟩ h0 h1)
    else
      if h1 : (n + 1) % 16 = 15 then
        (outLast m c ⟨n + 1, hn⟩ h0 h1 (outsAt c n (Nat.lt_of_succ_lt hn)).2, soutLast m c ⟨n + 1, hn⟩ h0 h1 (outsAt c n (Nat.lt_of_succ_lt hn)).2)
      else
        (outMid m c ⟨n + 1, hn⟩ h0 h1 (outsAt c n (Nat.lt_of_succ_lt hn)).2, soutMid m c ⟨n + 1, hn⟩ h0 h1 (outsAt c n (Nat.lt_of_succ_lt hn)).2)

theorem outsAt_first (c : Dev nD) (t : Fin cfg0.N) (h0 : t.val % 16 = 0) (h1 : ¬t.val % 16 = 15) :
    outsAt m c t.val t.isLt = (outFirst m c t h0 h1, soutFirst m c t h0 h1) := by
  obtain ⟨n, hn⟩ := t
  cases n with
  | zero => exact rfl
  | succ n => exact (dif_pos h0).trans ((dif_neg h1).trans rfl)

theorem outsAt_mid (c : Dev nD) (t : Fin cfg0.N) (h0 : ¬t.val % 16 = 0) (h1 : ¬t.val % 16 = 15) :
    outsAt m c t.val t.isLt = (outMid m c t h0 h1 (outsAt m c (t.val - 1) (Nat.lt_of_le_of_lt (Nat.sub_le _ _) t.isLt)).2,
      soutMid m c t h0 h1 (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg0.N) (h0 : ¬t.val % 16 = 0) (h1 : t.val % 16 = 15) :
    outsAt m c t.val t.isLt = (outLast m c t h0 h1 (outsAt m c (t.val - 1) (Nat.lt_of_le_of_lt (Nat.sub_le _ _) t.isLt)).2,
      soutLast m c t h0 h1 (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant: the accumulator carried between points -/

def PhiS (c : Dev nD) : (n : ℕ) → n ≤ cfg0.N → sProp 𝕄
  | 0, _ => Pipeline.ΦA spec0 c
  | n + 1, hn => iprop(iprop(owns (c : Thread nD τ) scM0_0 fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((outsAt m c n hn).2)) ∗ (∃ r, prngReg c r)) := rfl
theorem PhiS_pos (c : Dev nD) (n : ℕ) (h : n ≤ cfg0.N) (hz : n ≠ 0) :
    PhiS m c n h = iprop(iprop(owns (c : Thread nD τ) scM0_0 fullShare ((outsAt m c (n - 1) (by omega)).2)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt m c t.val t.isLt).1 := by dsimp only [dats]

/-- Each input's current staging buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point. The inputs' buffers hold their blocks; the tile's position in its row selects the case; the
    invariant hands the body the accumulator at what the tile before left (at anything before the first point) and takes
    it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 2048 := lt_of_lt_of_eq t.isLt (show cfg0.N = 2048 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  by_cases h0 : t.val % 16 = 0
  · have h1 : ¬t.val % 16 = 15 := by omega
    rw [Dat.leavesExact_idle (dats m 0 c) 4 t (idleAt0_4 t (fun h => h1 ((hcond0_1 t).mp h))) (noFlush0_4 t (fun h => h1 ((hcond0_1 t).mp h)))]
    rw [outsAt_first m c t h0 h1]
    unfold soutFirst; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩⟩
      iapply ((atFirst m c t h0 h1).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scoverFirst m c t h0 h1)
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((atFirst m c t h0 h1).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scoverFirst m c t h0 h1)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun hz => h0 (by rw [hz])
    by_cases h1 : t.val % 16 = 15
    · rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt_last m c t h0 h1]
      unfold outLast soutLast; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((atLast m c t h0 h1 _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_of_cover _ _ _ _ _ (scoverLast m c t h0 h1 _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverLast m c t h0 h1 _)
    · rw [Dat.leavesExact_idle (dats m 0 c) 4 t (idleAt0_4 t (fun h => h1 ((hcond0_1 t).mp h))) (noFlush0_4 t (fun h => h1 ((hcond0_1 t).mp h)))]
      rw [outsAt_mid m c t h0 h1]
      unfold soutMid; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((atMid m c t h0 h1 _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scoverMid m c t h0 h1 _)
        iexact Hg
      isplitl [Ho]; · iexact Ho
      isplitl [H0]; · iexact H0
      isplitl [H1]; · iexact H1
      isplitl [H2]; · iexact H2
      isplitl [H3]; · iexact H3
      iexists _; iexact H4

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 2048 := N_0; omega)

/-! ## The run -/

set_option backward.isDefEq.respectTransparency.types false in
/-- Every weakly fair execution of @main terminates without a fault, the region's arrays at what the proof data says and
    every other unscoped buffer at what the three later lines leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

end Cert.KernelIdeal.Hand

end
-- ==== Proof.Ideal.Kept.lean ====
/-
  The three argument arrays are written by no host operation, before or after the region, and are no window's
  array: whatever the proof data, they end as launched.
-/
import proofs.«128314_j31576599560762_2_alg».proof.Proof.Ideal.Around

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No host operation before the region writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does a line after it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does a line after it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does a line after it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- The frame claim's post from a frame run's: each argument array is an unscoped buffer the region bypasses. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c)⟩) h

end Cert.KernelIdeal.Hand

end
-- ==== Proof.LibHostLine.lean ====
/-
  Reading a straight line of host operations at ONE buffer.

  A line in single-assignment form writes each of its result buffers exactly once. Then the contents
  of the k-th result after the WHOLE line are the k-th operation's function applied to the contents,
  again after the whole line, of its operands: an operand is either written earlier in the line or
  not at all, so nothing from position k on changes it. The lemmas here state that once, for the
  builders of host operations (no operand, one to four operands, a reshape, a family of operands),
  over a list `W` naming the buffer each operation writes.
-/
import Idealize.ShloMosaic.Lib.StableHlo.Run
import Mathlib.Data.List.Forall2
import Mathlib.Data.List.Nodup

namespace Idealize.ShloMosaic.StableHlo.Line

open Idealize.ShloMosaic Idealize.ShloMosaic.StableHlo

variable {τ : Topo} {sig : RefSig} {Val : EltTy → Type}

/-- The fold over two lines run one after the other. -/
theorem after_append (l₁ l₂ : List (HloOp τ sig Val)) (V : Valuation τ sig Val) :
    after (l₁ ++ l₂) V = after l₂ (after l₁ V) := by
  induction l₁ generalizing V with
  | nil => rfl
  | cons op l ih => exact ih _

/-- Position `off + i` of several lists laid end to end, `off` the total length of the first `q`, is position `i` of list `q`. -/
theorem getElem?_flatten_at {α : Type _} (L : List (List α)) (q : Nat) (l : List α) (hq : L[q]? = some l) (off : Nat)
    (hoff : ((L.take q).map List.length).sum = off) (i : Nat) (hi : i < l.length) :
    L.flatten[off + i]? = l[i]? := by
  subst hoff
  induction L generalizing q with
  | nil => simp at hq
  | cons a L ih =>
    cases q with
    | zero =>
      simp only [List.getElem?_cons_zero, Option.some.injEq] at hq
      subst hq
      simp only [List.take_zero, List.map_nil, List.sum_nil, Nat.zero_add, List.flatten_cons]
      exact List.getElem?_append_left hi
    | succ q =>
      simp only [List.getElem?_cons_succ] at hq
      simp only [List.take_succ_cons, List.map_cons, List.sum_cons, List.flatten_cons]
      rw [Nat.add_assoc, List.getElem?_append_right (Nat.le_add_right _ _), Nat.add_sub_cancel_left]
      exact ih q hq

/-- The same with the lists' lengths given as a list of numbers, so that the offset is a sum of numbers. -/
theorem getElem?_flatten_lens {α : Type _} (L : List (List α)) (lens : List Nat) (hl : L.map List.length = lens)
    (q : Nat) (l : List α) (hq : L[q]? = some l) (off : Nat) (hoff : (lens.take q).sum = off)
    (n : Nat) (hn : lens[q]? = some n) (i : Nat) (hi : i < n) : L.flatten[off + i]? = l[i]? := by
  subst hl
  have hlen : (L.map List.length)[q]? = some l.length := by rw [List.getElem?_map, hq]; rfl
  rw [hlen] at hn
  cases hn
  exact getElem?_flatten_at L q l hq off (by rw [List.map_take]; exact hoff) i hi

/-- `W` names, position by position, the one buffer each operation of the line writes. -/
def WritesAre (ops : List (HloOp τ sig Val)) (W : List (Ref sig .tc)) : Prop :=
  List.Forall₂ (fun op w => op.writes = {Proc.devRef (τ := τ) .tc w}) ops W

theorem WritesAre.drop {ops : List (HloOp τ sig Val)} {W : List (Ref sig .tc)} (h : WritesAre ops W) (k : Nat) :
    WritesAre (ops.drop k) (W.drop k) := List.forall₂_drop k h

/-- Lines run one after the other write what each writes, in order. -/
theorem WritesAre.append {l₁ l₂ : List (HloOp τ sig Val)} {W₁ W₂ : List (Ref sig .tc)} (h₁ : WritesAre l₁ W₁) (h₂ : WritesAre l₂ W₂) :
    WritesAre (l₁ ++ l₂) (W₁ ++ W₂) := List.rel_append h₁ h₂

theorem WritesAre.flatten {opss : List (List (HloOp τ sig Val))} {Ws : List (List (Ref sig .tc))}
    (h : List.Forall₂ WritesAre opss Ws) : WritesAre opss.flatten Ws.flatten := by
  induction h with
  | nil => exact List.Forall₂.nil
  | cons h _ ih => rw [List.flatten_cons, List.flatten_cons]; exact h.append ih

/-- A buffer that is not among the written ones is written by no operation of the line. -/
theorem WritesAre.not_written {ops : List (HloOp τ sig Val)} {W : List (Ref sig .tc)} (h : WritesAre ops W)
    {r : Ref sig .tc} (hr : r ∉ W) : ∀ op ∈ ops, Proc.devRef (τ := τ) .tc r ∉ op.writes := by
  induction h with
  | nil => intro op hop; cases hop
  | @cons op w ops W hw _ ih =>
    intro op' hop'
    rcases List.mem_cons.mp hop' with rfl | hop'
    · rw [hw, Finset.mem_singleton]
      intro he
      have e : r = w := Proc.devRef_injective _ he
      exact hr (e ▸ List.mem_cons_self)
    · exact ih (fun h' => hr (List.mem_cons_of_mem _ h')) op' hop'

/-- Such a buffer keeps its contents through the line. -/
theorem after_keep {ops : List (HloOp τ sig Val)} {W : List (Ref sig .tc)} (h : WritesAre ops W)
    {r : Ref sig .tc} (hr : r ∉ W) (V : Valuation τ sig Val) :
    after ops V (Proc.devRef .tc r) = V (Proc.devRef .tc r) :=
  after_of_forall_not_mem ops V (h.not_written hr)

/-- A buffer not written from position `k` on holds after the first `k` operations what it holds after all. -/
theorem after_take {ops : List (HloOp τ sig Val)} {W : List (Ref sig .tc)} (h : WritesAre ops W) {k : Nat}
    {a : Ref sig .tc} (ha : a ∉ W.drop k) (V : Valuation τ sig Val) :
    after (ops.take k) V (Proc.devRef .tc a) = after ops V (Proc.devRef .tc a) := by
  conv_rhs => rw [← List.take_append_drop k ops, after_append]
  exact (after_keep (h.drop k) ha _).symm

/-- The `k`-th result after the whole line is the `k`-th operation's result from the contents after the first `k`. -/
theorem after_at {ops : List (HloOp τ sig Val)} {W : List (Ref sig .tc)} (h : WritesAre ops W) (hnd : W.Nodup)
    {k : Nat} {op : HloOp τ sig Val} {y : Ref sig .tc} (hk : ops[k]? = some op) (hy : W[k]? = some y)
    (V : Valuation τ sig Val) :
    after ops V (Proc.devRef .tc y) = op.result (after (ops.take k) V) (Proc.devRef .tc y) := by
  obtain ⟨hlt, hop⟩ := List.getElem?_eq_some_iff.mp hk
  obtain ⟨hltW, hyW⟩ := List.getElem?_eq_some_iff.mp hy
  have hy' : y ∉ W.drop (k + 1) := by
    intro hm
    obtain ⟨i, hi, e⟩ := List.mem_drop_iff_getElem.mp hm
    have := hnd.getElem_inj_iff.mp (e.trans hyW.symm)
    omega
  conv_lhs => rw [← List.take_append_drop k ops, after_append, List.drop_eq_getElem_cons hlt, after_cons, hop]
  exact after_keep (h.drop (k + 1)) hy' _

/-- A reference's number among its space's buffers. -/
def num (r : Ref sig .tc) : Nat := r.idx.val

/-- Written buffers whose numbers are consecutive are pairwise distinct. -/
theorem nodup_of_nums {W : List (Ref sig .tc)} {s n : Nat} (h : W.map num = List.range' s n) : W.Nodup :=
  List.Nodup.of_map num (h ▸ List.nodup_range')

/-- A buffer numbered below the first written one is not written. -/
theorem not_mem_of_num_lt {W : List (Ref sig .tc)} {s n : Nat} (h : W.map num = List.range' s n) {a : Ref sig .tc}
    (ha : num a < s) : a ∉ W := by
  intro hm
  have hm' : num a ∈ W.map num := List.mem_map_of_mem hm
  rw [h, List.mem_range'_1] at hm'
  omega

/-- An operand written at an EARLIER position is not written from position `k` on. -/
theorem not_mem_drop_of_lt {W : List (Ref sig .tc)} (hnd : W.Nodup) {j k : Nat} {a : Ref sig .tc}
    (hj : W[j]? = some a) (hjk : j < k) : a ∉ W.drop k := by
  obtain ⟨hltW, haW⟩ := List.getElem?_eq_some_iff.mp hj
  intro hm
  obtain ⟨i, hi, e⟩ := List.mem_drop_iff_getElem.mp hm
  have := hnd.getElem_inj_iff.mp (e.trans haW.symm)
  omega

/-- An operand the line never writes is not written from position `k` on. -/
theorem not_mem_drop_of_not_mem {W : List (Ref sig .tc)} {a : Ref sig .tc} (h : a ∉ W) (k : Nat) : a ∉ W.drop k :=
  fun h' => h (List.mem_of_mem_drop h')

section Builders

variable {ops : List (HloOp τ sig Val)} {W : List (Ref sig .tc)} (h : WritesAre ops W) (hnd : W.Nodup) (k : Nat)
variable {x a b c e y : Ref sig .tc}
include h hnd

theorem at_nullary {v : y.ty.Contents Val} {hy'} (hk : ops[k]? = some (nullary (τ := τ) y v hy')) (hy : W[k]? = some y)
    (V : Valuation τ sig Val) : after ops V (Proc.devRef .tc y) = v :=
  (after_at h hnd hk hy V).trans (nullary_result y v hy' _)

theorem at_unary {f : x.ty.Contents Val → y.ty.Contents Val} {hx' hy'}
    (hk : ops[k]? = some (unary (τ := τ) x y f hx' hy')) (hy : W[k]? = some y) (hx : x ∉ W.drop k)
    (V : Valuation τ sig Val) : after ops V (Proc.devRef .tc y) = f (after ops V (Proc.devRef .tc x)) :=
  (after_at h hnd hk hy V).trans ((unary_result x y f hx' hy' _).trans (by rw [after_take h hx]))

theorem at_reshape {he : x.ty.elt = y.ty.elt} {hn : x.ty.shape.ShapeCasts y.ty.shape} {hx' hy'}
    (hk : ops[k]? = some (reshape (τ := τ) (Val := Val) x y he hn hx' hy')) (hy : W[k]? = some y) (hx : x ∉ W.drop k)
    (V : Valuation τ sig Val) :
    after ops V (Proc.devRef .tc y) = fun i => he ▸ shapeCast y.ty.shape (after ops V (Proc.devRef .tc x)) hn i :=
  (after_at h hnd hk hy V).trans ((reshape_result x y he hn hx' hy' _).trans (by rw [after_take h hx]))

theorem at_binary {f : a.ty.Contents Val → b.ty.Contents Val → y.ty.Contents Val} {ha' hb' hy'}
    (hk : ops[k]? = some (binary (τ := τ) a b y f ha' hb' hy')) (hy : W[k]? = some y)
    (ha : a ∉ W.drop k) (hb : b ∉ W.drop k) (V : Valuation τ sig Val) :
    after ops V (Proc.devRef .tc y) = f (after ops V (Proc.devRef .tc a)) (after ops V (Proc.devRef .tc b)) :=
  (after_at h hnd hk hy V).trans ((binary_result a b y f ha' hb' hy' _).trans (by rw [after_take h ha, after_take h hb]))

theorem at_ternary {f : c.ty.Contents Val → a.ty.Contents Val → b.ty.Contents Val → y.ty.Contents Val} {hc' ha' hb' hy'}
    (hk : ops[k]? = some (ternary (τ := τ) c a b y f hc' ha' hb' hy')) (hy : W[k]? = some y)
    (hc : c ∉ W.drop k) (ha : a ∉ W.drop k) (hb : b ∉ W.drop k) (V : Valuation τ sig Val) :
    after ops V (Proc.devRef .tc y)
      = f (after ops V (Proc.devRef .tc c)) (after ops V (Proc.devRef .tc a)) (after ops V (Proc.devRef .tc b)) :=
  (after_at h hnd hk hy V).trans ((ternary_result c a b y f hc' ha' hb' hy' _).trans
    (by rw [after_take h hc, after_take h ha, after_take h hb]))

theorem at_quaternary {f : a.ty.Contents Val → b.ty.Contents Val → c.ty.Contents Val → e.ty.Contents Val → y.ty.Contents Val}
    {ha' hb' hc' he' hy'}
    (hk : ops[k]? = some (quaternary (τ := τ) a b c e y f ha' hb' hc' he' hy')) (hy : W[k]? = some y)
    (ha : a ∉ W.drop k) (hb : b ∉ W.drop k) (hc : c ∉ W.drop k) (he : e ∉ W.drop k) (V : Valuation τ sig Val) :
    after ops V (Proc.devRef .tc y)
      = f (after ops V (Proc.devRef .tc a)) (after ops V (Proc.devRef .tc b)) (after ops V (Proc.devRef .tc c))
          (after ops V (Proc.devRef .tc e)) :=
  (after_at h hnd hk hy V).trans ((quaternary_result a b c e y f ha' hb' hc' he' hy' _).trans
    (by rw [after_take h ha, after_take h hb, after_take h hc, after_take h he]))

theorem at_nary {n : Nat} {xs : Fin n → Ref sig .tc} {f : ((i : Fin n) → (xs i).ty.Contents Val) → y.ty.Contents Val} {hxs' hy'}
    (hk : ops[k]? = some (nary (τ := τ) xs y f hxs' hy')) (hy : W[k]? = some y)
    (hxs : ∀ i, xs i ∉ W.drop k) (V : Valuation τ sig Val) :
    after ops V (Proc.devRef .tc y) = f (fun i => after ops V (Proc.devRef .tc (xs i))) :=
  (after_at h hnd hk hy V).trans ((nary_result xs y f hxs' hy' _).trans
    (congrArg f (funext fun i => after_take h (hxs i) V)))

end Builders

end Idealize.ShloMosaic.StableHlo.Line
-- ==== Proof.Ideal.HostReadOps.lean ====
/-
  The kernel program's host operations BEFORE the region as one straight line: the ten printed stretches laid end to
  end, 98 operations. The line is in single-assignment form — operation k (from 0) writes buffer k + 3, once — so a
  buffer is read after the whole line from the operation that writes it (LibHostLine).
-/
import proofs.«128314_j31576599560762_2_alg».proof.Proof.Ideal.Around
import proofs.«128314_j31576599560762_2_alg».proof.Proof.LibHostLine
import Idealize.ShloMosaic.Lib.StableHlo.Run

noncomputable section

namespace Cert.KernelIdeal.HandValue

open Idealize.ShloMosaic Idealize.ShloMosaic.TcCoe Idealize.SL.Sem Idealize.ShloMosaic.StableHlo Cert.KernelIdeal Cert.KernelIdeal.Facts₀

variable {F : FTy → Type} [FloatOps F]

/-- The host operations before the region, in order (the list the region's entry contents are folded over). -/
abbrev kops : List (HloOp τ sig (Elt F)) :=
  List.flatten [Gen.hostOps0, Gen.hostOps0_1, Gen.hostOps0_2, Gen.hostOps0_3, Gen.hostOps0_4, Gen.hostOps0_5, Gen.hostOps0_6, Gen.hostOps0_7, Gen.hostOps0_8, Gen.hostOps0_9]

/-- The buffer each operation of stretch 0 writes, in order. -/
abbrev KW0 : List (Ref sig .tc) := [main_v0, main_v1, main_v2, main_v3, main_v4, main_v5, main_cst, main_v6, main_cst_0, main_v7, main_v8, main_cst_1, main_v9, main_v10, main_v11]
/-- The buffer each operation of stretch 1 writes, in order. -/
abbrev KW1 : List (Ref sig .tc) := [main_call0_v0, main_call0_call0_c, main_call0_call0_v0, main_v12]
/-- The buffer each operation of stretch 2 writes, in order. -/
abbrev KW2 : List (Ref sig .tc) := [main_c, main_v13, main_v14, main_v15, main_c_2, main_v16, main_c_3, main_v17, main_v18, main_c_4, main_v19, main_v20, main_v21, main_c_5]
/-- The buffer each operation of stretch 3 writes, in order. -/
abbrev KW3 : List (Ref sig .tc) := [main_call1_v0, main_call1_v1, main_v22]
/-- The buffer each operation of stretch 4 writes, in order. -/
abbrev KW4 : List (Ref sig .tc) := [main_v23, main_v24, main_v25, main_v26, main_v27, main_v28, main_v29, main_c_6, main_v30, main_c_7, main_v31, main_v32, main_c_8, main_v33, main_v34, main_v35, main_c_9, main_v36, main_v37, main_c_10, main_v38, main_v39, main_v40, main_c_11, main_v41, main_v42, main_c_12, main_v43, main_v44, main_v45, main_v46, main_v47, main_v48, main_v49, main_v50, main_v51, main_v52, main_v53, main_v54, main_v55, main_v56, main_v57, main_v58, main_v59, main_v60]
/-- The buffer each operation of stretch 5 writes, in order. -/
abbrev KW5 : List (Ref sig .tc) := [main_call2_v0, main_v61]
/-- The buffer each operation of stretch 6 writes, in order. -/
abbrev KW6 : List (Ref sig .tc) := [main_v62, main_v63, main_c_13]
/-- The buffer each operation of stretch 7 writes, in order. -/
abbrev KW7 : List (Ref sig .tc) := [main_call3_v0, main_v64]
/-- The buffer each operation of stretch 8 writes, in order. -/
abbrev KW8 : List (Ref sig .tc) := [main_v65, main_v66, main_v67, main_v68, main_v69, main_v70, main_v71, main_c_14]
/-- The buffer each operation of stretch 9 writes, in order. -/
abbrev KW9 : List (Ref sig .tc) := [main_call4_v0, main_v72]
/-- The buffer each operation writes, in order: buffers 3 … 100. -/
abbrev KW : List (Ref sig .tc) := List.flatten [KW0, KW1, KW2, KW3, KW4, KW5, KW6, KW7, KW8, KW9]

theorem kw0 : Line.WritesAre (Gen.hostOps0 : List (HloOp τ sig (Elt F))) KW0 :=
  .cons rfl (.cons rfl (.cons rfl (.cons rfl (.cons rfl (.cons rfl (.cons rfl (.cons rfl (.cons rfl (.cons rfl (.cons rfl (.cons rfl (.cons rfl (.cons rfl (.cons rfl (.nil)))))))))))))))
theorem kw1 : Line.WritesAre (Gen.hostOps0_1 : List (HloOp τ sig (Elt F))) KW1 :=
  .cons rfl (.cons rfl (.cons rfl (.cons rfl (.nil))))
theorem kw2 : Line.WritesAre (Gen.hostOps0_2 : List (HloOp τ sig (Elt F))) KW2 :=
  .cons rfl (.cons rfl (.cons rfl (.cons rfl (.cons rfl (.cons rfl (.cons rfl (.cons rfl (.cons rfl (.cons rfl (.cons rfl (.cons rfl (.cons rfl (.cons rfl (.nil))))))))))))))
theorem kw3 : Line.WritesAre (Gen.hostOps0_3 : List (HloOp τ sig (Elt F))) KW3 :=
  .cons rfl (.cons rfl (.cons rfl (.nil)))
theorem kw4 : Line.WritesAre (Gen.hostOps0_4 : List (HloOp τ sig (Elt F))) KW4 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))))))))))))))))))))))
theorem kw5 : Line.WritesAre (Gen.hostOps0_5 : List (HloOp τ sig (Elt F))) KW5 :=
  .cons rfl (.cons rfl (.nil))
theorem kw6 : Line.WritesAre (Gen.hostOps0_6 : List (HloOp τ sig (Elt F))) KW6 :=
  .cons rfl (.cons rfl (.cons rfl (.nil)))
theorem kw7 : Line.WritesAre (Gen.hostOps0_7 : List (HloOp τ sig (Elt F))) KW7 :=
  .cons rfl (.cons rfl (.nil))
theorem kw8 : Line.WritesAre (Gen.hostOps0_8 : List (HloOp τ sig (Elt F))) KW8 :=
  .cons rfl (.cons rfl (.cons rfl (.cons rfl (.cons rfl (.cons rfl (.cons rfl (.cons rfl (.nil))))))))
theorem kw9 : Line.WritesAre (Gen.hostOps0_9 : List (HloOp τ sig (Elt F))) KW9 :=
  .cons rfl (.cons rfl (.nil))
/-- Operation k writes the k-th buffer of `KW`, and only it. -/
theorem kwritesAre : Line.WritesAre (kops : List (HloOp τ sig (Elt F))) KW :=
  Line.WritesAre.flatten (.cons kw0 (.cons kw1 (.cons kw2 (.cons kw3 (.cons kw4 (.cons kw5 (.cons kw6 (.cons kw7 (.cons kw8 (.cons kw9 (.nil)))))))))))

/-- The written buffers are numbered 3, 4, …, 100 in the order they are written. -/
theorem KW_nums : KW.map Line.num = List.range' 3 98 := by decide
/-- Each is written once. -/
theorem KW_nodup : KW.Nodup := Line.nodup_of_nums KW_nums
/-- The argument arrays (buffers 0, 1, 2) are not written before the region. -/
theorem karg0_notW : main_arg0 ∉ KW := Line.not_mem_of_num_lt KW_nums (by decide)
theorem karg1_notW : main_arg1 ∉ KW := Line.not_mem_of_num_lt KW_nums (by decide)
theorem karg2_notW : main_arg2 ∉ KW := Line.not_mem_of_num_lt KW_nums (by decide)

end Cert.KernelIdeal.HandValue

end
-- ==== Proof.Ideal.HostReadLine.lean ====
/-
  Each buffer the kernel program's host operations write before the region, read AFTER THE WHOLE LINE of them: the
  function of the operation that writes it, applied to its operands' contents after the line (single assignment:
  nothing later changes an operand); the argument arrays keep their contents.
-/
import proofs.«128314_j31576599560762_2_alg».proof.Proof.Ideal.HostReadOps

noncomputable section

namespace Cert.KernelIdeal.HandValue

open Idealize.ShloMosaic Idealize.ShloMosaic.TcCoe Idealize.SL.Sem Idealize.ShloMosaic.StableHlo Cert.KernelIdeal Cert.KernelIdeal.Facts₀

variable {F : FTy → Type} [FloatOps F]

/- The fold over the line is never opened here: each step cites a lemma about it; nor are the reductions, the gather and the
   scatter, whose bodies are folds and searches over an operand's elements. -/
attribute [local irreducible] StableHlo.after Host.reduce Host.reduceWindow Host.reduceAdd Host.gather Host.scatter pad

theorem k_a0 (V : Valuation τ sig (Elt F)) : after kops V (Proc.devRef .tc main_arg0) = V (Proc.devRef .tc main_arg0) := Line.after_keep kwritesAre karg0_notW V
theorem k_a1 (V : Valuation τ sig (Elt F)) : after kops V (Proc.devRef .tc main_arg1) = V (Proc.devRef .tc main_arg1) := Line.after_keep kwritesAre karg1_notW V
theorem k_a2 (V : Valuation τ sig (Elt F)) : after kops V (Proc.devRef .tc main_arg2) = V (Proc.devRef .tc main_arg2) := Line.after_keep kwritesAre karg2_notW V

theorem k_v0 (V : Valuation τ sig (Elt F)) :
    (after kops V (Proc.devRef .tc main_v0) : FVec F S2x2048x1x3 .f32) = (broadcastInDim S2x2048x1x3 ![0, 1, 3] bcast_S2x2048x3_S2x2048x1x3_0_1_3 : (⟨S2x2048x3, .f32⟩ : BufTy).Contents (Elt F) → (⟨S2x2048x1x3, .f32⟩ : BufTy).Contents (Elt F)) (after kops V (Proc.devRef .tc main_arg1) : FVec F S2x2048x3 .f32) :=
  Line.at_unary kwritesAre KW_nodup 0 rfl rfl (Line.not_mem_drop_of_not_mem karg1_notW 0) V

theorem k_v1 (V : Valuation τ sig (Elt F)) :
    (after kops V (Proc.devRef .tc main_v1) : FVec F S2x1x16384x3 .f32) = (broadcastInDim S2x1x16384x3 ![0, 2, 3] bcast_S2x16384x3_S2x1x16384x3_0_2_3 : (⟨S2x16384x3, .f32⟩ : BufTy).Contents (Elt F) → (⟨S2x1x16384x3, .f32⟩ : BufTy).Contents (Elt F)) (after kops V (Proc.devRef .tc main_arg0) : FVec F S2x16384x3 .f32) :=
  Line.at_unary kwritesAre KW_nodup 1 rfl rfl (Line.not_mem_drop_of_not_mem karg0_notW 1) V

theorem k_v2 (V : Valuation τ sig (Elt F)) :
    (after kops V (Proc.devRef .tc main_v2) : FVec F S2x2048x16384x3 .f32) = (broadcastInDim S2x2048x16384x3 ![0, 1, 2, 3] bcast_S2x2048x1x3_S2x2048x16384x3_0_1_2_3 : (⟨S2x2048x1x3, .f32⟩ : BufTy).Contents (Elt F) → (⟨S2x2048x16384x3, .f32⟩ : BufTy).Contents (Elt F)) (after kops V (Proc.devRef .tc main_v0) : FVec F S2x2048x1x3 .f32) :=
  Line.at_unary kwritesAre KW_nodup 2 rfl rfl (Line.not_mem_drop_of_lt KW_nodup (j := 0) rfl (by decide)) V

theorem k_v3 (V : Valuation τ sig (Elt F)) :
    (after kops V (Proc.devRef .tc main_v3) : FVec F S2x2048x16384x3 .f32) = (broadcastInDim S2x2048x16384x3 ![0, 1, 2, 3] bcast_S2x1x16384x3_S2x2048x16384x3_0_1_2_3 : (⟨S2x1x16384x3, .f32⟩ : BufTy).Contents (Elt F) → (⟨S2x2048x16384x3, .f32⟩ : BufTy).Contents (Elt F)) (after kops V (Proc.devRef .tc main_v1) : FVec F S2x1x16384x3 .f32) :=
  Line.at_unary kwritesAre KW_nodup 3 rfl rfl (Line.not_mem_drop_of_lt KW_nodup (j := 1) rfl (by decide)) V

theorem k_v4 (V : Valuation τ sig (Elt F)) :
    (after kops V (Proc.devRef .tc main_v4) : FVec F S2x2048x16384x3 .f32) = (subf : (⟨S2x2048x16384x3, .f32⟩ : BufTy).Contents (Elt F) → (⟨S2x2048x16384x3, .f32⟩ : BufTy).Contents (Elt F) → (⟨S2x2048x16384x3, .f32⟩ : BufTy).Contents (Elt F)) (after kops V (Proc.devRef .tc main_v2) : FVec F S2x2048x16384x3 .f32) (after kops V (Proc.devRef .tc main_v3) : FVec F S2x2048x16384x3 .f32) :=
  Line.at_binary kwritesAre KW_nodup 4 rfl rfl (Line.not_mem_drop_of_lt KW_nodup (j := 2) rfl (by decide)) (Line.not_mem_drop_of_lt KW_nodup (j := 3) rfl (by decide)) V

theorem k_v5 (V : Valuation τ sig (Elt F)) :
    (after kops V (Proc.devRef .tc main_v5) : FVec F S2x2048x16384x3 .f32) = (mulf : (⟨S2x2048x16384x3, .f32⟩ : BufTy).Contents (Elt F) → (⟨S2x2048x16384x3, .f32⟩ : BufTy).Contents (Elt F) → (⟨S2x2048x16384x3, .f32⟩ : BufTy).Contents (Elt F)) (after kops V (Proc.devRef .tc main_v4) : FVec F S2x2048x16384x3 .f32) (after kops V (Proc.devRef .tc main_v4) : FVec F S2x2048x16384x3 .f32) :=
  Line.at_binary kwritesAre KW_nodup 5 rfl rfl (Line.not_mem_drop_of_lt KW_nodup (j := 4) rfl (by decide)) (Line.not_mem_drop_of_lt KW_nodup (j := 4) rfl (by decide)) V

theorem k_cst (V : Valuation τ sig (Elt F)) :
    (after kops V (Proc.devRef .tc main_cst) : FVec F S_ .f32) = constant S_ .f32 0x00000000#32 :=
  Line.at_nullary kwritesAre KW_nodup 6 rfl rfl V

theorem k_v6 (V : Valuation τ sig (Elt F)) :
    (after kops V (Proc.devRef .tc main_v6) : FVec F S2x2048x16384 .f32) = ((fun x v => Host.reduceAdd x v reducesTo_S2x2048x16384x3_S2x2048x16384_d3 h_S_) : (⟨S2x2048x16384x3, .f32⟩ : BufTy).Contents (Elt F) → (⟨S_, .f32⟩ : BufTy).Contents (Elt F) → (⟨S2x2048x16384, .f32⟩ : BufTy).Contents (Elt F)) (after kops V (Proc.devRef .tc main_v5) : FVec F S2x2048x16384x3 .f32) (after kops V (Proc.devRef .tc main_cst) : FVec F S_ .f32) :=
  Line.at_binary kwritesAre KW_nodup 7 rfl rfl (Line.not_mem_drop_of_lt KW_nodup (j := 5) rfl (by decide)) (Line.not_mem_drop_of_lt KW_nodup (j := 6) rfl (by decide)) V

theorem k_cst_0 (V : Valuation τ sig (Elt F)) :
    (after kops V (Proc.devRef .tc main_cst_0) : FVec F S_ .f32) = constant S_ .f32 0x3B23D70A#32 :=
  Line.at_nullary kwritesAre KW_nodup 8 rfl rfl V

theorem k_v7 (V : Valuation τ sig (Elt F)) :
    (after kops V (Proc.devRef .tc main_v7) : FVec F S2x2048x16384 .f32) = (broadcastInDim S2x2048x16384 ![] bcast_S_S2x2048x16384 : (⟨S_, .f32⟩ : BufTy).Contents (Elt F) → (⟨S2x2048x16384, .f32⟩ : BufTy).Contents (Elt F)) (after kops V (Proc.devRef .tc main_cst_0) : FVec F S_ .f32) :=
  Line.at_unary kwritesAre KW_nodup 9 rfl rfl (Line.not_mem_drop_of_lt KW_nodup (j := 8) rfl (by decide)) V

theorem k_v8 (V : Valuation τ sig (Elt F)) :
    (after kops V (Proc.devRef .tc main_v8) : IVec S2x2048x16384 1) = (cmpf .oge : (⟨S2x2048x16384, .f32⟩ : BufTy).Contents (Elt F) → (⟨S2x2048x16384, .f32⟩ : BufTy).Contents (Elt F) → (⟨S2x2048x16384, .i1⟩ : BufTy).Contents (Elt F)) (after kops V (Proc.devRef .tc main_v6) : FVec F S2x2048x16384 .f32) (after kops V (Proc.devRef .tc main_v7) : FVec F S2x2048x16384 .f32) :=
  Line.at_binary kwritesAre KW_nodup 10 rfl rfl (Line.not_mem_drop_of_lt KW_nodup (j := 7) rfl (by decide)) (Line.not_mem_drop_of_lt KW_nodup (j := 9) rfl (by decide)) V

theorem k_cst_1 (V : Valuation τ sig (Elt F)) :
    (after kops V (Proc.devRef .tc main_cst_1) : FVec F S_ .f32) = constant S_ .f32 0x3D23D70A#32 :=
  Line.at_nullary kwritesAre KW_nodup 11 rfl rfl V

theorem k_v9 (V : Valuation τ sig (Elt F)) :
    (after kops V (Proc.devRef .tc main_v9) : FVec F S2x2048x16384 .f32) = (broadcastInDim S2x2048x16384 ![] bcast_S_S2x2048x16384 : (⟨S_, .f32⟩ : BufTy).Contents (Elt F) → (⟨S2x2048x16384, .f32⟩ : BufTy).Contents (Elt F)) (after kops V (Proc.devRef .tc main_cst_1) : FVec F S_ .f32) :=
  Line.at_unary kwritesAre KW_nodup 12 rfl rfl (Line.not_mem_drop_of_lt KW_nodup (j := 11) rfl (by decide)) V

theorem k_v10 (V : Valuation τ sig (Elt F)) :
    (after kops V (Proc.devRef .tc main_v10) : IVec S2x2048x16384 1) = (cmpf .olt : (⟨S2x2048x16384, .f32⟩ : BufTy).Contents (Elt F) → (⟨S2x2048x16384, .f32⟩ : BufTy).Contents (Elt F) → (⟨S2x2048x16384, .i1⟩ : BufTy).Contents (Elt F)) (after kops V (Proc.devRef .tc main_v6) : FVec F S2x2048x16384 .f32) (after kops V (Proc.devRef .tc main_v9) : FVec F S2x2048x16384 .f32) :=
  Line.at_binary kwritesAre KW_nodup 13 rfl rfl (Line.not_mem_drop_of_lt KW_nodup (j := 7) rfl (by decide)) (Line.not_mem_drop_of_lt KW_nodup (j := 12) rfl (by decide)) V

theorem k_v11 (V : Valuation τ sig (Elt F)) :
    (after kops V (Proc.devRef .tc main_v11) : IVec S2x2048x16384 1) = (andi : (⟨S2x2048x16384, .i1⟩ : BufTy).Contents (Elt F) → (⟨S2x2048x16384, .i1⟩ : BufTy).Contents (Elt F) → (⟨S2x2048x16384, .i1⟩ : BufTy).Contents (Elt F)) (after kops V (Proc.devRef .tc main_v8) : IVec S2x2048x16384 1) (after kops V (Proc.devRef .tc main_v10) : IVec S2x2048x16384 1) :=
  Line.at_binary kwritesAre KW_nodup 14 rfl rfl (Line.not_mem_drop_of_lt KW_nodup (j := 10) rfl (by decide)) (Line.not_mem_drop_of_lt KW_nodup (j := 13) rfl (by decide)) V

theorem k_call0_v0 (V : Valuation τ sig (Elt F)) :
    (after kops V (Proc.devRef .tc main_call0_v0) : IVec S2x2048x16384 32) = (extui 32 · natLt_1_32) (after kops V (Proc.devRef .tc main_v11) : IVec S2x2048x16384 1) :=
  Line.at_unary kwritesAre KW_nodup 15 rfl rfl (Line.not_mem_drop_of_lt KW_nodup (j := 14) rfl (by decide)) V

theorem k_call0_call0_c (V : Valuation τ sig (Elt F)) :
    (after kops V (Proc.devRef .tc main_call0_call0_c) : IVec S_ 32) = constantI S_ 32 0#32 :=
  Line.at_nullary kwritesAre KW_nodup 16 rfl rfl V

theorem k_call0_call0_v0 (V : Valuation τ sig (Elt F)) :
    (after kops V (Proc.devRef .tc main_call0_call0_v0) : IVec S_ 32) = (broadcastInDim S_ ![] bcast_S_S_) (after kops V (Proc.devRef .tc main_call0_call0_c) : IVec S_ 32) :=
  Line.at_unary kwritesAre KW_nodup 17 rfl rfl (Line.not_mem_drop_of_lt KW_nodup (j := 16) rfl (by decide)) V

theorem k_v12 (V : Valuation τ sig (Elt F)) :
    (after kops V (Proc.devRef .tc main_v12) : IVec S2x2048x16384 32) = (fun x v => Host.reduceWindow IntOp.addi ![1, 1, 16384] ![1, 1, 1] ![0, 0, 16383] ![0, 0, 0] x v reduceWindows_S2x2048x16384_S2x2048x16384_w1s1p0_0_w1s1p0_0_w16384s1p16383_0 h_S_) (after kops V (Proc.devRef .tc main_call0_v0) : IVec S2x2048x16384 32) (after kops V (Proc.devRef .tc main_call0_call0_v0) : IVec S_ 32) :=
  Line.at_binary kwritesAre KW_nodup 18 rfl rfl (Line.not_mem_drop_of_lt KW_nodup (j := 15) rfl (by decide)) (Line.not_mem_drop_of_lt KW_nodup (j := 17) rfl (by decide)) V

theorem k_c (V : Valuation τ sig (Elt F)) :
    (after kops V (Proc.devRef .tc main_c) : IVec S_ 32) = constantI S_ 32 1#32 :=
  Line.at_nullary kwritesAre KW_nodup 19 rfl rfl V

theorem k_v13 (V : Valuation τ sig (Elt F)) :
    (after kops V (Proc.devRef .tc main_v13) : IVec S2x2048x16384 32) = (broadcastInDim S2x2048x16384 ![] bcast_S_S2x2048x16384 : (⟨S_, .i32⟩ : BufTy).Contents (Elt F) → (⟨S2x2048x16384, .i32⟩ : BufTy).Contents (Elt F)) (after kops V (Proc.devRef .tc main_c) : IVec S_ 32) :=
  Line.at_unary kwritesAre KW_nodup 20 rfl rfl (Line.not_mem_drop_of_lt KW_nodup (j := 19) rfl (by decide)) V

theorem k_v14 (V : Valuation τ sig (Elt F)) :
    (after kops V (Proc.devRef .tc main_v14) : IVec S2x2048x16384 32) = (subi : (⟨S2x2048x16384, .i32⟩ : BufTy).Contents (Elt F) → (⟨S2x2048x16384, .i32⟩ : BufTy).Contents (Elt F) → (⟨S2x2048x16384, .i32⟩ : BufTy).Contents (Elt F)) (after kops V (Proc.devRef .tc main_v12) : IVec S2x2048x16384 32) (after kops V (Proc.devRef .tc main_v13) : IVec S2x2048x16384 32) :=
  Line.at_binary kwritesAre KW_nodup 21 rfl rfl (Line.not_mem_drop_of_lt KW_nodup (j := 18) rfl (by decide)) (Line.not_mem_drop_of_lt KW_nodup (j := 20) rfl (by decide)) V

theorem k_v15 (V : Valuation τ sig (Elt F)) :
    (after kops V (Proc.devRef .tc main_v15) : IVec S2x2048x16384 32) = ((extui 32 · natLt_1_32) : (⟨S2x2048x16384, .i1⟩ : BufTy).Contents (Elt F) → (⟨S2x2048x16384, .i32⟩ : BufTy).Contents (Elt F)) (after kops V (Proc.devRef .tc main_v11) : IVec S2x2048x16384 1) :=
  Line.at_unary kwritesAre KW_nodup 22 rfl rfl (Line.not_mem_drop_of_lt KW_nodup (j := 14) rfl (by decide)) V

theorem k_c_2 (V : Valuation τ sig (Elt F)) :
    (after kops V (Proc.devRef .tc main_c_2) : IVec S_ 32) = constantI S_ 32 0#32 :=
  Line.at_nullary kwritesAre KW_nodup 23 rfl rfl V

theorem k_v16 (V : Valuation τ sig (Elt F)) :
    (after kops V (Proc.devRef .tc main_v16) : IVec S2x2048 32) = ((fun x v => Host.reduce IntOp.addi x v reducesTo_S2x2048x16384_S2x2048_d2 h_S_) : (⟨S2x2048x16384, .i32⟩ : BufTy).Contents (Elt F) → (⟨S_, .i32⟩ : BufTy).Contents (Elt F) → (⟨S2x2048, .i32⟩ : BufTy).Contents (Elt F)) (after kops V (Proc.devRef .tc main_v15) : IVec S2x2048x16384 32) (after kops V (Proc.devRef .tc main_c_2) : IVec S_ 32) :=
  Line.at_binary kwritesAre KW_nodup 24 rfl rfl (Line.not_mem_drop_of_lt KW_nodup (j := 22) rfl (by decide)) (Line.not_mem_drop_of_lt KW_nodup (j := 23) rfl (by decide)) V

theorem k_c_3 (V : Valuation τ sig (Elt F)) :
    (after kops V (Proc.devRef .tc main_c_3) : IVec S_ 32) = constantI S_ 32 32#32 :=
  Line.at_nullary kwritesAre KW_nodup 25 rfl rfl V

theorem k_v17 (V : Valuation τ sig (Elt F)) :
    (after kops V (Proc.devRef .tc main_v17) : IVec S2x2048 32) = (broadcastInDim S2x2048 ![] bcast_S_S2x2048 : (⟨S_, .i32⟩ : BufTy).Contents (Elt F) → (⟨S2x2048, .i32⟩ : BufTy).Contents (Elt F)) (after kops V (Proc.devRef .tc main_c_3) : IVec S_ 32) :=
  Line.at_unary kwritesAre KW_nodup 26 rfl rfl (Line.not_mem_drop_of_lt KW_nodup (j := 25) rfl (by decide)) V

theorem k_v18 (V : Valuation τ sig (Elt F)) :
    (after kops V (Proc.devRef .tc main_v18) : IVec S2x2048 32) = (minsi : (⟨S2x2048, .i32⟩ : BufTy).Contents (Elt F) → (⟨S2x2048, .i32⟩ : BufTy).Contents (Elt F) → (⟨S2x2048, .i32⟩ : BufTy).Contents (Elt F)) (after kops V (Proc.devRef .tc main_v16) : IVec S2x2048 32) (after kops V (Proc.devRef .tc main_v17) : IVec S2x2048 32) :=
  Line.at_binary kwritesAre KW_nodup 27 rfl rfl (Line.not_mem_drop_of_lt KW_nodup (j := 24) rfl (by decide)) (Line.not_mem_drop_of_lt KW_nodup (j := 26) rfl (by decide)) V

theorem k_c_4 (V : Valuation τ sig (Elt F)) :
    (after kops V (Proc.devRef .tc main_c_4) : IVec S_ 32) = constantI S_ 32 32#32 :=
  Line.at_nullary kwritesAre KW_nodup 28 rfl rfl V

theorem k_v19 (V : Valuation τ sig (Elt F)) :
    (after kops V (Proc.devRef .tc main_v19) : IVec S2x2048x16384 32) = (broadcastInDim S2x2048x16384 ![] bcast_S_S2x2048x16384 : (⟨S_, .i32⟩ : BufTy).Contents (Elt F) → (⟨S2x2048x16384, .i32⟩ : BufTy).Contents (Elt F)) (after kops V (Proc.devRef .tc main_c_4) : IVec S_ 32) :=
  Line.at_unary kwritesAre KW_nodup 29 rfl rfl (Line.not_mem_drop_of_lt KW_nodup (j := 28) rfl (by decide)) V

theorem k_v20 (V : Valuation τ sig (Elt F)) :
    (after kops V (Proc.devRef .tc main_v20) : IVec S2x2048x16384 1) = (cmpi .slt : (⟨S2x2048x16384, .i32⟩ : BufTy).Contents (Elt F) → (⟨S2x2048x16384, .i32⟩ : BufTy).Contents (Elt F) → (⟨S2x2048x16384, .i1⟩ : BufTy).Contents (Elt F)) (after kops V (Proc.devRef .tc main_v14) : IVec S2x2048x16384 32) (after kops V (Proc.devRef .tc main_v19) : IVec S2x2048x16384 32) :=
  Line.at_binary kwritesAre KW_nodup 30 rfl rfl (Line.not_mem_drop_of_lt KW_nodup (j := 21) rfl (by decide)) (Line.not_mem_drop_of_lt KW_nodup (j := 29) rfl (by decide)) V

theorem k_v21 (V : Valuation τ sig (Elt F)) :
    (after kops V (Proc.devRef .tc main_v21) : IVec S2x2048x16384 1) = (andi : (⟨S2x2048x16384, .i1⟩ : BufTy).Contents (Elt F) → (⟨S2x2048x16384, .i1⟩ : BufTy).Contents (Elt F) → (⟨S2x2048x16384, .i1⟩ : BufTy).Contents (Elt F)) (after kops V (Proc.devRef .tc main_v11) : IVec S2x2048x16384 1) (after kops V (Proc.devRef .tc main_v20) : IVec S2x2048x16384 1) :=
  Line.at_binary kwritesAre KW_nodup 31 rfl rfl (Line.not_mem_drop_of_lt KW_nodup (j := 14) rfl (by decide)) (Line.not_mem_drop_of_lt KW_nodup (j := 30) rfl (by decide)) V

theorem k_c_5 (V : Valuation τ sig (Elt F)) :
    (after kops V (Proc.devRef .tc main_c_5) : IVec S_ 32) = constantI S_ 32 32#32 :=
  Line.at_nullary kwritesAre KW_nodup 32 rfl rfl V

theorem k_call1_v0 (V : Valuation τ sig (Elt F)) :
    (after kops V (Proc.devRef .tc main_call1_v0) : IVec S_ 32) = id (after kops V (Proc.devRef .tc main_c_5) : IVec S_ 32) :=
  Line.at_unary kwritesAre KW_nodup 33 rfl rfl (Line.not_mem_drop_of_lt KW_nodup (j := 32) rfl (by decide)) V

theorem k_call1_v1 (V : Valuation τ sig (Elt F)) :
    (after kops V (Proc.devRef .tc main_call1_v1) : IVec S2x2048x16384 32) = (broadcastInDim S2x2048x16384 ![] bcast_S_S2x2048x16384) (after kops V (Proc.devRef .tc main_call1_v0) : IVec S_ 32) :=
  Line.at_unary kwritesAre KW_nodup 34 rfl rfl (Line.not_mem_drop_of_lt KW_nodup (j := 33) rfl (by decide)) V

theorem k_v22 (V : Valuation τ sig (Elt F)) :
    (after kops V (Proc.devRef .tc main_v22) : IVec S2x2048x16384 32) = select (after kops V (Proc.devRef .tc main_v21) : IVec S2x2048x16384 1) (after kops V (Proc.devRef .tc main_v14) : IVec S2x2048x16384 32) (after kops V (Proc.devRef .tc main_call1_v1) : IVec S2x2048x16384 32) :=
  Line.at_ternary kwritesAre KW_nodup 35 rfl rfl (Line.not_mem_drop_of_lt KW_nodup (j := 31) rfl (by decide)) (Line.not_mem_drop_of_lt KW_nodup (j := 21) rfl (by decide)) (Line.not_mem_drop_of_lt KW_nodup (j := 34) rfl (by decide)) V

theorem k_v23 (V : Valuation τ sig (Elt F)) :
    (after kops V (Proc.devRef .tc main_v23) : IVec S2 32) = iotaInDim S2 32 0 :=
  Line.at_nullary kwritesAre KW_nodup 36 rfl rfl V

theorem k_v24 (V : Valuation τ sig (Elt F)) :
    (after kops V (Proc.devRef .tc main_v24) : IVec S2x1x1 32) = (broadcastInDim S2x1x1 ![0] bcast_S2_S2x1x1_0 : (⟨S2, .i32⟩ : BufTy).Contents (Elt F) → (⟨S2x1x1, .i32⟩ : BufTy).Contents (Elt F)) (after kops V (Proc.devRef .tc main_v23) : IVec S2 32) :=
  Line.at_unary kwritesAre KW_nodup 37 rfl rfl (Line.not_mem_drop_of_lt KW_nodup (j := 36) rfl (by decide)) V

theorem k_v25 (V : Valuation τ sig (Elt F)) :
    (after kops V (Proc.devRef .tc main_v25) : IVec S2048 32) = iotaInDim S2048 32 0 :=
  Line.at_nullary kwritesAre KW_nodup 38 rfl rfl V

theorem k_v26 (V : Valuation τ sig (Elt F)) :
    (after kops V (Proc.devRef .tc main_v26) : IVec S1x2048x1 32) = (broadcastInDim S1x2048x1 ![1] bcast_S2048_S1x2048x1_1 : (⟨S2048, .i32⟩ : BufTy).Contents (Elt F) → (⟨S1x2048x1, .i32⟩ : BufTy).Contents (Elt F)) (after kops V (Proc.devRef .tc main_v25) : IVec S2048 32) :=
  Line.at_unary kwritesAre KW_nodup 39 rfl rfl (Line.not_mem_drop_of_lt KW_nodup (j := 38) rfl (by decide)) V

theorem k_v27 (V : Valuation τ sig (Elt F)) :
    (after kops V (Proc.devRef .tc main_v27) : IVec S16384 32) = iotaInDim S16384 32 0 :=
  Line.at_nullary kwritesAre KW_nodup 40 rfl rfl V

theorem k_v28 (V : Valuation τ sig (Elt F)) :
    (after kops V (Proc.devRef .tc main_v28) : IVec S1x1x16384 32) = (broadcastInDim S1x1x16384 ![2] bcast_S16384_S1x1x16384_2 : (⟨S16384, .i32⟩ : BufTy).Contents (Elt F) → (⟨S1x1x16384, .i32⟩ : BufTy).Contents (Elt F)) (after kops V (Proc.devRef .tc main_v27) : IVec S16384 32) :=
  Line.at_unary kwritesAre KW_nodup 41 rfl rfl (Line.not_mem_drop_of_lt KW_nodup (j := 40) rfl (by decide)) V

theorem k_v29 (V : Valuation τ sig (Elt F)) :
    (after kops V (Proc.devRef .tc main_v29) : IVec S2x2048x16384 32) = (broadcastInDim S2x2048x16384 ![0, 1, 2] bcast_S1x1x16384_S2x2048x16384_0_1_2 : (⟨S1x1x16384, .i32⟩ : BufTy).Contents (Elt F) → (⟨S2x2048x16384, .i32⟩ : BufTy).Contents (Elt F)) (after kops V (Proc.devRef .tc main_v28) : IVec S1x1x16384 32) :=
  Line.at_unary kwritesAre KW_nodup 42 rfl rfl (Line.not_mem_drop_of_lt KW_nodup (j := 41) rfl (by decide)) V

theorem k_c_6 (V : Valuation τ sig (Elt F)) :
    (after kops V (Proc.devRef .tc main_c_6) : IVec S_ 32) = constantI S_ 32 0#32 :=
  Line.at_nullary kwritesAre KW_nodup 43 rfl rfl V

theorem k_v30 (V : Valuation τ sig (Elt F)) :
    (after kops V (Proc.devRef .tc main_v30) : IVec S2x2048x33 32) = (broadcastInDim S2x2048x33 ![] bcast_S_S2x2048x33 : (⟨S_, .i32⟩ : BufTy).Contents (Elt F) → (⟨S2x2048x33, .i32⟩ : BufTy).Contents (Elt F)) (after kops V (Proc.devRef .tc main_c_6) : IVec S_ 32) :=
  Line.at_unary kwritesAre KW_nodup 44 rfl rfl (Line.not_mem_drop_of_lt KW_nodup (j := 43) rfl (by decide)) V

theorem k_c_7 (V : Valuation τ sig (Elt F)) :
    (after kops V (Proc.devRef .tc main_c_7) : IVec S_ 32) = constantI S_ 32 0#32 :=
  Line.at_nullary kwritesAre KW_nodup 45 rfl rfl V

theorem k_v31 (V : Valuation τ sig (Elt F)) :
    (after kops V (Proc.devRef .tc main_v31) : IVec S2x1x1 32) = (broadcastInDim S2x1x1 ![] bcast_S_S2x1x1 : (⟨S_, .i32⟩ : BufTy).Contents (Elt F) → (⟨S2x1x1, .i32⟩ : BufTy).Contents (Elt F)) (after kops V (Proc.devRef .tc main_c_7) : IVec S_ 32) :=
  Line.at_unary kwritesAre KW_nodup 46 rfl rfl (Line.not_mem_drop_of_lt KW_nodup (j := 45) rfl (by decide)) V

theorem k_v32 (V : Valuation τ sig (Elt F)) :
    (after kops V (Proc.devRef .tc main_v32) : IVec S2x1x1 1) = (cmpi .slt : (⟨S2x1x1, .i32⟩ : BufTy).Contents (Elt F) → (⟨S2x1x1, .i32⟩ : BufTy).Contents (Elt F) → (⟨S2x1x1, .i1⟩ : BufTy).Contents (Elt F)) (after kops V (Proc.devRef .tc main_v24) : IVec S2x1x1 32) (after kops V (Proc.devRef .tc main_v31) : IVec S2x1x1 32) :=
  Line.at_binary kwritesAre KW_nodup 47 rfl rfl (Line.not_mem_drop_of_lt KW_nodup (j := 37) rfl (by decide)) (Line.not_mem_drop_of_lt KW_nodup (j := 46) rfl (by decide)) V

theorem k_c_8 (V : Valuation τ sig (Elt F)) :
    (after kops V (Proc.devRef .tc main_c_8) : IVec S_ 32) = constantI S_ 32 2#32 :=
  Line.at_nullary kwritesAre KW_nodup 48 rfl rfl V

theorem k_v33 (V : Valuation τ sig (Elt F)) :
    (after kops V (Proc.devRef .tc main_v33) : IVec S2x1x1 32) = (broadcastInDim S2x1x1 ![] bcast_S_S2x1x1 : (⟨S_, .i32⟩ : BufTy).Contents (Elt F) → (⟨S2x1x1, .i32⟩ : BufTy).Contents (Elt F)) (after kops V (Proc.devRef .tc main_c_8) : IVec S_ 32) :=
  Line.at_unary kwritesAre KW_nodup 49 rfl rfl (Line.not_mem_drop_of_lt KW_nodup (j := 48) rfl (by decide)) V

theorem k_v34 (V : Valuation τ sig (Elt F)) :
    (after kops V (Proc.devRef .tc main_v34) : IVec S2x1x1 32) = (addi : (⟨S2x1x1, .i32⟩ : BufTy).Contents (Elt F) → (⟨S2x1x1, .i32⟩ : BufTy).Contents (Elt F) → (⟨S2x1x1, .i32⟩ : BufTy).Contents (Elt F)) (after kops V (Proc.devRef .tc main_v24) : IVec S2x1x1 32) (after kops V (Proc.devRef .tc main_v33) : IVec S2x1x1 32) :=
  Line.at_binary kwritesAre KW_nodup 50 rfl rfl (Line.not_mem_drop_of_lt KW_nodup (j := 37) rfl (by decide)) (Line.not_mem_drop_of_lt KW_nodup (j := 49) rfl (by decide)) V

theorem k_v35 (V : Valuation τ sig (Elt F)) :
    (after kops V (Proc.devRef .tc main_v35) : IVec S2x1x1 32) = (select : (⟨S2x1x1, .i1⟩ : BufTy).Contents (Elt F) → (⟨S2x1x1, .i32⟩ : BufTy).Contents (Elt F) → (⟨S2x1x1, .i32⟩ : BufTy).Contents (Elt F) → (⟨S2x1x1, .i32⟩ : BufTy).Contents (Elt F)) (after kops V (Proc.devRef .tc main_v32) : IVec S2x1x1 1) (after kops V (Proc.devRef .tc main_v34) : IVec S2x1x1 32) (after kops V (Proc.devRef .tc main_v24) : IVec S2x1x1 32) :=
  Line.at_ternary kwritesAre KW_nodup 51 rfl rfl (Line.not_mem_drop_of_lt KW_nodup (j := 47) rfl (by decide)) (Line.not_mem_drop_of_lt KW_nodup (j := 50) rfl (by decide)) (Line.not_mem_drop_of_lt KW_nodup (j := 37) rfl (by decide)) V

theorem k_c_9 (V : Valuation τ sig (Elt F)) :
    (after kops V (Proc.devRef .tc main_c_9) : IVec S_ 32) = constantI S_ 32 0#32 :=
  Line.at_nullary kwritesAre KW_nodup 52 rfl rfl V

theorem k_v36 (V : Valuation τ sig (Elt F)) :
    (after kops V (Proc.devRef .tc main_v36) : IVec S1x2048x1 32) = (broadcastInDim S1x2048x1 ![] bcast_S_S1x2048x1 : (⟨S_, .i32⟩ : BufTy).Contents (Elt F) → (⟨S1x2048x1, .i32⟩ : BufTy).Contents (Elt F)) (after kops V (Proc.devRef .tc main_c_9) : IVec S_ 32) :=
  Line.at_unary kwritesAre KW_nodup 53 rfl rfl (Line.not_mem_drop_of_lt KW_nodup (j := 52) rfl (by decide)) V

theorem k_v37 (V : Valuation τ sig (Elt F)) :
    (after kops V (Proc.devRef .tc main_v37) : IVec S1x2048x1 1) = (cmpi .slt : (⟨S1x2048x1, .i32⟩ : BufTy).Contents (Elt F) → (⟨S1x2048x1, .i32⟩ : BufTy).Contents (Elt F) → (⟨S1x2048x1, .i1⟩ : BufTy).Contents (Elt F)) (after kops V (Proc.devRef .tc main_v26) : IVec S1x2048x1 32) (after kops V (Proc.devRef .tc main_v36) : IVec S1x2048x1 32) :=
  Line.at_binary kwritesAre KW_nodup 54 rfl rfl (Line.not_mem_drop_of_lt KW_nodup (j := 39) rfl (by decide)) (Line.not_mem_drop_of_lt KW_nodup (j := 53) rfl (by decide)) V

theorem k_c_10 (V : Valuation τ sig (Elt F)) :
    (after kops V (Proc.devRef .tc main_c_10) : IVec S_ 32) = constantI S_ 32 2048#32 :=
  Line.at_nullary kwritesAre KW_nodup 55 rfl rfl V

theorem k_v38 (V : Valuation τ sig (Elt F)) :
    (after kops V (Proc.devRef .tc main_v38) : IVec S1x2048x1 32) = (broadcastInDim S1x2048x1 ![] bcast_S_S1x2048x1 : (⟨S_, .i32⟩ : BufTy).Contents (Elt F) → (⟨S1x2048x1, .i32⟩ : BufTy).Contents (Elt F)) (after kops V (Proc.devRef .tc main_c_10) : IVec S_ 32) :=
  Line.at_unary kwritesAre KW_nodup 56 rfl rfl (Line.not_mem_drop_of_lt KW_nodup (j := 55) rfl (by decide)) V

theorem k_v39 (V : Valuation τ sig (Elt F)) :
    (after kops V (Proc.devRef .tc main_v39) : IVec S1x2048x1 32) = (addi : (⟨S1x2048x1, .i32⟩ : BufTy).Contents (Elt F) → (⟨S1x2048x1, .i32⟩ : BufTy).Contents (Elt F) → (⟨S1x2048x1, .i32⟩ : BufTy).Contents (Elt F)) (after kops V (Proc.devRef .tc main_v26) : IVec S1x2048x1 32) (after kops V (Proc.devRef .tc main_v38) : IVec S1x2048x1 32) :=
  Line.at_binary kwritesAre KW_nodup 57 rfl rfl (Line.not_mem_drop_of_lt KW_nodup (j := 39) rfl (by decide)) (Line.not_mem_drop_of_lt KW_nodup (j := 56) rfl (by decide)) V

theorem k_v40 (V : Valuation τ sig (Elt F)) :
    (after kops V (Proc.devRef .tc main_v40) : IVec S1x2048x1 32) = (select : (⟨S1x2048x1, .i1⟩ : BufTy).Contents (Elt F) → (⟨S1x2048x1, .i32⟩ : BufTy).Contents (Elt F) → (⟨S1x2048x1, .i32⟩ : BufTy).Contents (Elt F) → (⟨S1x2048x1, .i32⟩ : BufTy).Contents (Elt F)) (after kops V (Proc.devRef .tc main_v37) : IVec S1x2048x1 1) (after kops V (Proc.devRef .tc main_v39) : IVec S1x2048x1 32) (after kops V (Proc.devRef .tc main_v26) : IVec S1x2048x1 32) :=
  Line.at_ternary kwritesAre KW_nodup 58 rfl rfl (Line.not_mem_drop_of_lt KW_nodup (j := 54) rfl (by decide)) (Line.not_mem_drop_of_lt KW_nodup (j := 57) rfl (by decide)) (Line.not_mem_drop_of_lt KW_nodup (j := 39) rfl (by decide)) V

theorem k_c_11 (V : Valuation τ sig (Elt F)) :
    (after kops V (Proc.devRef .tc main_c_11) : IVec S_ 32) = constantI S_ 32 0#32 :=
  Line.at_nullary kwritesAre KW_nodup 59 rfl rfl V

theorem k_v41 (V : Valuation τ sig (Elt F)) :
    (after kops V (Proc.devRef .tc main_v41) : IVec S2x2048x16384 32) = (broadcastInDim S2x2048x16384 ![] bcast_S_S2x2048x16384 : (⟨S_, .i32⟩ : BufTy).Contents (Elt F) → (⟨S2x2048x16384, .i32⟩ : BufTy).Contents (Elt F)) (after kops V (Proc.devRef .tc main_c_11) : IVec S_ 32) :=
  Line.at_unary kwritesAre KW_nodup 60 rfl rfl (Line.not_mem_drop_of_lt KW_nodup (j := 59) rfl (by decide)) V

theorem k_v42 (V : Valuation τ sig (Elt F)) :
    (after kops V (Proc.devRef .tc main_v42) : IVec S2x2048x16384 1) = (cmpi .slt : (⟨S2x2048x16384, .i32⟩ : BufTy).Contents (Elt F) → (⟨S2x2048x16384, .i32⟩ : BufTy).Contents (Elt F) → (⟨S2x2048x16384, .i1⟩ : BufTy).Contents (Elt F)) (after kops V (Proc.devRef .tc main_v22) : IVec S2x2048x16384 32) (after kops V (Proc.devRef .tc main_v41) : IVec S2x2048x16384 32) :=
  Line.at_binary kwritesAre KW_nodup 61 rfl rfl (Line.not_mem_drop_of_lt KW_nodup (j := 35) rfl (by decide)) (Line.not_mem_drop_of_lt KW_nodup (j := 60) rfl (by decide)) V

theorem k_c_12 (V : Valuation τ sig (Elt F)) :
    (after kops V (Proc.devRef .tc main_c_12) : IVec S_ 32) = constantI S_ 32 33#32 :=
  Line.at_nullary kwritesAre KW_nodup 62 rfl rfl V

theorem k_v43 (V : Valuation τ sig (Elt F)) :
    (after kops V (Proc.devRef .tc main_v43) : IVec S2x2048x16384 32) = (broadcastInDim S2x2048x16384 ![] bcast_S_S2x2048x16384 : (⟨S_, .i32⟩ : BufTy).Contents (Elt F) → (⟨S2x2048x16384, .i32⟩ : BufTy).Contents (Elt F)) (after kops V (Proc.devRef .tc main_c_12) : IVec S_ 32) :=
  Line.at_unary kwritesAre KW_nodup 63 rfl rfl (Line.not_mem_drop_of_lt KW_nodup (j := 62) rfl (by decide)) V

theorem k_v44 (V : Valuation τ sig (Elt F)) :
    (after kops V (Proc.devRef .tc main_v44) : IVec S2x2048x16384 32) = (addi : (⟨S2x2048x16384, .i32⟩ : BufTy).Contents (Elt F) → (⟨S2x2048x16384, .i32⟩ : BufTy).Contents (Elt F) → (⟨S2x2048x16384, .i32⟩ : BufTy).Contents (Elt F)) (after kops V (Proc.devRef .tc main_v22) : IVec S2x2048x16384 32) (after kops V (Proc.devRef .tc main_v43) : IVec S2x2048x16384 32) :=
  Line.at_binary kwritesAre KW_nodup 64 rfl rfl (Line.not_mem_drop_of_lt KW_nodup (j := 35) rfl (by decide)) (Line.not_mem_drop_of_lt KW_nodup (j := 63) rfl (by decide)) V

theorem k_v45 (V : Valuation τ sig (Elt F)) :
    (after kops V (Proc.devRef .tc main_v45) : IVec S2x2048x16384 32) = (select : (⟨S2x2048x16384, .i1⟩ : BufTy).Contents (Elt F) → (⟨S2x2048x16384, .i32⟩ : BufTy).Contents (Elt F) → (⟨S2x2048x16384, .i32⟩ : BufTy).Contents (Elt F) → (⟨S2x2048x16384, .i32⟩ : BufTy).Contents (Elt F)) (after kops V (Proc.devRef .tc main_v42) : IVec S2x2048x16384 1) (after kops V (Proc.devRef .tc main_v44) : IVec S2x2048x16384 32) (after kops V (Proc.devRef .tc main_v22) : IVec S2x2048x16384 32) :=
  Line.at_ternary kwritesAre KW_nodup 65 rfl rfl (Line.not_mem_drop_of_lt KW_nodup (j := 61) rfl (by decide)) (Line.not_mem_drop_of_lt KW_nodup (j := 64) rfl (by decide)) (Line.not_mem_drop_of_lt KW_nodup (j := 35) rfl (by decide)) V

theorem k_v46 (V : Valuation τ sig (Elt F)) :
    (after kops V (Proc.devRef .tc main_v46) : IVec S2x2048x16384 32) = (broadcastInDim S2x2048x16384 ![0, 1, 2] bcast_S2x1x1_S2x2048x16384_0_1_2 : (⟨S2x1x1, .i32⟩ : BufTy).Contents (Elt F) → (⟨S2x2048x16384, .i32⟩ : BufTy).Contents (Elt F)) (after kops V (Proc.devRef .tc main_v35) : IVec S2x1x1 32) :=
  Line.at_unary kwritesAre KW_nodup 66 rfl rfl (Line.not_mem_drop_of_lt KW_nodup (j := 51) rfl (by decide)) V

theorem k_v47 (V : Valuation τ sig (Elt F)) :
    (after kops V (Proc.devRef .tc main_v47) : IVec S2x2048x16384 32) = (broadcastInDim S2x2048x16384 ![0, 1, 2] bcast_S1x2048x1_S2x2048x16384_0_1_2 : (⟨S1x2048x1, .i32⟩ : BufTy).Contents (Elt F) → (⟨S2x2048x16384, .i32⟩ : BufTy).Contents (Elt F)) (after kops V (Proc.devRef .tc main_v40) : IVec S1x2048x1 32) :=
  Line.at_unary kwritesAre KW_nodup 67 rfl rfl (Line.not_mem_drop_of_lt KW_nodup (j := 58) rfl (by decide)) V

theorem k_v48 (V : Valuation τ sig (Elt F)) :
    (after kops V (Proc.devRef .tc main_v48) : IVec S2x2048x16384x1 32) = (broadcastInDim S2x2048x16384x1 ![0, 1, 2] bcast_S2x2048x16384_S2x2048x16384x1_0_1_2 : (⟨S2x2048x16384, .i32⟩ : BufTy).Contents (Elt F) → (⟨S2x2048x16384x1, .i32⟩ : BufTy).Contents (Elt F)) (after kops V (Proc.devRef .tc main_v46) : IVec S2x2048x16384 32) :=
  Line.at_unary kwritesAre KW_nodup 68 rfl rfl (Line.not_mem_drop_of_lt KW_nodup (j := 66) rfl (by decide)) V

theorem k_v49 (V : Valuation τ sig (Elt F)) :
    (after kops V (Proc.devRef .tc main_v49) : IVec S2x2048x16384x1 32) = (broadcastInDim S2x2048x16384x1 ![0, 1, 2] bcast_S2x2048x16384_S2x2048x16384x1_0_1_2 : (⟨S2x2048x16384, .i32⟩ : BufTy).Contents (Elt F) → (⟨S2x2048x16384x1, .i32⟩ : BufTy).Contents (Elt F)) (after kops V (Proc.devRef .tc main_v47) : IVec S2x2048x16384 32) :=
  Line.at_unary kwritesAre KW_nodup 69 rfl rfl (Line.not_mem_drop_of_lt KW_nodup (j := 67) rfl (by decide)) V

theorem k_v50 (V : Valuation τ sig (Elt F)) :
    (after kops V (Proc.devRef .tc main_v50) : IVec S2x2048x16384x1 32) = (broadcastInDim S2x2048x16384x1 ![0, 1, 2] bcast_S2x2048x16384_S2x2048x16384x1_0_1_2 : (⟨S2x2048x16384, .i32⟩ : BufTy).Contents (Elt F) → (⟨S2x2048x16384x1, .i32⟩ : BufTy).Contents (Elt F)) (after kops V (Proc.devRef .tc main_v45) : IVec S2x2048x16384 32) :=
  Line.at_unary kwritesAre KW_nodup 70 rfl rfl (Line.not_mem_drop_of_lt KW_nodup (j := 65) rfl (by decide)) V

theorem k_v51 (V : Valuation τ sig (Elt F)) :
    (after kops V (Proc.devRef .tc main_v51) : IVec S2x2048x16384x3 32) = concatenate S2x2048x16384x3 3 [⟨S2x2048x16384x1, (after kops V (Proc.devRef .tc main_v48) : IVec S2x2048x16384x1 32)⟩, ⟨S2x2048x16384x1, (after kops V (Proc.devRef .tc main_v49) : IVec S2x2048x16384x1 32)⟩, ⟨S2x2048x16384x1, (after kops V (Proc.devRef .tc main_v50) : IVec S2x2048x16384x1 32)⟩] concatenates_S2x2048x16384x1_S2x2048x16384x1_S2x2048x16384x1_S2x2048x16384x3_d3 :=
  Line.at_nary kwritesAre KW_nodup 71 rfl rfl (fun i => by fin_cases i <;> first | exact (Line.not_mem_drop_of_lt KW_nodup (j := 68) rfl (by decide)) | exact (Line.not_mem_drop_of_lt KW_nodup (j := 69) rfl (by decide)) | exact (Line.not_mem_drop_of_lt KW_nodup (j := 70) rfl (by decide))) V

theorem k_v52 (V : Valuation τ sig (Elt F)) :
    (after kops V (Proc.devRef .tc main_v52) : IVec S2x2048x33 32) = ((fun x i u => Host.scatter scatter_S2x2048x33_S2x2048x16384x3_S2x2048x16384_n_012_012_3 (fun _ b => b) x i u) : (⟨S2x2048x33, .i32⟩ : BufTy).Contents (Elt F) → (⟨S2x2048x16384x3, .i32⟩ : BufTy).Contents (Elt F) → (⟨S2x2048x16384, .i32⟩ : BufTy).Contents (Elt F) → (⟨S2x2048x33, .i32⟩ : BufTy).Contents (Elt F)) (after kops V (Proc.devRef .tc main_v30) : IVec S2x2048x33 32) (after kops V (Proc.devRef .tc main_v51) : IVec S2x2048x16384x3 32) (after kops V (Proc.devRef .tc main_v29) : IVec S2x2048x16384 32) :=
  Line.at_ternary kwritesAre KW_nodup 72 rfl rfl (Line.not_mem_drop_of_lt KW_nodup (j := 44) rfl (by decide)) (Line.not_mem_drop_of_lt KW_nodup (j := 71) rfl (by decide)) (Line.not_mem_drop_of_lt KW_nodup (j := 42) rfl (by decide)) V

theorem k_v53 (V : Valuation τ sig (Elt F)) :
    (after kops V (Proc.devRef .tc main_v53) : IVec S2x2048x32 32) = ((extractStridedSlice S2x2048x32 ![0, 0, 0] · slices_S2x2048x33_S2x2048x32_0_0_0) : (⟨S2x2048x33, .i32⟩ : BufTy).Contents (Elt F) → (⟨S2x2048x32, .i32⟩ : BufTy).Contents (Elt F)) (after kops V (Proc.devRef .tc main_v52) : IVec S2x2048x33 32) :=
  Line.at_unary kwritesAre KW_nodup 73 rfl rfl (Line.not_mem_drop_of_lt KW_nodup (j := 72) rfl (by decide)) V

theorem k_v54 (V : Valuation τ sig (Elt F)) :
    (after kops V (Proc.devRef .tc main_v54) : IVec S32 32) = iotaInDim S32 32 0 :=
  Line.at_nullary kwritesAre KW_nodup 74 rfl rfl V

theorem k_v55 (V : Valuation τ sig (Elt F)) :
    (after kops V (Proc.devRef .tc main_v55) : IVec S1x1x32 32) = (broadcastInDim S1x1x32 ![2] bcast_S32_S1x1x32_2 : (⟨S32, .i32⟩ : BufTy).Contents (Elt F) → (⟨S1x1x32, .i32⟩ : BufTy).Contents (Elt F)) (after kops V (Proc.devRef .tc main_v54) : IVec S32 32) :=
  Line.at_unary kwritesAre KW_nodup 75 rfl rfl (Line.not_mem_drop_of_lt KW_nodup (j := 74) rfl (by decide)) V

theorem k_v56 (V : Valuation τ sig (Elt F)) :
    (after kops V (Proc.devRef .tc main_v56) : IVec S2x2048x1 32) = (broadcastInDim S2x2048x1 ![0, 1] bcast_S2x2048_S2x2048x1_0_1 : (⟨S2x2048, .i32⟩ : BufTy).Contents (Elt F) → (⟨S2x2048x1, .i32⟩ : BufTy).Contents (Elt F)) (after kops V (Proc.devRef .tc main_v18) : IVec S2x2048 32) :=
  Line.at_unary kwritesAre KW_nodup 76 rfl rfl (Line.not_mem_drop_of_lt KW_nodup (j := 27) rfl (by decide)) V

theorem k_v57 (V : Valuation τ sig (Elt F)) :
    (after kops V (Proc.devRef .tc main_v57) : IVec S2x2048x32 32) = (broadcastInDim S2x2048x32 ![0, 1, 2] bcast_S1x1x32_S2x2048x32_0_1_2 : (⟨S1x1x32, .i32⟩ : BufTy).Contents (Elt F) → (⟨S2x2048x32, .i32⟩ : BufTy).Contents (Elt F)) (after kops V (Proc.devRef .tc main_v55) : IVec S1x1x32 32) :=
  Line.at_unary kwritesAre KW_nodup 77 rfl rfl (Line.not_mem_drop_of_lt KW_nodup (j := 75) rfl (by decide)) V

theorem k_v58 (V : Valuation τ sig (Elt F)) :
    (after kops V (Proc.devRef .tc main_v58) : IVec S2x2048x32 32) = (broadcastInDim S2x2048x32 ![0, 1, 2] bcast_S2x2048x1_S2x2048x32_0_1_2 : (⟨S2x2048x1, .i32⟩ : BufTy).Contents (Elt F) → (⟨S2x2048x32, .i32⟩ : BufTy).Contents (Elt F)) (after kops V (Proc.devRef .tc main_v56) : IVec S2x2048x1 32) :=
  Line.at_unary kwritesAre KW_nodup 78 rfl rfl (Line.not_mem_drop_of_lt KW_nodup (j := 76) rfl (by decide)) V

theorem k_v59 (V : Valuation τ sig (Elt F)) :
    (after kops V (Proc.devRef .tc main_v59) : IVec S2x2048x32 1) = (cmpi .slt : (⟨S2x2048x32, .i32⟩ : BufTy).Contents (Elt F) → (⟨S2x2048x32, .i32⟩ : BufTy).Contents (Elt F) → (⟨S2x2048x32, .i1⟩ : BufTy).Contents (Elt F)) (after kops V (Proc.devRef .tc main_v57) : IVec S2x2048x32 32) (after kops V (Proc.devRef .tc main_v58) : IVec S2x2048x32 32) :=
  Line.at_binary kwritesAre KW_nodup 79 rfl rfl (Line.not_mem_drop_of_lt KW_nodup (j := 77) rfl (by decide)) (Line.not_mem_drop_of_lt KW_nodup (j := 78) rfl (by decide)) V

theorem k_v60 (V : Valuation τ sig (Elt F)) :
    (after kops V (Proc.devRef .tc main_v60) : IVec S2x2048x1 32) = ((extractStridedSlice S2x2048x1 ![0, 0, 0] · slices_S2x2048x32_S2x2048x1_0_0_0) : (⟨S2x2048x32, .i32⟩ : BufTy).Contents (Elt F) → (⟨S2x2048x1, .i32⟩ : BufTy).Contents (Elt F)) (after kops V (Proc.devRef .tc main_v53) : IVec S2x2048x32 32) :=
  Line.at_unary kwritesAre KW_nodup 80 rfl rfl (Line.not_mem_drop_of_lt KW_nodup (j := 73) rfl (by decide)) V

theorem k_call2_v0 (V : Valuation τ sig (Elt F)) :
    (after kops V (Proc.devRef .tc main_call2_v0) : IVec S2x2048x32 32) = (broadcastInDim S2x2048x32 ![0, 1, 2] bcast_S2x2048x1_S2x2048x32_0_1_2) (after kops V (Proc.devRef .tc main_v60) : IVec S2x2048x1 32) :=
  Line.at_unary kwritesAre KW_nodup 81 rfl rfl (Line.not_mem_drop_of_lt KW_nodup (j := 80) rfl (by decide)) V

theorem k_v61 (V : Valuation τ sig (Elt F)) :
    (after kops V (Proc.devRef .tc main_v61) : IVec S2x2048x32 32) = select (after kops V (Proc.devRef .tc main_v59) : IVec S2x2048x32 1) (after kops V (Proc.devRef .tc main_v53) : IVec S2x2048x32 32) (after kops V (Proc.devRef .tc main_call2_v0) : IVec S2x2048x32 32) :=
  Line.at_ternary kwritesAre KW_nodup 82 rfl rfl (Line.not_mem_drop_of_lt KW_nodup (j := 79) rfl (by decide)) (Line.not_mem_drop_of_lt KW_nodup (j := 73) rfl (by decide)) (Line.not_mem_drop_of_lt KW_nodup (j := 81) rfl (by decide)) V

theorem k_v62 (V : Valuation τ sig (Elt F)) :
    (after kops V (Proc.devRef .tc main_v62) : FVec F S2x16384x64 .f32) = ((transpose S2x16384x64 [0, 2, 1] · transposes_S2x64x16384_S2x16384x64_0_2_1) : (⟨S2x64x16384, .f32⟩ : BufTy).Contents (Elt F) → (⟨S2x16384x64, .f32⟩ : BufTy).Contents (Elt F)) (after kops V (Proc.devRef .tc main_arg2) : FVec F S2x64x16384 .f32) :=
  Line.at_unary kwritesAre KW_nodup 83 rfl rfl (Line.not_mem_drop_of_not_mem karg2_notW 83) V

theorem k_v63 (V : Valuation τ sig (Elt F)) :
    (after kops V (Proc.devRef .tc main_v63) : FVec F S2x16384x67 .f32) = ((fun a b => concatenate S2x16384x67 2 [⟨S2x16384x3, a⟩, ⟨S2x16384x64, b⟩] concatenates_S2x16384x3_S2x16384x64_S2x16384x67_d2) : (⟨S2x16384x3, .f32⟩ : BufTy).Contents (Elt F) → (⟨S2x16384x64, .f32⟩ : BufTy).Contents (Elt F) → (⟨S2x16384x67, .f32⟩ : BufTy).Contents (Elt F)) (after kops V (Proc.devRef .tc main_arg0) : FVec F S2x16384x3 .f32) (after kops V (Proc.devRef .tc main_v62) : FVec F S2x16384x64 .f32) :=
  Line.at_binary kwritesAre KW_nodup 84 rfl rfl (Line.not_mem_drop_of_not_mem karg0_notW 84) (Line.not_mem_drop_of_lt KW_nodup (j := 83) rfl (by decide)) V

theorem k_c_13 (V : Valuation τ sig (Elt F)) :
    (after kops V (Proc.devRef .tc main_c_13) : IVec S_ 32) = constantI S_ 32 0#32 :=
  Line.at_nullary kwritesAre KW_nodup 85 rfl rfl V

theorem k_call3_v0 (V : Valuation τ sig (Elt F)) :
    (after kops V (Proc.devRef .tc main_call3_v0) : FVec F S_ .f32) = (sitofp .f32) (after kops V (Proc.devRef .tc main_c_13) : IVec S_ 32) :=
  Line.at_unary kwritesAre KW_nodup 86 rfl rfl (Line.not_mem_drop_of_lt KW_nodup (j := 85) rfl (by decide)) V

theorem k_v64 (V : Valuation τ sig (Elt F)) :
    (after kops V (Proc.devRef .tc main_v64) : FVec F S2x16384x128 .f32) = (fun x v => pad S2x16384x128 ![0, 0, 0] ![0, 0, 61] ![0, 0, 0] x v pads_S2x16384x67_S2x16384x128_000_000_0610 h_S_) (after kops V (Proc.devRef .tc main_v63) : FVec F S2x16384x67 .f32) (after kops V (Proc.devRef .tc main_call3_v0) : FVec F S_ .f32) :=
  Line.at_binary kwritesAre KW_nodup 87 rfl rfl (Line.not_mem_drop_of_lt KW_nodup (j := 84) rfl (by decide)) (Line.not_mem_drop_of_lt KW_nodup (j := 86) rfl (by decide)) V

theorem k_v65 (V : Valuation τ sig (Elt F)) :
    (after kops V (Proc.devRef .tc main_v65) : FVec F S2x16384x128 .bf16) = ((truncf .bf16 · bitsLt_bf16_f32) : (⟨S2x16384x128, .f32⟩ : BufTy).Contents (Elt F) → (⟨S2x16384x128, .bf16⟩ : BufTy).Contents (Elt F)) (after kops V (Proc.devRef .tc main_v64) : FVec F S2x16384x128 .f32) :=
  Line.at_unary kwritesAre KW_nodup 88 rfl rfl (Line.not_mem_drop_of_lt KW_nodup (j := 87) rfl (by decide)) V

theorem k_v66 (V : Valuation τ sig (Elt F)) :
    (after kops V (Proc.devRef .tc main_v66) : FVec F S2x16384x128 .f32) = ((extf .f32 · bitsLt_bf16_f32) : (⟨S2x16384x128, .bf16⟩ : BufTy).Contents (Elt F) → (⟨S2x16384x128, .f32⟩ : BufTy).Contents (Elt F)) (after kops V (Proc.devRef .tc main_v65) : FVec F S2x16384x128 .bf16) :=
  Line.at_unary kwritesAre KW_nodup 89 rfl rfl (Line.not_mem_drop_of_lt KW_nodup (j := 88) rfl (by decide)) V

theorem k_v67 (V : Valuation τ sig (Elt F)) :
    (after kops V (Proc.devRef .tc main_v67) : FVec F S2x16384x128 .f32) = (subf : (⟨S2x16384x128, .f32⟩ : BufTy).Contents (Elt F) → (⟨S2x16384x128, .f32⟩ : BufTy).Contents (Elt F) → (⟨S2x16384x128, .f32⟩ : BufTy).Contents (Elt F)) (after kops V (Proc.devRef .tc main_v64) : FVec F S2x16384x128 .f32) (after kops V (Proc.devRef .tc main_v66) : FVec F S2x16384x128 .f32) :=
  Line.at_binary kwritesAre KW_nodup 90 rfl rfl (Line.not_mem_drop_of_lt KW_nodup (j := 87) rfl (by decide)) (Line.not_mem_drop_of_lt KW_nodup (j := 89) rfl (by decide)) V

theorem k_v68 (V : Valuation τ sig (Elt F)) :
    (after kops V (Proc.devRef .tc main_v68) : FVec F S2x16384x128 .bf16) = ((truncf .bf16 · bitsLt_bf16_f32) : (⟨S2x16384x128, .f32⟩ : BufTy).Contents (Elt F) → (⟨S2x16384x128, .bf16⟩ : BufTy).Contents (Elt F)) (after kops V (Proc.devRef .tc main_v67) : FVec F S2x16384x128 .f32) :=
  Line.at_unary kwritesAre KW_nodup 91 rfl rfl (Line.not_mem_drop_of_lt KW_nodup (j := 90) rfl (by decide)) V

theorem k_v69 (V : Valuation τ sig (Elt F)) :
    (after kops V (Proc.devRef .tc main_v69) : IVec S2x65536x1 32) = shapeCast S2x65536x1 (after kops V (Proc.devRef .tc main_v61) : IVec S2x2048x32 32) shapeCasts_S2x2048x32_S2x65536x1 :=
  Line.at_reshape kwritesAre KW_nodup 92 rfl rfl (Line.not_mem_drop_of_lt KW_nodup (j := 82) rfl (by decide)) V

theorem k_v70 (V : Valuation τ sig (Elt F)) :
    (after kops V (Proc.devRef .tc main_v70) : FVec F S2x2048x32x3 .f32) = (broadcastInDim S2x2048x32x3 ![0, 1, 3] bcast_S2x2048x3_S2x2048x32x3_0_1_3 : (⟨S2x2048x3, .f32⟩ : BufTy).Contents (Elt F) → (⟨S2x2048x32x3, .f32⟩ : BufTy).Contents (Elt F)) (after kops V (Proc.devRef .tc main_arg1) : FVec F S2x2048x3 .f32) :=
  Line.at_unary kwritesAre KW_nodup 93 rfl rfl (Line.not_mem_drop_of_not_mem karg1_notW 93) V

theorem k_v71 (V : Valuation τ sig (Elt F)) :
    (after kops V (Proc.devRef .tc main_v71) : FVec F S2x65536x3 .f32) = shapeCast S2x65536x3 (after kops V (Proc.devRef .tc main_v70) : FVec F S2x2048x32x3 .f32) shapeCasts_S2x2048x32x3_S2x65536x3 :=
  Line.at_reshape kwritesAre KW_nodup 94 rfl rfl (Line.not_mem_drop_of_lt KW_nodup (j := 93) rfl (by decide)) V

theorem k_c_14 (V : Valuation τ sig (Elt F)) :
    (after kops V (Proc.devRef .tc main_c_14) : IVec S_ 32) = constantI S_ 32 0#32 :=
  Line.at_nullary kwritesAre KW_nodup 95 rfl rfl V

theorem k_call4_v0 (V : Valuation τ sig (Elt F)) :
    (after kops V (Proc.devRef .tc main_call4_v0) : FVec F S_ .f32) = (sitofp .f32) (after kops V (Proc.devRef .tc main_c_14) : IVec S_ 32) :=
  Line.at_unary kwritesAre KW_nodup 96 rfl rfl (Line.not_mem_drop_of_lt KW_nodup (j := 95) rfl (by decide)) V

theorem k_v72 (V : Valuation τ sig (Elt F)) :
    (after kops V (Proc.devRef .tc main_v72) : FVec F S2x65536x128 .f32) = (fun x v => pad S2x65536x128 ![0, 0, 0] ![0, 0, 125] ![0, 0, 0] x v pads_S2x65536x3_S2x65536x128_000_000_01250 h_S_) (after kops V (Proc.devRef .tc main_v71) : FVec F S2x65536x3 .f32) (after kops V (Proc.devRef .tc main_call4_v0) : FVec F S_ .f32) :=
  Line.at_binary kwritesAre KW_nodup 97 rfl rfl (Line.not_mem_drop_of_lt KW_nodup (j := 94) rfl (by decide)) (Line.not_mem_drop_of_lt KW_nodup (j := 96) rfl (by decide)) V

end Cert.KernelIdeal.HandValue

end
-- ==== Proof.Ideal.Terms.lean ====
/-
  The kernel program's host operations around the region as pure terms of the argument arrays: the table
  [xyz | featuresᵀ] padded to 128 channels, its two bf16 halves (the table, and the table less its first half),
  the neighbour index table flattened to a column, the centres repeated over the 32 slots and padded to 128
  channels; and after the region the slice to 67 channels, the split of the query axis into (centre, slot) and
  the move of the channel axis to the front.
-/
import proofs.«128314_j31576599560762_2_alg».proof.KernelIdeal
import proofs.«128314_j31576599560762_2_alg».proof.Proof.Gen.KernelIdeal
import Idealize.ShloMosaic.PureOps
import Idealize.ShloMosaic.PureOps.Ideal
import Idealize.ShloMosaic.Lib.ValueIdx

noncomputable section

namespace Cert.KernelIdeal.HandValue

open Idealize.ShloMosaic Idealize.ShloMosaic.ValueIdx Cert.KernelIdeal Cert.KernelIdeal.Facts₀

variable {F : FTy → Type} [FloatOps F]

/-- %64: [xyz | featuresᵀ] along the channel axis, zero-padded from 67 to 128 channels. -/
def tableOf (a0 : FVec F S2x16384x3 .f32) (a2 : FVec F S2x64x16384 .f32) : FVec F S2x16384x128 .f32 :=
  let v62 : FVec F S2x16384x64 .f32 := transpose S2x16384x64 [0, 2, 1] a2 transposes_S2x64x16384_S2x16384x64_0_2_1
  let v63 : FVec F S2x16384x67 .f32 := concatenate S2x16384x67 2 [⟨S2x16384x3, a0⟩, ⟨S2x16384x64, v62⟩] concatenates_S2x16384x3_S2x16384x64_S2x16384x67_d2
  let c_13 : IVec S_ 32 := constantI S_ 32 0#32
  let call3_v0 : FVec F S_ .f32 := sitofp .f32 c_13
  pad S2x16384x128 ![0, 0, 0] ![0, 0, 61] ![0, 0, 0] v63 call3_v0 pads_S2x16384x67_S2x16384x128_000_000_0610 h_S_

/-- %65: the table's first bf16 half. -/
def hiOf (a0 : FVec F S2x16384x3 .f32) (a2 : FVec F S2x64x16384 .f32) : FVec F S2x16384x128 .bf16 :=
  truncf .bf16 (tableOf a0 a2) bitsLt_bf16_f32

/-- %68: the table less its first half, as bf16. -/
def loOf (a0 : FVec F S2x16384x3 .f32) (a2 : FVec F S2x64x16384 .f32) : FVec F S2x16384x128 .bf16 :=
  let v64 : FVec F S2x16384x128 .f32 := tableOf a0 a2
  let v65 : FVec F S2x16384x128 .bf16 := truncf .bf16 v64 bitsLt_bf16_f32
  let v66 : FVec F S2x16384x128 .f32 := extf .f32 v65 bitsLt_bf16_f32
  let v67 : FVec F S2x16384x128 .f32 := subf v64 v66
  truncf .bf16 v67 bitsLt_bf16_f32

/-- %69: the index table [2,2048,32] flattened to a column [2,65536,1] (centre-major, slot-minor). -/
def ixColOf (idx : IVec S2x2048x32 32) : IVec S2x65536x1 32 :=
  shapeCast S2x65536x1 idx shapeCasts_S2x2048x32_S2x65536x1

/-- %72: each centre repeated over its 32 slots, zero-padded from 3 to 128 channels. -/
def nxOf (a1 : FVec F S2x2048x3 .f32) : FVec F S2x65536x128 .f32 :=
  let v70 : FVec F S2x2048x32x3 .f32 := broadcastInDim S2x2048x32x3 ![0, 1, 3] bcast_S2x2048x3_S2x2048x32x3_0_1_3 a1
  let v71 : FVec F S2x65536x3 .f32 := shapeCast S2x65536x3 v70 shapeCasts_S2x2048x32x3_S2x65536x3
  let c_14 : IVec S_ 32 := constantI S_ 32 0#32
  let call4_v0 : FVec F S_ .f32 := sitofp .f32 c_14
  pad S2x65536x128 ![0, 0, 0] ![0, 0, 125] ![0, 0, 0] v71 call4_v0 pads_S2x65536x3_S2x65536x128_000_000_01250 h_S_

/-- %74 … %76: the region's result sliced to 67 channels, its query axis split into (centre, slot), the channel axis moved
    to the front. -/
def tailOf (o : FVec F S2x65536x128 .f32) : FVec F S2x67x2048x32 .f32 :=
  let v74 : FVec F S2x65536x67 .f32 := extractStridedSlice S2x65536x67 ![0, 0, 0] o slices_S2x65536x128_S2x65536x67_0_0_0
  let v75 : FVec F S2x2048x32x67 .f32 := shapeCast S2x2048x32x67 v74 shapeCasts_S2x65536x67_S2x2048x32x67
  transpose S2x67x2048x32 [0, 3, 1, 2] v75 transposes_S2x2048x32x67_S2x67x2048x32_0_3_1_2

/-- A table row from a number (numbers below 16384 name themselves). -/
def pick (w : ℕ) : Fin 16384 := ⟨w % 16384, Nat.mod_lt _ (by decide)⟩

/-- What the region computes, at exact arithmetic, from the four arrays it is handed: entry (b, q, ch) is the table
    row named by the index word of (b, q) — first half plus second half — less the padded centre's entry. -/
def gatherOut (ix : IVec S2x65536x1 32) (hi lo : FVec Ideal S2x16384x128 .bf16) (nx : FVec Ideal S2x65536x128 .f32) :
    FVec Ideal S2x65536x128 .f32 := fun j =>
  ((hi (ix3 (j 0) (pick (ix (ix3 (j 0) (j 1) 0)).toNat) (j 2)) : EReal) + (lo (ix3 (j 0) (pick (ix (ix3 (j 0) (j 1) 0)).toNat) (j 2)) : EReal))
    - (nx j : EReal)

end Cert.KernelIdeal.HandValue

end
-- ==== Proof.RefTerm.lean ====
/-
  The reference program's results as pure terms of its argument arrays: each definition is the chain of the
  program's operations, in program order, on which the result depends (an operation of a module-local function stands
  at the place of its call), one `let` per operation, the operation's function applied to the earlier values.
  `refCnt` is the neighbour count (%18), `refIdx` the neighbour index table (%61), `refTail` the gather-and-concatenate
  tail (%62 … %73) over an arbitrary index table, and `refOut` the tail at `refIdx`.
-/
import proofs.«128314_j31576599560762_2_alg».proof.ReferenceIdeal
import proofs.«128314_j31576599560762_2_alg».proof.Proof.Gen.ReferenceIdeal
import Idealize.ShloMosaic.PureOps

noncomputable section

namespace Cert.ReferenceIdeal.Hand

open Idealize.ShloMosaic Cert.ReferenceIdeal Cert.ReferenceIdeal.Facts₀

variable {F : FTy → Type} [FloatOps F]

/-- The neighbour count %18: the number of points of the shell around each centre, capped at 32. -/
def refCnt (a0 : FVec F S2x16384x3 .f32) (a1 : FVec F S2x2048x3 .f32) : IVec S2x2048 32 :=
  let v0 : FVec F S2x2048x1x3 .f32 := (broadcastInDim S2x2048x1x3 ![0, 1, 3] bcast_S2x2048x3_S2x2048x1x3_0_1_3 : (⟨S2x2048x3, .f32⟩ : BufTy).Contents (Elt F) → (⟨S2x2048x1x3, .f32⟩ : BufTy).Contents (Elt F)) a1
  let v1 : FVec F S2x1x16384x3 .f32 := (broadcastInDim S2x1x16384x3 ![0, 2, 3] bcast_S2x16384x3_S2x1x16384x3_0_2_3 : (⟨S2x16384x3, .f32⟩ : BufTy).Contents (Elt F) → (⟨S2x1x16384x3, .f32⟩ : BufTy).Contents (Elt F)) a0
  let v2 : FVec F S2x2048x16384x3 .f32 := (broadcastInDim S2x2048x16384x3 ![0, 1, 2, 3] bcast_S2x2048x1x3_S2x2048x16384x3_0_1_2_3 : (⟨S2x2048x1x3, .f32⟩ : BufTy).Contents (Elt F) → (⟨S2x2048x16384x3, .f32⟩ : BufTy).Contents (Elt F)) v0
  let v3 : FVec F S2x2048x16384x3 .f32 := (broadcastInDim S2x2048x16384x3 ![0, 1, 2, 3] bcast_S2x1x16384x3_S2x2048x16384x3_0_1_2_3 : (⟨S2x1x16384x3, .f32⟩ : BufTy).Contents (Elt F) → (⟨S2x2048x16384x3, .f32⟩ : BufTy).Contents (Elt F)) v1
  let v4 : FVec F S2x2048x16384x3 .f32 := (subf : (⟨S2x2048x16384x3, .f32⟩ : BufTy).Contents (Elt F) → (⟨S2x2048x16384x3, .f32⟩ : BufTy).Contents (Elt F) → (⟨S2x2048x16384x3, .f32⟩ : BufTy).Contents (Elt F)) v2 v3
  let v5 : FVec F S2x2048x16384x3 .f32 := (mulf : (⟨S2x2048x16384x3, .f32⟩ : BufTy).Contents (Elt F) → (⟨S2x2048x16384x3, .f32⟩ : BufTy).Contents (Elt F) → (⟨S2x2048x16384x3, .f32⟩ : BufTy).Contents (Elt F)) v4 v4
  let cst : FVec F S_ .f32 := constant S_ .f32 0x00000000#32
  let v6 : FVec F S2x2048x16384 .f32 := ((fun x v => Host.reduceAdd x v reducesTo_S2x2048x16384x3_S2x2048x16384_d3 h_S_) : (⟨S2x2048x16384x3, .f32⟩ : BufTy).Contents (Elt F) → (⟨S_, .f32⟩ : BufTy).Contents (Elt F) → (⟨S2x2048x16384, .f32⟩ : BufTy).Contents (Elt F)) v5 cst
  let cst_0 : FVec F S_ .f32 := constant S_ .f32 0x3B23D70A#32
  let v7 : FVec F S2x2048x16384 .f32 := (broadcastInDim S2x2048x16384 ![] bcast_S_S2x2048x16384 : (⟨S_, .f32⟩ : BufTy).Contents (Elt F) → (⟨S2x2048x16384, .f32⟩ : BufTy).Contents (Elt F)) cst_0
  let v8 : IVec S2x2048x16384 1 := (cmpf .oge : (⟨S2x2048x16384, .f32⟩ : BufTy).Contents (Elt F) → (⟨S2x2048x16384, .f32⟩ : BufTy).Contents (Elt F) → (⟨S2x2048x16384, .i1⟩ : BufTy).Contents (Elt F)) v6 v7
  let cst_1 : FVec F S_ .f32 := constant S_ .f32 0x3D23D70A#32
  let v9 : FVec F S2x2048x16384 .f32 := (broadcastInDim S2x2048x16384 ![] bcast_S_S2x2048x16384 : (⟨S_, .f32⟩ : BufTy).Contents (Elt F) → (⟨S2x2048x16384, .f32⟩ : BufTy).Contents (Elt F)) cst_1
  let v10 : IVec S2x2048x16384 1 := (cmpf .olt : (⟨S2x2048x16384, .f32⟩ : BufTy).Contents (Elt F) → (⟨S2x2048x16384, .f32⟩ : BufTy).Contents (Elt F) → (⟨S2x2048x16384, .i1⟩ : BufTy).Contents (Elt F)) v6 v9
  let v11 : IVec S2x2048x16384 1 := (andi : (⟨S2x2048x16384, .i1⟩ : BufTy).Contents (Elt F) → (⟨S2x2048x16384, .i1⟩ : BufTy).Contents (Elt F) → (⟨S2x2048x16384, .i1⟩ : BufTy).Contents (Elt F)) v8 v10
  let v15 : IVec S2x2048x16384 32 := ((extui 32 · natLt_1_32) : (⟨S2x2048x16384, .i1⟩ : BufTy).Contents (Elt F) → (⟨S2x2048x16384, .i32⟩ : BufTy).Contents (Elt F)) v11
  let c_2 : IVec S_ 32 := constantI S_ 32 0#32
  let v16 : IVec S2x2048 32 := ((fun x v => Host.reduce IntOp.addi x v reducesTo_S2x2048x16384_S2x2048_d2 h_S_) : (⟨S2x2048x16384, .i32⟩ : BufTy).Contents (Elt F) → (⟨S_, .i32⟩ : BufTy).Contents (Elt F) → (⟨S2x2048, .i32⟩ : BufTy).Contents (Elt F)) v15 c_2
  let c_3 : IVec S_ 32 := constantI S_ 32 32#32
  let v17 : IVec S2x2048 32 := (broadcastInDim S2x2048 ![] bcast_S_S2x2048 : (⟨S_, .i32⟩ : BufTy).Contents (Elt F) → (⟨S2x2048, .i32⟩ : BufTy).Contents (Elt F)) c_3
  let v18 : IVec S2x2048 32 := (minsi : (⟨S2x2048, .i32⟩ : BufTy).Contents (Elt F) → (⟨S2x2048, .i32⟩ : BufTy).Contents (Elt F) → (⟨S2x2048, .i32⟩ : BufTy).Contents (Elt F)) v16 v17
  v18

/-- The neighbour index table %61: slot `s` of centre `q` holds the index of the `s`-th point of the shell (in point order), unused slots the first one. -/
def refIdx (a0 : FVec F S2x16384x3 .f32) (a1 : FVec F S2x2048x3 .f32) : IVec S2x2048x32 32 :=
  let v0 : FVec F S2x2048x1x3 .f32 := (broadcastInDim S2x2048x1x3 ![0, 1, 3] bcast_S2x2048x3_S2x2048x1x3_0_1_3 : (⟨S2x2048x3, .f32⟩ : BufTy).Contents (Elt F) → (⟨S2x2048x1x3, .f32⟩ : BufTy).Contents (Elt F)) a1
  let v1 : FVec F S2x1x16384x3 .f32 := (broadcastInDim S2x1x16384x3 ![0, 2, 3] bcast_S2x16384x3_S2x1x16384x3_0_2_3 : (⟨S2x16384x3, .f32⟩ : BufTy).Contents (Elt F) → (⟨S2x1x16384x3, .f32⟩ : BufTy).Contents (Elt F)) a0
  let v2 : FVec F S2x2048x16384x3 .f32 := (broadcastInDim S2x2048x16384x3 ![0, 1, 2, 3] bcast_S2x2048x1x3_S2x2048x16384x3_0_1_2_3 : (⟨S2x2048x1x3, .f32⟩ : BufTy).Contents (Elt F) → (⟨S2x2048x16384x3, .f32⟩ : BufTy).Contents (Elt F)) v0
  let v3 : FVec F S2x2048x16384x3 .f32 := (broadcastInDim S2x2048x16384x3 ![0, 1, 2, 3] bcast_S2x1x16384x3_S2x2048x16384x3_0_1_2_3 : (⟨S2x1x16384x3, .f32⟩ : BufTy).Contents (Elt F) → (⟨S2x2048x16384x3, .f32⟩ : BufTy).Contents (Elt F)) v1
  let v4 : FVec F S2x2048x16384x3 .f32 := (subf : (⟨S2x2048x16384x3, .f32⟩ : BufTy).Contents (Elt F) → (⟨S2x2048x16384x3, .f32⟩ : BufTy).Contents (Elt F) → (⟨S2x2048x16384x3, .f32⟩ : BufTy).Contents (Elt F)) v2 v3
  let v5 : FVec F S2x2048x16384x3 .f32 := (mulf : (⟨S2x2048x16384x3, .f32⟩ : BufTy).Contents (Elt F) → (⟨S2x2048x16384x3, .f32⟩ : BufTy).Contents (Elt F) → (⟨S2x2048x16384x3, .f32⟩ : BufTy).Contents (Elt F)) v4 v4
  let cst : FVec F S_ .f32 := constant S_ .f32 0x00000000#32
  let v6 : FVec F S2x2048x16384 .f32 := ((fun x v => Host.reduceAdd x v reducesTo_S2x2048x16384x3_S2x2048x16384_d3 h_S_) : (⟨S2x2048x16384x3, .f32⟩ : BufTy).Contents (Elt F) → (⟨S_, .f32⟩ : BufTy).Contents (Elt F) → (⟨S2x2048x16384, .f32⟩ : BufTy).Contents (Elt F)) v5 cst
  let cst_0 : FVec F S_ .f32 := constant S_ .f32 0x3B23D70A#32
  let v7 : FVec F S2x2048x16384 .f32 := (broadcastInDim S2x2048x16384 ![] bcast_S_S2x2048x16384 : (⟨S_, .f32⟩ : BufTy).Contents (Elt F) → (⟨S2x2048x16384, .f32⟩ : BufTy).Contents (Elt F)) cst_0
  let v8 : IVec S2x2048x16384 1 := (cmpf .oge : (⟨S2x2048x16384, .f32⟩ : BufTy).Contents (Elt F) → (⟨S2x2048x16384, .f32⟩ : BufTy).Contents (Elt F) → (⟨S2x2048x16384, .i1⟩ : BufTy).Contents (Elt F)) v6 v7
  let cst_1 : FVec F S_ .f32 := constant S_ .f32 0x3D23D70A#32
  let v9 : FVec F S2x2048x16384 .f32 := (broadcastInDim S2x2048x16384 ![] bcast_S_S2x2048x16384 : (⟨S_, .f32⟩ : BufTy).Contents (Elt F) → (⟨S2x2048x16384, .f32⟩ : BufTy).Contents (Elt F)) cst_1
  let v10 : IVec S2x2048x16384 1 := (cmpf .olt : (⟨S2x2048x16384, .f32⟩ : BufTy).Contents (Elt F) → (⟨S2x2048x16384, .f32⟩ : BufTy).Contents (Elt F) → (⟨S2x2048x16384, .i1⟩ : BufTy).Contents (Elt F)) v6 v9
  let v11 : IVec S2x2048x16384 1 := (andi : (⟨S2x2048x16384, .i1⟩ : BufTy).Contents (Elt F) → (⟨S2x2048x16384, .i1⟩ : BufTy).Contents (Elt F) → (⟨S2x2048x16384, .i1⟩ : BufTy).Contents (Elt F)) v8 v10
  let call0_v0 : IVec S2x2048x16384 32 := (extui 32 · natLt_1_32) v11
  let call0_call0_c : IVec S_ 32 := constantI S_ 32 0#32
  let call0_call0_v0 : IVec S_ 32 := (broadcastInDim S_ ![] bcast_S_S_) call0_call0_c
  let v12 : IVec S2x2048x16384 32 := (fun x v => Host.reduceWindow IntOp.addi ![1, 1, 16384] ![1, 1, 1] ![0, 0, 16383] ![0, 0, 0] x v reduceWindows_S2x2048x16384_S2x2048x16384_w1s1p0_0_w1s1p0_0_w16384s1p16383_0 h_S_) call0_v0 call0_call0_v0
  let c : IVec S_ 32 := constantI S_ 32 1#32
  let v13 : IVec S2x2048x16384 32 := (broadcastInDim S2x2048x16384 ![] bcast_S_S2x2048x16384 : (⟨S_, .i32⟩ : BufTy).Contents (Elt F) → (⟨S2x2048x16384, .i32⟩ : BufTy).Contents (Elt F)) c
  let v14 : IVec S2x2048x16384 32 := (subi : (⟨S2x2048x16384, .i32⟩ : BufTy).Contents (Elt F) → (⟨S2x2048x16384, .i32⟩ : BufTy).Contents (Elt F) → (⟨S2x2048x16384, .i32⟩ : BufTy).Contents (Elt F)) v12 v13
  let v15 : IVec S2x2048x16384 32 := ((extui 32 · natLt_1_32) : (⟨S2x2048x16384, .i1⟩ : BufTy).Contents (Elt F) → (⟨S2x2048x16384, .i32⟩ : BufTy).Contents (Elt F)) v11
  let c_2 : IVec S_ 32 := constantI S_ 32 0#32
  let v16 : IVec S2x2048 32 := ((fun x v => Host.reduce IntOp.addi x v reducesTo_S2x2048x16384_S2x2048_d2 h_S_) : (⟨S2x2048x16384, .i32⟩ : BufTy).Contents (Elt F) → (⟨S_, .i32⟩ : BufTy).Contents (Elt F) → (⟨S2x2048, .i32⟩ : BufTy).Contents (Elt F)) v15 c_2
  let c_3 : IVec S_ 32 := constantI S_ 32 32#32
  let v17 : IVec S2x2048 32 := (broadcastInDim S2x2048 ![] bcast_S_S2x2048 : (⟨S_, .i32⟩ : BufTy).Contents (Elt F) → (⟨S2x2048, .i32⟩ : BufTy).Contents (Elt F)) c_3
  let v18 : IVec S2x2048 32 := (minsi : (⟨S2x2048, .i32⟩ : BufTy).Contents (Elt F) → (⟨S2x2048, .i32⟩ : BufTy).Contents (Elt F) → (⟨S2x2048, .i32⟩ : BufTy).Contents (Elt F)) v16 v17
  let c_4 : IVec S_ 32 := constantI S_ 32 32#32
  let v19 : IVec S2x2048x16384 32 := (broadcastInDim S2x2048x16384 ![] bcast_S_S2x2048x16384 : (⟨S_, .i32⟩ : BufTy).Contents (Elt F) → (⟨S2x2048x16384, .i32⟩ : BufTy).Contents (Elt F)) c_4
  let v20 : IVec S2x2048x16384 1 := (cmpi .slt : (⟨S2x2048x16384, .i32⟩ : BufTy).Contents (Elt F) → (⟨S2x2048x16384, .i32⟩ : BufTy).Contents (Elt F) → (⟨S2x2048x16384, .i1⟩ : BufTy).Contents (Elt F)) v14 v19
  let v21 : IVec S2x2048x16384 1 := (andi : (⟨S2x2048x16384, .i1⟩ : BufTy).Contents (Elt F) → (⟨S2x2048x16384, .i1⟩ : BufTy).Contents (Elt F) → (⟨S2x2048x16384, .i1⟩ : BufTy).Contents (Elt F)) v11 v20
  let c_5 : IVec S_ 32 := constantI S_ 32 32#32
  let call1_v0 : IVec S_ 32 := id c_5
  let call1_v1 : IVec S2x2048x16384 32 := (broadcastInDim S2x2048x16384 ![] bcast_S_S2x2048x16384) call1_v0
  let v22 : IVec S2x2048x16384 32 := select v21 v14 call1_v1
  let v23 : IVec S2 32 := iotaInDim S2 32 0
  let v24 : IVec S2x1x1 32 := (broadcastInDim S2x1x1 ![0] bcast_S2_S2x1x1_0 : (⟨S2, .i32⟩ : BufTy).Contents (Elt F) → (⟨S2x1x1, .i32⟩ : BufTy).Contents (Elt F)) v23
  let v25 : IVec S2048 32 := iotaInDim S2048 32 0
  let v26 : IVec S1x2048x1 32 := (broadcastInDim S1x2048x1 ![1] bcast_S2048_S1x2048x1_1 : (⟨S2048, .i32⟩ : BufTy).Contents (Elt F) → (⟨S1x2048x1, .i32⟩ : BufTy).Contents (Elt F)) v25
  let v27 : IVec S16384 32 := iotaInDim S16384 32 0
  let v28 : IVec S1x1x16384 32 := (broadcastInDim S1x1x16384 ![2] bcast_S16384_S1x1x16384_2 : (⟨S16384, .i32⟩ : BufTy).Contents (Elt F) → (⟨S1x1x16384, .i32⟩ : BufTy).Contents (Elt F)) v27
  let v29 : IVec S2x2048x16384 32 := (broadcastInDim S2x2048x16384 ![0, 1, 2] bcast_S1x1x16384_S2x2048x16384_0_1_2 : (⟨S1x1x16384, .i32⟩ : BufTy).Contents (Elt F) → (⟨S2x2048x16384, .i32⟩ : BufTy).Contents (Elt F)) v28
  let c_6 : IVec S_ 32 := constantI S_ 32 0#32
  let v30 : IVec S2x2048x33 32 := (broadcastInDim S2x2048x33 ![] bcast_S_S2x2048x33 : (⟨S_, .i32⟩ : BufTy).Contents (Elt F) → (⟨S2x2048x33, .i32⟩ : BufTy).Contents (Elt F)) c_6
  let c_7 : IVec S_ 32 := constantI S_ 32 0#32
  let v31 : IVec S2x1x1 32 := (broadcastInDim S2x1x1 ![] bcast_S_S2x1x1 : (⟨S_, .i32⟩ : BufTy).Contents (Elt F) → (⟨S2x1x1, .i32⟩ : BufTy).Contents (Elt F)) c_7
  let v32 : IVec S2x1x1 1 := (cmpi .slt : (⟨S2x1x1, .i32⟩ : BufTy).Contents (Elt F) → (⟨S2x1x1, .i32⟩ : BufTy).Contents (Elt F) → (⟨S2x1x1, .i1⟩ : BufTy).Contents (Elt F)) v24 v31
  let c_8 : IVec S_ 32 := constantI S_ 32 2#32
  let v33 : IVec S2x1x1 32 := (broadcastInDim S2x1x1 ![] bcast_S_S2x1x1 : (⟨S_, .i32⟩ : BufTy).Contents (Elt F) → (⟨S2x1x1, .i32⟩ : BufTy).Contents (Elt F)) c_8
  let v34 : IVec S2x1x1 32 := (addi : (⟨S2x1x1, .i32⟩ : BufTy).Contents (Elt F) → (⟨S2x1x1, .i32⟩ : BufTy).Contents (Elt F) → (⟨S2x1x1, .i32⟩ : BufTy).Contents (Elt F)) v24 v33
  let v35 : IVec S2x1x1 32 := (select : (⟨S2x1x1, .i1⟩ : BufTy).Contents (Elt F) → (⟨S2x1x1, .i32⟩ : BufTy).Contents (Elt F) → (⟨S2x1x1, .i32⟩ : BufTy).Contents (Elt F) → (⟨S2x1x1, .i32⟩ : BufTy).Contents (Elt F)) v32 v34 v24
  let c_9 : IVec S_ 32 := constantI S_ 32 0#32
  let v36 : IVec S1x2048x1 32 := (broadcastInDim S1x2048x1 ![] bcast_S_S1x2048x1 : (⟨S_, .i32⟩ : BufTy).Contents (Elt F) → (⟨S1x2048x1, .i32⟩ : BufTy).Contents (Elt F)) c_9
  let v37 : IVec S1x2048x1 1 := (cmpi .slt : (⟨S1x2048x1, .i32⟩ : BufTy).Contents (Elt F) → (⟨S1x2048x1, .i32⟩ : BufTy).Contents (Elt F) → (⟨S1x2048x1, .i1⟩ : BufTy).Contents (Elt F)) v26 v36
  let c_10 : IVec S_ 32 := constantI S_ 32 2048#32
  let v38 : IVec S1x2048x1 32 := (broadcastInDim S1x2048x1 ![] bcast_S_S1x2048x1 : (⟨S_, .i32⟩ : BufTy).Contents (Elt F) → (⟨S1x2048x1, .i32⟩ : BufTy).Contents (Elt F)) c_10
  let v39 : IVec S1x2048x1 32 := (addi : (⟨S1x2048x1, .i32⟩ : BufTy).Contents (Elt F) → (⟨S1x2048x1, .i32⟩ : BufTy).Contents (Elt F) → (⟨S1x2048x1, .i32⟩ : BufTy).Contents (Elt F)) v26 v38
  let v40 : IVec S1x2048x1 32 := (select : (⟨S1x2048x1, .i1⟩ : BufTy).Contents (Elt F) → (⟨S1x2048x1, .i32⟩ : BufTy).Contents (Elt F) → (⟨S1x2048x1, .i32⟩ : BufTy).Contents (Elt F) → (⟨S1x2048x1, .i32⟩ : BufTy).Contents (Elt F)) v37 v39 v26
  let c_11 : IVec S_ 32 := constantI S_ 32 0#32
  let v41 : IVec S2x2048x16384 32 := (broadcastInDim S2x2048x16384 ![] bcast_S_S2x2048x16384 : (⟨S_, .i32⟩ : BufTy).Contents (Elt F) → (⟨S2x2048x16384, .i32⟩ : BufTy).Contents (Elt F)) c_11
  let v42 : IVec S2x2048x16384 1 := (cmpi .slt : (⟨S2x2048x16384, .i32⟩ : BufTy).Contents (Elt F) → (⟨S2x2048x16384, .i32⟩ : BufTy).Contents (Elt F) → (⟨S2x2048x16384, .i1⟩ : BufTy).Contents (Elt F)) v22 v41
  let c_12 : IVec S_ 32 := constantI S_ 32 33#32
  let v43 : IVec S2x2048x16384 32 := (broadcastInDim S2x2048x16384 ![] bcast_S_S2x2048x16384 : (⟨S_, .i32⟩ : BufTy).Contents (Elt F) → (⟨S2x2048x16384, .i32⟩ : BufTy).Contents (Elt F)) c_12
  let v44 : IVec S2x2048x16384 32 := (addi : (⟨S2x2048x16384, .i32⟩ : BufTy).Contents (Elt F) → (⟨S2x2048x16384, .i32⟩ : BufTy).Contents (Elt F) → (⟨S2x2048x16384, .i32⟩ : BufTy).Contents (Elt F)) v22 v43
  let v45 : IVec S2x2048x16384 32 := (select : (⟨S2x2048x16384, .i1⟩ : BufTy).Contents (Elt F) → (⟨S2x2048x16384, .i32⟩ : BufTy).Contents (Elt F) → (⟨S2x2048x16384, .i32⟩ : BufTy).Contents (Elt F) → (⟨S2x2048x16384, .i32⟩ : BufTy).Contents (Elt F)) v42 v44 v22
  let v46 : IVec S2x2048x16384 32 := (broadcastInDim S2x2048x16384 ![0, 1, 2] bcast_S2x1x1_S2x2048x16384_0_1_2 : (⟨S2x1x1, .i32⟩ : BufTy).Contents (Elt F) → (⟨S2x2048x16384, .i32⟩ : BufTy).Contents (Elt F)) v35
  let v47 : IVec S2x2048x16384 32 := (broadcastInDim S2x2048x16384 ![0, 1, 2] bcast_S1x2048x1_S2x2048x16384_0_1_2 : (⟨S1x2048x1, .i32⟩ : BufTy).Contents (Elt F) → (⟨S2x2048x16384, .i32⟩ : BufTy).Contents (Elt F)) v40
  let v48 : IVec S2x2048x16384x1 32 := (broadcastInDim S2x2048x16384x1 ![0, 1, 2] bcast_S2x2048x16384_S2x2048x16384x1_0_1_2 : (⟨S2x2048x16384, .i32⟩ : BufTy).Contents (Elt F) → (⟨S2x2048x16384x1, .i32⟩ : BufTy).Contents (Elt F)) v46
  let v49 : IVec S2x2048x16384x1 32 := (broadcastInDim S2x2048x16384x1 ![0, 1, 2] bcast_S2x2048x16384_S2x2048x16384x1_0_1_2 : (⟨S2x2048x16384, .i32⟩ : BufTy).Contents (Elt F) → (⟨S2x2048x16384x1, .i32⟩ : BufTy).Contents (Elt F)) v47
  let v50 : IVec S2x2048x16384x1 32 := (broadcastInDim S2x2048x16384x1 ![0, 1, 2] bcast_S2x2048x16384_S2x2048x16384x1_0_1_2 : (⟨S2x2048x16384, .i32⟩ : BufTy).Contents (Elt F) → (⟨S2x2048x16384x1, .i32⟩ : BufTy).Contents (Elt F)) v45
  let v51 : IVec S2x2048x16384x3 32 := concatenate S2x2048x16384x3 3 [⟨S2x2048x16384x1, v48⟩, ⟨S2x2048x16384x1, v49⟩, ⟨S2x2048x16384x1, v50⟩] concatenates_S2x2048x16384x1_S2x2048x16384x1_S2x2048x16384x1_S2x2048x16384x3_d3
  let v52 : IVec S2x2048x33 32 := ((fun x i u => Host.scatter scatter_S2x2048x33_S2x2048x16384x3_S2x2048x16384_n_012_012_3 (fun _ b => b) x i u) : (⟨S2x2048x33, .i32⟩ : BufTy).Contents (Elt F) → (⟨S2x2048x16384x3, .i32⟩ : BufTy).Contents (Elt F) → (⟨S2x2048x16384, .i32⟩ : BufTy).Contents (Elt F) → (⟨S2x2048x33, .i32⟩ : BufTy).Contents (Elt F)) v30 v51 v29
  let v53 : IVec S2x2048x32 32 := ((extractStridedSlice S2x2048x32 ![0, 0, 0] · slices_S2x2048x33_S2x2048x32_0_0_0) : (⟨S2x2048x33, .i32⟩ : BufTy).Contents (Elt F) → (⟨S2x2048x32, .i32⟩ : BufTy).Contents (Elt F)) v52
  let v54 : IVec S32 32 := iotaInDim S32 32 0
  let v55 : IVec S1x1x32 32 := (broadcastInDim S1x1x32 ![2] bcast_S32_S1x1x32_2 : (⟨S32, .i32⟩ : BufTy).Contents (Elt F) → (⟨S1x1x32, .i32⟩ : BufTy).Contents (Elt F)) v54
  let v56 : IVec S2x2048x1 32 := (broadcastInDim S2x2048x1 ![0, 1] bcast_S2x2048_S2x2048x1_0_1 : (⟨S2x2048, .i32⟩ : BufTy).Contents (Elt F) → (⟨S2x2048x1, .i32⟩ : BufTy).Contents (Elt F)) v18
  let v57 : IVec S2x2048x32 32 := (broadcastInDim S2x2048x32 ![0, 1, 2] bcast_S1x1x32_S2x2048x32_0_1_2 : (⟨S1x1x32, .i32⟩ : BufTy).Contents (Elt F) → (⟨S2x2048x32, .i32⟩ : BufTy).Contents (Elt F)) v55
  let v58 : IVec S2x2048x32 32 := (broadcastInDim S2x2048x32 ![0, 1, 2] bcast_S2x2048x1_S2x2048x32_0_1_2 : (⟨S2x2048x1, .i32⟩ : BufTy).Contents (Elt F) → (⟨S2x2048x32, .i32⟩ : BufTy).Contents (Elt F)) v56
  let v59 : IVec S2x2048x32 1 := (cmpi .slt : (⟨S2x2048x32, .i32⟩ : BufTy).Contents (Elt F) → (⟨S2x2048x32, .i32⟩ : BufTy).Contents (Elt F) → (⟨S2x2048x32, .i1⟩ : BufTy).Contents (Elt F)) v57 v58
  let v60 : IVec S2x2048x1 32 := ((extractStridedSlice S2x2048x1 ![0, 0, 0] · slices_S2x2048x32_S2x2048x1_0_0_0) : (⟨S2x2048x32, .i32⟩ : BufTy).Contents (Elt F) → (⟨S2x2048x1, .i32⟩ : BufTy).Contents (Elt F)) v53
  let call2_v0 : IVec S2x2048x32 32 := (broadcastInDim S2x2048x32 ![0, 1, 2] bcast_S2x2048x1_S2x2048x32_0_1_2) v60
  let v61 : IVec S2x2048x32 32 := select v59 v53 call2_v0
  v61

/-- The operations %62 … %73 over an arbitrary index table `idx`: the two gathers along the point axis, the centring of the coordinates and the concatenation along the channel axis. -/
def refTail (idx : IVec S2x2048x32 32) (a0 : FVec F S2x16384x3 .f32) (a1 : FVec F S2x2048x3 .f32) (a2 : FVec F S2x64x16384 .f32) : FVec F S2x67x2048x32 .f32 :=
  let v62 : FVec F S2x3x16384 .f32 := ((transpose S2x3x16384 [0, 2, 1] · transposes_S2x16384x3_S2x3x16384_0_2_1) : (⟨S2x16384x3, .f32⟩ : BufTy).Contents (Elt F) → (⟨S2x3x16384, .f32⟩ : BufTy).Contents (Elt F)) a0
  let v63 : IVec S2x1x65536 32 := shapeCast S2x1x65536 idx shapeCasts_S2x2048x32_S2x1x65536
  let call3_c : IVec S_ 32 := constantI S_ 32 0#32
  let call3_v0 : IVec S2x1x65536 32 := (broadcastInDim S2x1x65536 ![] bcast_S_S2x1x65536) call3_c
  let call3_v1 : IVec S2x1x65536 1 := (cmpi .slt) v63 call3_v0
  let call3_c_0 : IVec S_ 32 := constantI S_ 32 16384#32
  let call3_v2 : IVec S2x1x65536 32 := (broadcastInDim S2x1x65536 ![] bcast_S_S2x1x65536) call3_c_0
  let call3_v3 : IVec S2x1x65536 32 := addi v63 call3_v2
  let call3_v4 : IVec S2x1x65536 32 := select call3_v1 call3_v3 v63
  let call3_v5 : IVec S2x65536x1 32 := shapeCast S2x65536x1 call3_v4 shapeCasts_S2x1x65536_S2x65536x1
  let call3_c_1 : IVec S1 32 := constantI S1 32 16383#32
  let call3_c_2 : IVec S_ 32 := constantI S_ 32 0#32
  let call3_v6 : IVec S2x65536x1 32 := (broadcastInDim S2x65536x1 ![] bcast_S_S2x65536x1) call3_c_2
  let call3_v7 : IVec S2x65536x1 1 := (cmpi .sge) call3_v5 call3_v6
  let call3_v8 : IVec S1x1x1 32 := (broadcastInDim S1x1x1 ![2] bcast_S1_S1x1x1_2) call3_c_1
  let call3_v9 : IVec S2x65536x1 32 := (broadcastInDim S2x65536x1 ![0, 1, 2] bcast_S1x1x1_S2x65536x1_0_1_2) call3_v8
  let call3_v10 : IVec S2x65536x1 1 := (cmpi .sle) call3_v5 call3_v9
  let call3_v11 : IVec S2x65536x1 1 := andi call3_v7 call3_v10
  let call3_c_3 : IVec S_ 1 := constantI S_ 1 1#1
  let call3_v12 : IVec S2x65536 1 := (fun x v => Host.reduce IntOp.andi x v reducesTo_S2x65536x1_S2x65536_d2 h_S_) call3_v11 call3_c_3
  let call3_v13 : FVec F S2x3x65536 .f32 := (fun x i => Host.gather gather_S2x3x16384_S2x65536x1_S2x3x65536_1_2_0_0_2_2_131 x i) v62 call3_v5
  let call3_v14 : IVec S2x3x65536 1 := (broadcastInDim S2x3x65536 ![0, 2] bcast_S2x65536_S2x3x65536_0_2) call3_v12
  let call3_cst : FVec F S_ .f32 := constant S_ .f32 0x7FC00000#32
  let call3_v15 : FVec F S2x3x65536 .f32 := (broadcastInDim S2x3x65536 ![] bcast_S_S2x3x65536) call3_cst
  let v64 : FVec F S2x3x65536 .f32 := select call3_v14 call3_v13 call3_v15
  let v65 : FVec F S2x3x2048x32 .f32 := shapeCast S2x3x2048x32 v64 shapeCasts_S2x3x65536_S2x3x2048x32
  let v66 : FVec F S2x3x2048 .f32 := ((transpose S2x3x2048 [0, 2, 1] · transposes_S2x2048x3_S2x3x2048_0_2_1) : (⟨S2x2048x3, .f32⟩ : BufTy).Contents (Elt F) → (⟨S2x3x2048, .f32⟩ : BufTy).Contents (Elt F)) a1
  let v67 : FVec F S2x3x2048x1 .f32 := (broadcastInDim S2x3x2048x1 ![0, 1, 2] bcast_S2x3x2048_S2x3x2048x1_0_1_2 : (⟨S2x3x2048, .f32⟩ : BufTy).Contents (Elt F) → (⟨S2x3x2048x1, .f32⟩ : BufTy).Contents (Elt F)) v66
  let v68 : FVec F S2x3x2048x32 .f32 := (broadcastInDim S2x3x2048x32 ![0, 1, 2, 3] bcast_S2x3x2048x1_S2x3x2048x32_0_1_2_3 : (⟨S2x3x2048x1, .f32⟩ : BufTy).Contents (Elt F) → (⟨S2x3x2048x32, .f32⟩ : BufTy).Contents (Elt F)) v67
  let v69 : FVec F S2x3x2048x32 .f32 := (subf : (⟨S2x3x2048x32, .f32⟩ : BufTy).Contents (Elt F) → (⟨S2x3x2048x32, .f32⟩ : BufTy).Contents (Elt F) → (⟨S2x3x2048x32, .f32⟩ : BufTy).Contents (Elt F)) v65 v68
  let v70 : IVec S2x1x65536 32 := shapeCast S2x1x65536 idx shapeCasts_S2x2048x32_S2x1x65536
  let call4_c : IVec S_ 32 := constantI S_ 32 0#32
  let call4_v0 : IVec S2x1x65536 32 := (broadcastInDim S2x1x65536 ![] bcast_S_S2x1x65536) call4_c
  let call4_v1 : IVec S2x1x65536 1 := (cmpi .slt) v70 call4_v0
  let call4_c_0 : IVec S_ 32 := constantI S_ 32 16384#32
  let call4_v2 : IVec S2x1x65536 32 := (broadcastInDim S2x1x65536 ![] bcast_S_S2x1x65536) call4_c_0
  let call4_v3 : IVec S2x1x65536 32 := addi v70 call4_v2
  let call4_v4 : IVec S2x1x65536 32 := select call4_v1 call4_v3 v70
  let call4_v5 : IVec S2x65536x1 32 := shapeCast S2x65536x1 call4_v4 shapeCasts_S2x1x65536_S2x65536x1
  let call4_c_1 : IVec S1 32 := constantI S1 32 16383#32
  let call4_c_2 : IVec S_ 32 := constantI S_ 32 0#32
  let call4_v6 : IVec S2x65536x1 32 := (broadcastInDim S2x65536x1 ![] bcast_S_S2x65536x1) call4_c_2
  let call4_v7 : IVec S2x65536x1 1 := (cmpi .sge) call4_v5 call4_v6
  let call4_v8 : IVec S1x1x1 32 := (broadcastInDim S1x1x1 ![2] bcast_S1_S1x1x1_2) call4_c_1
  let call4_v9 : IVec S2x65536x1 32 := (broadcastInDim S2x65536x1 ![0, 1, 2] bcast_S1x1x1_S2x65536x1_0_1_2) call4_v8
  let call4_v10 : IVec S2x65536x1 1 := (cmpi .sle) call4_v5 call4_v9
  let call4_v11 : IVec S2x65536x1 1 := andi call4_v7 call4_v10
  let call4_c_3 : IVec S_ 1 := constantI S_ 1 1#1
  let call4_v12 : IVec S2x65536 1 := (fun x v => Host.reduce IntOp.andi x v reducesTo_S2x65536x1_S2x65536_d2 h_S_) call4_v11 call4_c_3
  let call4_v13 : FVec F S2x64x65536 .f32 := (fun x i => Host.gather gather_S2x64x16384_S2x65536x1_S2x64x65536_1_2_0_0_2_2_1641 x i) a2 call4_v5
  let call4_v14 : IVec S2x64x65536 1 := (broadcastInDim S2x64x65536 ![0, 2] bcast_S2x65536_S2x64x65536_0_2) call4_v12
  let call4_cst : FVec F S_ .f32 := constant S_ .f32 0x7FC00000#32
  let call4_v15 : FVec F S2x64x65536 .f32 := (broadcastInDim S2x64x65536 ![] bcast_S_S2x64x65536) call4_cst
  let v71 : FVec F S2x64x65536 .f32 := select call4_v14 call4_v13 call4_v15
  let v72 : FVec F S2x64x2048x32 .f32 := shapeCast S2x64x2048x32 v71 shapeCasts_S2x64x65536_S2x64x2048x32
  let v73 : FVec F S2x67x2048x32 .f32 := ((fun a b => concatenate S2x67x2048x32 1 [⟨S2x3x2048x32, a⟩, ⟨S2x64x2048x32, b⟩] concatenates_S2x3x2048x32_S2x64x2048x32_S2x67x2048x32_d1) : (⟨S2x3x2048x32, .f32⟩ : BufTy).Contents (Elt F) → (⟨S2x64x2048x32, .f32⟩ : BufTy).Contents (Elt F) → (⟨S2x67x2048x32, .f32⟩ : BufTy).Contents (Elt F)) v69 v72
  v73

/-- The second result %73: the tail at the reference's own index table. -/
def refOut (a0 : FVec F S2x16384x3 .f32) (a1 : FVec F S2x2048x3 .f32) (a2 : FVec F S2x64x16384 .f32) : FVec F S2x67x2048x32 .f32 :=
  refTail (refIdx a0 a1) a0 a1 a2

end Cert.ReferenceIdeal.Hand

end
-- ==== Proof.Ideal.HostRead.lean ====
/-
  What the kernel program's host operations leave in the buffers the region reads, as terms of the argument arrays:
  the neighbour count %18 and the neighbour index table %61 are the REFERENCE's terms (the two programs' operations
  %0 … %61 are the same, operation for operation, over the same shapes), the index column %69 its flattening, the
  table's two bf16 halves %65 and %68 and the repeated centres %72 the terms of Terms. Each buffer after the line is its
  operation's function of its operands after the line (HostReadLine), back to the arguments.
-/
import proofs.«128314_j31576599560762_2_alg».proof.Proof.Ideal.HostReadLine
import proofs.«128314_j31576599560762_2_alg».proof.Proof.Ideal.Terms
import proofs.«128314_j31576599560762_2_alg».proof.Proof.RefTerm

noncomputable section

namespace Cert.KernelIdeal.HandValue

open Idealize.ShloMosaic Idealize.ShloMosaic.TcCoe Idealize.SL.Sem Idealize.ShloMosaic.StableHlo Cert.KernelIdeal Cert.KernelIdeal.Facts₀

variable {F : FTy → Type} [FloatOps F]

/- The fold over the line is never opened here: each step cites a lemma about it; nor are the reductions, the gather and the
   scatter, whose bodies are folds and searches over an operand's elements. -/
attribute [local irreducible] StableHlo.after Host.reduce Host.reduceWindow Host.reduceAdd Host.gather Host.scatter pad

/-- The neighbour count after the host line is the reference's term. -/
theorem after_v18 (V : Valuation τ sig (Elt F)) :
    after kops V (Proc.devRef .tc main_v18) = Cert.ReferenceIdeal.Hand.refCnt (V (Proc.devRef .tc main_arg0)) (V (Proc.devRef .tc main_arg1)) := by
  rw [k_v18 V, k_v17 V, k_c_3 V, k_v16 V, k_c_2 V, k_v15 V, k_v11 V, k_v10 V,
    k_v9 V, k_cst_1 V, k_v8 V, k_v7 V, k_cst_0 V, k_v6 V, k_cst V, k_v5 V,
    k_v4 V, k_v3 V, k_v2 V, k_v1 V, k_v0 V, k_a0 V, k_a1 V]
  rfl

/-- The neighbour index table after the host line is the reference's term. -/
theorem after_v61 (V : Valuation τ sig (Elt F)) :
    after kops V (Proc.devRef .tc main_v61) = Cert.ReferenceIdeal.Hand.refIdx (V (Proc.devRef .tc main_arg0)) (V (Proc.devRef .tc main_arg1)) := by
  rw [k_v61 V, k_call2_v0 V, k_v60 V, k_v59 V, k_v58 V, k_v57 V, k_v56 V, k_v55 V,
    k_v54 V, k_v53 V, k_v52 V, k_v51 V, k_v50 V, k_v49 V, k_v48 V, k_v47 V,
    k_v46 V, k_v45 V, k_v44 V, k_v43 V, k_c_12 V, k_v42 V, k_v41 V, k_c_11 V,
    k_v40 V, k_v39 V, k_v38 V, k_c_10 V, k_v37 V, k_v36 V, k_c_9 V, k_v35 V,
    k_v34 V, k_v33 V, k_c_8 V, k_v32 V, k_v31 V, k_c_7 V, k_v30 V, k_c_6 V,
    k_v29 V, k_v28 V, k_v27 V, k_v26 V, k_v25 V, k_v24 V, k_v23 V, k_v22 V,
    k_call1_v1 V, k_call1_v0 V, k_c_5 V, k_v21 V, k_v20 V, k_v19 V, k_c_4 V, k_v18 V,
    k_v17 V, k_c_3 V, k_v16 V, k_c_2 V, k_v15 V, k_v14 V, k_v13 V, k_c V,
    k_v12 V, k_call0_call0_v0 V, k_call0_call0_c V, k_call0_v0 V, k_v11 V, k_v10 V, k_v9 V, k_cst_1 V,
    k_v8 V, k_v7 V, k_cst_0 V, k_v6 V, k_cst V, k_v5 V, k_v4 V, k_v3 V,
    k_v2 V, k_v1 V, k_v0 V, k_a0 V, k_a1 V]
  rfl

/-- The index column after the host line. -/
theorem after_v69 (V : Valuation τ sig (Elt F)) :
    after kops V (Proc.devRef .tc main_v69) = ixColOf (Cert.ReferenceIdeal.Hand.refIdx (V (Proc.devRef .tc main_arg0)) (V (Proc.devRef .tc main_arg1))) := by
  rw [k_v69 V, after_v61]
  rfl

/-- The table's first bf16 half after the host line. -/
theorem after_v65 (V : Valuation τ sig (Elt F)) :
    after kops V (Proc.devRef .tc main_v65) = hiOf (V (Proc.devRef .tc main_arg0)) (V (Proc.devRef .tc main_arg2)) := by
  rw [k_v65 V, k_v64 V, k_call3_v0 V, k_c_13 V, k_v63 V, k_v62 V, k_a0 V, k_a2 V]
  rfl

/-- The table less its first half, as bf16, after the host line. -/
theorem after_v68 (V : Valuation τ sig (Elt F)) :
    after kops V (Proc.devRef .tc main_v68) = loOf (V (Proc.devRef .tc main_arg0)) (V (Proc.devRef .tc main_arg2)) := by
  rw [k_v68 V, k_v67 V, k_v66 V, k_v65 V, k_v64 V, k_call3_v0 V, k_c_13 V, k_v63 V,
    k_v62 V, k_a0 V, k_a2 V]
  rfl

/-- The repeated, padded centres after the host line. -/
theorem after_v72 (V : Valuation τ sig (Elt F)) :
    after kops V (Proc.devRef .tc main_v72) = nxOf (V (Proc.devRef .tc main_arg1)) := by
  rw [k_v72 V, k_call4_v0 V, k_c_14 V, k_v71 V, k_v70 V, k_a1 V]
  rfl

/-! The same at the region's entry contents, on every device. -/

variable (m : (ℓ : Loc nD τ sig) → Buf (Elt F) ℓ) (c : Dev nD)

theorem V_v18 : Hand.V m c main_v18 = Cert.ReferenceIdeal.Hand.refCnt (m ((c : Thread nD τ).loc main_arg0)) (m ((c : Thread nD τ).loc main_arg1)) := after_v18 _
theorem V_v61 : Hand.V m c main_v61 = Cert.ReferenceIdeal.Hand.refIdx (m ((c : Thread nD τ).loc main_arg0)) (m ((c : Thread nD τ).loc main_arg1)) := after_v61 _
theorem V_v69 : Hand.V m c main_v69 = ixColOf (Cert.ReferenceIdeal.Hand.refIdx (m ((c : Thread nD τ).loc main_arg0)) (m ((c : Thread nD τ).loc main_arg1))) := after_v69 _
theorem V_v65 : Hand.V m c main_v65 = hiOf (m ((c : Thread nD τ).loc main_arg0)) (m ((c : Thread nD τ).loc main_arg2)) := after_v65 _
theorem V_v68 : Hand.V m c main_v68 = loOf (m ((c : Thread nD τ).loc main_arg0)) (m ((c : Thread nD τ).loc main_arg2)) := after_v68 _
theorem V_v72 : Hand.V m c main_v72 = nxOf (m ((c : Thread nD τ).loc main_arg1)) := after_v72 _
/-- The argument arrays at the region's entry are the launch's. -/
theorem V_arg0 : Hand.V m c main_arg0 = (m ((c : Thread nD τ).loc main_arg0)) := k_a0 _
theorem V_arg1 : Hand.V m c main_arg1 = (m ((c : Thread nD τ).loc main_arg1)) := k_a1 _
theorem V_arg2 : Hand.V m c main_arg2 = (m ((c : Thread nD τ).loc main_arg2)) := k_a2 _

end Cert.KernelIdeal.HandValue

end
-- ==== Proof.Ideal.TailRead.lean ====
/-
  The kernel program's three host operations AFTER the region — the slice of the region's result to 67 channels, the
  split of its query axis into (centre, slot), the move of the channel axis to the front — read back: the second result
  is `tailOf` of the region's result array, whatever the region left in it; and the neighbour count, which none of the
  three writes and which is no window's array, ends as it stood at the region's entry.
-/
import proofs.«128314_j31576599560762_2_alg».proof.Proof.Ideal.Kept
import proofs.«128314_j31576599560762_2_alg».proof.Proof.Ideal.Terms
import proofs.«128314_j31576599560762_2_alg».proof.Proof.LibHostLine

noncomputable section

namespace Cert.KernelIdeal.HandValue

open Cert.KernelIdeal Cert.KernelIdeal.Gen
open Idealize.ShloMosaic Idealize.ShloMosaic.TcCoe Idealize.ShloMosaic.StableHlo
open Idealize.SL.Sem
open Idealize.ShloMosaic.Rounds
open Idealize.ShloMosaic.Pipeline (Dat)

variable {F : FTy → Type} [FloatOps F]

/-- The three operations over any contents: the last result is `tailOf` of what buffer %73 holds. -/
theorem tail_line (X : Valuation τ sig (Elt F)) :
    StableHlo.after hostOps1 X (Proc.devRef .tc main_v76) = tailOf (X (Proc.devRef .tc main_v73)) := by
  after_results
  rfl

/-- Each of the three writes its own result buffer, and only it. -/
theorem tail_writes : Line.WritesAre (hostOps1 : List (HloOp τ sig (Elt F))) [main_v74, main_v75, main_v76] :=
  .cons rfl (.cons rfl (.cons rfl .nil))

variable (m : (ℓ : Loc nD τ sig) → Buf (Elt F) ℓ)

/-- The second result after the whole program: `tailOf` of the region's result array (window 4's array is buffer %73). -/
theorem tail_v76 (dats : (p : Fin 1) → (c : Dev nD) → Dat τ (Elt F) Unit ℕ (UR sig nD τ) ℕ (cfgs p) c) (c : Dev nD) :
    Pipeline.afterTail₀ cfgs dats 0 (Hand.V0 m) [hostOps1] c main_v76 = tailOf ((dats 0 c).arrAt 4 cfg0.N) := by
  unfold Pipeline.afterTail₀
  exact (tail_line _).trans (congrArg tailOf (Pipeline.withArrays_arr spec0 launch0.win.arr_inj c _ _ 4))

/-- The neighbour count after the whole program is the one at the region's entry: no operation after the region writes
    buffer %18, and it is no window's array. -/
theorem tail_v18 (dats : (p : Fin 1) → (c : Dev nD) → Dat τ (Elt F) Unit ℕ (UR sig nD τ) ℕ (cfgs p) c) (c : Dev nD) :
    Pipeline.afterTail₀ cfgs dats 0 (Hand.V0 m) [hostOps1] c main_v18 = Hand.V m c main_v18 := by
  unfold Pipeline.afterTail₀
  exact (Line.after_keep (Line.WritesAre.flatten (.cons tail_writes .nil)) (by decide) _).trans
    (Pipeline.withArrays_of_ne _ c (Hand.V0 m c) _ main_v18 (by exact (by decide : ∀ w, Pipeline.arrRef spec0 w ≠ main_v18)))

end Cert.KernelIdeal.HandValue

end
-- ==== Proof.Ideal.IxCol.lean ====
/-
  Every entry of the index table flattened to a column is an entry of the table; so a bound on the table's
  words is a bound on the column's.
-/
import proofs.«128314_j31576599560762_2_alg».proof.Proof.Ideal.Terms

namespace Cert.KernelIdeal.HandValue

open Idealize.ShloMosaic Cert.KernelIdeal Cert.KernelIdeal.Facts₀

/-- A property of every word of the index table is a property of every word of the column. -/
theorem ixCol_pred (idx : IVec S2x2048x32 32) (P : BitVec 32 → Prop) (h : ∀ j, P (idx j)) (k : S2x65536x1.Idx) :
    P (ixColOf idx k) := h _

/-- Every word of the column is below 16384 when every word of the table is. -/
theorem ixCol_lt (idx : IVec S2x2048x32 32) (hr : ∀ j, (idx j).toNat < 16384) (k : S2x65536x1.Idx) :
    (ixColOf idx k).toNat < 16384 := hr _

end Cert.KernelIdeal.HandValue
-- ==== Proof.RefOps.lean ====
/-
  The reference program's @main as ONE straight line of host operations: the operations of its two printed halves in
  order, each call of a module-local function replaced by the operations of its body over that call's buffers. The line
  is in single-assignment form — operation k (from 0) writes buffer k + 3, once — which is what lets a buffer be read
  after the whole line from the operation that writes it (LibHostLine).
-/
import proofs.«128314_j31576599560762_2_alg».proof.Proof.RefTerm
import proofs.«128314_j31576599560762_2_alg».proof.Proof.LibHostLine
import Idealize.ShloMosaic.Lib.StableHlo.Run

noncomputable section

namespace Cert.ReferenceIdeal.Hand

open Idealize.ShloMosaic Idealize.ShloMosaic.TcCoe Idealize.SL.Sem Idealize.ShloMosaic.StableHlo Cert.ReferenceIdeal Cert.ReferenceIdeal.Facts₀

variable {F : FTy → Type} [FloatOps F]

/-- The operations of @main's first half (its statements 1 … 60), the calls of `cumsum` and `_where` unfolded. -/
abbrev ops0 : List (HloOp τ sig (Elt F)) :=
  [ unary main_arg1 main_v0 (broadcastInDim S2x2048x1x3 ![0, 1, 3] bcast_S2x2048x3_S2x2048x1x3_0_1_3 : (⟨S2x2048x3, .f32⟩ : BufTy).Contents (Elt F) → (⟨S2x2048x1x3, .f32⟩ : BufTy).Contents (Elt F)),
    unary main_arg0 main_v1 (broadcastInDim S2x1x16384x3 ![0, 2, 3] bcast_S2x16384x3_S2x1x16384x3_0_2_3 : (⟨S2x16384x3, .f32⟩ : BufTy).Contents (Elt F) → (⟨S2x1x16384x3, .f32⟩ : BufTy).Contents (Elt F)),
    unary main_v0 main_v2 (broadcastInDim S2x2048x16384x3 ![0, 1, 2, 3] bcast_S2x2048x1x3_S2x2048x16384x3_0_1_2_3 : (⟨S2x2048x1x3, .f32⟩ : BufTy).Contents (Elt F) → (⟨S2x2048x16384x3, .f32⟩ : BufTy).Contents (Elt F)),
    unary main_v1 main_v3 (broadcastInDim S2x2048x16384x3 ![0, 1, 2, 3] bcast_S2x1x16384x3_S2x2048x16384x3_0_1_2_3 : (⟨S2x1x16384x3, .f32⟩ : BufTy).Contents (Elt F) → (⟨S2x2048x16384x3, .f32⟩ : BufTy).Contents (Elt F)),
    binary main_v2 main_v3 main_v4 (subf : (⟨S2x2048x16384x3, .f32⟩ : BufTy).Contents (Elt F) → (⟨S2x2048x16384x3, .f32⟩ : BufTy).Contents (Elt F) → (⟨S2x2048x16384x3, .f32⟩ : BufTy).Contents (Elt F)),
    binary main_v4 main_v4 main_v5 (mulf : (⟨S2x2048x16384x3, .f32⟩ : BufTy).Contents (Elt F) → (⟨S2x2048x16384x3, .f32⟩ : BufTy).Contents (Elt F) → (⟨S2x2048x16384x3, .f32⟩ : BufTy).Contents (Elt F)),
    nullary main_cst (constant S_ .f32 0x00000000#32),
    binary main_v5 main_cst main_v6 ((fun x v => Host.reduceAdd x v reducesTo_S2x2048x16384x3_S2x2048x16384_d3 h_S_) : (⟨S2x2048x16384x3, .f32⟩ : BufTy).Contents (Elt F) → (⟨S_, .f32⟩ : BufTy).Contents (Elt F) → (⟨S2x2048x16384, .f32⟩ : BufTy).Contents (Elt F)),
    nullary main_cst_0 (constant S_ .f32 0x3B23D70A#32),
    unary main_cst_0 main_v7 (broadcastInDim S2x2048x16384 ![] bcast_S_S2x2048x16384 : (⟨S_, .f32⟩ : BufTy).Contents (Elt F) → (⟨S2x2048x16384, .f32⟩ : BufTy).Contents (Elt F)),
    binary main_v6 main_v7 main_v8 (cmpf .oge : (⟨S2x2048x16384, .f32⟩ : BufTy).Contents (Elt F) → (⟨S2x2048x16384, .f32⟩ : BufTy).Contents (Elt F) → (⟨S2x2048x16384, .i1⟩ : BufTy).Contents (Elt F)),
    nullary main_cst_1 (constant S_ .f32 0x3D23D70A#32),
    unary main_cst_1 main_v9 (broadcastInDim S2x2048x16384 ![] bcast_S_S2x2048x16384 : (⟨S_, .f32⟩ : BufTy).Contents (Elt F) → (⟨S2x2048x16384, .f32⟩ : BufTy).Contents (Elt F)),
    binary main_v6 main_v9 main_v10 (cmpf .olt : (⟨S2x2048x16384, .f32⟩ : BufTy).Contents (Elt F) → (⟨S2x2048x16384, .f32⟩ : BufTy).Contents (Elt F) → (⟨S2x2048x16384, .i1⟩ : BufTy).Contents (Elt F)),
    binary main_v8 main_v10 main_v11 (andi : (⟨S2x2048x16384, .i1⟩ : BufTy).Contents (Elt F) → (⟨S2x2048x16384, .i1⟩ : BufTy).Contents (Elt F) → (⟨S2x2048x16384, .i1⟩ : BufTy).Contents (Elt F)),
    TRef.unary (.of main_v11 : TRef sig ⟨S2x2048x16384, .i1⟩) main_call0.v0 (extui 32 · natLt_1_32),
    TRef.nullary main_call0.call0.c (constantI S_ 32 0#32),
    TRef.unary main_call0.call0.c main_call0.call0.v0 (broadcastInDim S_ ![] bcast_S_S_),
    TRef.binary main_call0.v0 main_call0.call0.v0 main_call0.call0.v1 (fun x v => Host.reduceWindow IntOp.addi ![1, 1, 16384] ![1, 1, 1] ![0, 0, 16383] ![0, 0, 0] x v reduceWindows_S2x2048x16384_S2x2048x16384_w1s1p0_0_w1s1p0_0_w16384s1p16383_0 h_S_),
    nullary main_c (constantI S_ 32 1#32),
    unary main_c main_v13 (broadcastInDim S2x2048x16384 ![] bcast_S_S2x2048x16384 : (⟨S_, .i32⟩ : BufTy).Contents (Elt F) → (⟨S2x2048x16384, .i32⟩ : BufTy).Contents (Elt F)),
    binary main_v12 main_v13 main_v14 (subi : (⟨S2x2048x16384, .i32⟩ : BufTy).Contents (Elt F) → (⟨S2x2048x16384, .i32⟩ : BufTy).Contents (Elt F) → (⟨S2x2048x16384, .i32⟩ : BufTy).Contents (Elt F)),
    unary main_v11 main_v15 ((extui 32 · natLt_1_32) : (⟨S2x2048x16384, .i1⟩ : BufTy).Contents (Elt F) → (⟨S2x2048x16384, .i32⟩ : BufTy).Contents (Elt F)),
    nullary main_c_2 (constantI S_ 32 0#32),
    binary main_v15 main_c_2 main_v16 ((fun x v => Host.reduce IntOp.addi x v reducesTo_S2x2048x16384_S2x2048_d2 h_S_) : (⟨S2x2048x16384, .i32⟩ : BufTy).Contents (Elt F) → (⟨S_, .i32⟩ : BufTy).Contents (Elt F) → (⟨S2x2048, .i32⟩ : BufTy).Contents (Elt F)),
    nullary main_c_3 (constantI S_ 32 32#32),
    unary main_c_3 main_v17 (broadcastInDim S2x2048 ![] bcast_S_S2x2048 : (⟨S_, .i32⟩ : BufTy).Contents (Elt F) → (⟨S2x2048, .i32⟩ : BufTy).Contents (Elt F)),
    binary main_v16 main_v17 main_v18 (minsi : (⟨S2x2048, .i32⟩ : BufTy).Contents (Elt F) → (⟨S2x2048, .i32⟩ : BufTy).Contents (Elt F) → (⟨S2x2048, .i32⟩ : BufTy).Contents (Elt F)),
    nullary main_c_4 (constantI S_ 32 32#32),
    unary main_c_4 main_v19 (broadcastInDim S2x2048x16384 ![] bcast_S_S2x2048x16384 : (⟨S_, .i32⟩ : BufTy).Contents (Elt F) → (⟨S2x2048x16384, .i32⟩ : BufTy).Contents (Elt F)),
    binary main_v14 main_v19 main_v20 (cmpi .slt : (⟨S2x2048x16384, .i32⟩ : BufTy).Contents (Elt F) → (⟨S2x2048x16384, .i32⟩ : BufTy).Contents (Elt F) → (⟨S2x2048x16384, .i1⟩ : BufTy).Contents (Elt F)),
    binary main_v11 main_v20 main_v21 (andi : (⟨S2x2048x16384, .i1⟩ : BufTy).Contents (Elt F) → (⟨S2x2048x16384, .i1⟩ : BufTy).Contents (Elt F) → (⟨S2x2048x16384, .i1⟩ : BufTy).Contents (Elt F)),
    nullary main_c_5 (constantI S_ 32 32#32),
    TRef.unary (.of main_c_5 : TRef sig ⟨S_, .i32⟩) main_call1.v0 id,
    TRef.unary main_call1.v0 main_call1.v1 (broadcastInDim S2x2048x16384 ![] bcast_S_S2x2048x16384),
    TRef.ternary (.of main_v21 : TRef sig ⟨S2x2048x16384, .i1⟩) (.of main_v14 : TRef sig ⟨S2x2048x16384, .i32⟩) main_call1.v1 main_call1.v2 select,
    nullary main_v23 (iotaInDim S2 32 0),
    unary main_v23 main_v24 (broadcastInDim S2x1x1 ![0] bcast_S2_S2x1x1_0 : (⟨S2, .i32⟩ : BufTy).Contents (Elt F) → (⟨S2x1x1, .i32⟩ : BufTy).Contents (Elt F)),
    nullary main_v25 (iotaInDim S2048 32 0),
    unary main_v25 main_v26 (broadcastInDim S1x2048x1 ![1] bcast_S2048_S1x2048x1_1 : (⟨S2048, .i32⟩ : BufTy).Contents (Elt F) → (⟨S1x2048x1, .i32⟩ : BufTy).Contents (Elt F)),
    nullary main_v27 (iotaInDim S16384 32 0),
    unary main_v27 main_v28 (broadcastInDim S1x1x16384 ![2] bcast_S16384_S1x1x16384_2 : (⟨S16384, .i32⟩ : BufTy).Contents (Elt F) → (⟨S1x1x16384, .i32⟩ : BufTy).Contents (Elt F)),
    unary main_v28 main_v29 (broadcastInDim S2x2048x16384 ![0, 1, 2] bcast_S1x1x16384_S2x2048x16384_0_1_2 : (⟨S1x1x16384, .i32⟩ : BufTy).Contents (Elt F) → (⟨S2x2048x16384, .i32⟩ : BufTy).Contents (Elt F)),
    nullary main_c_6 (constantI S_ 32 0#32),
    unary main_c_6 main_v30 (broadcastInDim S2x2048x33 ![] bcast_S_S2x2048x33 : (⟨S_, .i32⟩ : BufTy).Contents (Elt F) → (⟨S2x2048x33, .i32⟩ : BufTy).Contents (Elt F)),
    nullary main_c_7 (constantI S_ 32 0#32),
    unary main_c_7 main_v31 (broadcastInDim S2x1x1 ![] bcast_S_S2x1x1 : (⟨S_, .i32⟩ : BufTy).Contents (Elt F) → (⟨S2x1x1, .i32⟩ : BufTy).Contents (Elt F)),
    binary main_v24 main_v31 main_v32 (cmpi .slt : (⟨S2x1x1, .i32⟩ : BufTy).Contents (Elt F) → (⟨S2x1x1, .i32⟩ : BufTy).Contents (Elt F) → (⟨S2x1x1, .i1⟩ : BufTy).Contents (Elt F)),
    nullary main_c_8 (constantI S_ 32 2#32),
    unary main_c_8 main_v33 (broadcastInDim S2x1x1 ![] bcast_S_S2x1x1 : (⟨S_, .i32⟩ : BufTy).Contents (Elt F) → (⟨S2x1x1, .i32⟩ : BufTy).Contents (Elt F)),
    binary main_v24 main_v33 main_v34 (addi : (⟨S2x1x1, .i32⟩ : BufTy).Contents (Elt F) → (⟨S2x1x1, .i32⟩ : BufTy).Contents (Elt F) → (⟨S2x1x1, .i32⟩ : BufTy).Contents (Elt F)),
    ternary main_v32 main_v34 main_v24 main_v35 (select : (⟨S2x1x1, .i1⟩ : BufTy).Contents (Elt F) → (⟨S2x1x1, .i32⟩ : BufTy).Contents (Elt F) → (⟨S2x1x1, .i32⟩ : BufTy).Contents (Elt F) → (⟨S2x1x1, .i32⟩ : BufTy).Contents (Elt F)),
    nullary main_c_9 (constantI S_ 32 0#32),
    unary main_c_9 main_v36 (broadcastInDim S1x2048x1 ![] bcast_S_S1x2048x1 : (⟨S_, .i32⟩ : BufTy).Contents (Elt F) → (⟨S1x2048x1, .i32⟩ : BufTy).Contents (Elt F)),
    binary main_v26 main_v36 main_v37 (cmpi .slt : (⟨S1x2048x1, .i32⟩ : BufTy).Contents (Elt F) → (⟨S1x2048x1, .i32⟩ : BufTy).Contents (Elt F) → (⟨S1x2048x1, .i1⟩ : BufTy).Contents (Elt F)),
    nullary main_c_10 (constantI S_ 32 2048#32),
    unary main_c_10 main_v38 (broadcastInDim S1x2048x1 ![] bcast_S_S1x2048x1 : (⟨S_, .i32⟩ : BufTy).Contents (Elt F) → (⟨S1x2048x1, .i32⟩ : BufTy).Contents (Elt F)),
    binary main_v26 main_v38 main_v39 (addi : (⟨S1x2048x1, .i32⟩ : BufTy).Contents (Elt F) → (⟨S1x2048x1, .i32⟩ : BufTy).Contents (Elt F) → (⟨S1x2048x1, .i32⟩ : BufTy).Contents (Elt F)),
    ternary main_v37 main_v39 main_v26 main_v40 (select : (⟨S1x2048x1, .i1⟩ : BufTy).Contents (Elt F) → (⟨S1x2048x1, .i32⟩ : BufTy).Contents (Elt F) → (⟨S1x2048x1, .i32⟩ : BufTy).Contents (Elt F) → (⟨S1x2048x1, .i32⟩ : BufTy).Contents (Elt F)),
    nullary main_c_11 (constantI S_ 32 0#32),
    unary main_c_11 main_v41 (broadcastInDim S2x2048x16384 ![] bcast_S_S2x2048x16384 : (⟨S_, .i32⟩ : BufTy).Contents (Elt F) → (⟨S2x2048x16384, .i32⟩ : BufTy).Contents (Elt F)),
    binary main_v22 main_v41 main_v42 (cmpi .slt : (⟨S2x2048x16384, .i32⟩ : BufTy).Contents (Elt F) → (⟨S2x2048x16384, .i32⟩ : BufTy).Contents (Elt F) → (⟨S2x2048x16384, .i1⟩ : BufTy).Contents (Elt F)),
    nullary main_c_12 (constantI S_ 32 33#32),
    unary main_c_12 main_v43 (broadcastInDim S2x2048x16384 ![] bcast_S_S2x2048x16384 : (⟨S_, .i32⟩ : BufTy).Contents (Elt F) → (⟨S2x2048x16384, .i32⟩ : BufTy).Contents (Elt F)),
    binary main_v22 main_v43 main_v44 (addi : (⟨S2x2048x16384, .i32⟩ : BufTy).Contents (Elt F) → (⟨S2x2048x16384, .i32⟩ : BufTy).Contents (Elt F) → (⟨S2x2048x16384, .i32⟩ : BufTy).Contents (Elt F)) ]

/-- The operations of @main's second half (statements 61 … 90), the calls of `_where_1` and the two `take_along_axis` unfolded. -/
abbrev ops1 : List (HloOp τ sig (Elt F)) :=
  [ ternary main_v42 main_v44 main_v22 main_v45 (select : (⟨S2x2048x16384, .i1⟩ : BufTy).Contents (Elt F) → (⟨S2x2048x16384, .i32⟩ : BufTy).Contents (Elt F) → (⟨S2x2048x16384, .i32⟩ : BufTy).Contents (Elt F) → (⟨S2x2048x16384, .i32⟩ : BufTy).Contents (Elt F)),
    unary main_v35 main_v46 (broadcastInDim S2x2048x16384 ![0, 1, 2] bcast_S2x1x1_S2x2048x16384_0_1_2 : (⟨S2x1x1, .i32⟩ : BufTy).Contents (Elt F) → (⟨S2x2048x16384, .i32⟩ : BufTy).Contents (Elt F)),
    unary main_v40 main_v47 (broadcastInDim S2x2048x16384 ![0, 1, 2] bcast_S1x2048x1_S2x2048x16384_0_1_2 : (⟨S1x2048x1, .i32⟩ : BufTy).Contents (Elt F) → (⟨S2x2048x16384, .i32⟩ : BufTy).Contents (Elt F)),
    unary main_v46 main_v48 (broadcastInDim S2x2048x16384x1 ![0, 1, 2] bcast_S2x2048x16384_S2x2048x16384x1_0_1_2 : (⟨S2x2048x16384, .i32⟩ : BufTy).Contents (Elt F) → (⟨S2x2048x16384x1, .i32⟩ : BufTy).Contents (Elt F)),
    unary main_v47 main_v49 (broadcastInDim S2x2048x16384x1 ![0, 1, 2] bcast_S2x2048x16384_S2x2048x16384x1_0_1_2 : (⟨S2x2048x16384, .i32⟩ : BufTy).Contents (Elt F) → (⟨S2x2048x16384x1, .i32⟩ : BufTy).Contents (Elt F)),
    unary main_v45 main_v50 (broadcastInDim S2x2048x16384x1 ![0, 1, 2] bcast_S2x2048x16384_S2x2048x16384x1_0_1_2 : (⟨S2x2048x16384, .i32⟩ : BufTy).Contents (Elt F) → (⟨S2x2048x16384x1, .i32⟩ : BufTy).Contents (Elt F)),
    nary ![main_v48, main_v49, main_v50] main_v51 (fun u => concatenate S2x2048x16384x3 3 [⟨S2x2048x16384x1, u 0⟩, ⟨S2x2048x16384x1, u 1⟩, ⟨S2x2048x16384x1, u 2⟩] concatenates_S2x2048x16384x1_S2x2048x16384x1_S2x2048x16384x1_S2x2048x16384x3_d3),
    ternary main_v30 main_v51 main_v29 main_v52 ((fun x i u => Host.scatter scatter_S2x2048x33_S2x2048x16384x3_S2x2048x16384_n_012_012_3 (fun _ b => b) x i u) : (⟨S2x2048x33, .i32⟩ : BufTy).Contents (Elt F) → (⟨S2x2048x16384x3, .i32⟩ : BufTy).Contents (Elt F) → (⟨S2x2048x16384, .i32⟩ : BufTy).Contents (Elt F) → (⟨S2x2048x33, .i32⟩ : BufTy).Contents (Elt F)),
    unary main_v52 main_v53 ((extractStridedSlice S2x2048x32 ![0, 0, 0] · slices_S2x2048x33_S2x2048x32_0_0_0) : (⟨S2x2048x33, .i32⟩ : BufTy).Contents (Elt F) → (⟨S2x2048x32, .i32⟩ : BufTy).Contents (Elt F)),
    nullary main_v54 (iotaInDim S32 32 0),
    unary main_v54 main_v55 (broadcastInDim S1x1x32 ![2] bcast_S32_S1x1x32_2 : (⟨S32, .i32⟩ : BufTy).Contents (Elt F) → (⟨S1x1x32, .i32⟩ : BufTy).Contents (Elt F)),
    unary main_v18 main_v56 (broadcastInDim S2x2048x1 ![0, 1] bcast_S2x2048_S2x2048x1_0_1 : (⟨S2x2048, .i32⟩ : BufTy).Contents (Elt F) → (⟨S2x2048x1, .i32⟩ : BufTy).Contents (Elt F)),
    unary main_v55 main_v57 (broadcastInDim S2x2048x32 ![0, 1, 2] bcast_S1x1x32_S2x2048x32_0_1_2 : (⟨S1x1x32, .i32⟩ : BufTy).Contents (Elt F) → (⟨S2x2048x32, .i32⟩ : BufTy).Contents (Elt F)),
    unary main_v56 main_v58 (broadcastInDim S2x2048x32 ![0, 1, 2] bcast_S2x2048x1_S2x2048x32_0_1_2 : (⟨S2x2048x1, .i32⟩ : BufTy).Contents (Elt F) → (⟨S2x2048x32, .i32⟩ : BufTy).Contents (Elt F)),
    binary main_v57 main_v58 main_v59 (cmpi .slt : (⟨S2x2048x32, .i32⟩ : BufTy).Contents (Elt F) → (⟨S2x2048x32, .i32⟩ : BufTy).Contents (Elt F) → (⟨S2x2048x32, .i1⟩ : BufTy).Contents (Elt F)),
    unary main_v53 main_v60 ((extractStridedSlice S2x2048x1 ![0, 0, 0] · slices_S2x2048x32_S2x2048x1_0_0_0) : (⟨S2x2048x32, .i32⟩ : BufTy).Contents (Elt F) → (⟨S2x2048x1, .i32⟩ : BufTy).Contents (Elt F)),
    TRef.unary (.of main_v60 : TRef sig ⟨S2x2048x1, .i32⟩) main_call2.v0 (broadcastInDim S2x2048x32 ![0, 1, 2] bcast_S2x2048x1_S2x2048x32_0_1_2),
    TRef.ternary (.of main_v59 : TRef sig ⟨S2x2048x32, .i1⟩) (.of main_v53 : TRef sig ⟨S2x2048x32, .i32⟩) main_call2.v0 main_call2.v1 select,
    unary main_arg0 main_v62 ((transpose S2x3x16384 [0, 2, 1] · transposes_S2x16384x3_S2x3x16384_0_2_1) : (⟨S2x16384x3, .f32⟩ : BufTy).Contents (Elt F) → (⟨S2x3x16384, .f32⟩ : BufTy).Contents (Elt F)),
    reshape main_v61 main_v63 rfl shapeCasts_S2x2048x32_S2x1x65536,
    TRef.nullary main_call3.c (constantI S_ 32 0#32),
    TRef.unary main_call3.c main_call3.v0 (broadcastInDim S2x1x65536 ![] bcast_S_S2x1x65536),
    TRef.binary (.of main_v63 : TRef sig ⟨S2x1x65536, .i32⟩) main_call3.v0 main_call3.v1 (cmpi .slt),
    TRef.nullary main_call3.c_0 (constantI S_ 32 16384#32),
    TRef.unary main_call3.c_0 main_call3.v2 (broadcastInDim S2x1x65536 ![] bcast_S_S2x1x65536),
    TRef.binary (.of main_v63 : TRef sig ⟨S2x1x65536, .i32⟩) main_call3.v2 main_call3.v3 addi,
    TRef.ternary main_call3.v1 main_call3.v3 (.of main_v63 : TRef sig ⟨S2x1x65536, .i32⟩) main_call3.v4 select,
    TRef.reshape main_call3.v4 main_call3.v5 rfl shapeCasts_S2x1x65536_S2x65536x1,
    TRef.nullary main_call3.c_1 (constantI S1 32 16383#32),
    TRef.nullary main_call3.c_2 (constantI S_ 32 0#32),
    TRef.unary main_call3.c_2 main_call3.v6 (broadcastInDim S2x65536x1 ![] bcast_S_S2x65536x1),
    TRef.binary main_call3.v5 main_call3.v6 main_call3.v7 (cmpi .sge),
    TRef.unary main_call3.c_1 main_call3.v8 (broadcastInDim S1x1x1 ![2] bcast_S1_S1x1x1_2),
    TRef.unary main_call3.v8 main_call3.v9 (broadcastInDim S2x65536x1 ![0, 1, 2] bcast_S1x1x1_S2x65536x1_0_1_2),
    TRef.binary main_call3.v5 main_call3.v9 main_call3.v10 (cmpi .sle),
    TRef.binary main_call3.v7 main_call3.v10 main_call3.v11 andi,
    TRef.nullary main_call3.c_3 (constantI S_ 1 1#1),
    TRef.binary main_call3.v11 main_call3.c_3 main_call3.v12 (fun x v => Host.reduce IntOp.andi x v reducesTo_S2x65536x1_S2x65536_d2 h_S_),
    TRef.binary (.of main_v62 : TRef sig ⟨S2x3x16384, .f32⟩) main_call3.v5 main_call3.v13 (fun x i => Host.gather gather_S2x3x16384_S2x65536x1_S2x3x65536_1_2_0_0_2_2_131 x i),
    TRef.unary main_call3.v12 main_call3.v14 (broadcastInDim S2x3x65536 ![0, 2] bcast_S2x65536_S2x3x65536_0_2),
    TRef.nullary main_call3.cst (constant S_ .f32 0x7FC00000#32),
    TRef.unary main_call3.cst main_call3.v15 (broadcastInDim S2x3x65536 ![] bcast_S_S2x3x65536),
    TRef.ternary main_call3.v14 main_call3.v13 main_call3.v15 main_call3.v16 select,
    reshape main_v64 main_v65 rfl shapeCasts_S2x3x65536_S2x3x2048x32,
    unary main_arg1 main_v66 ((transpose S2x3x2048 [0, 2, 1] · transposes_S2x2048x3_S2x3x2048_0_2_1) : (⟨S2x2048x3, .f32⟩ : BufTy).Contents (Elt F) → (⟨S2x3x2048, .f32⟩ : BufTy).Contents (Elt F)),
    unary main_v66 main_v67 (broadcastInDim S2x3x2048x1 ![0, 1, 2] bcast_S2x3x2048_S2x3x2048x1_0_1_2 : (⟨S2x3x2048, .f32⟩ : BufTy).Contents (Elt F) → (⟨S2x3x2048x1, .f32⟩ : BufTy).Contents (Elt F)),
    unary main_v67 main_v68 (broadcastInDim S2x3x2048x32 ![0, 1, 2, 3] bcast_S2x3x2048x1_S2x3x2048x32_0_1_2_3 : (⟨S2x3x2048x1, .f32⟩ : BufTy).Contents (Elt F) → (⟨S2x3x2048x32, .f32⟩ : BufTy).Contents (Elt F)),
    binary main_v65 main_v68 main_v69 (subf : (⟨S2x3x2048x32, .f32⟩ : BufTy).Contents (Elt F) → (⟨S2x3x2048x32, .f32⟩ : BufTy).Contents (Elt F) → (⟨S2x3x2048x32, .f32⟩ : BufTy).Contents (Elt F)),
    reshape main_v61 main_v70 rfl shapeCasts_S2x2048x32_S2x1x65536,
    TRef.nullary main_call4.c (constantI S_ 32 0#32),
    TRef.unary main_call4.c main_call4.v0 (broadcastInDim S2x1x65536 ![] bcast_S_S2x1x65536),
    TRef.binary (.of main_v70 : TRef sig ⟨S2x1x65536, .i32⟩) main_call4.v0 main_call4.v1 (cmpi .slt),
    TRef.nullary main_call4.c_0 (constantI S_ 32 16384#32),
    TRef.unary main_call4.c_0 main_call4.v2 (broadcastInDim S2x1x65536 ![] bcast_S_S2x1x65536),
    TRef.binary (.of main_v70 : TRef sig ⟨S2x1x65536, .i32⟩) main_call4.v2 main_call4.v3 addi,
    TRef.ternary main_call4.v1 main_call4.v3 (.of main_v70 : TRef sig ⟨S2x1x65536, .i32⟩) main_call4.v4 select,
    TRef.reshape main_call4.v4 main_call4.v5 rfl shapeCasts_S2x1x65536_S2x65536x1,
    TRef.nullary main_call4.c_1 (constantI S1 32 16383#32),
    TRef.nullary main_call4.c_2 (constantI S_ 32 0#32),
    TRef.unary main_call4.c_2 main_call4.v6 (broadcastInDim S2x65536x1 ![] bcast_S_S2x65536x1),
    TRef.binary main_call4.v5 main_call4.v6 main_call4.v7 (cmpi .sge),
    TRef.unary main_call4.c_1 main_call4.v8 (broadcastInDim S1x1x1 ![2] bcast_S1_S1x1x1_2),
    TRef.unary main_call4.v8 main_call4.v9 (broadcastInDim S2x65536x1 ![0, 1, 2] bcast_S1x1x1_S2x65536x1_0_1_2),
    TRef.binary main_call4.v5 main_call4.v9 main_call4.v10 (cmpi .sle),
    TRef.binary main_call4.v7 main_call4.v10 main_call4.v11 andi,
    TRef.nullary main_call4.c_3 (constantI S_ 1 1#1),
    TRef.binary main_call4.v11 main_call4.c_3 main_call4.v12 (fun x v => Host.reduce IntOp.andi x v reducesTo_S2x65536x1_S2x65536_d2 h_S_),
    TRef.binary (.of main_arg2 : TRef sig ⟨S2x64x16384, .f32⟩) main_call4.v5 main_call4.v13 (fun x i => Host.gather gather_S2x64x16384_S2x65536x1_S2x64x65536_1_2_0_0_2_2_1641 x i),
    TRef.unary main_call4.v12 main_call4.v14 (broadcastInDim S2x64x65536 ![0, 2] bcast_S2x65536_S2x64x65536_0_2),
    TRef.nullary main_call4.cst (constant S_ .f32 0x7FC00000#32),
    TRef.unary main_call4.cst main_call4.v15 (broadcastInDim S2x64x65536 ![] bcast_S_S2x64x65536),
    TRef.ternary main_call4.v14 main_call4.v13 main_call4.v15 main_call4.v16 select,
    reshape main_v71 main_v72 rfl shapeCasts_S2x64x65536_S2x64x2048x32,
    binary main_v69 main_v72 main_v73 ((fun a b => concatenate S2x67x2048x32 1 [⟨S2x3x2048x32, a⟩, ⟨S2x64x2048x32, b⟩] concatenates_S2x3x2048x32_S2x64x2048x32_S2x67x2048x32_d1) : (⟨S2x3x2048x32, .f32⟩ : BufTy).Contents (Elt F) → (⟨S2x64x2048x32, .f32⟩ : BufTy).Contents (Elt F) → (⟨S2x67x2048x32, .f32⟩ : BufTy).Contents (Elt F)) ]

/-- @main's 139 operations, in order. -/
abbrev ops : List (HloOp τ sig (Elt F)) := ops0 ++ ops1

/-- The buffer each operation of the first half writes, in order. -/
abbrev W0 : List (Ref sig .tc) := [main_v0, main_v1, main_v2, main_v3, main_v4, main_v5, main_cst, main_v6, main_cst_0, main_v7, main_v8, main_cst_1, main_v9, main_v10, main_v11, main_call0_v0, main_call0_call0_c, main_call0_call0_v0, main_v12, main_c, main_v13, main_v14, main_v15, main_c_2, main_v16, main_c_3, main_v17, main_v18, main_c_4, main_v19, main_v20, main_v21, main_c_5, main_call1_v0, main_call1_v1, main_v22, main_v23, main_v24, main_v25, main_v26, main_v27, main_v28, main_v29, main_c_6, main_v30, main_c_7, main_v31, main_v32, main_c_8, main_v33, main_v34, main_v35, main_c_9, main_v36, main_v37, main_c_10, main_v38, main_v39, main_v40, main_c_11, main_v41, main_v42, main_c_12, main_v43, main_v44]
/-- The buffer each operation of the second half writes, in order. -/
abbrev W1 : List (Ref sig .tc) := [main_v45, main_v46, main_v47, main_v48, main_v49, main_v50, main_v51, main_v52, main_v53, main_v54, main_v55, main_v56, main_v57, main_v58, main_v59, main_v60, main_call2_v0, main_v61, main_v62, main_v63, main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v64, main_v65, main_v66, main_v67, main_v68, main_v69, main_v70, main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v71, main_v72, main_v73]
/-- The buffer each operation writes, in order: buffers 3 … 141. -/
abbrev W : List (Ref sig .tc) := W0 ++ W1

set_option maxRecDepth 16384 in
/-- The first half is its line: the functions' bodies unfolded at their calls, sequencing reassociated. -/
theorem part0_eq (c : Dev nD) : main_part0 (F := F) c = seq ops0 := by
  simp only [main_part0, fn_cumsum.body, fn_cumsum_0.body, fn_where.body, seq, bind_assoc, pure_bind]
  rfl

set_option maxRecDepth 16384 in
/-- The second half is its line. -/
theorem part1_eq (c : Dev nD) : main_part1 (F := F) c = seq ops1 := by
  simp only [main_part1, fn_where_1.body, fn_take_along_axis.body, fn_take_along_axis_2.body, seq, bind_assoc, pure_bind]

/-- @main is the whole line. -/
theorem main_eq (c : Dev nD) : main (F := F) c = seq ops := by
  show (main_part0 (F := F) c >>= fun _ => main_part1 (F := F) c) = seq (ops0 ++ ops1)
  rw [seq_append, part0_eq, part1_eq]

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨unary_bufs_sub .., unary_bufs_sub .., unary_bufs_sub .., unary_bufs_sub .., binary_bufs_sub .., binary_bufs_sub .., nullary_bufs_sub .., binary_bufs_sub .., nullary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., unary_bufs_sub .., nullary_bufs_sub .., binary_bufs_sub .., nullary_bufs_sub .., unary_bufs_sub .., binary_bufs_sub .., nullary_bufs_sub .., unary_bufs_sub .., binary_bufs_sub .., binary_bufs_sub .., nullary_bufs_sub .., unary_bufs_sub .., unary_bufs_sub .., ternary_bufs_sub .., nullary_bufs_sub .., unary_bufs_sub .., nullary_bufs_sub .., unary_bufs_sub .., nullary_bufs_sub .., unary_bufs_sub .., unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub ..⟩
theorem ops1_sub : (ops1 : List (HloOp τ sig (Elt F))).Forall fun op => op.bufs ⊆ tcRefs τ sig :=
  ⟨ternary_bufs_sub .., unary_bufs_sub .., unary_bufs_sub .., unary_bufs_sub .., unary_bufs_sub .., unary_bufs_sub .., nary_bufs_sub .., ternary_bufs_sub .., unary_bufs_sub .., nullary_bufs_sub .., unary_bufs_sub .., unary_bufs_sub .., unary_bufs_sub .., unary_bufs_sub .., binary_bufs_sub .., unary_bufs_sub .., unary_bufs_sub .., ternary_bufs_sub .., unary_bufs_sub .., reshape_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub .., unary_bufs_sub .., unary_bufs_sub .., unary_bufs_sub .., binary_bufs_sub .., reshape_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub .., binary_bufs_sub ..⟩
/-- Every operation touches TensorCore buffers only. -/
theorem ops_sub : (ops : List (HloOp τ sig (Elt F))).Forall fun op => op.bufs ⊆ tcRefs τ sig :=
  List.forall_append.mpr ⟨ops0_sub, ops1_sub⟩

theorem writes0 : Line.WritesAre (ops0 : List (HloOp τ sig (Elt F))) W0 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))))))))))))))))))))))))))))))))))))))))))
theorem writes1 : Line.WritesAre (ops1 : List (HloOp τ sig (Elt F))) W1 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))))))))))))))))))))))))))))))))
/-- Operation k writes the k-th buffer of `W`, and only it. -/
theorem writesAre : Line.WritesAre (ops : List (HloOp τ sig (Elt F))) W := writes0.append writes1

/-- The written buffers are numbered 3, 4, …, 141 in the order they are written. -/
theorem W_nums : W.map Line.num = List.range' 3 139 := by decide
/-- Each is written once. -/
theorem W_nodup : W.Nodup := Line.nodup_of_nums W_nums
/-- The argument arrays (buffers 0, 1, 2) are never written. -/
theorem arg0_notW : main_arg0 ∉ W := Line.not_mem_of_num_lt W_nums (by decide)
theorem arg1_notW : main_arg1 ∉ W := Line.not_mem_of_num_lt W_nums (by decide)
theorem arg2_notW : main_arg2 ∉ W := Line.not_mem_of_num_lt W_nums (by decide)

end Cert.ReferenceIdeal.Hand

end
-- ==== Proof.RefLineA.lean ====
/-
  Each buffer of the reference's line read AFTER THE WHOLE LINE: the function of the operation that writes it, applied to
  its operands' contents after the whole line (single assignment: nothing later changes an operand). First part:
  the operations of the neighbour search (buffers 3 … 85); the argument arrays keep their contents.
-/
import proofs.«128314_j31576599560762_2_alg».proof.Proof.RefOps

noncomputable section

namespace Cert.ReferenceIdeal.Hand

open Idealize.ShloMosaic Idealize.ShloMosaic.TcCoe Idealize.SL.Sem Idealize.ShloMosaic.StableHlo Cert.ReferenceIdeal Cert.ReferenceIdeal.Facts₀

variable {F : FTy → Type} [FloatOps F]

/- The fold over the line is never opened here: each step cites a lemma about it; nor are the reductions, the gather and the
   scatter, whose bodies are folds and searches over an operand's elements. -/
attribute [local irreducible] StableHlo.after Host.reduce Host.reduceWindow Host.reduceAdd Host.gather Host.scatter

theorem e_a0 (V : Valuation τ sig (Elt F)) : after ops V (Proc.devRef .tc main_arg0) = V (Proc.devRef .tc main_arg0) := Line.after_keep writesAre arg0_notW V
theorem e_a1 (V : Valuation τ sig (Elt F)) : after ops V (Proc.devRef .tc main_arg1) = V (Proc.devRef .tc main_arg1) := Line.after_keep writesAre arg1_notW V
theorem e_a2 (V : Valuation τ sig (Elt F)) : after ops V (Proc.devRef .tc main_arg2) = V (Proc.devRef .tc main_arg2) := Line.after_keep writesAre arg2_notW V

theorem e_v0 (V : Valuation τ sig (Elt F)) :
    (after ops V (Proc.devRef .tc main_v0) : FVec F S2x2048x1x3 .f32) = (broadcastInDim S2x2048x1x3 ![0, 1, 3] bcast_S2x2048x3_S2x2048x1x3_0_1_3 : (⟨S2x2048x3, .f32⟩ : BufTy).Contents (Elt F) → (⟨S2x2048x1x3, .f32⟩ : BufTy).Contents (Elt F)) (after ops V (Proc.devRef .tc main_arg1) : FVec F S2x2048x3 .f32) :=
  Line.at_unary writesAre W_nodup 0 rfl rfl (Line.not_mem_drop_of_not_mem arg1_notW 0) V

theorem e_v1 (V : Valuation τ sig (Elt F)) :
    (after ops V (Proc.devRef .tc main_v1) : FVec F S2x1x16384x3 .f32) = (broadcastInDim S2x1x16384x3 ![0, 2, 3] bcast_S2x16384x3_S2x1x16384x3_0_2_3 : (⟨S2x16384x3, .f32⟩ : BufTy).Contents (Elt F) → (⟨S2x1x16384x3, .f32⟩ : BufTy).Contents (Elt F)) (after ops V (Proc.devRef .tc main_arg0) : FVec F S2x16384x3 .f32) :=
  Line.at_unary writesAre W_nodup 1 rfl rfl (Line.not_mem_drop_of_not_mem arg0_notW 1) V

theorem e_v2 (V : Valuation τ sig (Elt F)) :
    (after ops V (Proc.devRef .tc main_v2) : FVec F S2x2048x16384x3 .f32) = (broadcastInDim S2x2048x16384x3 ![0, 1, 2, 3] bcast_S2x2048x1x3_S2x2048x16384x3_0_1_2_3 : (⟨S2x2048x1x3, .f32⟩ : BufTy).Contents (Elt F) → (⟨S2x2048x16384x3, .f32⟩ : BufTy).Contents (Elt F)) (after ops V (Proc.devRef .tc main_v0) : FVec F S2x2048x1x3 .f32) :=
  Line.at_unary writesAre W_nodup 2 rfl rfl (Line.not_mem_drop_of_lt W_nodup (j := 0) rfl (by decide)) V

theorem e_v3 (V : Valuation τ sig (Elt F)) :
    (after ops V (Proc.devRef .tc main_v3) : FVec F S2x2048x16384x3 .f32) = (broadcastInDim S2x2048x16384x3 ![0, 1, 2, 3] bcast_S2x1x16384x3_S2x2048x16384x3_0_1_2_3 : (⟨S2x1x16384x3, .f32⟩ : BufTy).Contents (Elt F) → (⟨S2x2048x16384x3, .f32⟩ : BufTy).Contents (Elt F)) (after ops V (Proc.devRef .tc main_v1) : FVec F S2x1x16384x3 .f32) :=
  Line.at_unary writesAre W_nodup 3 rfl rfl (Line.not_mem_drop_of_lt W_nodup (j := 1) rfl (by decide)) V

theorem e_v4 (V : Valuation τ sig (Elt F)) :
    (after ops V (Proc.devRef .tc main_v4) : FVec F S2x2048x16384x3 .f32) = (subf : (⟨S2x2048x16384x3, .f32⟩ : BufTy).Contents (Elt F) → (⟨S2x2048x16384x3, .f32⟩ : BufTy).Contents (Elt F) → (⟨S2x2048x16384x3, .f32⟩ : BufTy).Contents (Elt F)) (after ops V (Proc.devRef .tc main_v2) : FVec F S2x2048x16384x3 .f32) (after ops V (Proc.devRef .tc main_v3) : FVec F S2x2048x16384x3 .f32) :=
  Line.at_binary writesAre W_nodup 4 rfl rfl (Line.not_mem_drop_of_lt W_nodup (j := 2) rfl (by decide)) (Line.not_mem_drop_of_lt W_nodup (j := 3) rfl (by decide)) V

theorem e_v5 (V : Valuation τ sig (Elt F)) :
    (after ops V (Proc.devRef .tc main_v5) : FVec F S2x2048x16384x3 .f32) = (mulf : (⟨S2x2048x16384x3, .f32⟩ : BufTy).Contents (Elt F) → (⟨S2x2048x16384x3, .f32⟩ : BufTy).Contents (Elt F) → (⟨S2x2048x16384x3, .f32⟩ : BufTy).Contents (Elt F)) (after ops V (Proc.devRef .tc main_v4) : FVec F S2x2048x16384x3 .f32) (after ops V (Proc.devRef .tc main_v4) : FVec F S2x2048x16384x3 .f32) :=
  Line.at_binary writesAre W_nodup 5 rfl rfl (Line.not_mem_drop_of_lt W_nodup (j := 4) rfl (by decide)) (Line.not_mem_drop_of_lt W_nodup (j := 4) rfl (by decide)) V

theorem e_cst (V : Valuation τ sig (Elt F)) :
    (after ops V (Proc.devRef .tc main_cst) : FVec F S_ .f32) = constant S_ .f32 0x00000000#32 :=
  Line.at_nullary writesAre W_nodup 6 rfl rfl V

theorem e_v6 (V : Valuation τ sig (Elt F)) :
    (after ops V (Proc.devRef .tc main_v6) : FVec F S2x2048x16384 .f32) = ((fun x v => Host.reduceAdd x v reducesTo_S2x2048x16384x3_S2x2048x16384_d3 h_S_) : (⟨S2x2048x16384x3, .f32⟩ : BufTy).Contents (Elt F) → (⟨S_, .f32⟩ : BufTy).Contents (Elt F) → (⟨S2x2048x16384, .f32⟩ : BufTy).Contents (Elt F)) (after ops V (Proc.devRef .tc main_v5) : FVec F S2x2048x16384x3 .f32) (after ops V (Proc.devRef .tc main_cst) : FVec F S_ .f32) :=
  Line.at_binary writesAre W_nodup 7 rfl rfl (Line.not_mem_drop_of_lt W_nodup (j := 5) rfl (by decide)) (Line.not_mem_drop_of_lt W_nodup (j := 6) rfl (by decide)) V

theorem e_cst_0 (V : Valuation τ sig (Elt F)) :
    (after ops V (Proc.devRef .tc main_cst_0) : FVec F S_ .f32) = constant S_ .f32 0x3B23D70A#32 :=
  Line.at_nullary writesAre W_nodup 8 rfl rfl V

theorem e_v7 (V : Valuation τ sig (Elt F)) :
    (after ops V (Proc.devRef .tc main_v7) : FVec F S2x2048x16384 .f32) = (broadcastInDim S2x2048x16384 ![] bcast_S_S2x2048x16384 : (⟨S_, .f32⟩ : BufTy).Contents (Elt F) → (⟨S2x2048x16384, .f32⟩ : BufTy).Contents (Elt F)) (after ops V (Proc.devRef .tc main_cst_0) : FVec F S_ .f32) :=
  Line.at_unary writesAre W_nodup 9 rfl rfl (Line.not_mem_drop_of_lt W_nodup (j := 8) rfl (by decide)) V

theorem e_v8 (V : Valuation τ sig (Elt F)) :
    (after ops V (Proc.devRef .tc main_v8) : IVec S2x2048x16384 1) = (cmpf .oge : (⟨S2x2048x16384, .f32⟩ : BufTy).Contents (Elt F) → (⟨S2x2048x16384, .f32⟩ : BufTy).Contents (Elt F) → (⟨S2x2048x16384, .i1⟩ : BufTy).Contents (Elt F)) (after ops V (Proc.devRef .tc main_v6) : FVec F S2x2048x16384 .f32) (after ops V (Proc.devRef .tc main_v7) : FVec F S2x2048x16384 .f32) :=
  Line.at_binary writesAre W_nodup 10 rfl rfl (Line.not_mem_drop_of_lt W_nodup (j := 7) rfl (by decide)) (Line.not_mem_drop_of_lt W_nodup (j := 9) rfl (by decide)) V

theorem e_cst_1 (V : Valuation τ sig (Elt F)) :
    (after ops V (Proc.devRef .tc main_cst_1) : FVec F S_ .f32) = constant S_ .f32 0x3D23D70A#32 :=
  Line.at_nullary writesAre W_nodup 11 rfl rfl V

theorem e_v9 (V : Valuation τ sig (Elt F)) :
    (after ops V (Proc.devRef .tc main_v9) : FVec F S2x2048x16384 .f32) = (broadcastInDim S2x2048x16384 ![] bcast_S_S2x2048x16384 : (⟨S_, .f32⟩ : BufTy).Contents (Elt F) → (⟨S2x2048x16384, .f32⟩ : BufTy).Contents (Elt F)) (after ops V (Proc.devRef .tc main_cst_1) : FVec F S_ .f32) :=
  Line.at_unary writesAre W_nodup 12 rfl rfl (Line.not_mem_drop_of_lt W_nodup (j := 11) rfl (by decide)) V

theorem e_v10 (V : Valuation τ sig (Elt F)) :
    (after ops V (Proc.devRef .tc main_v10) : IVec S2x2048x16384 1) = (cmpf .olt : (⟨S2x2048x16384, .f32⟩ : BufTy).Contents (Elt F) → (⟨S2x2048x16384, .f32⟩ : BufTy).Contents (Elt F) → (⟨S2x2048x16384, .i1⟩ : BufTy).Contents (Elt F)) (after ops V (Proc.devRef .tc main_v6) : FVec F S2x2048x16384 .f32) (after ops V (Proc.devRef .tc main_v9) : FVec F S2x2048x16384 .f32) :=
  Line.at_binary writesAre W_nodup 13 rfl rfl (Line.not_mem_drop_of_lt W_nodup (j := 7) rfl (by decide)) (Line.not_mem_drop_of_lt W_nodup (j := 12) rfl (by decide)) V

theorem e_v11 (V : Valuation τ sig (Elt F)) :
    (after ops V (Proc.devRef .tc main_v11) : IVec S2x2048x16384 1) = (andi : (⟨S2x2048x16384, .i1⟩ : BufTy).Contents (Elt F) → (⟨S2x2048x16384, .i1⟩ : BufTy).Contents (Elt F) → (⟨S2x2048x16384, .i1⟩ : BufTy).Contents (Elt F)) (after ops V (Proc.devRef .tc main_v8) : IVec S2x2048x16384 1) (after ops V (Proc.devRef .tc main_v10) : IVec S2x2048x16384 1) :=
  Line.at_binary writesAre W_nodup 14 rfl rfl (Line.not_mem_drop_of_lt W_nodup (j := 10) rfl (by decide)) (Line.not_mem_drop_of_lt W_nodup (j := 13) rfl (by decide)) V

theorem e_call0_v0 (V : Valuation τ sig (Elt F)) :
    (after ops V (Proc.devRef .tc main_call0_v0) : IVec S2x2048x16384 32) = (extui 32 · natLt_1_32) (after ops V (Proc.devRef .tc main_v11) : IVec S2x2048x16384 1) :=
  Line.at_unary writesAre W_nodup 15 rfl rfl (Line.not_mem_drop_of_lt W_nodup (j := 14) rfl (by decide)) V

theorem e_call0_call0_c (V : Valuation τ sig (Elt F)) :
    (after ops V (Proc.devRef .tc main_call0_call0_c) : IVec S_ 32) = constantI S_ 32 0#32 :=
  Line.at_nullary writesAre W_nodup 16 rfl rfl V

theorem e_call0_call0_v0 (V : Valuation τ sig (Elt F)) :
    (after ops V (Proc.devRef .tc main_call0_call0_v0) : IVec S_ 32) = (broadcastInDim S_ ![] bcast_S_S_) (after ops V (Proc.devRef .tc main_call0_call0_c) : IVec S_ 32) :=
  Line.at_unary writesAre W_nodup 17 rfl rfl (Line.not_mem_drop_of_lt W_nodup (j := 16) rfl (by decide)) V

theorem e_v12 (V : Valuation τ sig (Elt F)) :
    (after ops V (Proc.devRef .tc main_v12) : IVec S2x2048x16384 32) = (fun x v => Host.reduceWindow IntOp.addi ![1, 1, 16384] ![1, 1, 1] ![0, 0, 16383] ![0, 0, 0] x v reduceWindows_S2x2048x16384_S2x2048x16384_w1s1p0_0_w1s1p0_0_w16384s1p16383_0 h_S_) (after ops V (Proc.devRef .tc main_call0_v0) : IVec S2x2048x16384 32) (after ops V (Proc.devRef .tc main_call0_call0_v0) : IVec S_ 32) :=
  Line.at_binary writesAre W_nodup 18 rfl rfl (Line.not_mem_drop_of_lt W_nodup (j := 15) rfl (by decide)) (Line.not_mem_drop_of_lt W_nodup (j := 17) rfl (by decide)) V

theorem e_c (V : Valuation τ sig (Elt F)) :
    (after ops V (Proc.devRef .tc main_c) : IVec S_ 32) = constantI S_ 32 1#32 :=
  Line.at_nullary writesAre W_nodup 19 rfl rfl V

theorem e_v13 (V : Valuation τ sig (Elt F)) :
    (after ops V (Proc.devRef .tc main_v13) : IVec S2x2048x16384 32) = (broadcastInDim S2x2048x16384 ![] bcast_S_S2x2048x16384 : (⟨S_, .i32⟩ : BufTy).Contents (Elt F) → (⟨S2x2048x16384, .i32⟩ : BufTy).Contents (Elt F)) (after ops V (Proc.devRef .tc main_c) : IVec S_ 32) :=
  Line.at_unary writesAre W_nodup 20 rfl rfl (Line.not_mem_drop_of_lt W_nodup (j := 19) rfl (by decide)) V

theorem e_v14 (V : Valuation τ sig (Elt F)) :
    (after ops V (Proc.devRef .tc main_v14) : IVec S2x2048x16384 32) = (subi : (⟨S2x2048x16384, .i32⟩ : BufTy).Contents (Elt F) → (⟨S2x2048x16384, .i32⟩ : BufTy).Contents (Elt F) → (⟨S2x2048x16384, .i32⟩ : BufTy).Contents (Elt F)) (after ops V (Proc.devRef .tc main_v12) : IVec S2x2048x16384 32) (after ops V (Proc.devRef .tc main_v13) : IVec S2x2048x16384 32) :=
  Line.at_binary writesAre W_nodup 21 rfl rfl (Line.not_mem_drop_of_lt W_nodup (j := 18) rfl (by decide)) (Line.not_mem_drop_of_lt W_nodup (j := 20) rfl (by decide)) V

theorem e_v15 (V : Valuation τ sig (Elt F)) :
    (after ops V (Proc.devRef .tc main_v15) : IVec S2x2048x16384 32) = ((extui 32 · natLt_1_32) : (⟨S2x2048x16384, .i1⟩ : BufTy).Contents (Elt F) → (⟨S2x2048x16384, .i32⟩ : BufTy).Contents (Elt F)) (after ops V (Proc.devRef .tc main_v11) : IVec S2x2048x16384 1) :=
  Line.at_unary writesAre W_nodup 22 rfl rfl (Line.not_mem_drop_of_lt W_nodup (j := 14) rfl (by decide)) V

theorem e_c_2 (V : Valuation τ sig (Elt F)) :
    (after ops V (Proc.devRef .tc main_c_2) : IVec S_ 32) = constantI S_ 32 0#32 :=
  Line.at_nullary writesAre W_nodup 23 rfl rfl V

theorem e_v16 (V : Valuation τ sig (Elt F)) :
    (after ops V (Proc.devRef .tc main_v16) : IVec S2x2048 32) = ((fun x v => Host.reduce IntOp.addi x v reducesTo_S2x2048x16384_S2x2048_d2 h_S_) : (⟨S2x2048x16384, .i32⟩ : BufTy).Contents (Elt F) → (⟨S_, .i32⟩ : BufTy).Contents (Elt F) → (⟨S2x2048, .i32⟩ : BufTy).Contents (Elt F)) (after ops V (Proc.devRef .tc main_v15) : IVec S2x2048x16384 32) (after ops V (Proc.devRef .tc main_c_2) : IVec S_ 32) :=
  Line.at_binary writesAre W_nodup 24 rfl rfl (Line.not_mem_drop_of_lt W_nodup (j := 22) rfl (by decide)) (Line.not_mem_drop_of_lt W_nodup (j := 23) rfl (by decide)) V

theorem e_c_3 (V : Valuation τ sig (Elt F)) :
    (after ops V (Proc.devRef .tc main_c_3) : IVec S_ 32) = constantI S_ 32 32#32 :=
  Line.at_nullary writesAre W_nodup 25 rfl rfl V

theorem e_v17 (V : Valuation τ sig (Elt F)) :
    (after ops V (Proc.devRef .tc main_v17) : IVec S2x2048 32) = (broadcastInDim S2x2048 ![] bcast_S_S2x2048 : (⟨S_, .i32⟩ : BufTy).Contents (Elt F) → (⟨S2x2048, .i32⟩ : BufTy).Contents (Elt F)) (after ops V (Proc.devRef .tc main_c_3) : IVec S_ 32) :=
  Line.at_unary writesAre W_nodup 26 rfl rfl (Line.not_mem_drop_of_lt W_nodup (j := 25) rfl (by decide)) V

theorem e_v18 (V : Valuation τ sig (Elt F)) :
    (after ops V (Proc.devRef .tc main_v18) : IVec S2x2048 32) = (minsi : (⟨S2x2048, .i32⟩ : BufTy).Contents (Elt F) → (⟨S2x2048, .i32⟩ : BufTy).Contents (Elt F) → (⟨S2x2048, .i32⟩ : BufTy).Contents (Elt F)) (after ops V (Proc.devRef .tc main_v16) : IVec S2x2048 32) (after ops V (Proc.devRef .tc main_v17) : IVec S2x2048 32) :=
  Line.at_binary writesAre W_nodup 27 rfl rfl (Line.not_mem_drop_of_lt W_nodup (j := 24) rfl (by decide)) (Line.not_mem_drop_of_lt W_nodup (j := 26) rfl (by decide)) V

theorem e_c_4 (V : Valuation τ sig (Elt F)) :
    (after ops V (Proc.devRef .tc main_c_4) : IVec S_ 32) = constantI S_ 32 32#32 :=
  Line.at_nullary writesAre W_nodup 28 rfl rfl V

theorem e_v19 (V : Valuation τ sig (Elt F)) :
    (after ops V (Proc.devRef .tc main_v19) : IVec S2x2048x16384 32) = (broadcastInDim S2x2048x16384 ![] bcast_S_S2x2048x16384 : (⟨S_, .i32⟩ : BufTy).Contents (Elt F) → (⟨S2x2048x16384, .i32⟩ : BufTy).Contents (Elt F)) (after ops V (Proc.devRef .tc main_c_4) : IVec S_ 32) :=
  Line.at_unary writesAre W_nodup 29 rfl rfl (Line.not_mem_drop_of_lt W_nodup (j := 28) rfl (by decide)) V

theorem e_v20 (V : Valuation τ sig (Elt F)) :
    (after ops V (Proc.devRef .tc main_v20) : IVec S2x2048x16384 1) = (cmpi .slt : (⟨S2x2048x16384, .i32⟩ : BufTy).Contents (Elt F) → (⟨S2x2048x16384, .i32⟩ : BufTy).Contents (Elt F) → (⟨S2x2048x16384, .i1⟩ : BufTy).Contents (Elt F)) (after ops V (Proc.devRef .tc main_v14) : IVec S2x2048x16384 32) (after ops V (Proc.devRef .tc main_v19) : IVec S2x2048x16384 32) :=
  Line.at_binary writesAre W_nodup 30 rfl rfl (Line.not_mem_drop_of_lt W_nodup (j := 21) rfl (by decide)) (Line.not_mem_drop_of_lt W_nodup (j := 29) rfl (by decide)) V

theorem e_v21 (V : Valuation τ sig (Elt F)) :
    (after ops V (Proc.devRef .tc main_v21) : IVec S2x2048x16384 1) = (andi : (⟨S2x2048x16384, .i1⟩ : BufTy).Contents (Elt F) → (⟨S2x2048x16384, .i1⟩ : BufTy).Contents (Elt F) → (⟨S2x2048x16384, .i1⟩ : BufTy).Contents (Elt F)) (after ops V (Proc.devRef .tc main_v11) : IVec S2x2048x16384 1) (after ops V (Proc.devRef .tc main_v20) : IVec S2x2048x16384 1) :=
  Line.at_binary writesAre W_nodup 31 rfl rfl (Line.not_mem_drop_of_lt W_nodup (j := 14) rfl (by decide)) (Line.not_mem_drop_of_lt W_nodup (j := 30) rfl (by decide)) V

theorem e_c_5 (V : Valuation τ sig (Elt F)) :
    (after ops V (Proc.devRef .tc main_c_5) : IVec S_ 32) = constantI S_ 32 32#32 :=
  Line.at_nullary writesAre W_nodup 32 rfl rfl V

theorem e_call1_v0 (V : Valuation τ sig (Elt F)) :
    (after ops V (Proc.devRef .tc main_call1_v0) : IVec S_ 32) = id (after ops V (Proc.devRef .tc main_c_5) : IVec S_ 32) :=
  Line.at_unary writesAre W_nodup 33 rfl rfl (Line.not_mem_drop_of_lt W_nodup (j := 32) rfl (by decide)) V

theorem e_call1_v1 (V : Valuation τ sig (Elt F)) :
    (after ops V (Proc.devRef .tc main_call1_v1) : IVec S2x2048x16384 32) = (broadcastInDim S2x2048x16384 ![] bcast_S_S2x2048x16384) (after ops V (Proc.devRef .tc main_call1_v0) : IVec S_ 32) :=
  Line.at_unary writesAre W_nodup 34 rfl rfl (Line.not_mem_drop_of_lt W_nodup (j := 33) rfl (by decide)) V

theorem e_v22 (V : Valuation τ sig (Elt F)) :
    (after ops V (Proc.devRef .tc main_v22) : IVec S2x2048x16384 32) = select (after ops V (Proc.devRef .tc main_v21) : IVec S2x2048x16384 1) (after ops V (Proc.devRef .tc main_v14) : IVec S2x2048x16384 32) (after ops V (Proc.devRef .tc main_call1_v1) : IVec S2x2048x16384 32) :=
  Line.at_ternary writesAre W_nodup 35 rfl rfl (Line.not_mem_drop_of_lt W_nodup (j := 31) rfl (by decide)) (Line.not_mem_drop_of_lt W_nodup (j := 21) rfl (by decide)) (Line.not_mem_drop_of_lt W_nodup (j := 34) rfl (by decide)) V

theorem e_v23 (V : Valuation τ sig (Elt F)) :
    (after ops V (Proc.devRef .tc main_v23) : IVec S2 32) = iotaInDim S2 32 0 :=
  Line.at_nullary writesAre W_nodup 36 rfl rfl V

theorem e_v24 (V : Valuation τ sig (Elt F)) :
    (after ops V (Proc.devRef .tc main_v24) : IVec S2x1x1 32) = (broadcastInDim S2x1x1 ![0] bcast_S2_S2x1x1_0 : (⟨S2, .i32⟩ : BufTy).Contents (Elt F) → (⟨S2x1x1, .i32⟩ : BufTy).Contents (Elt F)) (after ops V (Proc.devRef .tc main_v23) : IVec S2 32) :=
  Line.at_unary writesAre W_nodup 37 rfl rfl (Line.not_mem_drop_of_lt W_nodup (j := 36) rfl (by decide)) V

theorem e_v25 (V : Valuation τ sig (Elt F)) :
    (after ops V (Proc.devRef .tc main_v25) : IVec S2048 32) = iotaInDim S2048 32 0 :=
  Line.at_nullary writesAre W_nodup 38 rfl rfl V

theorem e_v26 (V : Valuation τ sig (Elt F)) :
    (after ops V (Proc.devRef .tc main_v26) : IVec S1x2048x1 32) = (broadcastInDim S1x2048x1 ![1] bcast_S2048_S1x2048x1_1 : (⟨S2048, .i32⟩ : BufTy).Contents (Elt F) → (⟨S1x2048x1, .i32⟩ : BufTy).Contents (Elt F)) (after ops V (Proc.devRef .tc main_v25) : IVec S2048 32) :=
  Line.at_unary writesAre W_nodup 39 rfl rfl (Line.not_mem_drop_of_lt W_nodup (j := 38) rfl (by decide)) V

theorem e_v27 (V : Valuation τ sig (Elt F)) :
    (after ops V (Proc.devRef .tc main_v27) : IVec S16384 32) = iotaInDim S16384 32 0 :=
  Line.at_nullary writesAre W_nodup 40 rfl rfl V

theorem e_v28 (V : Valuation τ sig (Elt F)) :
    (after ops V (Proc.devRef .tc main_v28) : IVec S1x1x16384 32) = (broadcastInDim S1x1x16384 ![2] bcast_S16384_S1x1x16384_2 : (⟨S16384, .i32⟩ : BufTy).Contents (Elt F) → (⟨S1x1x16384, .i32⟩ : BufTy).Contents (Elt F)) (after ops V (Proc.devRef .tc main_v27) : IVec S16384 32) :=
  Line.at_unary writesAre W_nodup 41 rfl rfl (Line.not_mem_drop_of_lt W_nodup (j := 40) rfl (by decide)) V

theorem e_v29 (V : Valuation τ sig (Elt F)) :
    (after ops V (Proc.devRef .tc main_v29) : IVec S2x2048x16384 32) = (broadcastInDim S2x2048x16384 ![0, 1, 2] bcast_S1x1x16384_S2x2048x16384_0_1_2 : (⟨S1x1x16384, .i32⟩ : BufTy).Contents (Elt F) → (⟨S2x2048x16384, .i32⟩ : BufTy).Contents (Elt F)) (after ops V (Proc.devRef .tc main_v28) : IVec S1x1x16384 32) :=
  Line.at_unary writesAre W_nodup 42 rfl rfl (Line.not_mem_drop_of_lt W_nodup (j := 41) rfl (by decide)) V

theorem e_c_6 (V : Valuation τ sig (Elt F)) :
    (after ops V (Proc.devRef .tc main_c_6) : IVec S_ 32) = constantI S_ 32 0#32 :=
  Line.at_nullary writesAre W_nodup 43 rfl rfl V

theorem e_v30 (V : Valuation τ sig (Elt F)) :
    (after ops V (Proc.devRef .tc main_v30) : IVec S2x2048x33 32) = (broadcastInDim S2x2048x33 ![] bcast_S_S2x2048x33 : (⟨S_, .i32⟩ : BufTy).Contents (Elt F) → (⟨S2x2048x33, .i32⟩ : BufTy).Contents (Elt F)) (after ops V (Proc.devRef .tc main_c_6) : IVec S_ 32) :=
  Line.at_unary writesAre W_nodup 44 rfl rfl (Line.not_mem_drop_of_lt W_nodup (j := 43) rfl (by decide)) V

theorem e_c_7 (V : Valuation τ sig (Elt F)) :
    (after ops V (Proc.devRef .tc main_c_7) : IVec S_ 32) = constantI S_ 32 0#32 :=
  Line.at_nullary writesAre W_nodup 45 rfl rfl V

theorem e_v31 (V : Valuation τ sig (Elt F)) :
    (after ops V (Proc.devRef .tc main_v31) : IVec S2x1x1 32) = (broadcastInDim S2x1x1 ![] bcast_S_S2x1x1 : (⟨S_, .i32⟩ : BufTy).Contents (Elt F) → (⟨S2x1x1, .i32⟩ : BufTy).Contents (Elt F)) (after ops V (Proc.devRef .tc main_c_7) : IVec S_ 32) :=
  Line.at_unary writesAre W_nodup 46 rfl rfl (Line.not_mem_drop_of_lt W_nodup (j := 45) rfl (by decide)) V

theorem e_v32 (V : Valuation τ sig (Elt F)) :
    (after ops V (Proc.devRef .tc main_v32) : IVec S2x1x1 1) = (cmpi .slt : (⟨S2x1x1, .i32⟩ : BufTy).Contents (Elt F) → (⟨S2x1x1, .i32⟩ : BufTy).Contents (Elt F) → (⟨S2x1x1, .i1⟩ : BufTy).Contents (Elt F)) (after ops V (Proc.devRef .tc main_v24) : IVec S2x1x1 32) (after ops V (Proc.devRef .tc main_v31) : IVec S2x1x1 32) :=
  Line.at_binary writesAre W_nodup 47 rfl rfl (Line.not_mem_drop_of_lt W_nodup (j := 37) rfl (by decide)) (Line.not_mem_drop_of_lt W_nodup (j := 46) rfl (by decide)) V

theorem e_c_8 (V : Valuation τ sig (Elt F)) :
    (after ops V (Proc.devRef .tc main_c_8) : IVec S_ 32) = constantI S_ 32 2#32 :=
  Line.at_nullary writesAre W_nodup 48 rfl rfl V

theorem e_v33 (V : Valuation τ sig (Elt F)) :
    (after ops V (Proc.devRef .tc main_v33) : IVec S2x1x1 32) = (broadcastInDim S2x1x1 ![] bcast_S_S2x1x1 : (⟨S_, .i32⟩ : BufTy).Contents (Elt F) → (⟨S2x1x1, .i32⟩ : BufTy).Contents (Elt F)) (after ops V (Proc.devRef .tc main_c_8) : IVec S_ 32) :=
  Line.at_unary writesAre W_nodup 49 rfl rfl (Line.not_mem_drop_of_lt W_nodup (j := 48) rfl (by decide)) V

theorem e_v34 (V : Valuation τ sig (Elt F)) :
    (after ops V (Proc.devRef .tc main_v34) : IVec S2x1x1 32) = (addi : (⟨S2x1x1, .i32⟩ : BufTy).Contents (Elt F) → (⟨S2x1x1, .i32⟩ : BufTy).Contents (Elt F) → (⟨S2x1x1, .i32⟩ : BufTy).Contents (Elt F)) (after ops V (Proc.devRef .tc main_v24) : IVec S2x1x1 32) (after ops V (Proc.devRef .tc main_v33) : IVec S2x1x1 32) :=
  Line.at_binary writesAre W_nodup 50 rfl rfl (Line.not_mem_drop_of_lt W_nodup (j := 37) rfl (by decide)) (Line.not_mem_drop_of_lt W_nodup (j := 49) rfl (by decide)) V

theorem e_v35 (V : Valuation τ sig (Elt F)) :
    (after ops V (Proc.devRef .tc main_v35) : IVec S2x1x1 32) = (select : (⟨S2x1x1, .i1⟩ : BufTy).Contents (Elt F) → (⟨S2x1x1, .i32⟩ : BufTy).Contents (Elt F) → (⟨S2x1x1, .i32⟩ : BufTy).Contents (Elt F) → (⟨S2x1x1, .i32⟩ : BufTy).Contents (Elt F)) (after ops V (Proc.devRef .tc main_v32) : IVec S2x1x1 1) (after ops V (Proc.devRef .tc main_v34) : IVec S2x1x1 32) (after ops V (Proc.devRef .tc main_v24) : IVec S2x1x1 32) :=
  Line.at_ternary writesAre W_nodup 51 rfl rfl (Line.not_mem_drop_of_lt W_nodup (j := 47) rfl (by decide)) (Line.not_mem_drop_of_lt W_nodup (j := 50) rfl (by decide)) (Line.not_mem_drop_of_lt W_nodup (j := 37) rfl (by decide)) V

theorem e_c_9 (V : Valuation τ sig (Elt F)) :
    (after ops V (Proc.devRef .tc main_c_9) : IVec S_ 32) = constantI S_ 32 0#32 :=
  Line.at_nullary writesAre W_nodup 52 rfl rfl V

theorem e_v36 (V : Valuation τ sig (Elt F)) :
    (after ops V (Proc.devRef .tc main_v36) : IVec S1x2048x1 32) = (broadcastInDim S1x2048x1 ![] bcast_S_S1x2048x1 : (⟨S_, .i32⟩ : BufTy).Contents (Elt F) → (⟨S1x2048x1, .i32⟩ : BufTy).Contents (Elt F)) (after ops V (Proc.devRef .tc main_c_9) : IVec S_ 32) :=
  Line.at_unary writesAre W_nodup 53 rfl rfl (Line.not_mem_drop_of_lt W_nodup (j := 52) rfl (by decide)) V

theorem e_v37 (V : Valuation τ sig (Elt F)) :
    (after ops V (Proc.devRef .tc main_v37) : IVec S1x2048x1 1) = (cmpi .slt : (⟨S1x2048x1, .i32⟩ : BufTy).Contents (Elt F) → (⟨S1x2048x1, .i32⟩ : BufTy).Contents (Elt F) → (⟨S1x2048x1, .i1⟩ : BufTy).Contents (Elt F)) (after ops V (Proc.devRef .tc main_v26) : IVec S1x2048x1 32) (after ops V (Proc.devRef .tc main_v36) : IVec S1x2048x1 32) :=
  Line.at_binary writesAre W_nodup 54 rfl rfl (Line.not_mem_drop_of_lt W_nodup (j := 39) rfl (by decide)) (Line.not_mem_drop_of_lt W_nodup (j := 53) rfl (by decide)) V

theorem e_c_10 (V : Valuation τ sig (Elt F)) :
    (after ops V (Proc.devRef .tc main_c_10) : IVec S_ 32) = constantI S_ 32 2048#32 :=
  Line.at_nullary writesAre W_nodup 55 rfl rfl V

theorem e_v38 (V : Valuation τ sig (Elt F)) :
    (after ops V (Proc.devRef .tc main_v38) : IVec S1x2048x1 32) = (broadcastInDim S1x2048x1 ![] bcast_S_S1x2048x1 : (⟨S_, .i32⟩ : BufTy).Contents (Elt F) → (⟨S1x2048x1, .i32⟩ : BufTy).Contents (Elt F)) (after ops V (Proc.devRef .tc main_c_10) : IVec S_ 32) :=
  Line.at_unary writesAre W_nodup 56 rfl rfl (Line.not_mem_drop_of_lt W_nodup (j := 55) rfl (by decide)) V

theorem e_v39 (V : Valuation τ sig (Elt F)) :
    (after ops V (Proc.devRef .tc main_v39) : IVec S1x2048x1 32) = (addi : (⟨S1x2048x1, .i32⟩ : BufTy).Contents (Elt F) → (⟨S1x2048x1, .i32⟩ : BufTy).Contents (Elt F) → (⟨S1x2048x1, .i32⟩ : BufTy).Contents (Elt F)) (after ops V (Proc.devRef .tc main_v26) : IVec S1x2048x1 32) (after ops V (Proc.devRef .tc main_v38) : IVec S1x2048x1 32) :=
  Line.at_binary writesAre W_nodup 57 rfl rfl (Line.not_mem_drop_of_lt W_nodup (j := 39) rfl (by decide)) (Line.not_mem_drop_of_lt W_nodup (j := 56) rfl (by decide)) V

theorem e_v40 (V : Valuation τ sig (Elt F)) :
    (after ops V (Proc.devRef .tc main_v40) : IVec S1x2048x1 32) = (select : (⟨S1x2048x1, .i1⟩ : BufTy).Contents (Elt F) → (⟨S1x2048x1, .i32⟩ : BufTy).Contents (Elt F) → (⟨S1x2048x1, .i32⟩ : BufTy).Contents (Elt F) → (⟨S1x2048x1, .i32⟩ : BufTy).Contents (Elt F)) (after ops V (Proc.devRef .tc main_v37) : IVec S1x2048x1 1) (after ops V (Proc.devRef .tc main_v39) : IVec S1x2048x1 32) (after ops V (Proc.devRef .tc main_v26) : IVec S1x2048x1 32) :=
  Line.at_ternary writesAre W_nodup 58 rfl rfl (Line.not_mem_drop_of_lt W_nodup (j := 54) rfl (by decide)) (Line.not_mem_drop_of_lt W_nodup (j := 57) rfl (by decide)) (Line.not_mem_drop_of_lt W_nodup (j := 39) rfl (by decide)) V

theorem e_c_11 (V : Valuation τ sig (Elt F)) :
    (after ops V (Proc.devRef .tc main_c_11) : IVec S_ 32) = constantI S_ 32 0#32 :=
  Line.at_nullary writesAre W_nodup 59 rfl rfl V

theorem e_v41 (V : Valuation τ sig (Elt F)) :
    (after ops V (Proc.devRef .tc main_v41) : IVec S2x2048x16384 32) = (broadcastInDim S2x2048x16384 ![] bcast_S_S2x2048x16384 : (⟨S_, .i32⟩ : BufTy).Contents (Elt F) → (⟨S2x2048x16384, .i32⟩ : BufTy).Contents (Elt F)) (after ops V (Proc.devRef .tc main_c_11) : IVec S_ 32) :=
  Line.at_unary writesAre W_nodup 60 rfl rfl (Line.not_mem_drop_of_lt W_nodup (j := 59) rfl (by decide)) V

theorem e_v42 (V : Valuation τ sig (Elt F)) :
    (after ops V (Proc.devRef .tc main_v42) : IVec S2x2048x16384 1) = (cmpi .slt : (⟨S2x2048x16384, .i32⟩ : BufTy).Contents (Elt F) → (⟨S2x2048x16384, .i32⟩ : BufTy).Contents (Elt F) → (⟨S2x2048x16384, .i1⟩ : BufTy).Contents (Elt F)) (after ops V (Proc.devRef .tc main_v22) : IVec S2x2048x16384 32) (after ops V (Proc.devRef .tc main_v41) : IVec S2x2048x16384 32) :=
  Line.at_binary writesAre W_nodup 61 rfl rfl (Line.not_mem_drop_of_lt W_nodup (j := 35) rfl (by decide)) (Line.not_mem_drop_of_lt W_nodup (j := 60) rfl (by decide)) V

theorem e_c_12 (V : Valuation τ sig (Elt F)) :
    (after ops V (Proc.devRef .tc main_c_12) : IVec S_ 32) = constantI S_ 32 33#32 :=
  Line.at_nullary writesAre W_nodup 62 rfl rfl V

theorem e_v43 (V : Valuation τ sig (Elt F)) :
    (after ops V (Proc.devRef .tc main_v43) : IVec S2x2048x16384 32) = (broadcastInDim S2x2048x16384 ![] bcast_S_S2x2048x16384 : (⟨S_, .i32⟩ : BufTy).Contents (Elt F) → (⟨S2x2048x16384, .i32⟩ : BufTy).Contents (Elt F)) (after ops V (Proc.devRef .tc main_c_12) : IVec S_ 32) :=
  Line.at_unary writesAre W_nodup 63 rfl rfl (Line.not_mem_drop_of_lt W_nodup (j := 62) rfl (by decide)) V

theorem e_v44 (V : Valuation τ sig (Elt F)) :
    (after ops V (Proc.devRef .tc main_v44) : IVec S2x2048x16384 32) = (addi : (⟨S2x2048x16384, .i32⟩ : BufTy).Contents (Elt F) → (⟨S2x2048x16384, .i32⟩ : BufTy).Contents (Elt F) → (⟨S2x2048x16384, .i32⟩ : BufTy).Contents (Elt F)) (after ops V (Proc.devRef .tc main_v22) : IVec S2x2048x16384 32) (after ops V (Proc.devRef .tc main_v43) : IVec S2x2048x16384 32) :=
  Line.at_binary writesAre W_nodup 64 rfl rfl (Line.not_mem_drop_of_lt W_nodup (j := 35) rfl (by decide)) (Line.not_mem_drop_of_lt W_nodup (j := 63) rfl (by decide)) V

theorem e_v45 (V : Valuation τ sig (Elt F)) :
    (after ops V (Proc.devRef .tc main_v45) : IVec S2x2048x16384 32) = (select : (⟨S2x2048x16384, .i1⟩ : BufTy).Contents (Elt F) → (⟨S2x2048x16384, .i32⟩ : BufTy).Contents (Elt F) → (⟨S2x2048x16384, .i32⟩ : BufTy).Contents (Elt F) → (⟨S2x2048x16384, .i32⟩ : BufTy).Contents (Elt F)) (after ops V (Proc.devRef .tc main_v42) : IVec S2x2048x16384 1) (after ops V (Proc.devRef .tc main_v44) : IVec S2x2048x16384 32) (after ops V (Proc.devRef .tc main_v22) : IVec S2x2048x16384 32) :=
  Line.at_ternary writesAre W_nodup 65 rfl rfl (Line.not_mem_drop_of_lt W_nodup (j := 61) rfl (by decide)) (Line.not_mem_drop_of_lt W_nodup (j := 64) rfl (by decide)) (Line.not_mem_drop_of_lt W_nodup (j := 35) rfl (by decide)) V

theorem e_v46 (V : Valuation τ sig (Elt F)) :
    (after ops V (Proc.devRef .tc main_v46) : IVec S2x2048x16384 32) = (broadcastInDim S2x2048x16384 ![0, 1, 2] bcast_S2x1x1_S2x2048x16384_0_1_2 : (⟨S2x1x1, .i32⟩ : BufTy).Contents (Elt F) → (⟨S2x2048x16384, .i32⟩ : BufTy).Contents (Elt F)) (after ops V (Proc.devRef .tc main_v35) : IVec S2x1x1 32) :=
  Line.at_unary writesAre W_nodup 66 rfl rfl (Line.not_mem_drop_of_lt W_nodup (j := 51) rfl (by decide)) V

theorem e_v47 (V : Valuation τ sig (Elt F)) :
    (after ops V (Proc.devRef .tc main_v47) : IVec S2x2048x16384 32) = (broadcastInDim S2x2048x16384 ![0, 1, 2] bcast_S1x2048x1_S2x2048x16384_0_1_2 : (⟨S1x2048x1, .i32⟩ : BufTy).Contents (Elt F) → (⟨S2x2048x16384, .i32⟩ : BufTy).Contents (Elt F)) (after ops V (Proc.devRef .tc main_v40) : IVec S1x2048x1 32) :=
  Line.at_unary writesAre W_nodup 67 rfl rfl (Line.not_mem_drop_of_lt W_nodup (j := 58) rfl (by decide)) V

theorem e_v48 (V : Valuation τ sig (Elt F)) :
    (after ops V (Proc.devRef .tc main_v48) : IVec S2x2048x16384x1 32) = (broadcastInDim S2x2048x16384x1 ![0, 1, 2] bcast_S2x2048x16384_S2x2048x16384x1_0_1_2 : (⟨S2x2048x16384, .i32⟩ : BufTy).Contents (Elt F) → (⟨S2x2048x16384x1, .i32⟩ : BufTy).Contents (Elt F)) (after ops V (Proc.devRef .tc main_v46) : IVec S2x2048x16384 32) :=
  Line.at_unary writesAre W_nodup 68 rfl rfl (Line.not_mem_drop_of_lt W_nodup (j := 66) rfl (by decide)) V

theorem e_v49 (V : Valuation τ sig (Elt F)) :
    (after ops V (Proc.devRef .tc main_v49) : IVec S2x2048x16384x1 32) = (broadcastInDim S2x2048x16384x1 ![0, 1, 2] bcast_S2x2048x16384_S2x2048x16384x1_0_1_2 : (⟨S2x2048x16384, .i32⟩ : BufTy).Contents (Elt F) → (⟨S2x2048x16384x1, .i32⟩ : BufTy).Contents (Elt F)) (after ops V (Proc.devRef .tc main_v47) : IVec S2x2048x16384 32) :=
  Line.at_unary writesAre W_nodup 69 rfl rfl (Line.not_mem_drop_of_lt W_nodup (j := 67) rfl (by decide)) V

theorem e_v50 (V : Valuation τ sig (Elt F)) :
    (after ops V (Proc.devRef .tc main_v50) : IVec S2x2048x16384x1 32) = (broadcastInDim S2x2048x16384x1 ![0, 1, 2] bcast_S2x2048x16384_S2x2048x16384x1_0_1_2 : (⟨S2x2048x16384, .i32⟩ : BufTy).Contents (Elt F) → (⟨S2x2048x16384x1, .i32⟩ : BufTy).Contents (Elt F)) (after ops V (Proc.devRef .tc main_v45) : IVec S2x2048x16384 32) :=
  Line.at_unary writesAre W_nodup 70 rfl rfl (Line.not_mem_drop_of_lt W_nodup (j := 65) rfl (by decide)) V

theorem e_v51 (V : Valuation τ sig (Elt F)) :
    (after ops V (Proc.devRef .tc main_v51) : IVec S2x2048x16384x3 32) = concatenate S2x2048x16384x3 3 [⟨S2x2048x16384x1, (after ops V (Proc.devRef .tc main_v48) : IVec S2x2048x16384x1 32)⟩, ⟨S2x2048x16384x1, (after ops V (Proc.devRef .tc main_v49) : IVec S2x2048x16384x1 32)⟩, ⟨S2x2048x16384x1, (after ops V (Proc.devRef .tc main_v50) : IVec S2x2048x16384x1 32)⟩] concatenates_S2x2048x16384x1_S2x2048x16384x1_S2x2048x16384x1_S2x2048x16384x3_d3 :=
  Line.at_nary writesAre W_nodup 71 rfl rfl (fun i => by fin_cases i <;> first | exact (Line.not_mem_drop_of_lt W_nodup (j := 68) rfl (by decide)) | exact (Line.not_mem_drop_of_lt W_nodup (j := 69) rfl (by decide)) | exact (Line.not_mem_drop_of_lt W_nodup (j := 70) rfl (by decide))) V

theorem e_v52 (V : Valuation τ sig (Elt F)) :
    (after ops V (Proc.devRef .tc main_v52) : IVec S2x2048x33 32) = ((fun x i u => Host.scatter scatter_S2x2048x33_S2x2048x16384x3_S2x2048x16384_n_012_012_3 (fun _ b => b) x i u) : (⟨S2x2048x33, .i32⟩ : BufTy).Contents (Elt F) → (⟨S2x2048x16384x3, .i32⟩ : BufTy).Contents (Elt F) → (⟨S2x2048x16384, .i32⟩ : BufTy).Contents (Elt F) → (⟨S2x2048x33, .i32⟩ : BufTy).Contents (Elt F)) (after ops V (Proc.devRef .tc main_v30) : IVec S2x2048x33 32) (after ops V (Proc.devRef .tc main_v51) : IVec S2x2048x16384x3 32) (after ops V (Proc.devRef .tc main_v29) : IVec S2x2048x16384 32) :=
  Line.at_ternary writesAre W_nodup 72 rfl rfl (Line.not_mem_drop_of_lt W_nodup (j := 44) rfl (by decide)) (Line.not_mem_drop_of_lt W_nodup (j := 71) rfl (by decide)) (Line.not_mem_drop_of_lt W_nodup (j := 42) rfl (by decide)) V

theorem e_v53 (V : Valuation τ sig (Elt F)) :
    (after ops V (Proc.devRef .tc main_v53) : IVec S2x2048x32 32) = ((extractStridedSlice S2x2048x32 ![0, 0, 0] · slices_S2x2048x33_S2x2048x32_0_0_0) : (⟨S2x2048x33, .i32⟩ : BufTy).Contents (Elt F) → (⟨S2x2048x32, .i32⟩ : BufTy).Contents (Elt F)) (after ops V (Proc.devRef .tc main_v52) : IVec S2x2048x33 32) :=
  Line.at_unary writesAre W_nodup 73 rfl rfl (Line.not_mem_drop_of_lt W_nodup (j := 72) rfl (by decide)) V

theorem e_v54 (V : Valuation τ sig (Elt F)) :
    (after ops V (Proc.devRef .tc main_v54) : IVec S32 32) = iotaInDim S32 32 0 :=
  Line.at_nullary writesAre W_nodup 74 rfl rfl V

theorem e_v55 (V : Valuation τ sig (Elt F)) :
    (after ops V (Proc.devRef .tc main_v55) : IVec S1x1x32 32) = (broadcastInDim S1x1x32 ![2] bcast_S32_S1x1x32_2 : (⟨S32, .i32⟩ : BufTy).Contents (Elt F) → (⟨S1x1x32, .i32⟩ : BufTy).Contents (Elt F)) (after ops V (Proc.devRef .tc main_v54) : IVec S32 32) :=
  Line.at_unary writesAre W_nodup 75 rfl rfl (Line.not_mem_drop_of_lt W_nodup (j := 74) rfl (by decide)) V

theorem e_v56 (V : Valuation τ sig (Elt F)) :
    (after ops V (Proc.devRef .tc main_v56) : IVec S2x2048x1 32) = (broadcastInDim S2x2048x1 ![0, 1] bcast_S2x2048_S2x2048x1_0_1 : (⟨S2x2048, .i32⟩ : BufTy).Contents (Elt F) → (⟨S2x2048x1, .i32⟩ : BufTy).Contents (Elt F)) (after ops V (Proc.devRef .tc main_v18) : IVec S2x2048 32) :=
  Line.at_unary writesAre W_nodup 76 rfl rfl (Line.not_mem_drop_of_lt W_nodup (j := 27) rfl (by decide)) V

theorem e_v57 (V : Valuation τ sig (Elt F)) :
    (after ops V (Proc.devRef .tc main_v57) : IVec S2x2048x32 32) = (broadcastInDim S2x2048x32 ![0, 1, 2] bcast_S1x1x32_S2x2048x32_0_1_2 : (⟨S1x1x32, .i32⟩ : BufTy).Contents (Elt F) → (⟨S2x2048x32, .i32⟩ : BufTy).Contents (Elt F)) (after ops V (Proc.devRef .tc main_v55) : IVec S1x1x32 32) :=
  Line.at_unary writesAre W_nodup 77 rfl rfl (Line.not_mem_drop_of_lt W_nodup (j := 75) rfl (by decide)) V

theorem e_v58 (V : Valuation τ sig (Elt F)) :
    (after ops V (Proc.devRef .tc main_v58) : IVec S2x2048x32 32) = (broadcastInDim S2x2048x32 ![0, 1, 2] bcast_S2x2048x1_S2x2048x32_0_1_2 : (⟨S2x2048x1, .i32⟩ : BufTy).Contents (Elt F) → (⟨S2x2048x32, .i32⟩ : BufTy).Contents (Elt F)) (after ops V (Proc.devRef .tc main_v56) : IVec S2x2048x1 32) :=
  Line.at_unary writesAre W_nodup 78 rfl rfl (Line.not_mem_drop_of_lt W_nodup (j := 76) rfl (by decide)) V

theorem e_v59 (V : Valuation τ sig (Elt F)) :
    (after ops V (Proc.devRef .tc main_v59) : IVec S2x2048x32 1) = (cmpi .slt : (⟨S2x2048x32, .i32⟩ : BufTy).Contents (Elt F) → (⟨S2x2048x32, .i32⟩ : BufTy).Contents (Elt F) → (⟨S2x2048x32, .i1⟩ : BufTy).Contents (Elt F)) (after ops V (Proc.devRef .tc main_v57) : IVec S2x2048x32 32) (after ops V (Proc.devRef .tc main_v58) : IVec S2x2048x32 32) :=
  Line.at_binary writesAre W_nodup 79 rfl rfl (Line.not_mem_drop_of_lt W_nodup (j := 77) rfl (by decide)) (Line.not_mem_drop_of_lt W_nodup (j := 78) rfl (by decide)) V

theorem e_v60 (V : Valuation τ sig (Elt F)) :
    (after ops V (Proc.devRef .tc main_v60) : IVec S2x2048x1 32) = ((extractStridedSlice S2x2048x1 ![0, 0, 0] · slices_S2x2048x32_S2x2048x1_0_0_0) : (⟨S2x2048x32, .i32⟩ : BufTy).Contents (Elt F) → (⟨S2x2048x1, .i32⟩ : BufTy).Contents (Elt F)) (after ops V (Proc.devRef .tc main_v53) : IVec S2x2048x32 32) :=
  Line.at_unary writesAre W_nodup 80 rfl rfl (Line.not_mem_drop_of_lt W_nodup (j := 73) rfl (by decide)) V

theorem e_call2_v0 (V : Valuation τ sig (Elt F)) :
    (after ops V (Proc.devRef .tc main_call2_v0) : IVec S2x2048x32 32) = (broadcastInDim S2x2048x32 ![0, 1, 2] bcast_S2x2048x1_S2x2048x32_0_1_2) (after ops V (Proc.devRef .tc main_v60) : IVec S2x2048x1 32) :=
  Line.at_unary writesAre W_nodup 81 rfl rfl (Line.not_mem_drop_of_lt W_nodup (j := 80) rfl (by decide)) V

theorem e_v61 (V : Valuation τ sig (Elt F)) :
    (after ops V (Proc.devRef .tc main_v61) : IVec S2x2048x32 32) = select (after ops V (Proc.devRef .tc main_v59) : IVec S2x2048x32 1) (after ops V (Proc.devRef .tc main_v53) : IVec S2x2048x32 32) (after ops V (Proc.devRef .tc main_call2_v0) : IVec S2x2048x32 32) :=
  Line.at_ternary writesAre W_nodup 82 rfl rfl (Line.not_mem_drop_of_lt W_nodup (j := 79) rfl (by decide)) (Line.not_mem_drop_of_lt W_nodup (j := 73) rfl (by decide)) (Line.not_mem_drop_of_lt W_nodup (j := 81) rfl (by decide)) V

end Cert.ReferenceIdeal.Hand

end
-- ==== Proof.RefLineB.lean ====
/-
  Each buffer of the reference's line read after the whole line, second part: the operations of the gather tail
  (buffers 86 … 141).
-/
import proofs.«128314_j31576599560762_2_alg».proof.Proof.RefOps

noncomputable section

namespace Cert.ReferenceIdeal.Hand

open Idealize.ShloMosaic Idealize.ShloMosaic.TcCoe Idealize.SL.Sem Idealize.ShloMosaic.StableHlo Cert.ReferenceIdeal Cert.ReferenceIdeal.Facts₀

variable {F : FTy → Type} [FloatOps F]

/- The fold over the line is never opened here: each step cites a lemma about it; nor are the reductions, the gather and the
   scatter, whose bodies are folds and searches over an operand's elements. -/
attribute [local irreducible] StableHlo.after Host.reduce Host.reduceWindow Host.reduceAdd Host.gather Host.scatter

theorem e_v62 (V : Valuation τ sig (Elt F)) :
    (after ops V (Proc.devRef .tc main_v62) : FVec F S2x3x16384 .f32) = ((transpose S2x3x16384 [0, 2, 1] · transposes_S2x16384x3_S2x3x16384_0_2_1) : (⟨S2x16384x3, .f32⟩ : BufTy).Contents (Elt F) → (⟨S2x3x16384, .f32⟩ : BufTy).Contents (Elt F)) (after ops V (Proc.devRef .tc main_arg0) : FVec F S2x16384x3 .f32) :=
  Line.at_unary writesAre W_nodup 83 rfl rfl (Line.not_mem_drop_of_not_mem arg0_notW 83) V

theorem e_v63 (V : Valuation τ sig (Elt F)) :
    (after ops V (Proc.devRef .tc main_v63) : IVec S2x1x65536 32) = shapeCast S2x1x65536 (after ops V (Proc.devRef .tc main_v61) : IVec S2x2048x32 32) shapeCasts_S2x2048x32_S2x1x65536 :=
  Line.at_reshape writesAre W_nodup 84 rfl rfl (Line.not_mem_drop_of_lt W_nodup (j := 82) rfl (by decide)) V

theorem e_call3_c (V : Valuation τ sig (Elt F)) :
    (after ops V (Proc.devRef .tc main_call3_c) : IVec S_ 32) = constantI S_ 32 0#32 :=
  Line.at_nullary writesAre W_nodup 85 rfl rfl V

theorem e_call3_v0 (V : Valuation τ sig (Elt F)) :
    (after ops V (Proc.devRef .tc main_call3_v0) : IVec S2x1x65536 32) = (broadcastInDim S2x1x65536 ![] bcast_S_S2x1x65536) (after ops V (Proc.devRef .tc main_call3_c) : IVec S_ 32) :=
  Line.at_unary writesAre W_nodup 86 rfl rfl (Line.not_mem_drop_of_lt W_nodup (j := 85) rfl (by decide)) V

theorem e_call3_v1 (V : Valuation τ sig (Elt F)) :
    (after ops V (Proc.devRef .tc main_call3_v1) : IVec S2x1x65536 1) = (cmpi .slt) (after ops V (Proc.devRef .tc main_v63) : IVec S2x1x65536 32) (after ops V (Proc.devRef .tc main_call3_v0) : IVec S2x1x65536 32) :=
  Line.at_binary writesAre W_nodup 87 rfl rfl (Line.not_mem_drop_of_lt W_nodup (j := 84) rfl (by decide)) (Line.not_mem_drop_of_lt W_nodup (j := 86) rfl (by decide)) V

theorem e_call3_c_0 (V : Valuation τ sig (Elt F)) :
    (after ops V (Proc.devRef .tc main_call3_c_0) : IVec S_ 32) = constantI S_ 32 16384#32 :=
  Line.at_nullary writesAre W_nodup 88 rfl rfl V

theorem e_call3_v2 (V : Valuation τ sig (Elt F)) :
    (after ops V (Proc.devRef .tc main_call3_v2) : IVec S2x1x65536 32) = (broadcastInDim S2x1x65536 ![] bcast_S_S2x1x65536) (after ops V (Proc.devRef .tc main_call3_c_0) : IVec S_ 32) :=
  Line.at_unary writesAre W_nodup 89 rfl rfl (Line.not_mem_drop_of_lt W_nodup (j := 88) rfl (by decide)) V

theorem e_call3_v3 (V : Valuation τ sig (Elt F)) :
    (after ops V (Proc.devRef .tc main_call3_v3) : IVec S2x1x65536 32) = addi (after ops V (Proc.devRef .tc main_v63) : IVec S2x1x65536 32) (after ops V (Proc.devRef .tc main_call3_v2) : IVec S2x1x65536 32) :=
  Line.at_binary writesAre W_nodup 90 rfl rfl (Line.not_mem_drop_of_lt W_nodup (j := 84) rfl (by decide)) (Line.not_mem_drop_of_lt W_nodup (j := 89) rfl (by decide)) V

theorem e_call3_v4 (V : Valuation τ sig (Elt F)) :
    (after ops V (Proc.devRef .tc main_call3_v4) : IVec S2x1x65536 32) = select (after ops V (Proc.devRef .tc main_call3_v1) : IVec S2x1x65536 1) (after ops V (Proc.devRef .tc main_call3_v3) : IVec S2x1x65536 32) (after ops V (Proc.devRef .tc main_v63) : IVec S2x1x65536 32) :=
  Line.at_ternary writesAre W_nodup 91 rfl rfl (Line.not_mem_drop_of_lt W_nodup (j := 87) rfl (by decide)) (Line.not_mem_drop_of_lt W_nodup (j := 90) rfl (by decide)) (Line.not_mem_drop_of_lt W_nodup (j := 84) rfl (by decide)) V

theorem e_call3_v5 (V : Valuation τ sig (Elt F)) :
    (after ops V (Proc.devRef .tc main_call3_v5) : IVec S2x65536x1 32) = shapeCast S2x65536x1 (after ops V (Proc.devRef .tc main_call3_v4) : IVec S2x1x65536 32) shapeCasts_S2x1x65536_S2x65536x1 :=
  Line.at_reshape writesAre W_nodup 92 rfl rfl (Line.not_mem_drop_of_lt W_nodup (j := 91) rfl (by decide)) V

theorem e_call3_c_1 (V : Valuation τ sig (Elt F)) :
    (after ops V (Proc.devRef .tc main_call3_c_1) : IVec S1 32) = constantI S1 32 16383#32 :=
  Line.at_nullary writesAre W_nodup 93 rfl rfl V

theorem e_call3_c_2 (V : Valuation τ sig (Elt F)) :
    (after ops V (Proc.devRef .tc main_call3_c_2) : IVec S_ 32) = constantI S_ 32 0#32 :=
  Line.at_nullary writesAre W_nodup 94 rfl rfl V

theorem e_call3_v6 (V : Valuation τ sig (Elt F)) :
    (after ops V (Proc.devRef .tc main_call3_v6) : IVec S2x65536x1 32) = (broadcastInDim S2x65536x1 ![] bcast_S_S2x65536x1) (after ops V (Proc.devRef .tc main_call3_c_2) : IVec S_ 32) :=
  Line.at_unary writesAre W_nodup 95 rfl rfl (Line.not_mem_drop_of_lt W_nodup (j := 94) rfl (by decide)) V

theorem e_call3_v7 (V : Valuation τ sig (Elt F)) :
    (after ops V (Proc.devRef .tc main_call3_v7) : IVec S2x65536x1 1) = (cmpi .sge) (after ops V (Proc.devRef .tc main_call3_v5) : IVec S2x65536x1 32) (after ops V (Proc.devRef .tc main_call3_v6) : IVec S2x65536x1 32) :=
  Line.at_binary writesAre W_nodup 96 rfl rfl (Line.not_mem_drop_of_lt W_nodup (j := 92) rfl (by decide)) (Line.not_mem_drop_of_lt W_nodup (j := 95) rfl (by decide)) V

theorem e_call3_v8 (V : Valuation τ sig (Elt F)) :
    (after ops V (Proc.devRef .tc main_call3_v8) : IVec S1x1x1 32) = (broadcastInDim S1x1x1 ![2] bcast_S1_S1x1x1_2) (after ops V (Proc.devRef .tc main_call3_c_1) : IVec S1 32) :=
  Line.at_unary writesAre W_nodup 97 rfl rfl (Line.not_mem_drop_of_lt W_nodup (j := 93) rfl (by decide)) V

theorem e_call3_v9 (V : Valuation τ sig (Elt F)) :
    (after ops V (Proc.devRef .tc main_call3_v9) : IVec S2x65536x1 32) = (broadcastInDim S2x65536x1 ![0, 1, 2] bcast_S1x1x1_S2x65536x1_0_1_2) (after ops V (Proc.devRef .tc main_call3_v8) : IVec S1x1x1 32) :=
  Line.at_unary writesAre W_nodup 98 rfl rfl (Line.not_mem_drop_of_lt W_nodup (j := 97) rfl (by decide)) V

theorem e_call3_v10 (V : Valuation τ sig (Elt F)) :
    (after ops V (Proc.devRef .tc main_call3_v10) : IVec S2x65536x1 1) = (cmpi .sle) (after ops V (Proc.devRef .tc main_call3_v5) : IVec S2x65536x1 32) (after ops V (Proc.devRef .tc main_call3_v9) : IVec S2x65536x1 32) :=
  Line.at_binary writesAre W_nodup 99 rfl rfl (Line.not_mem_drop_of_lt W_nodup (j := 92) rfl (by decide)) (Line.not_mem_drop_of_lt W_nodup (j := 98) rfl (by decide)) V

theorem e_call3_v11 (V : Valuation τ sig (Elt F)) :
    (after ops V (Proc.devRef .tc main_call3_v11) : IVec S2x65536x1 1) = andi (after ops V (Proc.devRef .tc main_call3_v7) : IVec S2x65536x1 1) (after ops V (Proc.devRef .tc main_call3_v10) : IVec S2x65536x1 1) :=
  Line.at_binary writesAre W_nodup 100 rfl rfl (Line.not_mem_drop_of_lt W_nodup (j := 96) rfl (by decide)) (Line.not_mem_drop_of_lt W_nodup (j := 99) rfl (by decide)) V

theorem e_call3_c_3 (V : Valuation τ sig (Elt F)) :
    (after ops V (Proc.devRef .tc main_call3_c_3) : IVec S_ 1) = constantI S_ 1 1#1 :=
  Line.at_nullary writesAre W_nodup 101 rfl rfl V

theorem e_call3_v12 (V : Valuation τ sig (Elt F)) :
    (after ops V (Proc.devRef .tc main_call3_v12) : IVec S2x65536 1) = (fun x v => Host.reduce IntOp.andi x v reducesTo_S2x65536x1_S2x65536_d2 h_S_) (after ops V (Proc.devRef .tc main_call3_v11) : IVec S2x65536x1 1) (after ops V (Proc.devRef .tc main_call3_c_3) : IVec S_ 1) :=
  Line.at_binary writesAre W_nodup 102 rfl rfl (Line.not_mem_drop_of_lt W_nodup (j := 100) rfl (by decide)) (Line.not_mem_drop_of_lt W_nodup (j := 101) rfl (by decide)) V

theorem e_call3_v13 (V : Valuation τ sig (Elt F)) :
    (after ops V (Proc.devRef .tc main_call3_v13) : FVec F S2x3x65536 .f32) = (fun x i => Host.gather gather_S2x3x16384_S2x65536x1_S2x3x65536_1_2_0_0_2_2_131 x i) (after ops V (Proc.devRef .tc main_v62) : FVec F S2x3x16384 .f32) (after ops V (Proc.devRef .tc main_call3_v5) : IVec S2x65536x1 32) :=
  Line.at_binary writesAre W_nodup 103 rfl rfl (Line.not_mem_drop_of_lt W_nodup (j := 83) rfl (by decide)) (Line.not_mem_drop_of_lt W_nodup (j := 92) rfl (by decide)) V

theorem e_call3_v14 (V : Valuation τ sig (Elt F)) :
    (after ops V (Proc.devRef .tc main_call3_v14) : IVec S2x3x65536 1) = (broadcastInDim S2x3x65536 ![0, 2] bcast_S2x65536_S2x3x65536_0_2) (after ops V (Proc.devRef .tc main_call3_v12) : IVec S2x65536 1) :=
  Line.at_unary writesAre W_nodup 104 rfl rfl (Line.not_mem_drop_of_lt W_nodup (j := 102) rfl (by decide)) V

theorem e_call3_cst (V : Valuation τ sig (Elt F)) :
    (after ops V (Proc.devRef .tc main_call3_cst) : FVec F S_ .f32) = constant S_ .f32 0x7FC00000#32 :=
  Line.at_nullary writesAre W_nodup 105 rfl rfl V

theorem e_call3_v15 (V : Valuation τ sig (Elt F)) :
    (after ops V (Proc.devRef .tc main_call3_v15) : FVec F S2x3x65536 .f32) = (broadcastInDim S2x3x65536 ![] bcast_S_S2x3x65536) (after ops V (Proc.devRef .tc main_call3_cst) : FVec F S_ .f32) :=
  Line.at_unary writesAre W_nodup 106 rfl rfl (Line.not_mem_drop_of_lt W_nodup (j := 105) rfl (by decide)) V

theorem e_v64 (V : Valuation τ sig (Elt F)) :
    (after ops V (Proc.devRef .tc main_v64) : FVec F S2x3x65536 .f32) = select (after ops V (Proc.devRef .tc main_call3_v14) : IVec S2x3x65536 1) (after ops V (Proc.devRef .tc main_call3_v13) : FVec F S2x3x65536 .f32) (after ops V (Proc.devRef .tc main_call3_v15) : FVec F S2x3x65536 .f32) :=
  Line.at_ternary writesAre W_nodup 107 rfl rfl (Line.not_mem_drop_of_lt W_nodup (j := 104) rfl (by decide)) (Line.not_mem_drop_of_lt W_nodup (j := 103) rfl (by decide)) (Line.not_mem_drop_of_lt W_nodup (j := 106) rfl (by decide)) V

theorem e_v65 (V : Valuation τ sig (Elt F)) :
    (after ops V (Proc.devRef .tc main_v65) : FVec F S2x3x2048x32 .f32) = shapeCast S2x3x2048x32 (after ops V (Proc.devRef .tc main_v64) : FVec F S2x3x65536 .f32) shapeCasts_S2x3x65536_S2x3x2048x32 :=
  Line.at_reshape writesAre W_nodup 108 rfl rfl (Line.not_mem_drop_of_lt W_nodup (j := 107) rfl (by decide)) V

theorem e_v66 (V : Valuation τ sig (Elt F)) :
    (after ops V (Proc.devRef .tc main_v66) : FVec F S2x3x2048 .f32) = ((transpose S2x3x2048 [0, 2, 1] · transposes_S2x2048x3_S2x3x2048_0_2_1) : (⟨S2x2048x3, .f32⟩ : BufTy).Contents (Elt F) → (⟨S2x3x2048, .f32⟩ : BufTy).Contents (Elt F)) (after ops V (Proc.devRef .tc main_arg1) : FVec F S2x2048x3 .f32) :=
  Line.at_unary writesAre W_nodup 109 rfl rfl (Line.not_mem_drop_of_not_mem arg1_notW 109) V

theorem e_v67 (V : Valuation τ sig (Elt F)) :
    (after ops V (Proc.devRef .tc main_v67) : FVec F S2x3x2048x1 .f32) = (broadcastInDim S2x3x2048x1 ![0, 1, 2] bcast_S2x3x2048_S2x3x2048x1_0_1_2 : (⟨S2x3x2048, .f32⟩ : BufTy).Contents (Elt F) → (⟨S2x3x2048x1, .f32⟩ : BufTy).Contents (Elt F)) (after ops V (Proc.devRef .tc main_v66) : FVec F S2x3x2048 .f32) :=
  Line.at_unary writesAre W_nodup 110 rfl rfl (Line.not_mem_drop_of_lt W_nodup (j := 109) rfl (by decide)) V

theorem e_v68 (V : Valuation τ sig (Elt F)) :
    (after ops V (Proc.devRef .tc main_v68) : FVec F S2x3x2048x32 .f32) = (broadcastInDim S2x3x2048x32 ![0, 1, 2, 3] bcast_S2x3x2048x1_S2x3x2048x32_0_1_2_3 : (⟨S2x3x2048x1, .f32⟩ : BufTy).Contents (Elt F) → (⟨S2x3x2048x32, .f32⟩ : BufTy).Contents (Elt F)) (after ops V (Proc.devRef .tc main_v67) : FVec F S2x3x2048x1 .f32) :=
  Line.at_unary writesAre W_nodup 111 rfl rfl (Line.not_mem_drop_of_lt W_nodup (j := 110) rfl (by decide)) V

theorem e_v69 (V : Valuation τ sig (Elt F)) :
    (after ops V (Proc.devRef .tc main_v69) : FVec F S2x3x2048x32 .f32) = (subf : (⟨S2x3x2048x32, .f32⟩ : BufTy).Contents (Elt F) → (⟨S2x3x2048x32, .f32⟩ : BufTy).Contents (Elt F) → (⟨S2x3x2048x32, .f32⟩ : BufTy).Contents (Elt F)) (after ops V (Proc.devRef .tc main_v65) : FVec F S2x3x2048x32 .f32) (after ops V (Proc.devRef .tc main_v68) : FVec F S2x3x2048x32 .f32) :=
  Line.at_binary writesAre W_nodup 112 rfl rfl (Line.not_mem_drop_of_lt W_nodup (j := 108) rfl (by decide)) (Line.not_mem_drop_of_lt W_nodup (j := 111) rfl (by decide)) V

theorem e_v70 (V : Valuation τ sig (Elt F)) :
    (after ops V (Proc.devRef .tc main_v70) : IVec S2x1x65536 32) = shapeCast S2x1x65536 (after ops V (Proc.devRef .tc main_v61) : IVec S2x2048x32 32) shapeCasts_S2x2048x32_S2x1x65536 :=
  Line.at_reshape writesAre W_nodup 113 rfl rfl (Line.not_mem_drop_of_lt W_nodup (j := 82) rfl (by decide)) V

theorem e_call4_c (V : Valuation τ sig (Elt F)) :
    (after ops V (Proc.devRef .tc main_call4_c) : IVec S_ 32) = constantI S_ 32 0#32 :=
  Line.at_nullary writesAre W_nodup 114 rfl rfl V

theorem e_call4_v0 (V : Valuation τ sig (Elt F)) :
    (after ops V (Proc.devRef .tc main_call4_v0) : IVec S2x1x65536 32) = (broadcastInDim S2x1x65536 ![] bcast_S_S2x1x65536) (after ops V (Proc.devRef .tc main_call4_c) : IVec S_ 32) :=
  Line.at_unary writesAre W_nodup 115 rfl rfl (Line.not_mem_drop_of_lt W_nodup (j := 114) rfl (by decide)) V

theorem e_call4_v1 (V : Valuation τ sig (Elt F)) :
    (after ops V (Proc.devRef .tc main_call4_v1) : IVec S2x1x65536 1) = (cmpi .slt) (after ops V (Proc.devRef .tc main_v70) : IVec S2x1x65536 32) (after ops V (Proc.devRef .tc main_call4_v0) : IVec S2x1x65536 32) :=
  Line.at_binary writesAre W_nodup 116 rfl rfl (Line.not_mem_drop_of_lt W_nodup (j := 113) rfl (by decide)) (Line.not_mem_drop_of_lt W_nodup (j := 115) rfl (by decide)) V

theorem e_call4_c_0 (V : Valuation τ sig (Elt F)) :
    (after ops V (Proc.devRef .tc main_call4_c_0) : IVec S_ 32) = constantI S_ 32 16384#32 :=
  Line.at_nullary writesAre W_nodup 117 rfl rfl V

theorem e_call4_v2 (V : Valuation τ sig (Elt F)) :
    (after ops V (Proc.devRef .tc main_call4_v2) : IVec S2x1x65536 32) = (broadcastInDim S2x1x65536 ![] bcast_S_S2x1x65536) (after ops V (Proc.devRef .tc main_call4_c_0) : IVec S_ 32) :=
  Line.at_unary writesAre W_nodup 118 rfl rfl (Line.not_mem_drop_of_lt W_nodup (j := 117) rfl (by decide)) V

theorem e_call4_v3 (V : Valuation τ sig (Elt F)) :
    (after ops V (Proc.devRef .tc main_call4_v3) : IVec S2x1x65536 32) = addi (after ops V (Proc.devRef .tc main_v70) : IVec S2x1x65536 32) (after ops V (Proc.devRef .tc main_call4_v2) : IVec S2x1x65536 32) :=
  Line.at_binary writesAre W_nodup 119 rfl rfl (Line.not_mem_drop_of_lt W_nodup (j := 113) rfl (by decide)) (Line.not_mem_drop_of_lt W_nodup (j := 118) rfl (by decide)) V

theorem e_call4_v4 (V : Valuation τ sig (Elt F)) :
    (after ops V (Proc.devRef .tc main_call4_v4) : IVec S2x1x65536 32) = select (after ops V (Proc.devRef .tc main_call4_v1) : IVec S2x1x65536 1) (after ops V (Proc.devRef .tc main_call4_v3) : IVec S2x1x65536 32) (after ops V (Proc.devRef .tc main_v70) : IVec S2x1x65536 32) :=
  Line.at_ternary writesAre W_nodup 120 rfl rfl (Line.not_mem_drop_of_lt W_nodup (j := 116) rfl (by decide)) (Line.not_mem_drop_of_lt W_nodup (j := 119) rfl (by decide)) (Line.not_mem_drop_of_lt W_nodup (j := 113) rfl (by decide)) V

theorem e_call4_v5 (V : Valuation τ sig (Elt F)) :
    (after ops V (Proc.devRef .tc main_call4_v5) : IVec S2x65536x1 32) = shapeCast S2x65536x1 (after ops V (Proc.devRef .tc main_call4_v4) : IVec S2x1x65536 32) shapeCasts_S2x1x65536_S2x65536x1 :=
  Line.at_reshape writesAre W_nodup 121 rfl rfl (Line.not_mem_drop_of_lt W_nodup (j := 120) rfl (by decide)) V

theorem e_call4_c_1 (V : Valuation τ sig (Elt F)) :
    (after ops V (Proc.devRef .tc main_call4_c_1) : IVec S1 32) = constantI S1 32 16383#32 :=
  Line.at_nullary writesAre W_nodup 122 rfl rfl V

theorem e_call4_c_2 (V : Valuation τ sig (Elt F)) :
    (after ops V (Proc.devRef .tc main_call4_c_2) : IVec S_ 32) = constantI S_ 32 0#32 :=
  Line.at_nullary writesAre W_nodup 123 rfl rfl V

theorem e_call4_v6 (V : Valuation τ sig (Elt F)) :
    (after ops V (Proc.devRef .tc main_call4_v6) : IVec S2x65536x1 32) = (broadcastInDim S2x65536x1 ![] bcast_S_S2x65536x1) (after ops V (Proc.devRef .tc main_call4_c_2) : IVec S_ 32) :=
  Line.at_unary writesAre W_nodup 124 rfl rfl (Line.not_mem_drop_of_lt W_nodup (j := 123) rfl (by decide)) V

theorem e_call4_v7 (V : Valuation τ sig (Elt F)) :
    (after ops V (Proc.devRef .tc main_call4_v7) : IVec S2x65536x1 1) = (cmpi .sge) (after ops V (Proc.devRef .tc main_call4_v5) : IVec S2x65536x1 32) (after ops V (Proc.devRef .tc main_call4_v6) : IVec S2x65536x1 32) :=
  Line.at_binary writesAre W_nodup 125 rfl rfl (Line.not_mem_drop_of_lt W_nodup (j := 121) rfl (by decide)) (Line.not_mem_drop_of_lt W_nodup (j := 124) rfl (by decide)) V

theorem e_call4_v8 (V : Valuation τ sig (Elt F)) :
    (after ops V (Proc.devRef .tc main_call4_v8) : IVec S1x1x1 32) = (broadcastInDim S1x1x1 ![2] bcast_S1_S1x1x1_2) (after ops V (Proc.devRef .tc main_call4_c_1) : IVec S1 32) :=
  Line.at_unary writesAre W_nodup 126 rfl rfl (Line.not_mem_drop_of_lt W_nodup (j := 122) rfl (by decide)) V

theorem e_call4_v9 (V : Valuation τ sig (Elt F)) :
    (after ops V (Proc.devRef .tc main_call4_v9) : IVec S2x65536x1 32) = (broadcastInDim S2x65536x1 ![0, 1, 2] bcast_S1x1x1_S2x65536x1_0_1_2) (after ops V (Proc.devRef .tc main_call4_v8) : IVec S1x1x1 32) :=
  Line.at_unary writesAre W_nodup 127 rfl rfl (Line.not_mem_drop_of_lt W_nodup (j := 126) rfl (by decide)) V

theorem e_call4_v10 (V : Valuation τ sig (Elt F)) :
    (after ops V (Proc.devRef .tc main_call4_v10) : IVec S2x65536x1 1) = (cmpi .sle) (after ops V (Proc.devRef .tc main_call4_v5) : IVec S2x65536x1 32) (after ops V (Proc.devRef .tc main_call4_v9) : IVec S2x65536x1 32) :=
  Line.at_binary writesAre W_nodup 128 rfl rfl (Line.not_mem_drop_of_lt W_nodup (j := 121) rfl (by decide)) (Line.not_mem_drop_of_lt W_nodup (j := 127) rfl (by decide)) V

theorem e_call4_v11 (V : Valuation τ sig (Elt F)) :
    (after ops V (Proc.devRef .tc main_call4_v11) : IVec S2x65536x1 1) = andi (after ops V (Proc.devRef .tc main_call4_v7) : IVec S2x65536x1 1) (after ops V (Proc.devRef .tc main_call4_v10) : IVec S2x65536x1 1) :=
  Line.at_binary writesAre W_nodup 129 rfl rfl (Line.not_mem_drop_of_lt W_nodup (j := 125) rfl (by decide)) (Line.not_mem_drop_of_lt W_nodup (j := 128) rfl (by decide)) V

theorem e_call4_c_3 (V : Valuation τ sig (Elt F)) :
    (after ops V (Proc.devRef .tc main_call4_c_3) : IVec S_ 1) = constantI S_ 1 1#1 :=
  Line.at_nullary writesAre W_nodup 130 rfl rfl V

theorem e_call4_v12 (V : Valuation τ sig (Elt F)) :
    (after ops V (Proc.devRef .tc main_call4_v12) : IVec S2x65536 1) = (fun x v => Host.reduce IntOp.andi x v reducesTo_S2x65536x1_S2x65536_d2 h_S_) (after ops V (Proc.devRef .tc main_call4_v11) : IVec S2x65536x1 1) (after ops V (Proc.devRef .tc main_call4_c_3) : IVec S_ 1) :=
  Line.at_binary writesAre W_nodup 131 rfl rfl (Line.not_mem_drop_of_lt W_nodup (j := 129) rfl (by decide)) (Line.not_mem_drop_of_lt W_nodup (j := 130) rfl (by decide)) V

theorem e_call4_v13 (V : Valuation τ sig (Elt F)) :
    (after ops V (Proc.devRef .tc main_call4_v13) : FVec F S2x64x65536 .f32) = (fun x i => Host.gather gather_S2x64x16384_S2x65536x1_S2x64x65536_1_2_0_0_2_2_1641 x i) (after ops V (Proc.devRef .tc main_arg2) : FVec F S2x64x16384 .f32) (after ops V (Proc.devRef .tc main_call4_v5) : IVec S2x65536x1 32) :=
  Line.at_binary writesAre W_nodup 132 rfl rfl (Line.not_mem_drop_of_not_mem arg2_notW 132) (Line.not_mem_drop_of_lt W_nodup (j := 121) rfl (by decide)) V

theorem e_call4_v14 (V : Valuation τ sig (Elt F)) :
    (after ops V (Proc.devRef .tc main_call4_v14) : IVec S2x64x65536 1) = (broadcastInDim S2x64x65536 ![0, 2] bcast_S2x65536_S2x64x65536_0_2) (after ops V (Proc.devRef .tc main_call4_v12) : IVec S2x65536 1) :=
  Line.at_unary writesAre W_nodup 133 rfl rfl (Line.not_mem_drop_of_lt W_nodup (j := 131) rfl (by decide)) V

theorem e_call4_cst (V : Valuation τ sig (Elt F)) :
    (after ops V (Proc.devRef .tc main_call4_cst) : FVec F S_ .f32) = constant S_ .f32 0x7FC00000#32 :=
  Line.at_nullary writesAre W_nodup 134 rfl rfl V

theorem e_call4_v15 (V : Valuation τ sig (Elt F)) :
    (after ops V (Proc.devRef .tc main_call4_v15) : FVec F S2x64x65536 .f32) = (broadcastInDim S2x64x65536 ![] bcast_S_S2x64x65536) (after ops V (Proc.devRef .tc main_call4_cst) : FVec F S_ .f32) :=
  Line.at_unary writesAre W_nodup 135 rfl rfl (Line.not_mem_drop_of_lt W_nodup (j := 134) rfl (by decide)) V

theorem e_v71 (V : Valuation τ sig (Elt F)) :
    (after ops V (Proc.devRef .tc main_v71) : FVec F S2x64x65536 .f32) = select (after ops V (Proc.devRef .tc main_call4_v14) : IVec S2x64x65536 1) (after ops V (Proc.devRef .tc main_call4_v13) : FVec F S2x64x65536 .f32) (after ops V (Proc.devRef .tc main_call4_v15) : FVec F S2x64x65536 .f32) :=
  Line.at_ternary writesAre W_nodup 136 rfl rfl (Line.not_mem_drop_of_lt W_nodup (j := 133) rfl (by decide)) (Line.not_mem_drop_of_lt W_nodup (j := 132) rfl (by decide)) (Line.not_mem_drop_of_lt W_nodup (j := 135) rfl (by decide)) V

theorem e_v72 (V : Valuation τ sig (Elt F)) :
    (after ops V (Proc.devRef .tc main_v72) : FVec F S2x64x2048x32 .f32) = shapeCast S2x64x2048x32 (after ops V (Proc.devRef .tc main_v71) : FVec F S2x64x65536 .f32) shapeCasts_S2x64x65536_S2x64x2048x32 :=
  Line.at_reshape writesAre W_nodup 137 rfl rfl (Line.not_mem_drop_of_lt W_nodup (j := 136) rfl (by decide)) V

theorem e_v73 (V : Valuation τ sig (Elt F)) :
    (after ops V (Proc.devRef .tc main_v73) : FVec F S2x67x2048x32 .f32) = ((fun a b => concatenate S2x67x2048x32 1 [⟨S2x3x2048x32, a⟩, ⟨S2x64x2048x32, b⟩] concatenates_S2x3x2048x32_S2x64x2048x32_S2x67x2048x32_d1) : (⟨S2x3x2048x32, .f32⟩ : BufTy).Contents (Elt F) → (⟨S2x64x2048x32, .f32⟩ : BufTy).Contents (Elt F) → (⟨S2x67x2048x32, .f32⟩ : BufTy).Contents (Elt F)) (after ops V (Proc.devRef .tc main_v69) : FVec F S2x3x2048x32 .f32) (after ops V (Proc.devRef .tc main_v72) : FVec F S2x64x2048x32 .f32) :=
  Line.at_binary writesAre W_nodup 138 rfl rfl (Line.not_mem_drop_of_lt W_nodup (j := 112) rfl (by decide)) (Line.not_mem_drop_of_lt W_nodup (j := 137) rfl (by decide)) V

end Cert.ReferenceIdeal.Hand

end
-- ==== Proof.RefRun.lean ====
/-
  The reference's run read back: every weakly fair execution of @main terminates, the neighbour count %18 at
  `refCnt`, the grouped features %73 at `refOut`, the argument arrays unchanged. Each result after the line is its
  operation's function of its operands after the line (RefLineA, RefLineB), back to the arguments: the composed term
  is the definition of RefTerm, one `let` per operation.
-/
import proofs.«128314_j31576599560762_2_alg».proof.Proof.RefLineA
import proofs.«128314_j31576599560762_2_alg».proof.Proof.RefLineB

noncomputable section

namespace Cert.ReferenceIdeal.Hand

open Idealize.ShloMosaic Idealize.ShloMosaic.TcCoe Idealize.SL.Sem Idealize.ShloMosaic.StableHlo Cert.ReferenceIdeal Cert.ReferenceIdeal.Facts₀

variable {F : FTy → Type} [FloatOps F]

/- The fold over the line is never opened here: each step cites a lemma about it; nor are the reductions, the gather and the
   scatter, whose bodies are folds and searches over an operand's elements. -/
attribute [local irreducible] StableHlo.after Host.reduce Host.reduceWindow Host.reduceAdd Host.gather Host.scatter

/-- The neighbour count after the line. -/
theorem after_cnt (V : Valuation τ sig (Elt F)) :
    after ops V (Proc.devRef .tc main_v18) = refCnt (V (Proc.devRef .tc main_arg0)) (V (Proc.devRef .tc main_arg1)) := by
  rw [e_v18 V, e_v17 V, e_c_3 V, e_v16 V, e_c_2 V, e_v15 V, e_v11 V, e_v10 V,
    e_v9 V, e_cst_1 V, e_v8 V, e_v7 V, e_cst_0 V, e_v6 V, e_cst V, e_v5 V,
    e_v4 V, e_v3 V, e_v2 V, e_v1 V, e_v0 V, e_a0 V, e_a1 V]
  rfl

/-- The neighbour index table after the line. -/
theorem after_idx (V : Valuation τ sig (Elt F)) :
    after ops V (Proc.devRef .tc main_v61) = refIdx (V (Proc.devRef .tc main_arg0)) (V (Proc.devRef .tc main_arg1)) := by
  rw [e_v61 V, e_call2_v0 V, e_v60 V, e_v59 V, e_v58 V, e_v57 V, e_v56 V, e_v55 V,
    e_v54 V, e_v53 V, e_v52 V, e_v51 V, e_v50 V, e_v49 V, e_v48 V, e_v47 V,
    e_v46 V, e_v45 V, e_v44 V, e_v43 V, e_c_12 V, e_v42 V, e_v41 V, e_c_11 V,
    e_v40 V, e_v39 V, e_v38 V, e_c_10 V, e_v37 V, e_v36 V, e_c_9 V, e_v35 V,
    e_v34 V, e_v33 V, e_c_8 V, e_v32 V, e_v31 V, e_c_7 V, e_v30 V, e_c_6 V,
    e_v29 V, e_v28 V, e_v27 V, e_v26 V, e_v25 V, e_v24 V, e_v23 V, e_v22 V,
    e_call1_v1 V, e_call1_v0 V, e_c_5 V, e_v21 V, e_v20 V, e_v19 V, e_c_4 V, e_v18 V,
    e_v17 V, e_c_3 V, e_v16 V, e_c_2 V, e_v15 V, e_v14 V, e_v13 V, e_c V,
    e_v12 V, e_call0_call0_v0 V, e_call0_call0_c V, e_call0_v0 V, e_v11 V, e_v10 V, e_v9 V, e_cst_1 V,
    e_v8 V, e_v7 V, e_cst_0 V, e_v6 V, e_cst V, e_v5 V, e_v4 V, e_v3 V,
    e_v2 V, e_v1 V, e_v0 V, e_a0 V, e_a1 V]
  rfl

/-- The grouped features after the line, over the index table after the line. -/
theorem after_tail (V : Valuation τ sig (Elt F)) :
    after ops V (Proc.devRef .tc main_v73) = refTail (after ops V (Proc.devRef .tc main_v61)) (V (Proc.devRef .tc main_arg0)) (V (Proc.devRef .tc main_arg1)) (V (Proc.devRef .tc main_arg2)) := by
  rw [e_v73 V, e_v72 V, e_v71 V, e_call4_v15 V, e_call4_cst V, e_call4_v14 V, e_call4_v13 V, e_call4_v12 V,
    e_call4_c_3 V, e_call4_v11 V, e_call4_v10 V, e_call4_v9 V, e_call4_v8 V, e_call4_v7 V, e_call4_v6 V, e_call4_c_2 V,
    e_call4_c_1 V, e_call4_v5 V, e_call4_v4 V, e_call4_v3 V, e_call4_v2 V, e_call4_c_0 V, e_call4_v1 V, e_call4_v0 V,
    e_call4_c V, e_v70 V, e_v69 V, e_v68 V, e_v67 V, e_v66 V, e_v65 V, e_v64 V,
    e_call3_v15 V, e_call3_cst V, e_call3_v14 V, e_call3_v13 V, e_call3_v12 V, e_call3_c_3 V, e_call3_v11 V, e_call3_v10 V,
    e_call3_v9 V, e_call3_v8 V, e_call3_v7 V, e_call3_v6 V, e_call3_c_2 V, e_call3_c_1 V, e_call3_v5 V, e_call3_v4 V,
    e_call3_v3 V, e_call3_v2 V, e_call3_c_0 V, e_call3_v1 V, e_call3_v0 V, e_call3_c V, e_v63 V, e_v62 V,
    e_a0 V, e_a1 V, e_a2 V]
  rfl

/-- The grouped features after the line. -/
theorem after_out (V : Valuation τ sig (Elt F)) :
    after ops V (Proc.devRef .tc main_v73) = refOut (V (Proc.devRef .tc main_arg0)) (V (Proc.devRef .tc main_arg1)) (V (Proc.devRef .tc main_arg2)) := by
  rw [after_tail, after_idx]; rfl

/-- On every device, for any float values, from any memory with zero counters: every weakly fair execution of @main
    terminates with the two results at `refCnt` and `refOut` of the arguments' launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v18) = refCnt (m ((c.tc : Thread nD τ).loc main_arg0)) (m ((c.tc : Thread nD τ).loc main_arg1))
      ∧ r.2.mem ((c.tc : Thread nD τ).loc main_v73) = refOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v18).trans (after_cnt _), (h c main_v73).trans (after_out _),
      (h c main_arg0).trans (e_a0 _), (h c main_arg1).trans (e_a1 _), (h c main_arg2).trans (e_a2 _)⟩)
    (run_seq scopedRefs_eq scopedSems_eq defs main (fun _ => ops) main_eq (fun _ => ops_sub) m ρ)

end Cert.ReferenceIdeal.Hand

end
-- ==== Proof.LibScatterRange.lean ====
/-
  A scatter whose body returns the update writes nothing but update elements: every element of its
  result is the operand's element at that index or an element of the updates. Hence a property that
  holds of every operand element and of every update element holds of every result element. With the
  operand all zeros and the updates an iota broadcast along an axis of size 16384, every result element
  is a word below 16384 (read unsigned, and equally read signed).
-/
import Idealize.ShloMosaic.PureOps.ShapeOps
import Idealize.ShloMosaic.PureOps.Vector

namespace Cert.Hand.Math

open Idealize.ShloMosaic

/-! ## The scatter of updates, for any dimension numbers -/

/-- One step of the fold by which `Host.scatter` applies the updates, its body returning the update. -/
def scatterSetStep {α : Type} {s si u : Shape} {w : Nat} (d : ScatterDims s si u) (idx : IVec si w) (upd : u.Idx → α)
    (r : s.Idx → α) (n : Fin u.numel) : s.Idx → α :=
  match d.resultIdx? (u.rowMajor.symm n) idx with
  | some i => fun i' => if i' = i then (fun (_ b : α) => b) (r i) (upd (u.rowMajor.symm n)) else r i'
  | none => r

/-- `Host.scatter` with the body "return the update" is the left fold of `scatterSetStep`. -/
theorem scatter_set_eq_foldl {α : Type} {s si u : Shape} {w : Nat} (d : ScatterDims s si u) (x : s.Idx → α)
    (idx : IVec si w) (upd : u.Idx → α) :
    Host.scatter d (fun _ b => b) x idx upd = (List.finRange u.numel).foldl (scatterSetStep d idx upd) x := rfl

/-- One step keeps the invariant "each element is the operand's there, or some update element". -/
theorem scatterSetStep_inv {α : Type} {s si u : Shape} {w : Nat} (d : ScatterDims s si u) (x : s.Idx → α)
    (idx : IVec si w) (upd : u.Idx → α) (r : s.Idx → α) (n : Fin u.numel)
    (hr : ∀ j, r j = x j ∨ ∃ k, r j = upd k) :
    ∀ j, scatterSetStep d idx upd r n j = x j ∨ ∃ k, scatterSetStep d idx upd r n j = upd k := by
  intro j
  unfold scatterSetStep
  cases h : d.resultIdx? (u.rowMajor.symm n) idx with
  | none => exact hr j
  | some i =>
    show (if j = i then upd (u.rowMajor.symm n) else r j) = x j ∨ ∃ k, (if j = i then upd (u.rowMajor.symm n) else r j) = upd k
    by_cases hj : j = i
    · rw [if_pos hj]
      exact Or.inr ⟨_, rfl⟩
    · rw [if_neg hj]
      exact hr j

/-- The fold keeps the invariant, over any list of update positions. -/
theorem scatterSet_foldl_inv {α : Type} {s si u : Shape} {w : Nat} (d : ScatterDims s si u) (x : s.Idx → α)
    (idx : IVec si w) (upd : u.Idx → α) (l : List (Fin u.numel)) :
    ∀ r : s.Idx → α, (∀ j, r j = x j ∨ ∃ k, r j = upd k) →
      ∀ j, l.foldl (scatterSetStep d idx upd) r j = x j ∨ ∃ k, l.foldl (scatterSetStep d idx upd) r j = upd k := by
  induction l with
  | nil => intro r hr; exact hr
  | cons n l ih =>
    intro r hr
    rw [List.foldl_cons]
    exact ih _ (scatterSetStep_inv d x idx upd r n hr)

/-- Every element of a scatter that writes the updates is the operand's element at that index or an
    element of the updates. -/
theorem scatter_set_or {α : Type} {s si u : Shape} {w : Nat} (d : ScatterDims s si u) (x : s.Idx → α)
    (idx : IVec si w) (upd : u.Idx → α) (j : s.Idx) :
    Host.scatter d (fun _ b => b) x idx upd j = x j ∨ ∃ k, Host.scatter d (fun _ b => b) x idx upd j = upd k := by
  rw [scatter_set_eq_foldl]
  exact scatterSet_foldl_inv d x idx upd _ x (fun j => Or.inl rfl) j

/-- Every element of the result is an element of the operand or an element of the updates. -/
theorem scatter_set_mem {α : Type} {s si u : Shape} {w : Nat} (d : ScatterDims s si u) (x : s.Idx → α)
    (idx : IVec si w) (upd : u.Idx → α) (j : s.Idx) :
    (∃ j', Host.scatter d (fun _ b => b) x idx upd j = x j') ∨ (∃ k, Host.scatter d (fun _ b => b) x idx upd j = upd k) := by
  rcases scatter_set_or d x idx upd j with h | h
  · exact Or.inl ⟨j, h⟩
  · exact Or.inr h

/-- A property of every operand element and of every update element is a property of every result element. -/
theorem scatter_set_pred {α : Type} {s si u : Shape} {w : Nat} (d : ScatterDims s si u) (x : s.Idx → α)
    (idx : IVec si w) (upd : u.Idx → α) (P : α → Prop) (hx : ∀ j, P (x j)) (hu : ∀ k, P (upd k)) (j : s.Idx) :
    P (Host.scatter d (fun _ b => b) x idx upd j) := by
  rcases scatter_set_or d x idx upd j with h | ⟨k, h⟩
  · rw [h]; exact hx j
  · rw [h]; exact hu k

/-! ## Broadcasts and slices read an element of their operand -/

/-- A broadcast's elements are elements of its operand. -/
theorem broadcastInDim_pred {α : Type} {s t : Shape} (dims : Fin s.rank → Fin t.rank) (h : s.BroadcastsInDim t dims)
    (x : s.Idx → α) (P : α → Prop) (hx : ∀ i, P (x i)) (j : t.Idx) : P (broadcastInDim t dims h x j) := hx _

/-- A slice's elements are elements of its operand. -/
theorem extractStridedSlice_pred {α : Type} {s t : Shape} (off : Fin s.rank → Nat) (h : s.Slices off t)
    (x : s.Idx → α) (P : α → Prop) (hx : ∀ i, P (x i)) (j : t.Idx) : P (extractStridedSlice t off x h j) := hx _

/-! ## Words below a bound -/

/-- A 32-bit word below 2^31 read signed is the word read unsigned. -/
theorem toInt_eq_toNat_of_lt (e : BitVec 32) (n : ℕ) (hn : n ≤ 2147483648) (h : e.toNat < n) :
    e.toInt = (e.toNat : Int) := by
  rw [BitVec.toInt_eq_toNat_cond]
  have : 2 * e.toNat < 2 ^ 32 := by omega
  rw [if_pos this]

/-- The same as bounds on the signed reading. -/
theorem toInt_bounds_of_lt (e : BitVec 32) (n : ℕ) (hn : n ≤ 2147483648) (h : e.toNat < n) :
    0 ≤ e.toInt ∧ e.toInt < (n : Int) := by
  rw [toInt_eq_toNat_of_lt e n hn h]
  omega

/-- An iota's element along an axis is below that axis' size, when the size fits the word. -/
theorem iotaInDim_toNat_lt (s : Shape) (a : Fin s.rank) (hs : s.size a ≤ 2 ^ 32) (i : s.Idx) :
    (iotaInDim s 32 a i).toNat < s.size a := by
  show (BitVec.ofNat 32 (i a).val).toNat < s.size a
  rw [BitVec.toNat_ofNat, Nat.mod_eq_of_lt (by have := (i a).isLt; omega)]
  exact (i a).isLt

end Cert.Hand.Math
-- ==== Proof.MathScatterIdx.lean ====
/-
  The index table of the ball query: a scatter of an iota (broadcast along the last axis, of size
  16384) into an array of zeros. Every element of the result, and of any slice of it, is a word below
  16384, read unsigned or signed. Also the iota broadcast read at an index: the last coordinate.
-/
import proofs.«128314_j31576599560762_2_alg».proof.Proof.LibScatterRange

namespace Cert.Hand.Math

open Idealize.ShloMosaic

abbrev Sh_ : Shape := ⟨0, ![]⟩
abbrev Sh16384 : Shape := ⟨1, ![16384]⟩
abbrev Sh1x1x16384 : Shape := ⟨3, ![1, 1, 16384]⟩
abbrev Sh2x2048x16384 : Shape := ⟨3, ![2, 2048, 16384]⟩
abbrev Sh2x2048x16384x3 : Shape := ⟨4, ![2, 2048, 16384, 3]⟩
abbrev Sh2x2048x33 : Shape := ⟨3, ![2, 2048, 33]⟩

/-- The updates of the scatter: the iota of length 16384 placed on the last axis and repeated over the
    first two. -/
abbrev iotaBcast (h1 : Sh16384.BroadcastsInDim Sh1x1x16384 (![2] : Fin 1 → Fin Sh1x1x16384.rank))
    (h2 : Sh1x1x16384.BroadcastsInDim Sh2x2048x16384 (![0, 1, 2] : Fin 3 → Fin Sh2x2048x16384.rank)) :
    IVec Sh2x2048x16384 32 :=
  broadcastInDim Sh2x2048x16384 ![0, 1, 2] h2 (broadcastInDim Sh1x1x16384 ![2] h1 (iotaInDim Sh16384 32 0))

/-- The iota broadcast read at an index is the index's last coordinate. -/
theorem iotaBcast_apply (h1 : Sh16384.BroadcastsInDim Sh1x1x16384 (![2] : Fin 1 → Fin Sh1x1x16384.rank))
    (h2 : Sh1x1x16384.BroadcastsInDim Sh2x2048x16384 (![0, 1, 2] : Fin 3 → Fin Sh2x2048x16384.rank))
    (k : Sh2x2048x16384.Idx) : iotaBcast h1 h2 k = BitVec.ofNat 32 (k 2).val := by
  show BitVec.ofNat 32 _ = BitVec.ofNat 32 (k 2).val
  congr 1

/-- Every element of the iota broadcast is below 16384. -/
theorem iotaBcast_lt (h1 : Sh16384.BroadcastsInDim Sh1x1x16384 (![2] : Fin 1 → Fin Sh1x1x16384.rank))
    (h2 : Sh1x1x16384.BroadcastsInDim Sh2x2048x16384 (![0, 1, 2] : Fin 3 → Fin Sh2x2048x16384.rank))
    (k : Sh2x2048x16384.Idx) : (iotaBcast h1 h2 k).toNat < 16384 := by
  apply broadcastInDim_pred _ h2 _ (fun e : BitVec 32 => e.toNat < 16384)
  apply broadcastInDim_pred _ h1 _ (fun e : BitVec 32 => e.toNat < 16384)
  intro i
  exact iotaInDim_toNat_lt Sh16384 0 (by decide) i

/-- The scatter of the iota into zeros: every element is below 16384, whatever the dimension numbers
    and the scatter indices. -/
theorem scatter_iota_lt (d : ScatterDims Sh2x2048x33 Sh2x2048x16384x3 Sh2x2048x16384)
    (h0 : Sh_.BroadcastsInDim Sh2x2048x33 (![] : Fin 0 → Fin Sh2x2048x33.rank))
    (h1 : Sh16384.BroadcastsInDim Sh1x1x16384 (![2] : Fin 1 → Fin Sh1x1x16384.rank))
    (h2 : Sh1x1x16384.BroadcastsInDim Sh2x2048x16384 (![0, 1, 2] : Fin 3 → Fin Sh2x2048x16384.rank))
    (idx : IVec Sh2x2048x16384x3 32) (j : Sh2x2048x33.Idx) :
    (Host.scatter d (fun _ b => b) (broadcastInDim Sh2x2048x33 ![] h0 (constantI Sh_ 32 0#32)) idx
        (iotaBcast h1 h2) j).toNat < 16384 := by
  apply scatter_set_pred d _ idx _ (fun e : BitVec 32 => e.toNat < 16384)
  · intro j'
    show (0#32 : BitVec 32).toNat < 16384
    decide
  · intro k
    exact iotaBcast_lt h1 h2 k

/-- The same for any operand and updates whose elements are below 16384. -/
theorem scatter_lt_of_lt {s si u : Shape} (d : ScatterDims s si u) (x : IVec s 32) (idx : IVec si 32) (upd : IVec u 32)
    (hx : ∀ j, (x j).toNat < 16384) (hu : ∀ k, (upd k).toNat < 16384) (j : s.Idx) :
    (Host.scatter d (fun _ b => b) x idx upd j).toNat < 16384 :=
  scatter_set_pred d x idx upd (fun e : BitVec 32 => e.toNat < 16384) hx hu j

/-- A word below 16384 read signed lies in [0, 16384), and is the word read unsigned. -/
theorem toInt_of_lt_16384 (e : BitVec 32) (h : e.toNat < 16384) :
    e.toInt = (e.toNat : Int) ∧ 0 ≤ e.toInt ∧ e.toInt < 16384 := by
  refine ⟨toInt_eq_toNat_of_lt e 16384 (by omega) h, ?_⟩
  have := toInt_bounds_of_lt e 16384 (by omega) h
  exact ⟨this.1, by have := this.2; omega⟩

/-- The scatter of the iota into zeros, read signed: every element lies in [0, 16384). -/
theorem scatter_iota_toInt (d : ScatterDims Sh2x2048x33 Sh2x2048x16384x3 Sh2x2048x16384)
    (h0 : Sh_.BroadcastsInDim Sh2x2048x33 (![] : Fin 0 → Fin Sh2x2048x33.rank))
    (h1 : Sh16384.BroadcastsInDim Sh1x1x16384 (![2] : Fin 1 → Fin Sh1x1x16384.rank))
    (h2 : Sh1x1x16384.BroadcastsInDim Sh2x2048x16384 (![0, 1, 2] : Fin 3 → Fin Sh2x2048x16384.rank))
    (idx : IVec Sh2x2048x16384x3 32) (j : Sh2x2048x33.Idx) :
    0 ≤ (Host.scatter d (fun _ b => b) (broadcastInDim Sh2x2048x33 ![] h0 (constantI Sh_ 32 0#32)) idx
        (iotaBcast h1 h2) j).toInt ∧
    (Host.scatter d (fun _ b => b) (broadcastInDim Sh2x2048x33 ![] h0 (constantI Sh_ 32 0#32)) idx
        (iotaBcast h1 h2) j).toInt < 16384 :=
  (toInt_of_lt_16384 _ (scatter_iota_lt d h0 h1 h2 idx j)).2

end Cert.Hand.Math
-- ==== Proof.MathIdxRange.lean ====
/-
  The reference's neighbour index table holds only words below 16384: it is a select between a slice
  of the scatter of an iota into zeros and a broadcast of a slice of that slice, and every element of
  that scatter is below 16384.
-/
import proofs.«128314_j31576599560762_2_alg».proof.Proof.RefTerm
import proofs.«128314_j31576599560762_2_alg».proof.Proof.MathScatterIdx

namespace Cert.ReferenceIdeal.Hand

open Idealize.ShloMosaic Cert.ReferenceIdeal Cert.ReferenceIdeal.Facts₀ Cert.Hand.Math

variable {F : FTy → Type} [FloatOps F]

/-- A select's elements are elements of one of its two branches. -/
theorem select_pred {α : Type} {s : Shape} (c : IVec s 1) (a b : s.Idx → α) (P : α → Prop) (j : s.Idx)
    (ha : P (a j)) (hb : P (b j)) : P (select c a b j) := by
  show P (Scalar.select (c j) (a j) (b j))
  unfold Scalar.select
  split
  · exact ha
  · exact hb

/-- Every entry of the reference's neighbour index table is below 16384. -/
theorem refIdx_lt (a0 : FVec F S2x16384x3 .f32) (a1 : FVec F S2x2048x3 .f32) (j : S2x2048x32.Idx) :
    (refIdx (F := F) a0 a1 j).toNat < 16384 := by
  unfold refIdx
  dsimp only
  refine select_pred _ _ _ (fun e : BitVec 32 => e.toNat < 16384) j ?_ ?_
  · refine extractStridedSlice_pred _ _ _ (fun e : BitVec 32 => e.toNat < 16384) ?_ j
    intro i
    exact scatter_iota_lt _ _ _ _ _ i
  · refine broadcastInDim_pred _ _ _ (fun e : BitVec 32 => e.toNat < 16384) ?_ j
    intro i1
    refine extractStridedSlice_pred _ _ _ (fun e : BitVec 32 => e.toNat < 16384) ?_ i1
    intro i2
    refine extractStridedSlice_pred _ _ _ (fun e : BitVec 32 => e.toNat < 16384) ?_ i2
    intro i
    exact scatter_iota_lt _ _ _ _ _ i

end Cert.ReferenceIdeal.Hand
-- ==== Proof.LibFiniteInputs.lean ====
/-
  Finiteness of an input array, read back from one conjunct of a precondition of the usual form
  "all(|a| < +inf)".

  Such a conjunct compares, entry by entry, the absolute value of the array with the scalar whose pattern has an
  all-ones exponent field and a zero significand, broadcast to the array's shape, and reduces the comparison by
  conjunction over every axis into a single bit. Over the extended reals that pattern denotes +∞ and the absolute
  value of x is max(x, −x); a reduction by conjunction into a single bit that is one has every element one; and
  max(x, −x) < +∞ rules out x = +∞ and x = −∞, leaving a real number. So if the conjunct's bit is one, every entry of
  the array is (the inclusion of) a real number — which is what a law that needs distributivity or cancellation asks.
  A precondition that joins several such conjuncts by `and` is split with `IntOp.andi_eq_one` first.
-/
import Idealize.ShloMosaic.Lib.ReduceAll
import Idealize.ShloMosaic.Lib.ValueIdx
import Idealize.ShloMosaic.PureOps.Ideal

noncomputable section

namespace Cert.Lib.FiniteInputs

open Idealize.ShloMosaic

/-- The single-precision pattern with an all-ones exponent field, zero significand and clear sign denotes +∞. -/
theorem ofBits_pos_inf : Ideal.ofBits .f32 0x7F800000#32 = (⊤ : EReal) := by
  simp [Ideal.ofBits, Ideal.ieee]

/-- An extended real whose absolute value max(x, −x) is strictly below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The rank-zero shape has a single index. -/
instance subsingleton_scalar_idx : Subsingleton (⟨0, ![]⟩ : Shape).Idx := ⟨fun _ _ => funext fun d => d.elim0⟩

/-- One conjunct: if "every entry's absolute value is below the all-ones-exponent pattern", reduced by conjunction
    over all axes into one bit, is one, then every entry of the array is real. -/
theorem real_of_all_lt_inf {s : Shape} {axes : List (Fin s.rank)} (a : FVec Ideal s .f32)
    (bc : (⟨0, ![]⟩ : Shape).BroadcastsInDim s (![] : Fin 0 → Fin s.rank))
    (hr : s.ReducesTo axes (⟨0, ![]⟩ : Shape)) (hu : 0 < (⟨0, ![]⟩ : Shape).numel)
    (init : IVec (⟨0, ![]⟩ : Shape) 1) (j : (⟨0, ![]⟩ : Shape).Idx)
    (e : Host.reduce IntOp.andi
        (cmpf .olt (Host.absf a)
          (broadcastInDim s ![] bc (constant (F := Ideal) (⟨0, ![]⟩ : Shape) .f32 0x7F800000#32)))
        init hr hu j = 1#1) :
    ∀ i, ∃ r : ℝ, a i = (r : EReal) := by
  intro i
  have hi := Host.reduce_andi_all _ init hr hu j e i
  have hi' : Ideal.cmp .olt (max (a i) (-(a i))) (Ideal.ofBits .f32 0x7F800000#32) = 1#1 := hi
  rw [ofBits_pos_inf] at hi'
  refine real_of_abs_lt_top (a i) ?_
  by_contra hn
  simp [Ideal.cmp, hn] at hi'

end Cert.Lib.FiniteInputs

end
-- ==== Proof.MathFinite.lean ====
/-
  Finite inputs: under the precondition every entry of each of the three argument arrays is a real number.
  The precondition is the conjunction of three conjuncts "all(|a| < +inf)", one per argument; each is read
  back by the general lemma for one conjunct.
-/
import proofs.«128314_j31576599560762_2_alg».proof.Defs
import proofs.«128314_j31576599560762_2_alg».proof.Proof.Gen.Pre_finite_inputs
import proofs.«128314_j31576599560762_2_alg».proof.Proof.LibFiniteInputs

noncomputable section

namespace Cert.Hand.Math

open Idealize.ShloMosaic Idealize.SL.Sem

/-- The printed precondition function at the ideal values, all ones, gives real entries in all three arrays. -/
theorem real_of_fn (a0 : FVec Ideal Cert.Pre_finite_inputs.S2x16384x3 .f32)
    (a1 : FVec Ideal Cert.Pre_finite_inputs.S2x2048x3 .f32) (a2 : FVec Ideal Cert.Pre_finite_inputs.S2x64x16384 .f32)
    (h : Cert.Pre_finite_inputs.fn (F := Ideal) a0 a1 a2 = (fun _ => 1#1)) :
    (∀ i, ∃ r : ℝ, a0 i = (r : EReal)) ∧ (∀ i, ∃ r : ℝ, a1 i = (r : EReal)) ∧ (∀ i, ∃ r : ℝ, a2 i = (r : EReal)) := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  exact ⟨Cert.Lib.FiniteInputs.real_of_all_lt_inf a0 _ _ _ _ _ h0',
    Cert.Lib.FiniteInputs.real_of_all_lt_inf a1 _ _ _ _ _ h1,
    Cert.Lib.FiniteInputs.real_of_all_lt_inf a2 _ _ _ _ _ h2⟩

/-- Under the kernel's precondition every entry of each argument array, on every device, is a real number. -/
theorem finite_of_pre
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal)) :=
  real_of_fn _ _ _ (h c)

end Cert.Hand.Math

end
-- ==== Proof.Ideal.Pieces.lean ====
/-
  What the body leaves, as values. The accumulator after a first tile is the second product added to (the first
  product added to zero); after a later tile the same two additions applied to what the tile before left; the
  output block at a last tile is that accumulator less the centre block. Each is read off the stores the run
  found: the last store through the whole buffer decides its contents, and a load through the whole buffer after
  such a store reads the store's value.
-/
import proofs.«128314_j31576599560762_2_alg».proof.Proof.Ideal.Accum
import Idealize.ShloMosaic.Lib.Pipeline.Value

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.Tactic
open Idealize.SL Idealize.SL.Sem
open Idealize.ShloMosaic.Pipeline (Dat)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The tile of 1024 table rows the body loads at grid point `i`, from the staged table block `x`. -/
abbrev tileOf (i : grid0.Coords) (arg : Memref sig .tc .vmem S1x16384x128 .bf16) (harg : arg.IsWhole) (x : Vec F S1x16384x128 .bf16) : Vec F S1x1024x128 .bf16 :=
  View.readAt (Elt F) arg.view (Rect.unit (s := S1x16384x128) (k0_off1 i) S1x1024x128.size (k0_off1_inb i)).toLoadRect (harg.unread x)

theorem read3 (arg3 : Memref sig .tc .vmem S1x1024x1 .i32) (harg3 : arg3.IsWhole) (x0 : Vec F S1x1024x1 .i32) :
    View.readAt (Elt F) arg3.view (Rect.unit (s := S1x1024x1) ![0, 0, 0] S1x1024x1.size inb_S1x1024x1_S1x1024x1_0_0_0).toLoadRect (harg3.unread x0) = x0 := by
  rw [View.readAt_eq_ld, harg3.read_unread, View.ld_unit_zero (S := S1x1024x1) hz3]
theorem read6 (arg6 : Memref sig .tc .vmem S1x1024x128 .f32) (harg6 : arg6.IsWhole) (x3 : Vec F S1x1024x128 .f32) :
    View.readAt (Elt F) arg6.view (Rect.unit (s := S1x1024x128) ![0, 0, 0] S1x1024x128.size inb_S1x1024x128_S1x1024x128_0_0_0).toLoadRect (harg6.unread x3) = x3 := by
  rw [View.readAt_eq_ld, harg6.read_unread, View.ld_unit_zero (S := S1x1024x128) hz3]
theorem read8 (arg8 : Memref sig .tc .vmem S1024x128 .f32) (harg8 : arg8.IsWhole) (xs0 : Vec F S1024x128 .f32) :
    View.readAt (Elt F) arg8.view (Rect.unit (s := S1024x128) ![0, 0] S1024x128.size inb_S1024x128_S1024x128_0_0).toLoadRect (harg8.unread xs0) = xs0 := by
  rw [View.readAt_eq_ld, harg8.read_unread, View.ld_unit_zero (S := S1024x128) hz2]

theorem first_acc (c : Dev nD) (i : grid0.Coords) (arg3 : Memref sig .tc .vmem S1x1024x1 .i32) (harg3 : arg3.IsWhole) (arg4 : Memref sig .tc .vmem S1x16384x128 .bf16) (harg4 : arg4.IsWhole) (arg5 : Memref sig .tc .vmem S1x16384x128 .bf16) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1024x128 .f32) (harg8 : arg8.IsWhole) (hc0 : cond0_0 i) (hc1 : ¬cond0_1 i) (x0 : Vec F S1x1024x1 .i32) (x1 : Vec F S1x16384x128 .bf16) (x2 : Vec F S1x16384x128 .bf16) (x3 : Vec F S1x1024x128 .f32)
    (hcov : ∀ y, ∃ pc ∈ (runFirst (F := F) c i arg3 harg3 arg4 harg4 arg5 harg5 arg6 harg6 arg7 harg7 arg8 harg8 hc0 hc1 x0 x1 x2 x3).2.1, y ∈ pc.1.set) :
    arg8.view.read (Elt F) (arg8.view.writes (Elt F) arg8.view.junk (runFirst (F := F) c i arg3 harg3 arg4 harg4 arg5 harg5 arg6 harg6 arg7 harg7 arg8 harg8 hc0 hc1 x0 x1 x2 x3).2.1)
      = k0_pay5 i x0 (tileOf i arg5 harg5 x2) (k0_pay4 i x0 (tileOf i arg4 harg4 x1) k0_pay2) := by
  rw [View.read_writes_eq_canon _ _ _ hcov]
  unfold runFirst
  dsimp only
  sl_unfold_words
  rw [View.canon_cons_unit_zero (S := S1024x128) hz2]
  rw [View.readCov_cons_toLoadRect]
  rw [View.readCov_cons_toLoadRect]
  rw [read3]
  rfl

theorem mid_acc (c : Dev nD) (i : grid0.Coords) (arg3 : Memref sig .tc .vmem S1x1024x1 .i32) (harg3 : arg3.IsWhole) (arg4 : Memref sig .tc .vmem S1x16384x128 .bf16) (harg4 : arg4.IsWhole) (arg5 : Memref sig .tc .vmem S1x16384x128 .bf16) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1024x128 .f32) (harg8 : arg8.IsWhole) (hc0 : ¬cond0_0 i) (hc1 : ¬cond0_1 i) (x0 : Vec F S1x1024x1 .i32) (x1 : Vec F S1x16384x128 .bf16) (x2 : Vec F S1x16384x128 .bf16) (x3 : Vec F S1x1024x128 .f32) (xs0 : Vec F S1024x128 .f32)
    (hcov : ∀ y, ∃ pc ∈ (runMid (F := F) c i arg3 harg3 arg4 harg4 arg5 harg5 arg6 harg6 arg7 harg7 arg8 harg8 hc0 hc1 x0 x1 x2 x3 xs0).2.1, y ∈ pc.1.set) :
    arg8.view.read (Elt F) (arg8.view.writes (Elt F) arg8.view.junk (runMid (F := F) c i arg3 harg3 arg4 harg4 arg5 harg5 arg6 harg6 arg7 harg7 arg8 harg8 hc0 hc1 x0 x1 x2 x3 xs0).2.1)
      = k0_pay5 i x0 (tileOf i arg5 harg5 x2) (k0_pay4 i x0 (tileOf i arg4 harg4 x1) xs0) := by
  rw [View.read_writes_eq_canon _ _ _ hcov]
  unfold runMid
  dsimp only
  sl_unfold_words
  rw [View.canon_cons_unit_zero (S := S1024x128) hz2]
  rw [View.readCov_cons_toLoadRect]
  rw [read3, read8]
  rfl

theorem last_acc (c : Dev nD) (i : grid0.Coords) (arg3 : Memref sig .tc .vmem S1x1024x1 .i32) (harg3 : arg3.IsWhole) (arg4 : Memref sig .tc .vmem S1x16384x128 .bf16) (harg4 : arg4.IsWhole) (arg5 : Memref sig .tc .vmem S1x16384x128 .bf16) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1024x128 .f32) (harg8 : arg8.IsWhole) (hc0 : ¬cond0_0 i) (hc1 : cond0_1 i) (x0 : Vec F S1x1024x1 .i32) (x1 : Vec F S1x16384x128 .bf16) (x2 : Vec F S1x16384x128 .bf16) (x3 : Vec F S1x1024x128 .f32) (xs0 : Vec F S1024x128 .f32)
    (hcov : ∀ y, ∃ pc ∈ (runLast (F := F) c i arg3 harg3 arg4 harg4 arg5 harg5 arg6 harg6 arg7 harg7 arg8 harg8 hc0 hc1 x0 x1 x2 x3 xs0).2.1, y ∈ pc.1.set) :
    arg8.view.read (Elt F) (arg8.view.writes (Elt F) arg8.view.junk (runLast (F := F) c i arg3 harg3 arg4 harg4 arg5 harg5 arg6 harg6 arg7 harg7 arg8 harg8 hc0 hc1 x0 x1 x2 x3 xs0).2.1)
      = k0_pay5 i x0 (tileOf i arg5 harg5 x2) (k0_pay4 i x0 (tileOf i arg4 harg4 x1) xs0) := by
  rw [View.read_writes_eq_canon _ _ _ hcov]
  unfold runLast
  dsimp only
  sl_unfold_words
  rw [View.canon_cons_unit_zero (S := S1024x128) hz2]
  rw [View.readCov_cons_toLoadRect]
  rw [read3, read8]
  rfl

theorem last_out (c : Dev nD) (i : grid0.Coords) (arg3 : Memref sig .tc .vmem S1x1024x1 .i32) (harg3 : arg3.IsWhole) (arg4 : Memref sig .tc .vmem S1x16384x128 .bf16) (harg4 : arg4.IsWhole) (arg5 : Memref sig .tc .vmem S1x16384x128 .bf16) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1024x128 .f32) (harg8 : arg8.IsWhole) (hc0 : ¬cond0_0 i) (hc1 : cond0_1 i) (x0 : Vec F S1x1024x1 .i32) (x1 : Vec F S1x16384x128 .bf16) (x2 : Vec F S1x16384x128 .bf16) (x3 : Vec F S1x1024x128 .f32) (xs0 : Vec F S1024x128 .f32)
    (v : View sig .tc .vmem S1x1024x128 .f32)
    (hcov : ∀ y, ∃ pc ∈ (runLast (F := F) c i arg3 harg3 arg4 harg4 arg5 harg5 arg6 harg6 arg7 harg7 arg8 harg8 hc0 hc1 x0 x1 x2 x3 xs0).1, y ∈ pc.1.set) :
    v.read (Elt F) (v.writes (Elt F) v.junk (runLast (F := F) c i arg3 harg3 arg4 harg4 arg5 harg5 arg6 harg6 arg7 harg7 arg8 harg8 hc0 hc1 x0 x1 x2 x3 xs0).1)
      = k0_pay1 (k0_pay5 i x0 (tileOf i arg5 harg5 x2) (k0_pay4 i x0 (tileOf i arg4 harg4 x1) xs0)) x3 := by
  rw [View.read_writes_eq_canon _ _ _ hcov]
  unfold runLast
  dsimp only
  sl_unfold_words
  rw [View.canon_unit_zero (S := S1x1024x128) hz3]
  rw [View.readCov_cons_toLoadRect]
  rw [View.readCov_cons_toLoadRect]
  rw [read3, read6, read8]
  rfl

/-! ## The same at a grid point -/

variable (m : (ℓ : Loc nD τ sig) → Buf (Elt F) ℓ)

/-- The two additions of a tile's products to an accumulator `acc`, at grid point `t`. -/
def addTile (c : Dev nD) (t : Fin cfg0.N) (acc : Vec F S1024x128 .f32) : Vec F S1024x128 .f32 :=
  k0_pay5 (grid0.coords t) (iblk m c 0 t) (tileOf (grid0.coords t) (ms0_2 t) (hs0_2 t) (iblk m c 2 t))
    (k0_pay4 (grid0.coords t) (iblk m c 0 t) (tileOf (grid0.coords t) (ms0_1 t) (hs0_1 t) (iblk m c 1 t)) acc)

set_option maxHeartbeats 4000000 in
theorem soutFirst_eq (c : Dev nD) (t : Fin cfg0.N) (h0 : t.val % 16 = 0) (h1 : ¬t.val % 16 = 15) :
    soutFirst m c t h0 h1 = addTile m c t k0_pay2 := by
  unfold soutFirst addTile
  exact first_acc c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t) (scoverFirst m c t h0 h1)

set_option maxHeartbeats 4000000 in
theorem soutMid_eq (c : Dev nD) (t : Fin cfg0.N) (h0 : ¬t.val % 16 = 0) (h1 : ¬t.val % 16 = 15) (xs0 : Vec F S1024x128 .f32) :
    soutMid m c t h0 h1 xs0 = addTile m c t xs0 := by
  unfold soutMid addTile
  exact mid_acc c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) xs0 (scoverMid m c t h0 h1 xs0)

set_option maxHeartbeats 4000000 in
theorem soutLast_eq (c : Dev nD) (t : Fin cfg0.N) (h0 : ¬t.val % 16 = 0) (h1 : t.val % 16 = 15) (xs0 : Vec F S1024x128 .f32) :
    soutLast m c t h0 h1 xs0 = addTile m c t xs0 := by
  unfold soutLast addTile
  exact last_acc c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) xs0 (scoverLast m c t h0 h1 xs0)

set_option maxHeartbeats 4000000 in
theorem outLast_eq (c : Dev nD) (t : Fin cfg0.N) (h0 : ¬t.val % 16 = 0) (h1 : t.val % 16 = 15) (xs0 : Vec F S1024x128 .f32) :
    outLast m c t h0 h1 xs0 = k0_pay1 (addTile m c t xs0) (iblk m c 3 t) := by
  unfold outLast addTile
  exact last_out c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) xs0 VO0_4 (coverLast m c t h0 h1 xs0)

end Cert.KernelIdeal.HandValue

end
-- ==== Proof.Ideal.Coords.lean ====
/-
  The grid of the gather region is (batch, query tile, table tile) = (2, 64, 16), walked in row-major order:
  point t has batch t / 1024, query tile (t / 16) % 64 and table tile t % 16. The index, centre and output
  windows take block (batch, query tile, 0); the two table windows take block (batch, 0, 0).
-/
import proofs.«128314_j31576599560762_2_alg».proof.Proof.Gen.KernelIdeal.Points

set_option maxRecDepth 16384

noncomputable section

namespace Cert.KernelIdeal.HandValue

open Cert.KernelIdeal Cert.KernelIdeal.Gen
open Idealize.ShloMosaic Idealize.ShloMosaic.TcCoe Idealize.SL.Sem

/-- The three coordinates of grid point `t`. -/
theorem coords_val : ∀ t : Fin cfg0.N, (grid0.coords t 0).val = t.val / 1024 ∧ (grid0.coords t 1).val = t.val / 16 % 64 ∧ (grid0.coords t 2).val = t.val % 16 :=
  (by decide +kernel : ∀ t : Fin grid0.N, (grid0.coords t 0).val = t.val / 1024 ∧ (grid0.coords t 1).val = t.val / 16 % 64 ∧ (grid0.coords t 2).val = t.val % 16)

theorem index0 : ∀ t : Fin cfg0.N, win0_0.index t 0 = t.val / 1024 ∧ win0_0.index t 1 = t.val / 16 % 64 ∧ win0_0.index t 2 = 0 :=
  (by decide +kernel : ∀ t : Fin grid0.N, win0_0.index t 0 = t.val / 1024 ∧ win0_0.index t 1 = t.val / 16 % 64 ∧ win0_0.index t 2 = 0)
theorem index1 : ∀ t : Fin cfg0.N, win0_1.index t 0 = t.val / 1024 ∧ win0_1.index t 1 = 0 ∧ win0_1.index t 2 = 0 :=
  (by decide +kernel : ∀ t : Fin grid0.N, win0_1.index t 0 = t.val / 1024 ∧ win0_1.index t 1 = 0 ∧ win0_1.index t 2 = 0)
theorem index2 : ∀ t : Fin cfg0.N, win0_2.index t 0 = t.val / 1024 ∧ win0_2.index t 1 = 0 ∧ win0_2.index t 2 = 0 :=
  (by decide +kernel : ∀ t : Fin grid0.N, win0_2.index t 0 = t.val / 1024 ∧ win0_2.index t 1 = 0 ∧ win0_2.index t 2 = 0)
theorem index3 : ∀ t : Fin cfg0.N, win0_3.index t 0 = t.val / 1024 ∧ win0_3.index t 1 = t.val / 16 % 64 ∧ win0_3.index t 2 = 0 :=
  (by decide +kernel : ∀ t : Fin grid0.N, win0_3.index t 0 = t.val / 1024 ∧ win0_3.index t 1 = t.val / 16 % 64 ∧ win0_3.index t 2 = 0)
theorem index4 : ∀ t : Fin cfg0.N, win0_4.index t 0 = t.val / 1024 ∧ win0_4.index t 1 = t.val / 16 % 64 ∧ win0_4.index t 2 = 0 :=
  (by decide +kernel : ∀ t : Fin grid0.N, win0_4.index t 0 = t.val / 1024 ∧ win0_4.index t 1 = t.val / 16 % 64 ∧ win0_4.index t 2 = 0)

end Cert.KernelIdeal.HandValue

end
-- ==== Proof.Ideal.Blocks.lean ====
/-
  The windows' blocks read at an index. At grid point t = (batch, query tile, table tile): row p of the index
  block is row (query tile)·1024 + p of the batch's index column; the two table blocks are the batch's whole
  tables; row p of the centre block is row (query tile)·1024 + p of the padded centres; and row k of the tile the
  body loads from a table block is its row (table tile)·1024 + k.
-/
import proofs.«128314_j31576599560762_2_alg».proof.Proof.Ideal.Pieces
import proofs.«128314_j31576599560762_2_alg».proof.Proof.Ideal.Coords

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.Tactic
open Idealize.SL Idealize.SL.Sem
open Idealize.ShloMosaic.Pipeline (Dat)

-- the contents at the region's entry are a fold over the host operations before it: never opened here
attribute [local irreducible] StableHlo.after

variable {F : FTy → Type} [FloatOps F]
variable (m : (ℓ : Loc nD τ sig) → Buf (Elt F) ℓ)

/-- The windows' arrays, by name. -/
theorem arr0 : Pipeline.arrRef spec0 0 = main_v69 := rfl
theorem arr1 : Pipeline.arrRef spec0 1 = main_v65 := rfl
theorem arr2 : Pipeline.arrRef spec0 2 = main_v68 := rfl
theorem arr3 : Pipeline.arrRef spec0 3 = main_v72 := rfl
theorem arr4 : Pipeline.arrRef spec0 4 = main_v73 := rfl

theorem iblk0_apply (c : Dev nD) (t : Fin cfg0.N) (x : S1x1024x1.Idx) (k : S2x65536x1.Idx)
    (hk0 : (k 0).val = t.val / 1024) (hk1 : (k 1).val = t.val / 16 % 64 * 1024 + (x 1).val) (hk2 : (k 2).val = (x 2).val) :
    (iblk m c 0 t : Vec F S1x1024x1 .i32) x = (V m c (Pipeline.arrRef spec0 0) : S2x65536x1.Idx → Elt F .i32) k := by
  have hi := index0 t
  have h0 : (x 0).val < 1 := (x 0).isLt
  unfold iblk
  rw [View.read_apply]
  generalize V m c (Pipeline.arrRef spec0 0) = A
  refine cast_eq_iff_heq.mpr (heq_of_eq (congrArg A ?_))
  funext a
  apply Fin.ext
  match a with
  | ⟨0, _⟩ => show win0_0.index t 0 * 1 + 1 * (x 0).val = (k 0).val; rw [hi.1, hk0]; omega
  | ⟨1, _⟩ => show win0_0.index t 1 * 1024 + 1 * (x 1).val = (k 1).val; rw [hi.2.1, hk1]; omega
  | ⟨2, _⟩ => show win0_0.index t 2 * 1 + 1 * (x 2).val = (k 2).val; rw [hi.2.2, hk2]; omega

theorem iblk1_apply (c : Dev nD) (t : Fin cfg0.N) (x : S1x16384x128.Idx) (k : S2x16384x128.Idx)
    (hk0 : (k 0).val = t.val / 1024) (hk1 : (k 1).val = (x 1).val) (hk2 : (k 2).val = (x 2).val) :
    (iblk m c 1 t : Vec F S1x16384x128 .bf16) x = (V m c (Pipeline.arrRef spec0 1) : S2x16384x128.Idx → Elt F .bf16) k := by
  have hi := index1 t
  have h0 : (x 0).val < 1 := (x 0).isLt
  unfold iblk
  rw [View.read_apply]
  generalize V m c (Pipeline.arrRef spec0 1) = A
  refine cast_eq_iff_heq.mpr (heq_of_eq (congrArg A ?_))
  funext a
  apply Fin.ext
  match a with
  | ⟨0, _⟩ => show win0_1.index t 0 * 1 + 1 * (x 0).val = (k 0).val; rw [hi.1, hk0]; omega
  | ⟨1, _⟩ => show win0_1.index t 1 * 16384 + 1 * (x 1).val = (k 1).val; rw [hi.2.1, hk1]; omega
  | ⟨2, _⟩ => show win0_1.index t 2 * 128 + 1 * (x 2).val = (k 2).val; rw [hi.2.2, hk2]; omega

theorem iblk2_apply (c : Dev nD) (t : Fin cfg0.N) (x : S1x16384x128.Idx) (k : S2x16384x128.Idx)
    (hk0 : (k 0).val = t.val / 1024) (hk1 : (k 1).val = (x 1).val) (hk2 : (k 2).val = (x 2).val) :
    (iblk m c 2 t : Vec F S1x16384x128 .bf16) x = (V m c (Pipeline.arrRef spec0 2) : S2x16384x128.Idx → Elt F .bf16) k := by
  have hi := index2 t
  have h0 : (x 0).val < 1 := (x 0).isLt
  unfold iblk
  rw [View.read_apply]
  generalize V m c (Pipeline.arrRef spec0 2) = A
  refine cast_eq_iff_heq.mpr (heq_of_eq (congrArg A ?_))
  funext a
  apply Fin.ext
  match a with
  | ⟨0, _⟩ => show win0_2.index t 0 * 1 + 1 * (x 0).val = (k 0).val; rw [hi.1, hk0]; omega
  | ⟨1, _⟩ => show win0_2.index t 1 * 16384 + 1 * (x 1).val = (k 1).val; rw [hi.2.1, hk1]; omega
  | ⟨2, _⟩ => show win0_2.index t 2 * 128 + 1 * (x 2).val = (k 2).val; rw [hi.2.2, hk2]; omega

theorem iblk3_apply (c : Dev nD) (t : Fin cfg0.N) (x : S1x1024x128.Idx) (k : S2x65536x128.Idx)
    (hk0 : (k 0).val = t.val / 1024) (hk1 : (k 1).val = t.val / 16 % 64 * 1024 + (x 1).val) (hk2 : (k 2).val = (x 2).val) :
    (iblk m c 3 t : Vec F S1x1024x128 .f32) x = (V m c (Pipeline.arrRef spec0 3) : S2x65536x128.Idx → Elt F .f32) k := by
  have hi := index3 t
  have h0 : (x 0).val < 1 := (x 0).isLt
  unfold iblk
  rw [View.read_apply]
  generalize V m c (Pipeline.arrRef spec0 3) = A
  refine cast_eq_iff_heq.mpr (heq_of_eq (congrArg A ?_))
  funext a
  apply Fin.ext
  match a with
  | ⟨0, _⟩ => show win0_3.index t 0 * 1 + 1 * (x 0).val = (k 0).val; rw [hi.1, hk0]; omega
  | ⟨1, _⟩ => show win0_3.index t 1 * 1024 + 1 * (x 1).val = (k 1).val; rw [hi.2.1, hk1]; omega
  | ⟨2, _⟩ => show win0_3.index t 2 * 128 + 1 * (x 2).val = (k 2).val; rw [hi.2.2, hk2]; omega

/-- Row `y 1` of the loaded tile is row (table tile)·1024 + `y 1` of the staged table block. -/
theorem tileOf_apply (i : grid0.Coords) (arg : Memref sig .tc .vmem S1x16384x128 .bf16) (harg : arg.IsWhole) (x : Vec F S1x16384x128 .bf16)
    (y : S1x1024x128.Idx) (k : S1x16384x128.Idx)
    (hk0 : (k 0).val = (y 0).val) (hk1 : (k 1).val = 1024 * (i 2).val + (y 1).val) (hk2 : (k 2).val = (y 2).val) :
    tileOf i arg harg x y = x k := by
  unfold tileOf
  rw [View.readAt_eq_ld, harg.read_unread]
  show x _ = x k
  congr 1
  funext a
  apply Fin.ext
  simp only [LoadRect.idx_apply, Rect.emb_apply, Rect.off_unit, Rect.stride_unit, Nat.one_mul, k0_off1_eq]
  match a with
  | ⟨0, _⟩ => show 0 + (y 0).val = (k 0).val; omega
  | ⟨1, _⟩ => show 1024 * (i 2).val + (y 1).val = (k 1).val; omega
  | ⟨2, _⟩ => show 0 + (y 2).val = (k 2).val; omega

end Cert.KernelIdeal.HandValue

end
-- ==== Proof.MathOneHot.lean ====
/-
  The one-hot entry at the ideal values: an integer comparison for equality, widened to a
  word, converted signed to a float and changed of format, read at one index, is 1 where the
  two words agree and 0 elsewhere (as extended reals).
-/
import Idealize.ShloMosaic.Lib.ValueIdx
import Idealize.ShloMosaic.PureOps.Ideal.Laws

noncomputable section

namespace Cert.Hand.Math

open Idealize.ShloMosaic

/-- The comparison bit for equality, widened to 32 bits and read signed, is 1 or 0. -/
theorem toInt_setWidth_cmpi_eq (x y : BitVec 32) :
    ((IntOp.cmpi .eq x y).setWidth 32).toInt = if x = y then 1 else 0 := by
  by_cases h : x = y
  · subst h
    simp [IntOp.cmpi]
  · have hb : (x == y) = false := by simpa using h
    simp [IntOp.cmpi, hb, h]

/-- The kernel's one-hot entry at the ideal values, for every shape and index. -/
theorem onehot_entry {s : Shape} (a b : IVec s 32) (h1 : 1 < 32) (h2 : FTy.bf16.bits < FTy.f32.bits)
    (j : s.Idx) :
    (truncf .bf16 (sitofp .f32 (extui 32 (cmpi .eq a b) h1) : FVec Ideal s .f32) h2 : FVec Ideal s .bf16) j
      = if a j = b j then (1 : EReal) else 0 := by
  show (((((IntOp.cmpi .eq (a j) (b j)).setWidth 32).toInt : ℤ) : ℝ) : EReal) = _
  rw [toInt_setWidth_cmpi_eq]
  by_cases h : a j = b j
  · simp [h]
  · simp [h]

end Cert.Hand.Math

end
-- ==== Proof.MathSums.lean ====
/-
  One-hot sums on the extended reals: a sum of (0 or 1) * f n over a finite index set with the 1 at a
  single index k is f k (and 0 when k lies outside the set); the same sum cut into 16 tiles of 1024;
  the running partial sums over the first T tiles; and the small identities of EReal used beside them.
-/
import Mathlib.Data.EReal.Basic
import Mathlib.Data.EReal.Operations
import Mathlib.Algebra.BigOperators.Fin
import Mathlib.Algebra.BigOperators.Ring.Finset

noncomputable section

namespace Cert.Hand.Math

open scoped BigOperators

/-! ## Small identities of the extended reals -/

/-- A real minus itself is zero in the extended reals. -/
theorem ereal_coe_sub_self (r : ℝ) : ((r : ℝ) : EReal) - (r : EReal) = 0 := by
  rw [← EReal.coe_sub, sub_self, EReal.coe_zero]

theorem ereal_sub_zero (y : EReal) : y - 0 = y := sub_zero y

theorem ereal_zero_add (y : EReal) : 0 + y = y := zero_add y

theorem ereal_add_zero (y : EReal) : y + 0 = y := add_zero y

theorem ereal_zero_mul (y : EReal) : 0 * y = 0 := zero_mul y

theorem ereal_one_mul (y : EReal) : 1 * y = y := one_mul y

/-- One term of a one-hot sum. -/
theorem onehot_term (p : Prop) [Decidable p] (y : EReal) :
    (if p then (1 : EReal) else 0) * y = if p then y else 0 := by
  by_cases h : p
  · simp [h]
  · simp [h]

/-! ## One-hot sums -/

/-- A one-hot sum with the hot index inside the range picks that term. -/
theorem onehot_sum_lt (N : ℕ) (f : Fin N → EReal) (k : ℕ) (hk : k < N) :
    ∑ n : Fin N, (if n.val = k then (1 : EReal) else 0) * f n = f ⟨k, hk⟩ := by
  simp only [onehot_term]
  rw [Finset.sum_eq_single (⟨k, hk⟩ : Fin N)]
  · simp
  · intro b _ hb
    have : ¬ b.val = k := fun h => hb (Fin.ext h)
    simp [this]
  · intro h
    exact absurd (Finset.mem_univ _) h

/-- A one-hot sum with the hot index outside the range is zero. -/
theorem onehot_sum_ge (N : ℕ) (f : Fin N → EReal) (k : ℕ) (hk : N ≤ k) :
    ∑ n : Fin N, (if n.val = k then (1 : EReal) else 0) * f n = 0 := by
  apply Finset.sum_eq_zero
  intro n _
  have : ¬ n.val = k := by have := n.isLt; omega
  simp [this]

/-- The same over any predicate form of the hot test: a sum whose terms are `f n` at the one index with
    `n.val = k` and zero elsewhere. -/
theorem ite_sum_lt (N : ℕ) (f : Fin N → EReal) (k : ℕ) (hk : k < N) :
    ∑ n : Fin N, (if n.val = k then f n else 0) = f ⟨k, hk⟩ := by
  rw [Finset.sum_eq_single (⟨k, hk⟩ : Fin N)]
  · simp
  · intro b _ hb
    have : ¬ b.val = k := fun h => hb (Fin.ext h)
    simp [this]
  · intro h
    exact absurd (Finset.mem_univ _) h

theorem ite_sum_ge (N : ℕ) (f : Fin N → EReal) (k : ℕ) (hk : N ≤ k) :
    ∑ n : Fin N, (if n.val = k then f n else 0) = 0 := by
  apply Finset.sum_eq_zero
  intro n _
  have : ¬ n.val = k := by have := n.isLt; omega
  simp [this]

/-! ## The tiled form: 16 tiles of 1024 -/

theorem tile_lt (t : Fin 16) (j : Fin 1024) : t.val * 1024 + j.val < 16384 := by
  have := t.isLt; have := j.isLt; omega

/-- One tile's one-hot sum: the term at `k` when `k` lies in tile `t`, zero otherwise. -/
theorem onehot_tile (f : Fin 16384 → EReal) (k : ℕ) (hk : k < 16384) (t : Fin 16) :
    ∑ j : Fin 1024, (if t.val * 1024 + j.val = k then (1 : EReal) else 0) * f ⟨t.val * 1024 + j.val, tile_lt t j⟩
      = if k / 1024 = t.val then f ⟨k, hk⟩ else 0 := by
  simp only [onehot_term]
  by_cases ht : k / 1024 = t.val
  · rw [if_pos ht]
    have hj : k % 1024 < 1024 := Nat.mod_lt _ (by norm_num)
    rw [Finset.sum_eq_single (⟨k % 1024, hj⟩ : Fin 1024)]
    · have e : t.val * 1024 + k % 1024 = k := by
        have := Nat.div_add_mod k 1024; rw [ht] at this; omega
      simp only [e, if_true]
    · intro b _ hb
      have : ¬ t.val * 1024 + b.val = k := by
        intro h
        apply hb
        apply Fin.ext
        show b.val = k % 1024
        have := b.isLt
        omega
      simp [this]
    · intro h
      exact absurd (Finset.mem_univ _) h
  · rw [if_neg ht]
    apply Finset.sum_eq_zero
    intro j _
    have : ¬ t.val * 1024 + j.val = k := by
      intro h
      apply ht
      have := j.isLt
      omega
    simp [this]

/-- The tiled one-hot sum over all 16 tiles picks the term at `k`. -/
theorem onehot_sum_tiled (f : Fin 16384 → EReal) (k : ℕ) (hk : k < 16384) :
    ∑ t : Fin 16, ∑ j : Fin 1024,
        (if t.val * 1024 + j.val = k then (1 : EReal) else 0) * f ⟨t.val * 1024 + j.val, tile_lt t j⟩
      = f ⟨k, hk⟩ := by
  simp only [onehot_tile f k hk]
  have hq : k / 1024 < 16 := by omega
  rw [Finset.sum_eq_single (⟨k / 1024, hq⟩ : Fin 16)]
  · simp
  · intro b _ hb
    have : ¬ k / 1024 = b.val := fun h => hb (Fin.ext h.symm)
    simp [this]
  · intro h
    exact absurd (Finset.mem_univ _) h

/-- The running form: the partial sum over the tiles `t' < T` is the term at `k` once `k`'s tile has
    been passed (`k / 1024 < T`), and zero before. -/
theorem onehot_sum_running (f : Fin 16384 → EReal) (k : ℕ) (hk : k < 16384) (T : ℕ) (hT : T ≤ 16) :
    ∑ t ∈ (Finset.univ : Finset (Fin 16)).filter (fun t => t.val < T), ∑ j : Fin 1024,
        (if t.val * 1024 + j.val = k then (1 : EReal) else 0) * f ⟨t.val * 1024 + j.val, tile_lt t j⟩
      = if k / 1024 < T then f ⟨k, hk⟩ else 0 := by
  simp only [onehot_tile f k hk]
  have hq : k / 1024 < 16 := by omega
  by_cases hkT : k / 1024 < T
  · rw [if_pos hkT, Finset.sum_eq_single (⟨k / 1024, hq⟩ : Fin 16)]
    · simp
    · intro b _ hb
      have : ¬ k / 1024 = b.val := fun h => hb (Fin.ext h.symm)
      simp [this]
    · intro h
      have hm : (⟨k / 1024, hq⟩ : Fin 16) ∈ (Finset.univ : Finset (Fin 16)).filter (fun t => t.val < T) :=
        Finset.mem_filter.2 ⟨Finset.mem_univ _, hkT⟩
      exact absurd hm h
  · rw [if_neg hkT]
    apply Finset.sum_eq_zero
    intro t ht
    have ht' : t.val < T := (Finset.mem_filter.1 ht).2
    have : ¬ k / 1024 = t.val := by omega
    simp [this]

/-- One step of the running sum as a recurrence: the accumulator after tile `T` is the accumulator before
    it plus tile `T`'s one-hot sum, stated on the closed forms. -/
theorem onehot_running_step (y : EReal) (q T : ℕ) :
    (if q < T then y else 0) + (if q = T then y else 0) = if q < T + 1 then y else 0 := by
  by_cases h1 : q < T
  · have h2 : ¬ q = T := by omega
    have h3 : q < T + 1 := by omega
    simp [h1, h2, h3]
  · by_cases h2 : q = T
    · have h3 : q < T + 1 := by omega
      simp [h1, h2]
    · have h3 : ¬ q < T + 1 := by omega
      simp [h1, h2, h3]

end Cert.Hand.Math

end
-- ==== Proof.Ideal.Payloads.lean ====
/-
  The kernel body's stored values read at one index, at the ideal values: the zero fill of the
  accumulator, the final difference, the one-hot matrix of a tile, and the two accumulation steps —
  each a product of the one-hot matrix with a tile of the table, which picks the table's row at the
  index word when that row lies in the tile and adds nothing otherwise.
-/
import proofs.«128314_j31576599560762_2_alg».proof.Proof.Gen.KernelIdeal.Skeleton
import proofs.«128314_j31576599560762_2_alg».proof.Proof.MathOneHot
import proofs.«128314_j31576599560762_2_alg».proof.Proof.MathSums
import Idealize.ShloMosaic.Lib.ValueIdx
import Idealize.ShloMosaic.Lib.Pipeline.Value
import Idealize.ShloMosaic.PureOps.Ideal.Laws

noncomputable section

namespace Cert.KernelIdeal.HandValue

open Idealize.ShloMosaic Idealize.SL.Sem Idealize.ShloMosaic.ValueIdx
open Cert.KernelIdeal Cert.KernelIdeal.Gen
open scoped BigOperators

/-! ## Words -/

/-- The tile's row number as a word: tile number times 1024 plus the row inside the tile, below 2^32,
    equals an index word exactly when the numbers agree. -/
theorem tile_word_eq (t k : ℕ) (ht : t < 16) (hk : k < 1024) (w : BitVec 32) :
    (BitVec.ofNat 32 t * 1024#32 + BitVec.ofNat 32 k = w) ↔ t * 1024 + k = w.toNat := by
  rw [← BitVec.toNat_inj]
  simp only [BitVec.toNat_add, BitVec.toNat_mul, BitVec.toNat_ofNat]
  have hw := w.isLt
  constructor <;> intro h <;> omega

/-! ## The zero fill and the final difference -/

theorem pay2_apply (p : Fin 1024) (cc : Fin 128) : k0_pay2 (F := Ideal) (ix2 p cc) = 0 := by
  show Ideal.ofBits .f32 0x00000000#32 = 0
  exact Ideal.ofBits_zero_f32

theorem pay1_apply (v36 : Vec Ideal S1024x128 .f32) (v37 : Vec Ideal S1x1024x128 .f32) (p : Fin 1024) (cc : Fin 128) :
    k0_pay1 v36 v37 (ix3 0 p cc) = v36 (ix2 p cc) - v37 (ix3 0 p cc) := by
  unfold k0_pay1
  refine (shapeCast_apply _ _ (ix3 0 p cc) (ix2 p cc) ?_).trans ?_
  · rw [Shape.rowMajor_val_two, Shape.rowMajor_val_three]
    show p.val * 128 + cc.val = (0 * 1024 + p.val) * 128 + cc.val
    omega
  · refine congrArg (v36 (ix2 p cc) - ·) ?_
    refine shapeCast_apply _ _ (ix2 p cc) (ix3 0 p cc) ?_
    rw [Shape.rowMajor_val_two, Shape.rowMajor_val_three]
    show (0 * 1024 + p.val) * 128 + cc.val = p.val * 128 + cc.val
    omega

/-! ## The one-hot matrix of a tile -/

theorem pay3_apply (i : grid0.Coords) (v8 : Vec Ideal S1x1024x1 .i32) (p k : Fin 1024) :
    k0_pay3 i v8 (ix2 p k)
      = if (i 2).val * 1024 + k.val = (v8 (ix3 0 p 0)).toNat then (1 : EReal) else 0 := by
  unfold k0_pay3
  refine (Cert.Hand.Math.onehot_entry _ _ _ _ (ix2 p k)).trans ?_
  have ht : (i 2).val < 16 := (i 2).isLt
  have e10 : broadcastTo S1024x1024 (shapeCast S1024x1 v8 shapeCasts_S1x1024x1_S1024x1) broadcasts_S1024x1_S1024x1024 (ix2 p k)
      = v8 (ix3 0 p 0) := by
    refine (broadcastTo_apply _ _ (ix2 p k) (ix2 p 0) ?_).trans ?_
    · intro a
      match a with
      | ⟨0, _⟩ => rfl
      | ⟨1, _⟩ => rfl
    · refine shapeCast_apply _ _ (ix2 p 0) (ix3 0 p 0) ?_
      rw [Shape.rowMajor_val_two, Shape.rowMajor_val_three]
      show (0 * 1024 + p.val) * 1 + 0 = p.val * 1 + 0
      omega
  have e7 : addi (broadcast S1024x1024 (Scalar.muli (BitVec.ofNat 32 (i 2).val) 1024#32))
        (iota .tc S1024x1024 32 [1] iota_S1024x1024_d1_w32) (ix2 p k)
      = BitVec.ofNat 32 (i 2).val * 1024#32 + BitVec.ofNat 32 k.val := by
    show BitVec.ofNat 32 (i 2).val * 1024#32 + iota .tc S1024x1024 32 [1] iota_S1024x1024_d1_w32 (ix2 p k) = _
    rw [iota_single_apply]
  rw [e10, e7]
  by_cases h : (i 2).val * 1024 + k.val = (v8 (ix3 0 p 0)).toNat
  · rw [if_pos h, if_pos ((tile_word_eq _ _ ht k.isLt _).2 h)]
  · rw [if_neg h, if_neg (fun h' => h ((tile_word_eq _ _ ht k.isLt _).1 h'))]

/-! ## A product with a one-hot row -/

/-- A one-hot row over a tile of 1024 rows against a column: the column's entry at the index word's row
    when that row lies in the tile, zero otherwise. -/
theorem onehot_tile_pick (g : Fin 1024 → EReal) (t w : ℕ) :
    ∑ c : Fin 1024, (if t * 1024 + c.val = w then (1 : EReal) else 0) * g c
      = if w / 1024 = t then g ⟨w % 1024, Nat.mod_lt _ (by norm_num)⟩ else 0 := by
  simp only [Cert.Hand.Math.onehot_term]
  by_cases ht : w / 1024 = t
  · rw [if_pos ht]
    rw [Finset.sum_eq_single (⟨w % 1024, Nat.mod_lt _ (by norm_num)⟩ : Fin 1024)]
    · have e : t * 1024 + w % 1024 = w := by
        have := Nat.div_add_mod w 1024; rw [ht] at this; omega
      simp only [e, if_true]
    · intro b _ hb
      have : ¬ t * 1024 + b.val = w := by
        intro h
        apply hb
        apply Fin.ext
        show b.val = w % 1024
        have := b.isLt
        omega
      simp [this]
    · intro h
      exact absurd (Finset.mem_univ _) h
  · rw [if_neg ht]
    apply Finset.sum_eq_zero
    intro c _
    have : ¬ t * 1024 + c.val = w := by
      intro h
      apply ht
      have := c.isLt
      omega
    simp [this]

/-- The matrix product of a 1024×1024 by a 1024×128 matrix into a zero accumulator, read at an entry:
    the sum over the contracted axis of the products of the entries. -/
theorem matmul_zero_entry {φ₁ φ₂ : FTy} (A : FVec Ideal S1024x1024 φ₁) (B : FVec Ideal S1024x128 φ₂)
    (p : Fin 1024) (cc : Fin 128) :
    matmul dot_S1024x1024_S1024x128_S1024x128_1_0_0_1_n_n none A B
        (constant (F := Ideal) S1024x128 .f32 0x00000000#32) (ix2 p cc)
      = ∑ c : Fin 1024, A (ix2 p c) * B (ix2 c cc) := by
  refine (Ideal.matmul_constant_zero_apply dot_S1024x1024_S1024x128_S1024x128_1_0_0_1_n_n none A B (ix2 p cc)).trans ?_
  rw [← Equiv.sum_comp (contrEquiv1 dot_S1024x1024_S1024x128_S1024x128_1_0_0_1_n_n 1024 rfl rfl).symm]
  refine Finset.sum_congr rfl fun c _ => ?_
  have c2 := contrEquiv1_symm_val dot_S1024x1024_S1024x128_S1024x128_1_0_0_1_n_n 1024 rfl rfl c
  have l2 : dot_S1024x1024_S1024x128_S1024x128_1_0_0_1_n_n.lhsIdx (ix2 p cc)
      ((contrEquiv1 dot_S1024x1024_S1024x128_S1024x128_1_0_0_1_n_n 1024 rfl rfl).symm c) = ix2 p c := by
    funext ax; apply Fin.ext
    match ax with
    | ⟨0, _⟩ => simp [DotDims.lhsIdx, dot_S1024x1024_S1024x128_S1024x128_1_0_0_1_n_n]; rfl
    | ⟨1, _⟩ => simp [DotDims.lhsIdx, dot_S1024x1024_S1024x128_S1024x128_1_0_0_1_n_n]; exact c2
  have r2 : dot_S1024x1024_S1024x128_S1024x128_1_0_0_1_n_n.rhsIdx (ix2 p cc)
      ((contrEquiv1 dot_S1024x1024_S1024x128_S1024x128_1_0_0_1_n_n 1024 rfl rfl).symm c) = ix2 c cc := by
    funext ax; apply Fin.ext
    match ax with
    | ⟨0, _⟩ => simp [DotDims.rhsIdx, dot_S1024x1024_S1024x128_S1024x128_1_0_0_1_n_n]; exact c2
    | ⟨1, _⟩ => simp [DotDims.rhsIdx, dot_S1024x1024_S1024x128_S1024x128_1_0_0_1_n_n]; rfl
  rw [l2, r2]

/-- A tile of the table viewed without its leading unit axis, read at an entry. -/
theorem tile_cast_apply {φ : FTy} (v : FVec Ideal S1x1024x128 φ) (c : Fin 1024) (cc : Fin 128) :
    shapeCast S1024x128 v shapeCasts_S1x1024x128_S1024x128 (ix2 c cc) = v (ix3 0 c cc) := by
  refine shapeCast_apply _ _ (ix2 c cc) (ix3 0 c cc) ?_
  rw [Shape.rowMajor_val_two, Shape.rowMajor_val_three]
  show (0 * 1024 + c.val) * 128 + cc.val = c.val * 128 + cc.val
  omega

/-- The one-hot matrix of a tile against a tile of the table, read at an entry: the table's row at the
    index word when that row lies in the tile, zero otherwise. -/
theorem onehot_matmul_entry {φ : FTy} (i : grid0.Coords) (v8 : Vec Ideal S1x1024x1 .i32) (v : FVec Ideal S1x1024x128 φ)
    (p : Fin 1024) (cc : Fin 128) :
    matmul dot_S1024x1024_S1024x128_S1024x128_1_0_0_1_n_n none (k0_pay3 i v8)
        (shapeCast S1024x128 v shapeCasts_S1x1024x128_S1024x128)
        (constant (F := Ideal) S1024x128 .f32 0x00000000#32) (ix2 p cc)
      = if (v8 (ix3 0 p 0)).toNat / 1024 = (i 2).val then
          v (ix3 0 ⟨(v8 (ix3 0 p 0)).toNat % 1024, Nat.mod_lt _ (by norm_num)⟩ cc) else 0 := by
  refine (matmul_zero_entry _ _ p cc).trans ?_
  have e : ∀ c : Fin 1024,
      k0_pay3 i v8 (ix2 p c) * shapeCast S1024x128 v shapeCasts_S1x1024x128_S1024x128 (ix2 c cc)
        = (if (i 2).val * 1024 + c.val = (v8 (ix3 0 p 0)).toNat then (1 : EReal) else 0) * v (ix3 0 c cc) := by
    intro c
    rw [pay3_apply, tile_cast_apply]
  rw [Finset.sum_congr rfl (fun c _ => e c)]
  exact onehot_tile_pick (fun c => v (ix3 0 c cc)) (i 2).val (v8 (ix3 0 p 0)).toNat

/-! ## The two accumulation steps -/

/-- The first accumulation step at an entry, for any index word. -/
theorem pay4_apply_any (i : grid0.Coords) (v8 : Vec Ideal S1x1024x1 .i32) (v16 : Vec Ideal S1x1024x128 .bf16)
    (v21 : Vec Ideal S1024x128 .f32) (p : Fin 1024) (cc : Fin 128) :
    k0_pay4 i v8 v16 v21 (ix2 p cc)
      = v21 (ix2 p cc) + (if (v8 (ix3 0 p 0)).toNat / 1024 = (i 2).val then
          v16 (ix3 0 ⟨(v8 (ix3 0 p 0)).toNat % 1024, Nat.mod_lt _ (by norm_num)⟩ cc) else 0) := by
  unfold k0_pay4
  refine (congrFun (shapeCast_self _ _) (ix2 p cc)).trans ?_
  exact congrArg (v21 (ix2 p cc) + ·) (onehot_matmul_entry (φ := .bf16) i v8 v16 p cc)

/-- The second accumulation step at an entry, for any index word. -/
theorem pay5_apply_any (i : grid0.Coords) (v8 : Vec Ideal S1x1024x1 .i32) (v19 : Vec Ideal S1x1024x128 .bf16)
    (v27 : Vec Ideal S1024x128 .f32) (p : Fin 1024) (cc : Fin 128) :
    k0_pay5 i v8 v19 v27 (ix2 p cc)
      = v27 (ix2 p cc) + (if (v8 (ix3 0 p 0)).toNat / 1024 = (i 2).val then
          v19 (ix3 0 ⟨(v8 (ix3 0 p 0)).toNat % 1024, Nat.mod_lt _ (by norm_num)⟩ cc) else 0) := by
  unfold k0_pay5
  refine (congrFun (shapeCast_self _ _) (ix2 p cc)).trans ?_
  exact congrArg (v27 (ix2 p cc) + ·) (onehot_matmul_entry (φ := .bf16) i v8 v19 p cc)

/-- The first accumulation step at an entry, the index word below 16384. -/
theorem pay4_apply (i : grid0.Coords) (v8 : Vec Ideal S1x1024x1 .i32) (v16 : Vec Ideal S1x1024x128 .bf16)
    (v21 : Vec Ideal S1024x128 .f32) (p : Fin 1024) (cc : Fin 128) (_hw : (v8 (ix3 0 p 0)).toNat < 16384) :
    k0_pay4 i v8 v16 v21 (ix2 p cc)
      = v21 (ix2 p cc) + (if (v8 (ix3 0 p 0)).toNat / 1024 = (i 2).val then
          v16 (ix3 0 ⟨(v8 (ix3 0 p 0)).toNat % 1024, Nat.mod_lt _ (by norm_num)⟩ cc) else 0) :=
  pay4_apply_any i v8 v16 v21 p cc

/-- The second accumulation step at an entry, the index word below 16384. -/
theorem pay5_apply (i : grid0.Coords) (v8 : Vec Ideal S1x1024x1 .i32) (v19 : Vec Ideal S1x1024x128 .bf16)
    (v27 : Vec Ideal S1024x128 .f32) (p : Fin 1024) (cc : Fin 128) (_hw : (v8 (ix3 0 p 0)).toNat < 16384) :
    k0_pay5 i v8 v19 v27 (ix2 p cc)
      = v27 (ix2 p cc) + (if (v8 (ix3 0 p 0)).toNat / 1024 = (i 2).val then
          v19 (ix3 0 ⟨(v8 (ix3 0 p 0)).toNat % 1024, Nat.mod_lt _ (by norm_num)⟩ cc) else 0) :=
  pay5_apply_any i v8 v19 v27 p cc

end Cert.KernelIdeal.HandValue

end
-- ==== Proof.Ideal.AccValue.lean ====
/-
  The accumulator, at exact arithmetic. Fix a grid point t = (batch, query tile, table tile) and a row p of the
  block; let w be the index word of that row. The one-hot row of the tile has its single 1 at column w - 1024·(table
  tile) when w lies in the tile and is zero otherwise, so each of the two products of the tile contributes the table
  row w (of the first, resp. second half) when w / 1024 is the tile number, and nothing otherwise. Hence after tile
  number nt of a row the accumulator holds (first half + second half) at row w if w / 1024 ≤ nt, and zero if not:
  zeros added on either side change nothing on the extended reals.
-/
import proofs.«128314_j31576599560762_2_alg».proof.Proof.Ideal.Blocks
import proofs.«128314_j31576599560762_2_alg».proof.Proof.Ideal.Payloads
import proofs.«128314_j31576599560762_2_alg».proof.Proof.Ideal.Terms

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.Tactic
open Idealize.SL Idealize.SL.Sem
open Idealize.ShloMosaic.Pipeline (Dat)

-- the contents at the region's entry are a fold over the host operations before it: never opened here
attribute [local irreducible] StableHlo.after

open Idealize.ShloMosaic.ValueIdx

variable (m : (ℓ : Loc nD τ sig) → Buf (Elt Ideal) ℓ) (c : Dev nD)

/-- The four arrays the region is handed, as the region finds them: the index column (words), the table's two halves
    and the padded centres (extended reals). -/
abbrev ixArr : S2x65536x1.Idx → BitVec 32 := V m c main_v69
abbrev hiArr : S2x16384x128.Idx → EReal := V m c main_v65
abbrev loArr : S2x16384x128.Idx → EReal := V m c main_v68
abbrev nxArr : S2x65536x128.Idx → EReal := V m c main_v72

/-- The batch of grid position `n`. -/
def bOf (n : ℕ) : Fin 2 := ⟨n / 1024 % 2, Nat.mod_lt _ (by norm_num)⟩
/-- The row of the batch's index column that row `p` of the block at position `n` is. -/
def rowOf (n : ℕ) (p : Fin 1024) : Fin 65536 := ⟨(n / 16 % 64 * 1024 + p.val) % 65536, Nat.mod_lt _ (by norm_num)⟩

/-- The index word of row `p` at position `n`. -/
def wordAt (n : ℕ) (p : Fin 1024) : ℕ :=
  (ixArr m c (ix3 (bOf n) (rowOf n p) 0)).toNat

/-- The gathered entry: both halves of the table at the row the index word names. -/
def gath (n : ℕ) (p : Fin 1024) (cc : Fin 128) : EReal :=
  hiArr m c (ix3 (bOf n) (pick (wordAt m c n p)) cc)
    + loArr m c (ix3 (bOf n) (pick (wordAt m c n p)) cc)

theorem acc_step (h l : EReal) (q n : ℕ) :
    ((if q < n then h + l else 0) + (if q = n then h else 0)) + (if q = n then l else 0) = if q < n + 1 then h + l else 0 := by
  rcases Nat.lt_trichotomy q n with hq | hq | hq
  · rw [if_pos hq, if_neg (Nat.ne_of_lt hq), if_neg (Nat.ne_of_lt hq), if_pos (Nat.lt_succ_of_lt hq), add_zero, add_zero]
  · subst hq
    rw [if_neg (Nat.lt_irrefl _), if_pos rfl, if_pos rfl, if_pos (Nat.lt_succ_self _), zero_add]
  · rw [if_neg (Nat.lt_asymm hq), if_neg (Nat.ne_of_gt hq), if_neg (Nat.ne_of_gt hq), if_neg (by omega), add_zero, add_zero]

/-- The index word the body reads in row `p` of its index block is the column's word. -/
theorem word_eq (t : Fin cfg0.N) (p : Fin 1024) :
    ((iblk m c 0 t : Vec Ideal S1x1024x1 .i32) (ix3 0 p 0)).toNat = wordAt m c t.val p := by
  have hN : t.val < 2048 := lt_of_lt_of_eq t.isLt (show cfg0.N = 2048 from N_0)
  unfold wordAt
  rw [iblk0_apply m c t (ix3 0 p 0) (ix3 (bOf t.val) (rowOf t.val p) 0)
    (by show t.val / 1024 % 2 = t.val / 1024; omega)
    (by show (t.val / 16 % 64 * 1024 + p.val) % 65536 = t.val / 16 % 64 * 1024 + p.val; have := p.isLt; omega)
    rfl]

/-- One tile's two additions, at an entry. -/
theorem addTile_apply (t : Fin cfg0.N) (acc : Vec Ideal S1024x128 .f32) (p : Fin 1024) (cc : Fin 128) :
    addTile m c t acc (ix2 p cc)
      = (acc (ix2 p cc)
          + (if wordAt m c t.val p / 1024 = t.val % 16 then
              hiArr m c (ix3 (bOf t.val) (pick (wordAt m c t.val p)) cc) else 0))
        + (if wordAt m c t.val p / 1024 = t.val % 16 then
              loArr m c (ix3 (bOf t.val) (pick (wordAt m c t.val p)) cc) else 0) := by
  have hN : t.val < 2048 := lt_of_lt_of_eq t.isLt (show cfg0.N = 2048 from N_0)
  have hc2 : (grid0.coords t 2).val = t.val % 16 := (coords_val t).2.2
  unfold addTile
  rw [pay5_apply_any, pay4_apply_any, word_eq m c t p, hc2]
  by_cases hq : wordAt m c t.val p / 1024 = t.val % 16
  · have hw : wordAt m c t.val p < 16384 := by omega
    rw [if_pos hq, if_pos hq, if_pos hq, if_pos hq]
    congr 1
    · congr 1
      rw [tileOf_apply (grid0.coords t) (ms0_1 t) (hs0_1 t) (iblk m c 1 t) _ (ix3 0 (pick (wordAt m c t.val p)) cc) rfl
          (by show wordAt m c t.val p % 16384 = 1024 * (grid0.coords t 2).val + wordAt m c t.val p % 1024; rw [hc2]; omega) rfl]
      exact iblk1_apply m c t _ _ (by show t.val / 1024 % 2 = t.val / 1024; omega) rfl rfl
    · rw [tileOf_apply (grid0.coords t) (ms0_2 t) (hs0_2 t) (iblk m c 2 t) _ (ix3 0 (pick (wordAt m c t.val p)) cc) rfl
          (by show wordAt m c t.val p % 16384 = 1024 * (grid0.coords t 2).val + wordAt m c t.val p % 1024; rw [hc2]; omega) rfl]
      exact iblk2_apply m c t _ _ (by show t.val / 1024 % 2 = t.val / 1024; omega) rfl rfl
  · rw [if_neg hq, if_neg hq, if_neg hq, if_neg hq]

-- the recursion over grid points is used through its three case equations only
attribute [local irreducible] outsAt soutFirst soutMid soutLast addTile gath wordAt

theorem acc_first (h l : EReal) (q : ℕ) :
    ((0 : EReal) + (if q = 0 then h else 0)) + (if q = 0 then l else 0) = if q < 0 + 1 then h + l else 0 := by
  have := acc_step h l q 0
  rwa [if_neg (Nat.not_lt_zero q)] at this

theorem gath_eq (n : ℕ) (p : Fin 1024) (cc : Fin 128) :
    gath m c n p cc = hiArr m c (ix3 (bOf n) (pick (wordAt m c n p)) cc) + loArr m c (ix3 (bOf n) (pick (wordAt m c n p)) cc) := by
  unfold gath; rfl

/-- After a first tile. -/
theorem acc_first_at (t : Fin cfg0.N) (h0 : t.val % 16 = 0) (h1 : ¬t.val % 16 = 15) (p : Fin 1024) (cc : Fin 128) :
    soutFirst m c t h0 h1 (ix2 p cc) = if wordAt m c t.val p / 1024 < t.val % 16 + 1 then gath m c t.val p cc else 0 := by
  rw [soutFirst_eq, addTile_apply, pay2_apply, h0, gath_eq]
  exact acc_first _ _ _

/-- After a later tile, from what the tile before left. -/
theorem acc_next_at (t : Fin cfg0.N) (prev : Vec Ideal S1024x128 .f32) (p : Fin 1024) (cc : Fin 128)
    (hprev : prev (ix2 p cc) = if wordAt m c t.val p / 1024 < t.val % 16 then gath m c t.val p cc else 0) :
    addTile m c t prev (ix2 p cc) = if wordAt m c t.val p / 1024 < t.val % 16 + 1 then gath m c t.val p cc else 0 := by
  rw [addTile_apply, hprev, gath_eq]
  exact acc_step _ _ _ _

/-- Two positions of one row of tiles read the same index word and gather the same entry. -/
theorem same_row (n : ℕ) (hN : n + 1 < 2048) (h0 : ¬(n + 1) % 16 = 0) (p : Fin 1024) (cc : Fin 128) :
    wordAt m c n p = wordAt m c (n + 1) p ∧ gath m c n p cc = gath m c (n + 1) p cc := by
  have hb : bOf n = bOf (n + 1) := Fin.ext (by show n / 1024 % 2 = (n + 1) / 1024 % 2; omega)
  have hrow : rowOf n p = rowOf (n + 1) p := Fin.ext (by
    show (n / 16 % 64 * 1024 + p.val) % 65536 = ((n + 1) / 16 % 64 * 1024 + p.val) % 65536
    have : n / 16 = (n + 1) / 16 := by omega
    rw [this])
  have hword : wordAt m c n p = wordAt m c (n + 1) p := by unfold wordAt; rw [hb, hrow]
  exact ⟨hword, by rw [gath_eq, gath_eq, hword, hb]⟩

/-- THE INVARIANT: the accumulator after position `n`. -/
theorem acc_eq : ∀ (n : ℕ) (hn : n < cfg0.N) (p : Fin 1024) (cc : Fin 128),
    (outsAt m c n hn).2 (ix2 p cc) = if wordAt m c n p / 1024 < n % 16 + 1 then gath m c n p cc else 0 := by
  intro n
  induction n with
  | zero =>
    intro hn p cc
    have e : (outsAt m c 0 hn).2 = soutFirst m c ⟨0, hn⟩ (Nat.zero_mod _) (show ¬(0 % 16 = 15) by decide) :=
      congrArg Prod.snd (outsAt_first m c ⟨0, hn⟩ (Nat.zero_mod _) (show ¬(0 % 16 = 15) by decide))
    rw [e]
    exact acc_first_at m c ⟨0, hn⟩ (Nat.zero_mod _) (show ¬(0 % 16 = 15) by decide) p cc
  | succ n ih =>
    intro hn p cc
    have hN : n + 1 < 2048 := lt_of_lt_of_eq hn (show cfg0.N = 2048 from N_0)
    by_cases h0 : (n + 1) % 16 = 0
    · have h1 : ¬(n + 1) % 16 = 15 := by omega
      have e : (outsAt m c (n + 1) hn).2 = soutFirst m c ⟨n + 1, hn⟩ h0 h1 := congrArg Prod.snd (outsAt_first m c ⟨n + 1, hn⟩ h0 h1)
      rw [e]
      exact acc_first_at m c ⟨n + 1, hn⟩ h0 h1 p cc
    · obtain ⟨hword, hg⟩ := same_row m c n hN h0 p cc
      have hprev := ih (Nat.lt_of_succ_lt hn) p cc
      rw [hword, hg, show n % 16 + 1 = (n + 1) % 16 from by omega] at hprev
      by_cases h1 : (n + 1) % 16 = 15
      · have e : (outsAt m c (n + 1) hn).2 = soutLast m c ⟨n + 1, hn⟩ h0 h1 (outsAt m c n (Nat.lt_of_succ_lt hn)).2 :=
          congrArg Prod.snd (outsAt_last m c ⟨n + 1, hn⟩ h0 h1)
        rw [e, soutLast_eq]
        exact acc_next_at m c ⟨n + 1, hn⟩ _ p cc hprev
      · have e : (outsAt m c (n + 1) hn).2 = soutMid m c ⟨n + 1, hn⟩ h0 h1 (outsAt m c n (Nat.lt_of_succ_lt hn)).2 :=
          congrArg Prod.snd (outsAt_mid m c ⟨n + 1, hn⟩ h0 h1)
        rw [e, soutMid_eq]
        exact acc_next_at m c ⟨n + 1, hn⟩ _ p cc hprev

end Cert.KernelIdeal.HandValue

end
-- ==== Proof.Ideal.OutBlock.lean ====
/-
  The output window's block read at an index, for any contents of the array: entry (0, p, ch) of the block at
  grid point t is entry (batch, (query tile)·1024 + p, ch) of the array.
-/
import proofs.«128314_j31576599560762_2_alg».proof.Proof.Ideal.Around
import proofs.«128314_j31576599560762_2_alg».proof.Proof.Ideal.Coords

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.Tactic
open Idealize.SL Idealize.SL.Sem
open Idealize.ShloMosaic.Pipeline (Dat)

variable {F : FTy → Type} [FloatOps F]

theorem blk4_read (c : Dev nD) (t : Fin cfg0.N) (A : Buf (Elt F) ((cfg0.win 4).arr.view.loc (c.tc : Thread nD τ)))
    (x : S1x1024x128.Idx) (k : S2x65536x128.Idx)
    (hk0 : (k 0).val = t.val / 1024) (hk1 : (k 1).val = t.val / 16 % 64 * 1024 + (x 1).val) (hk2 : (k 2).val = (x 2).val) :
    (((cfg0.win 4).blk t).view.read (Elt F) A : Vec F S1x1024x128 .f32) x = (A : S2x65536x128.Idx → Elt F .f32) k := by
  have hi := index4 t
  have h0 : (x 0).val < 1 := (x 0).isLt
  rw [View.read_apply]
  refine cast_eq_iff_heq.mpr (heq_of_eq (congrArg A ?_))
  funext a
  apply Fin.ext
  match a with
  | ⟨0, _⟩ => show win0_4.index t 0 * 1 + 1 * (x 0).val = (k 0).val; rw [hi.1, hk0]; omega
  | ⟨1, _⟩ => show win0_4.index t 1 * 1024 + 1 * (x 1).val = (k 1).val; rw [hi.2.1, hk1]; omega
  | ⟨2, _⟩ => show win0_4.index t 2 * 128 + 1 * (x 2).val = (k 2).val; rw [hi.2.2, hk2]; omega

end Cert.KernelIdeal.HandValue

end
-- ==== Proof.Ideal.Result.lean ====
/-
  The region's result array, at exact arithmetic. A block of the output is written back only at the last tile of
  its row of sixteen; there the body has stored (accumulator after sixteen tiles) − (centre block), and after sixteen
  tiles every in-range index word has met its tile, so the accumulator is the gathered table entry. The 2·64 written
  blocks tile the array [2, 65536, 128]: entry (b, q, ch) lies in the block of (b, q / 1024). So the array ends at the
  one function `gatherOut` of the four arrays the region was handed.
-/
import proofs.«128314_j31576599560762_2_alg».proof.Proof.Ideal.AccValue
import proofs.«128314_j31576599560762_2_alg».proof.Proof.Ideal.OutBlock

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.Tactic
open Idealize.SL Idealize.SL.Sem
open Idealize.ShloMosaic.Pipeline (Dat)

-- the contents at the region's entry are a fold over the host operations before it: never opened here
attribute [local irreducible] StableHlo.after
attribute [local irreducible] outsAt soutLast outLast addTile

open Idealize.ShloMosaic.ValueIdx

variable (m : (ℓ : Loc nD τ sig) → Buf (Elt Ideal) ℓ) (c : Dev nD)

/-- Every index word the region is handed names a table row. -/
def InRange : Prop := ∀ k : S2x65536x1.Idx, (ixArr m c k).toNat < 16384

/-- The region's result from the arrays at its entry. -/
def regionOut : S2x65536x128.Idx → EReal :=
  gatherOut (ixArr m c) (hiArr m c) (loArr m c) (nxArr m c)

/-- At a last tile the output block holds the accumulator less the centre block. -/
theorem out_last (t : Fin cfg0.N) (h0 : ¬t.val % 16 = 0) (h15 : t.val % 16 = 15) :
    (outsAt m c t.val t.isLt).1 = k0_pay1 (outsAt m c t.val t.isLt).2 (iblk m c 3 t) := by
  have e := outsAt_last m c t h0 h15
  have e1 : (outsAt m c t.val t.isLt).1 = outLast m c t h0 h15 (outsAt m c (t.val - 1) (Nat.lt_of_le_of_lt (Nat.sub_le _ _) t.isLt)).2 := congrArg Prod.fst e
  have e2 : (outsAt m c t.val t.isLt).2 = soutLast m c t h0 h15 (outsAt m c (t.val - 1) (Nat.lt_of_le_of_lt (Nat.sub_le _ _) t.isLt)).2 := congrArg Prod.snd e
  rw [e1, e2, outLast_eq, soutLast_eq]

/-- One entry of it: the gathered table entry less the centre's. -/
theorem out_last_apply (hr : InRange m c) (t : Fin cfg0.N) (h0 : ¬t.val % 16 = 0) (h15 : t.val % 16 = 15) (p : Fin 1024) (cc : Fin 128) :
    (outsAt m c t.val t.isLt).1 (ix3 0 p cc) = regionOut m c (ix3 (bOf t.val) (rowOf t.val p) cc) := by
  have hN : t.val < 2048 := lt_of_lt_of_eq t.isLt (show cfg0.N = 2048 from N_0)
  have hw : wordAt m c t.val p / 1024 < t.val % 16 + 1 := by
    have := hr (ix3 (bOf t.val) (rowOf t.val p) 0)
    unfold wordAt; omega
  rw [out_last m c t h0 h15, pay1_apply, acc_eq m c t.val t.isLt p cc, if_pos hw,
    iblk3_apply m c t (ix3 0 p cc) (ix3 (bOf t.val) (rowOf t.val p) cc) (by show t.val / 1024 % 2 = t.val / 1024; omega)
      (by show (t.val / 16 % 64 * 1024 + p.val) % 65536 = t.val / 16 % 64 * 1024 + p.val; have := p.isLt; omega) rfl]
  rfl

/-- What a write-back writes: the block of `regionOut`. -/
theorem flushed_eq (hr : InRange m c) (t : Fin cfg0.N) (hf : (cfg0.win 4).flush t = true) :
    (dats m 0 c).flushed 4 t = ((cfg0.win 4).blk t).view.read (Elt Ideal) (regionOut m c) := by
  have h15 : t.val % 16 = 15 := (flush0_4 t).mp hf
  have h0 : ¬t.val % 16 = 0 := by omega
  have hN : t.val < 2048 := lt_of_lt_of_eq t.isLt (show cfg0.N = 2048 from N_0)
  show (cfg0.win 4).cut (grid0.coords t) ((dats m 0 c).after 4 t) = _
  rw [after0_4]
  refine funext fun (y : S1x1024x128.Idx) => ?_
  obtain ⟨p, cc, rfl⟩ : ∃ (p : Fin 1024) (cc : Fin 128), y = ix3 0 p cc :=
    ⟨y 1, y 2, (eq_ix3 y).trans (by
      congr 1
      exact Fin.ext (by have h1 : (y 0).val < 1 := (y 0).isLt; show (y 0).val = 0; omega))⟩
  exact (out_last_apply m c hr t h0 h15 p cc).trans
    (blk4_read (F := Ideal) c t (regionOut m c) (ix3 0 p cc) (ix3 (bOf t.val) (rowOf t.val p) cc) (by show t.val / 1024 % 2 = t.val / 1024; omega)
      (by show (t.val / 16 % 64 * 1024 + p.val) % 65536 = t.val / 16 % 64 * 1024 + p.val; have := p.isLt; omega) rfl).symm

/-- The written blocks tile the array: it ends at `regionOut`. -/
theorem final (hr : InRange m c) : (dats m 0 c).arrAt 4 cfg0.N = regionOut m c :=
  (dats m 0 c).arrAt_eq_of_cover 4 (regionOut m c) (fun t hf => flushed_eq m c hr t hf) fun i => by
    have h0 : (i 0 : Nat) < 2 := (i 0).isLt
    have h1 : (i 1 : Nat) < 65536 := (i 1).isLt
    have h2 : (i 2 : Nat) < 128 := (i 2).isLt
    have hT : ((i 0 : Nat) * 64 + (i 1 : Nat) / 1024) * 16 + 15 < cfg0.N := by rw [show cfg0.N = 2048 from N_0]; omega
    refine ⟨⟨((i 0 : Nat) * 64 + (i 1 : Nat) / 1024) * 16 + 15, hT⟩, (flush0_4 _).mpr (by show (((i 0 : Nat) * 64 + (i 1 : Nat) / 1024) * 16 + 15) % 16 = 15; omega), ?_⟩
    have hi := index4 ⟨((i 0 : Nat) * 64 + (i 1 : Nat) / 1024) * 16 + 15, hT⟩
    show i ∈ ((View.whole main_v73).slice (win0_4.rect ⟨((i 0 : Nat) * 64 + (i 1 : Nat) / 1024) * 16 + 15, hT⟩)).set
    rw [View.set_slice_whole, Rect.mem_set_unit]
    intro a
    match a with
    | ⟨0, _⟩ =>
      show win0_4.index ⟨_, hT⟩ 0 * 1 ≤ (i 0 : Nat) ∧ (i 0 : Nat) < win0_4.index ⟨_, hT⟩ 0 * 1 + 1
      rw [hi.1]; dsimp only; omega
    | ⟨1, _⟩ =>
      show win0_4.index ⟨_, hT⟩ 1 * 1024 ≤ (i 1 : Nat) ∧ (i 1 : Nat) < win0_4.index ⟨_, hT⟩ 1 * 1024 + 1024
      rw [hi.2.1]; dsimp only; omega
    | ⟨2, _⟩ =>
      show win0_4.index ⟨_, hT⟩ 2 * 128 ≤ (i 2 : Nat) ∧ (i 2 : Nat) < win0_4.index ⟨_, hT⟩ 2 * 128 + 128
      rw [hi.2.2]; dsimp only; omega

end Cert.KernelIdeal.HandValue

end
-- ==== Proof.Ideal.BridgeOps.lean ====
/-
  The kernel program's host operations around the region, read at an index, at the ideal values: the tail
  (slice, reshape, transpose), the index column, the padded centres, the padded table and its two halves.
-/
import proofs.«128314_j31576599560762_2_alg».proof.Proof.Ideal.Terms
import proofs.«128314_j31576599560762_2_alg».proof.Proof.MathSums
import Idealize.ShloMosaic.Lib.KernelVsHost
import Idealize.ShloMosaic.Lib.Pipeline.Value
import Idealize.ShloMosaic.Lib.ValueIdx

noncomputable section

namespace Cert.KernelIdeal.HandValue

open Idealize.ShloMosaic Idealize.ShloMosaic.ValueIdx Cert.KernelIdeal Cert.KernelIdeal.Facts₀

/-! ## The host operations after the region, at an index -/

/-- The tail of the kernel program at (b, ch, q, s): the region's result at row q * 32 + s, channel ch. -/
theorem tail_apply (o : FVec Ideal S2x65536x128 .f32) (b : Fin 2) (ch : Fin 67) (q : Fin 2048) (s : Fin 32)
    (n : Fin 65536) (hn : n.val = q.val * 32 + s.val) :
    tailOf o (ix4 b ch q s) = o (ix3 b n ⟨ch.val, by have := ch.isLt; omega⟩) := by
  unfold tailOf
  refine (transpose_apply _ _ _ (ix4 b ch q s) (ix4 b q s ch) ?_).trans ?_
  · intro bb
    match bb with
    | ⟨0, _⟩ => rfl
    | ⟨1, _⟩ => rfl
    | ⟨2, _⟩ => rfl
    | ⟨3, _⟩ => rfl
  refine (shapeCast_apply _ _ (ix4 b q s ch) (ix3 b n ch) ?_).trans ?_
  · rw [Shape.rowMajor_val_three, Shape.rowMajor_val_four]
    show (b.val * 65536 + n.val) * 67 + ch.val = ((b.val * 2048 + q.val) * 32 + s.val) * 67 + ch.val
    rw [hn]; omega
  · unfold extractStridedSlice
    refine congrArg o (funext fun a => Fin.ext ?_)
    match a with
    | ⟨0, _⟩ => exact Nat.zero_add _
    | ⟨1, _⟩ => exact Nat.zero_add _
    | ⟨2, _⟩ => exact Nat.zero_add _

/-! ## The host operations before the region, at an index -/

/-- The index column at row q * 32 + s is the table's word at (q, s). -/
theorem ixCol_apply (idx : IVec S2x2048x32 32) (b : Fin 2) (q : Fin 2048) (s : Fin 32) (n : Fin 65536)
    (hn : n.val = q.val * 32 + s.val) : ixColOf idx (ix3 b n 0) = idx (ix3 b q s) := by
  unfold ixColOf
  refine shapeCast_apply _ _ (ix3 b n 0) (ix3 b q s) ?_
  rw [Shape.rowMajor_val_three, Shape.rowMajor_val_three]
  show (b.val * 2048 + q.val) * 32 + s.val = (b.val * 65536 + n.val) * 1 + 0
  rw [hn]; omega

/-- The integer zero converted is the float zero. -/
theorem sitofp_zero_scalar : (sitofp .f32 (constantI S_ 32 0#32) : FVec Ideal S_ .f32) (Shape.Idx.first h_S_) = 0 := by
  show ((((0#32 : BitVec 32).toInt : ℤ) : ℝ) : EReal) = 0
  simp

/-- The padded centres on a coordinate channel: the centre's coordinate. -/
theorem nx_apply_lt (a1 : FVec Ideal S2x2048x3 .f32) (b : Fin 2) (q : Fin 2048) (s : Fin 32) (n : Fin 65536)
    (hn : n.val = q.val * 32 + s.val) (cc : Fin 128) (h : cc.val < 3) :
    nxOf a1 (ix3 b n cc) = a1 (ix3 b q ⟨cc.val, h⟩) := by
  unfold nxOf
  refine (pad_apply_of_inside _ _ _ _ _ _ _ (ix3 b n cc) (ix3 b n (⟨cc.val, h⟩ : Fin 3)) ?_).trans ?_
  · intro a
    match a with
    | ⟨0, _⟩ => show b.val = 0 + b.val * (0 + 1); omega
    | ⟨1, _⟩ => show n.val = 0 + n.val * (0 + 1); omega
    | ⟨2, _⟩ => show cc.val = 0 + cc.val * (0 + 1); omega
  refine (shapeCast_apply _ _ (ix3 b n (⟨cc.val, h⟩ : Fin 3)) (ix4 b q s (⟨cc.val, h⟩ : Fin 3)) ?_).trans ?_
  · rw [Shape.rowMajor_val_three, Shape.rowMajor_val_four]
    show ((b.val * 2048 + q.val) * 32 + s.val) * 3 + cc.val = (b.val * 65536 + n.val) * 3 + cc.val
    rw [hn]; omega
  · unfold broadcastInDim
    refine congrArg a1 (funext fun a => Fin.ext ?_)
    match a with
    | ⟨0, _⟩ => rfl
    | ⟨1, _⟩ => rfl
    | ⟨2, _⟩ => rfl

/-- The padded centres past the coordinate channels: zero. -/
theorem nx_apply_ge (a1 : FVec Ideal S2x2048x3 .f32) (b : Fin 2) (n : Fin 65536) (cc : Fin 128) (h : 3 ≤ cc.val) :
    nxOf a1 (ix3 b n cc) = 0 := by
  unfold nxOf
  refine (pad_apply_of_not_inside _ _ _ _ _ _ _ (ix3 b n cc) 2 ?_).trans sitofp_zero_scalar
  intro hin
  have h3 : (cc.val - 0) / (0 + 1) < 3 := hin.2.2
  omega

/-- The table on a coordinate channel: the point's coordinate. -/
theorem table_apply_xyz (a0 : FVec Ideal S2x16384x3 .f32) (a2 : FVec Ideal S2x64x16384 .f32) (b : Fin 2)
    (k : Fin 16384) (cc : Fin 128) (h : cc.val < 3) :
    tableOf a0 a2 (ix3 b k cc) = a0 (ix3 b k ⟨cc.val, h⟩) := by
  unfold tableOf
  refine (pad_apply_of_inside _ _ _ _ _ _ _ (ix3 b k cc) (ix3 b k (⟨cc.val, by omega⟩ : Fin 67)) ?_).trans ?_
  · intro a
    match a with
    | ⟨0, _⟩ => show b.val = 0 + b.val * (0 + 1); omega
    | ⟨1, _⟩ => show k.val = 0 + k.val * (0 + 1); omega
    | ⟨2, _⟩ => show cc.val = 0 + cc.val * (0 + 1); omega
  refine concatenate_pair_apply_left (t := S2x16384x67) (s₁ := S2x16384x3) (s₂ := S2x16384x64) 2 _ _ _ _ rfl (ix3 b k (⟨cc.val, h⟩ : Fin 3)) ?_
  intro bb
  match bb with
  | ⟨0, _⟩ => rfl
  | ⟨1, _⟩ => rfl
  | ⟨2, _⟩ => rfl

/-- The table on a feature channel: the point's feature. -/
theorem table_apply_feat (a0 : FVec Ideal S2x16384x3 .f32) (a2 : FVec Ideal S2x64x16384 .f32) (b : Fin 2)
    (k : Fin 16384) (cc : Fin 128) (h3 : 3 ≤ cc.val) (h67 : cc.val < 67) :
    tableOf a0 a2 (ix3 b k cc) = a2 (ix3 b ⟨cc.val - 3, by omega⟩ k) := by
  unfold tableOf
  refine (pad_apply_of_inside _ _ _ _ _ _ _ (ix3 b k cc) (ix3 b k (⟨cc.val, h67⟩ : Fin 67)) ?_).trans ?_
  · intro a
    match a with
    | ⟨0, _⟩ => show b.val = 0 + b.val * (0 + 1); omega
    | ⟨1, _⟩ => show k.val = 0 + k.val * (0 + 1); omega
    | ⟨2, _⟩ => show cc.val = 0 + cc.val * (0 + 1); omega
  refine (concatenate_pair_apply_right (t := S2x16384x67) (s₁ := S2x16384x3) (s₂ := S2x16384x64) 2 _ _ _ _ rfl rfl
    (ix3 b k (⟨cc.val - 3, by omega⟩ : Fin 64)) ?_ ?_).trans ?_
  · intro bb hbb
    match bb with
    | ⟨0, _⟩ => rfl
    | ⟨1, _⟩ => rfl
    | ⟨2, _⟩ => exact absurd rfl hbb
  · show cc.val - 3 + 3 = cc.val
    omega
  · refine transpose_apply _ _ _ (ix3 b k (⟨cc.val - 3, by omega⟩ : Fin 64)) (ix3 b (⟨cc.val - 3, by omega⟩ : Fin 64) k) ?_
    intro bb
    match bb with
    | ⟨0, _⟩ => rfl
    | ⟨1, _⟩ => rfl
    | ⟨2, _⟩ => rfl

/-- The table's first half is the table; its second half is the table less itself. -/
theorem hi_apply (a0 : FVec Ideal S2x16384x3 .f32) (a2 : FVec Ideal S2x64x16384 .f32) (j : S2x16384x128.Idx) :
    (hiOf a0 a2 j : EReal) = tableOf a0 a2 j := rfl

theorem lo_apply (a0 : FVec Ideal S2x16384x3 .f32) (a2 : FVec Ideal S2x64x16384 .f32) (j : S2x16384x128.Idx) :
    (loOf a0 a2 j : EReal) = (tableOf a0 a2 j : EReal) - (tableOf a0 a2 j : EReal) := rfl

/-- A number below 16384 names itself. -/
theorem pick_of_lt (w : ℕ) (h : w < 16384) : pick w = ⟨w, h⟩ := Fin.ext (Nat.mod_eq_of_lt h)

/-- A real number plus (itself less itself) is itself. -/
theorem real_add_sub_self (x : EReal) (hx : ∃ r : ℝ, x = (r : EReal)) : x + (x - x) = x := by
  obtain ⟨r, rfl⟩ := hx
  rw [Cert.Hand.Math.ereal_coe_sub_self, add_zero]

end Cert.KernelIdeal.HandValue

end
-- ==== Proof.LibTakeAlong.lean ====
/-
  The pieces of a take-along-axis on the host, read at an index.

  * A reduce by "and" of an array of ones from the initial value one is one (`reduce_andi_ones`).
  * Index words below a bound that fits the signed range: the signed comparisons with zero and with the bound
    less one, and the clamp of the signed reading (`word_not_slt_zero`, `word_sge_zero`, `word_sle`,
    `clamp_word`).
  * The gather of a [B, C, N] array along its last axis by a [B, Q, 1] array of index words, the first axis a
    batch axis of both (`gather_batched_at`): entry (b, c, n) is the operand at (b, c, clamp of the word at
    (b, n, 0)).
-/
import Idealize.ShloMosaic.Lib.ValueIdx
import Idealize.ShloMosaic.Lib.Affine
import Idealize.ShloMosaic.PureOps.Reduce

namespace Cert.Hand.Math

open Idealize.ShloMosaic Idealize.ShloMosaic.ValueIdx

/-! ## A reduce by "and" of ones -/

/-- A left fold by "and" from one over ones is one. -/
theorem foldl_andi_ones {ι : Type} (f : ι → BitVec 1) :
    ∀ (l : List ι) (init : BitVec 1), init = 1#1 → (∀ n ∈ l, f n = 1#1) →
      l.foldl (fun r n => IntOp.andi r (f n)) init = 1#1
  | [], init, hi, _ => hi
  | a :: l, init, hi, hf => by
    rw [List.foldl_cons]
    refine foldl_andi_ones f l _ ?_ (fun n hn => hf n (List.mem_cons_of_mem _ hn))
    exact IntOp.andi_eq_one.2 ⟨hi, hf a List.mem_cons_self⟩

/-- A reduce by "and" of an array of ones, from an initial value of ones, is one at every index. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl]
  exact foldl_andi_ones x _ _ (hi _) (fun n _ => hx n)

/-! ## Index words below a bound -/

/-- A word below 2^31 is not negative: the signed comparison with zero is 0. -/
theorem word_not_slt_zero (e : BitVec 32) (n : ℕ) (hn : n ≤ 2147483648) (h : e.toNat < n) :
    IntOp.cmpi .slt e 0#32 = 0#1 := by
  have hi : e.toInt = (e.toNat : Int) := by
    rw [BitVec.toInt_eq_toNat_cond, if_pos (by omega)]
  apply eq_zero_of_ne_one
  intro hc
  have := IntOp.cmpi_slt.1 hc
  rw [hi, BitVec.toInt_zero] at this
  omega

/-- A word below 2^31 is at least zero, signed. -/
theorem word_sge_zero (e : BitVec 32) (n : ℕ) (hn : n ≤ 2147483648) (h : e.toNat < n) :
    IntOp.cmpi .sge e 0#32 = 1#1 := by
  have hi : e.toInt = (e.toNat : Int) := by
    rw [BitVec.toInt_eq_toNat_cond, if_pos (by omega)]
  apply IntOp.cmpi_sge.2
  rw [hi, BitVec.toInt_zero]
  omega

/-- A word below `n` is at most the word `n - 1`, signed, when `n` fits the signed range. -/
theorem word_sle (e : BitVec 32) (n : ℕ) (hn : n ≤ 2147483648) (hn0 : 0 < n) (h : e.toNat < n) :
    IntOp.cmpi .sle e (BitVec.ofNat 32 (n - 1)) = 1#1 := by
  have hi : e.toInt = (e.toNat : Int) := by
    rw [BitVec.toInt_eq_toNat_cond, if_pos (by omega)]
  have hm : (BitVec.ofNat 32 (n - 1)).toNat = n - 1 := by
    rw [BitVec.toNat_ofNat]; exact Nat.mod_eq_of_lt (by omega)
  have hb : (BitVec.ofNat 32 (n - 1)).toInt = ((n - 1 : ℕ) : Int) := by
    rw [BitVec.toInt_eq_toNat_cond, hm, if_pos (by omega)]
  apply IntOp.cmpi_sle.2
  rw [hi, hb]
  omega

/-- The clamp of a word below `n`, read signed, into [0, n - 1] is the word read unsigned. -/
theorem clamp_word (e : BitVec 32) (n : ℕ) (hn : n ≤ 2147483648) (h : e.toNat < n) :
    min e.toInt.toNat (n - 1) = e.toNat := by
  have hi : e.toInt = (e.toNat : Int) := by
    rw [BitVec.toInt_eq_toNat_cond, if_pos (by omega)]
  rw [hi]
  omega

/-! ## The batched gather along the last axis -/

/-- The gather of a [B, C, N] array along its last axis by a [B, Q, 1] array of index words, axis 0 a batch axis
    of both, axis 1 kept whole: entry (b, c, n) is the operand at (b, c, the word at (b, n, 0) clamped into
    [0, N - 1]). -/
theorem gather_batched_at {α : Type} {B C N Q w : Nat}
    (d : GatherDims (⟨3, ![B, C, N]⟩ : Shape) (⟨3, ![B, Q, 1]⟩ : Shape) (⟨3, ![B, C, Q]⟩ : Shape))
    (hod : d.offsetDims = [1]) (hcs : d.collapsedSliceDims = [2]) (hob : d.operandBatchingDims = [0])
    (hsb : d.startIndicesBatchingDims = [0]) (hsm : d.startIndexMap = [2]) (hiv : d.indexVectorDim = 2)
    (hN : 0 < N) (idx : IVec (⟨3, ![B, Q, 1]⟩ : Shape) w) (x : (⟨3, ![B, C, N]⟩ : Shape).Idx → α)
    (b : Fin B) (c : Fin C) (n : Fin Q) :
    Host.gather d x idx (ix3 b c n)
      = x (ix3 b c ⟨min (idx (ix3 b n 0)).toInt.toNat (N - 1), by omega⟩) := by
  have hs2 : d.sliceSizes 2 = 1 := d.slice_collapsed 2 (by rw [hcs]; exact List.mem_singleton.mpr rfl)
  obtain ⟨od, cd, ob, sb, sm, iv, ss, wf⟩ := d
  simp only at hod hcs hob hsb hsm hiv hs2
  subst hod hcs hob hsb hsm hiv
  unfold Host.gather
  congr 1
  funext a
  refine Fin.ext ?_
  match a with
  | ⟨0, _⟩ =>
    show GatherDims.start _ _ idx 0 + GatherDims.batchCoord _ _ 0 + GatherDims.offCoord _ _ 0 = b.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    rfl
  | ⟨1, _⟩ =>
    show GatherDims.start _ _ idx 1 + GatherDims.batchCoord _ _ 1 + GatherDims.offCoord _ _ 1 = c.val
    rw [GatherDims.batchCoord_eq_zero _ _ _ (fun h => absurd (Fin.val_eq_of_eq (List.mem_singleton.mp h)) (by omega : ¬ (1 : ℕ) = 0))]
    unfold GatherDims.start
    rw [dif_neg (fun h => absurd (Fin.val_eq_of_eq (List.mem_singleton.mp h)) (by omega : ¬ (1 : ℕ) = 2))]
    simp only [Nat.zero_add, Nat.add_zero]
    rfl
  | ⟨2, _⟩ =>
    show GatherDims.start _ _ idx 2 + GatherDims.batchCoord _ _ 2 + GatherDims.offCoord _ _ 2 = _
    rw [GatherDims.batchCoord_eq_zero _ _ _ (fun h => absurd (Fin.val_eq_of_eq (List.mem_singleton.mp h)) (by omega : ¬ (2 : ℕ) = 0)),
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ (q : Fin ([2] : List (Fin (⟨3, ![B, C, N]⟩ : Shape).rank)).length),
        GatherDims.siIdx (⟨[1], [2], [0], [0], [2], 2, ss, wf⟩ :
          GatherDims (⟨3, ![B, C, N]⟩ : Shape) (⟨3, ![B, Q, 1]⟩ : Shape) (⟨3, ![B, C, Q]⟩ : Shape)) (ix3 b c n) q
          = ix3 b n 0 := by
      intro q
      funext b'; refine Fin.ext ?_
      match b' with
      | ⟨0, _⟩ => rfl
      | ⟨1, _⟩ => rfl
      | ⟨2, _⟩ =>
        have := q.isLt
        simp only [List.length_singleton] at this
        show q.val = 0
        omega
    rw [hsi]
    show min _ (N - ss 2) = _
    rw [hs2]

/-! ## The take-along-axis body -/

abbrev Tk_ : Shape := ⟨0, ![]⟩
abbrev Tk1 : Shape := ⟨1, ![1]⟩
abbrev Tk1x1x1 : Shape := ⟨3, ![1, 1, 1]⟩

/-- The body of a take-along-axis of a [B, C, 16384] array along its last axis by a [B, 1, Q] array of index
    words: negative words are wrapped by 16384, the words are reshaped to [B, Q, 1], the in-range mask (word
    between 0 and 16383, reduced by "and" over the unit axis) selects between the gathered element and a fill. -/
def takeBody {α : Type} {B C Q : Nat}
    (d : GatherDims (⟨3, ![B, C, 16384]⟩ : Shape) (⟨3, ![B, Q, 1]⟩ : Shape) (⟨3, ![B, C, Q]⟩ : Shape))
    (hb0 : Tk_.BroadcastsInDim (⟨3, ![B, 1, Q]⟩ : Shape) (![] : Fin 0 → Fin 3))
    (hsc : (⟨3, ![B, 1, Q]⟩ : Shape).ShapeCasts (⟨3, ![B, Q, 1]⟩ : Shape))
    (hb1 : Tk_.BroadcastsInDim (⟨3, ![B, Q, 1]⟩ : Shape) (![] : Fin 0 → Fin 3))
    (hb2 : Tk1.BroadcastsInDim Tk1x1x1 (![2] : Fin 1 → Fin 3))
    (hb3 : Tk1x1x1.BroadcastsInDim (⟨3, ![B, Q, 1]⟩ : Shape) (![0, 1, 2] : Fin 3 → Fin 3))
    (hred : (⟨3, ![B, Q, 1]⟩ : Shape).ReducesTo [2] (⟨2, ![B, Q]⟩ : Shape)) (hu : 0 < Tk_.numel)
    (hb4 : (⟨2, ![B, Q]⟩ : Shape).BroadcastsInDim (⟨3, ![B, C, Q]⟩ : Shape) (![0, 2] : Fin 2 → Fin 3))
    (x : (⟨3, ![B, C, 16384]⟩ : Shape).Idx → α) (fill : (⟨3, ![B, C, Q]⟩ : Shape).Idx → α)
    (v63 : IVec (⟨3, ![B, 1, Q]⟩ : Shape) 32) : (⟨3, ![B, C, Q]⟩ : Shape).Idx → α :=
  let c : IVec Tk_ 32 := constantI Tk_ 32 0#32
  let v0 : IVec (⟨3, ![B, 1, Q]⟩ : Shape) 32 := (broadcastInDim (⟨3, ![B, 1, Q]⟩ : Shape) ![] hb0) c
  let v1 : IVec (⟨3, ![B, 1, Q]⟩ : Shape) 1 := (cmpi .slt) v63 v0
  let c_0 : IVec Tk_ 32 := constantI Tk_ 32 16384#32
  let v2 : IVec (⟨3, ![B, 1, Q]⟩ : Shape) 32 := (broadcastInDim (⟨3, ![B, 1, Q]⟩ : Shape) ![] hb0) c_0
  let v3 : IVec (⟨3, ![B, 1, Q]⟩ : Shape) 32 := addi v63 v2
  let v4 : IVec (⟨3, ![B, 1, Q]⟩ : Shape) 32 := select v1 v3 v63
  let v5 : IVec (⟨3, ![B, Q, 1]⟩ : Shape) 32 := shapeCast (⟨3, ![B, Q, 1]⟩ : Shape) v4 hsc
  let c_1 : IVec Tk1 32 := constantI Tk1 32 16383#32
  let c_2 : IVec Tk_ 32 := constantI Tk_ 32 0#32
  let v6 : IVec (⟨3, ![B, Q, 1]⟩ : Shape) 32 := (broadcastInDim (⟨3, ![B, Q, 1]⟩ : Shape) ![] hb1) c_2
  let v7 : IVec (⟨3, ![B, Q, 1]⟩ : Shape) 1 := (cmpi .sge) v5 v6
  let v8 : IVec Tk1x1x1 32 := (broadcastInDim Tk1x1x1 ![2] hb2) c_1
  let v9 : IVec (⟨3, ![B, Q, 1]⟩ : Shape) 32 := (broadcastInDim (⟨3, ![B, Q, 1]⟩ : Shape) ![0, 1, 2] hb3) v8
  let v10 : IVec (⟨3, ![B, Q, 1]⟩ : Shape) 1 := (cmpi .sle) v5 v9
  let v11 : IVec (⟨3, ![B, Q, 1]⟩ : Shape) 1 := andi v7 v10
  let c_3 : IVec Tk_ 1 := constantI Tk_ 1 1#1
  let v12 : IVec (⟨2, ![B, Q]⟩ : Shape) 1 := (fun x v => Host.reduce IntOp.andi x v hred hu) v11 c_3
  let v13 : (⟨3, ![B, C, Q]⟩ : Shape).Idx → α := (fun x i => Host.gather d x i) x v5
  let v14 : IVec (⟨3, ![B, C, Q]⟩ : Shape) 1 := (broadcastInDim (⟨3, ![B, C, Q]⟩ : Shape) ![0, 2] hb4) v12
  select v14 v13 fill

/-- With every index word below 16384 the body reads, at (b, c, n), the operand at (b, c, word at (b, 0, n)):
    no word is negative, the mask is all ones, and the clamp of the gather does nothing. -/
theorem takeBody_at {α : Type} {B C Q : Nat}
    (d : GatherDims (⟨3, ![B, C, 16384]⟩ : Shape) (⟨3, ![B, Q, 1]⟩ : Shape) (⟨3, ![B, C, Q]⟩ : Shape))
    (hod : d.offsetDims = [1]) (hcs : d.collapsedSliceDims = [2]) (hob : d.operandBatchingDims = [0])
    (hsb : d.startIndicesBatchingDims = [0]) (hsm : d.startIndexMap = [2]) (hiv : d.indexVectorDim = 2)
    (hb0 : Tk_.BroadcastsInDim (⟨3, ![B, 1, Q]⟩ : Shape) (![] : Fin 0 → Fin 3))
    (hsc : (⟨3, ![B, 1, Q]⟩ : Shape).ShapeCasts (⟨3, ![B, Q, 1]⟩ : Shape))
    (hb1 : Tk_.BroadcastsInDim (⟨3, ![B, Q, 1]⟩ : Shape) (![] : Fin 0 → Fin 3))
    (hb2 : Tk1.BroadcastsInDim Tk1x1x1 (![2] : Fin 1 → Fin 3))
    (hb3 : Tk1x1x1.BroadcastsInDim (⟨3, ![B, Q, 1]⟩ : Shape) (![0, 1, 2] : Fin 3 → Fin 3))
    (hred : (⟨3, ![B, Q, 1]⟩ : Shape).ReducesTo [2] (⟨2, ![B, Q]⟩ : Shape)) (hu : 0 < Tk_.numel)
    (hb4 : (⟨2, ![B, Q]⟩ : Shape).BroadcastsInDim (⟨3, ![B, C, Q]⟩ : Shape) (![0, 2] : Fin 2 → Fin 3))
    (x : (⟨3, ![B, C, 16384]⟩ : Shape).Idx → α) (fill : (⟨3, ![B, C, Q]⟩ : Shape).Idx → α)
    (v63 : IVec (⟨3, ![B, 1, Q]⟩ : Shape) 32) (hv : ∀ i, (v63 i).toNat < 16384)
    (b : Fin B) (c : Fin C) (n : Fin Q) :
    takeBody d hb0 hsc hb1 hb2 hb3 hred hu hb4 x fill v63 (ix3 b c n)
      = x (ix3 b c ⟨(v63 (ix3 b 0 n)).toNat, hv _⟩) := by
  -- no word is negative: the wrap keeps the word
  have h4 : ∀ k, select (cmpi .slt v63 (broadcastInDim (⟨3, ![B, 1, Q]⟩ : Shape) ![] hb0 (constantI Tk_ 32 0#32)))
      (addi v63 (broadcastInDim (⟨3, ![B, 1, Q]⟩ : Shape) ![] hb0 (constantI Tk_ 32 16384#32))) v63 k = v63 k := by
    intro k
    show Scalar.select (IntOp.cmpi .slt (v63 k) 0#32) _ (v63 k) = v63 k
    rw [word_not_slt_zero (v63 k) 16384 (by omega) (hv k)]
    exact select_zero _ _
  -- the reshaped words are words of the table
  have h5 : ∀ i, shapeCast (⟨3, ![B, Q, 1]⟩ : Shape)
      (select (cmpi .slt v63 (broadcastInDim (⟨3, ![B, 1, Q]⟩ : Shape) ![] hb0 (constantI Tk_ 32 0#32)))
        (addi v63 (broadcastInDim (⟨3, ![B, 1, Q]⟩ : Shape) ![] hb0 (constantI Tk_ 32 16384#32))) v63) hsc i
      = v63 (Shape.reshapeEquiv hsc i) := fun i => h4 _
  -- the mask is all ones
  have h12 : ∀ j, Host.reduce IntOp.andi
      (andi
        (cmpi .sge (shapeCast (⟨3, ![B, Q, 1]⟩ : Shape)
          (select (cmpi .slt v63 (broadcastInDim (⟨3, ![B, 1, Q]⟩ : Shape) ![] hb0 (constantI Tk_ 32 0#32)))
            (addi v63 (broadcastInDim (⟨3, ![B, 1, Q]⟩ : Shape) ![] hb0 (constantI Tk_ 32 16384#32))) v63) hsc)
          (broadcastInDim (⟨3, ![B, Q, 1]⟩ : Shape) ![] hb1 (constantI Tk_ 32 0#32)))
        (cmpi .sle (shapeCast (⟨3, ![B, Q, 1]⟩ : Shape)
          (select (cmpi .slt v63 (broadcastInDim (⟨3, ![B, 1, Q]⟩ : Shape) ![] hb0 (constantI Tk_ 32 0#32)))
            (addi v63 (broadcastInDim (⟨3, ![B, 1, Q]⟩ : Shape) ![] hb0 (constantI Tk_ 32 16384#32))) v63) hsc)
          (broadcastInDim (⟨3, ![B, Q, 1]⟩ : Shape) ![0, 1, 2] hb3
            (broadcastInDim Tk1x1x1 ![2] hb2 (constantI Tk1 32 16383#32)))))
      (constantI Tk_ 1 1#1) hred hu j = 1#1 := by
    intro j
    refine reduce_andi_ones _ _ hred hu ?_ (fun _ => rfl) j
    intro i
    refine IntOp.andi_eq_one.2 ⟨?_, ?_⟩
    · show IntOp.cmpi .sge (shapeCast (⟨3, ![B, Q, 1]⟩ : Shape) _ hsc i) 0#32 = 1#1
      rw [h5]
      exact word_sge_zero _ 16384 (by omega) (hv _)
    · show IntOp.cmpi .sle (shapeCast (⟨3, ![B, Q, 1]⟩ : Shape) _ hsc i) 16383#32 = 1#1
      rw [h5]
      exact word_sle _ 16384 (by omega) (by omega) (hv _)
  unfold takeBody
  dsimp only
  show Scalar.select (Host.reduce IntOp.andi _ _ hred hu _) (Host.gather d x _ (ix3 b c n)) (fill (ix3 b c n)) = _
  rw [h12]
  refine (select_one _ _).trans ?_
  refine (gather_batched_at d hod hcs hob hsb hsm hiv (by omega) _ x b c n).trans ?_
  refine congrArg x ?_
  funext a
  refine Fin.ext ?_
  match a with
  | ⟨0, _⟩ => rfl
  | ⟨1, _⟩ => rfl
  | ⟨2, _⟩ =>
    show min (BitVec.toInt (shapeCast (⟨3, ![B, Q, 1]⟩ : Shape) _ hsc (ix3 b n 0))).toNat (16384 - 1) = (v63 (ix3 b 0 n)).toNat
    rw [h5, clamp_word _ 16384 (by omega) (hv _)]
    refine congrArg (fun k => (v63 k).toNat) ?_
    refine Shape.reshapeEquiv_eq_of_rowMajor hsc ?_
    rw [Shape.rowMajor_val_three, Shape.rowMajor_val_three]
    show (b.val * 1 + 0) * Q + n.val = (b.val * Q + n.val) * 1 + 0
    rw [Nat.mul_one, Nat.add_zero, Nat.mul_one, Nat.add_zero]

end Cert.Hand.Math
-- ==== Proof.RefRead.lean ====
/-
  The reference's gather-and-concatenate tail read at an index, at the ideal values, over an index table whose
  words are all below 16384: channel ch < 3 of (b, ch, q, s) is the point coordinate ch of the point the table
  names at (b, q, s), less the centre's coordinate; channel ch ≥ 3 is feature ch - 3 of that point.
-/
import proofs.«128314_j31576599560762_2_alg».proof.Proof.RefTerm
import proofs.«128314_j31576599560762_2_alg».proof.Proof.LibTakeAlong
import Idealize.ShloMosaic.Lib.ValueIdx
import Idealize.ShloMosaic.Lib.Pipeline.Value

noncomputable section

namespace Cert.ReferenceIdeal.Hand

open Idealize.ShloMosaic Idealize.ShloMosaic.ValueIdx Cert.ReferenceIdeal Cert.ReferenceIdeal.Facts₀ Cert.Hand.Math

/-! ## The layout steps at an index -/

/-- The index table flattened to [2, 1, 65536], read at (b, 0, q * 32 + s). -/
theorem idx_flat_apply (idx : IVec S2x2048x32 32) (b : Fin 2) (q : Fin 2048) (s : Fin 32) (n : Fin 65536)
    (hn : n.val = q.val * 32 + s.val) :
    shapeCast S2x1x65536 idx shapeCasts_S2x2048x32_S2x1x65536 (ix3 b 0 n) = idx (ix3 b q s) := by
  refine shapeCast_apply _ _ (ix3 b 0 n) (ix3 b q s) ?_
  rw [Shape.rowMajor_val_three, Shape.rowMajor_val_three]
  show (b.val * 2048 + q.val) * 32 + s.val = (b.val * 1 + 0) * 65536 + n.val
  omega

/-- Every word of the flattened table is a word of the table. -/
theorem idx_flat_lt (idx : IVec S2x2048x32 32) (hr : ∀ j, (idx j).toNat < 16384) (i : S2x1x65536.Idx) :
    (shapeCast S2x1x65536 idx shapeCasts_S2x2048x32_S2x1x65536 i).toNat < 16384 := hr _

/-- A [2, C, 65536] array viewed [2, C, 2048, 32], read at (b, c, q, s). -/
theorem unflat_apply {α : Type} {C : Nat} (v : (⟨3, ![2, C, 65536]⟩ : Shape).Idx → α)
    (h : (⟨3, ![2, C, 65536]⟩ : Shape).ShapeCasts (⟨4, ![2, C, 2048, 32]⟩ : Shape))
    (b : Fin 2) (c : Fin C) (q : Fin 2048) (s : Fin 32) (n : Fin 65536) (hn : n.val = q.val * 32 + s.val) :
    shapeCast (⟨4, ![2, C, 2048, 32]⟩ : Shape) v h (ix4 b c q s) = v (ix3 b c n) := by
  refine shapeCast_apply _ _ (ix4 b c q s) (ix3 b c n) ?_
  rw [Shape.rowMajor_val_three, Shape.rowMajor_val_four]
  show (b.val * C + c.val) * 65536 + n.val = ((b.val * C + c.val) * 2048 + q.val) * 32 + s.val
  omega

/-- The points transposed to [2, 3, 16384], read at (b, c, k). -/
theorem xyzT_apply {α : Type} (a0 : S2x16384x3.Idx → α) (b : Fin 2) (c : Fin 3) (k : Fin 16384) :
    transpose S2x3x16384 [0, 2, 1] a0 transposes_S2x16384x3_S2x3x16384_0_2_1 (ix3 b c k) = a0 (ix3 b k c) := by
  refine transpose_apply _ _ _ (ix3 b c k) (ix3 b k c) ?_
  intro bb
  match bb with
  | ⟨0, _⟩ => rfl
  | ⟨1, _⟩ => rfl
  | ⟨2, _⟩ => rfl

/-- The centres transposed and repeated over the 32 slots, read at (b, c, q, s). -/
theorem centre_apply {α : Type} (a1 : S2x2048x3.Idx → α) (b : Fin 2) (c : Fin 3) (q : Fin 2048) (s : Fin 32) :
    broadcastInDim S2x3x2048x32 ![0, 1, 2, 3] bcast_S2x3x2048x1_S2x3x2048x32_0_1_2_3
      (broadcastInDim S2x3x2048x1 ![0, 1, 2] bcast_S2x3x2048_S2x3x2048x1_0_1_2
        (transpose S2x3x2048 [0, 2, 1] a1 transposes_S2x2048x3_S2x3x2048_0_2_1)) (ix4 b c q s)
      = a1 (ix3 b q c) := by
  unfold broadcastInDim
  refine (transpose_apply _ _ _ _ (ix3 b q c) ?_)
  intro bb
  match bb with
  | ⟨0, _⟩ => rfl
  | ⟨1, _⟩ => rfl
  | ⟨2, _⟩ => rfl

/-! ## The two gathers -/

/-- The point coordinates gathered by the table, read at (b, c, n): coordinate c of the point the flattened
    table names at (b, 0, n). -/
theorem takeXyz_at (idx : IVec S2x2048x32 32) (hr : ∀ j, (idx j).toNat < 16384) (a0 : FVec Ideal S2x16384x3 .f32)
    (b : Fin 2) (c : Fin 3) (q : Fin 2048) (s : Fin 32) (n : Fin 65536) (hn : n.val = q.val * 32 + s.val) :
    takeBody gather_S2x3x16384_S2x65536x1_S2x3x65536_1_2_0_0_2_2_131 bcast_S_S2x1x65536 shapeCasts_S2x1x65536_S2x65536x1
        bcast_S_S2x65536x1 bcast_S1_S1x1x1_2 bcast_S1x1x1_S2x65536x1_0_1_2 reducesTo_S2x65536x1_S2x65536_d2 h_S_
        bcast_S2x65536_S2x3x65536_0_2
        (transpose S2x3x16384 [0, 2, 1] a0 transposes_S2x16384x3_S2x3x16384_0_2_1)
        (broadcastInDim S2x3x65536 ![] bcast_S_S2x3x65536 (constant (F := Ideal) S_ .f32 0x7FC00000#32))
        (shapeCast S2x1x65536 idx shapeCasts_S2x2048x32_S2x1x65536) (ix3 b c n)
      = a0 (ix3 b ⟨(idx (ix3 b q s)).toNat, hr _⟩ c) := by
  refine (takeBody_at _ rfl rfl rfl rfl rfl rfl _ _ _ _ _ _ _ _ _ _ _ (idx_flat_lt idx hr) b c n).trans ?_
  refine (xyzT_apply a0 b c _).trans ?_
  refine congrArg a0 (funext fun a => Fin.ext ?_)
  match a with
  | ⟨0, _⟩ => rfl
  | ⟨1, _⟩ =>
    show (shapeCast S2x1x65536 idx shapeCasts_S2x2048x32_S2x1x65536 (ix3 b 0 n)).toNat = (idx (ix3 b q s)).toNat
    rw [idx_flat_apply idx b q s n hn]
  | ⟨2, _⟩ => rfl

/-- The features gathered by the table, read at (b, c, n): feature c of the point the flattened table names. -/
theorem takeFeat_at (idx : IVec S2x2048x32 32) (hr : ∀ j, (idx j).toNat < 16384) (a2 : FVec Ideal S2x64x16384 .f32)
    (b : Fin 2) (c : Fin 64) (q : Fin 2048) (s : Fin 32) (n : Fin 65536) (hn : n.val = q.val * 32 + s.val) :
    takeBody gather_S2x64x16384_S2x65536x1_S2x64x65536_1_2_0_0_2_2_1641 bcast_S_S2x1x65536 shapeCasts_S2x1x65536_S2x65536x1
        bcast_S_S2x65536x1 bcast_S1_S1x1x1_2 bcast_S1x1x1_S2x65536x1_0_1_2 reducesTo_S2x65536x1_S2x65536_d2 h_S_
        bcast_S2x65536_S2x64x65536_0_2 a2
        (broadcastInDim S2x64x65536 ![] bcast_S_S2x64x65536 (constant (F := Ideal) S_ .f32 0x7FC00000#32))
        (shapeCast S2x1x65536 idx shapeCasts_S2x2048x32_S2x1x65536) (ix3 b c n)
      = a2 (ix3 b c ⟨(idx (ix3 b q s)).toNat, hr _⟩) := by
  refine (takeBody_at _ rfl rfl rfl rfl rfl rfl _ _ _ _ _ _ _ _ _ _ _ (idx_flat_lt idx hr) b c n).trans ?_
  refine congrArg a2 (funext fun a => Fin.ext ?_)
  match a with
  | ⟨0, _⟩ => rfl
  | ⟨1, _⟩ => rfl
  | ⟨2, _⟩ =>
    show (shapeCast S2x1x65536 idx shapeCasts_S2x2048x32_S2x1x65536 (ix3 b 0 n)).toNat = (idx (ix3 b q s)).toNat
    rw [idx_flat_apply idx b q s n hn]

/-! ## The tail -/

/-- The tail is the concatenation, along the channel axis, of the centred gathered coordinates and the gathered
    features. -/
theorem refTail_eq (idx : IVec S2x2048x32 32) (a0 : FVec Ideal S2x16384x3 .f32) (a1 : FVec Ideal S2x2048x3 .f32)
    (a2 : FVec Ideal S2x64x16384 .f32) :
    refTail (F := Ideal) idx a0 a1 a2
      = concatenate S2x67x2048x32 1
          [⟨S2x3x2048x32, subf (F := Ideal)
              (shapeCast S2x3x2048x32
                (takeBody gather_S2x3x16384_S2x65536x1_S2x3x65536_1_2_0_0_2_2_131 bcast_S_S2x1x65536
                  shapeCasts_S2x1x65536_S2x65536x1 bcast_S_S2x65536x1 bcast_S1_S1x1x1_2 bcast_S1x1x1_S2x65536x1_0_1_2
                  reducesTo_S2x65536x1_S2x65536_d2 h_S_ bcast_S2x65536_S2x3x65536_0_2
                  (transpose S2x3x16384 [0, 2, 1] a0 transposes_S2x16384x3_S2x3x16384_0_2_1)
                  (broadcastInDim S2x3x65536 ![] bcast_S_S2x3x65536 (constant (F := Ideal) S_ .f32 0x7FC00000#32))
                  (shapeCast S2x1x65536 idx shapeCasts_S2x2048x32_S2x1x65536))
                shapeCasts_S2x3x65536_S2x3x2048x32)
              (broadcastInDim S2x3x2048x32 ![0, 1, 2, 3] bcast_S2x3x2048x1_S2x3x2048x32_0_1_2_3
                (broadcastInDim S2x3x2048x1 ![0, 1, 2] bcast_S2x3x2048_S2x3x2048x1_0_1_2
                  (transpose S2x3x2048 [0, 2, 1] a1 transposes_S2x2048x3_S2x3x2048_0_2_1)))⟩,
           ⟨S2x64x2048x32,
              shapeCast S2x64x2048x32
                (takeBody gather_S2x64x16384_S2x65536x1_S2x64x65536_1_2_0_0_2_2_1641 bcast_S_S2x1x65536
                  shapeCasts_S2x1x65536_S2x65536x1 bcast_S_S2x65536x1 bcast_S1_S1x1x1_2 bcast_S1x1x1_S2x65536x1_0_1_2
                  reducesTo_S2x65536x1_S2x65536_d2 h_S_ bcast_S2x65536_S2x64x65536_0_2 a2
                  (broadcastInDim S2x64x65536 ![] bcast_S_S2x64x65536 (constant (F := Ideal) S_ .f32 0x7FC00000#32))
                  (shapeCast S2x1x65536 idx shapeCasts_S2x2048x32_S2x1x65536))
                shapeCasts_S2x64x65536_S2x64x2048x32⟩]
          concatenates_S2x3x2048x32_S2x64x2048x32_S2x67x2048x32_d1 := rfl

/-- The tail read at (b, ch, q, s), over an index table of words below 16384. -/
theorem refTail_apply (idx : IVec S2x2048x32 32) (hr : ∀ j, (idx j).toNat < 16384)
    (a0 : FVec Ideal S2x16384x3 .f32) (a1 : FVec Ideal S2x2048x3 .f32) (a2 : FVec Ideal S2x64x16384 .f32)
    (b : Fin 2) (ch : Fin 67) (q : Fin 2048) (s : Fin 32) :
    refTail (F := Ideal) idx a0 a1 a2 (ix4 b ch q s)
      = if h : ch.val < 3 then
          a0 (ix3 b ⟨(idx (ix3 b q s)).toNat, hr _⟩ ⟨ch.val, h⟩) - a1 (ix3 b q ⟨ch.val, h⟩)
        else
          a2 (ix3 b ⟨ch.val - 3, by have := ch.isLt; omega⟩ ⟨(idx (ix3 b q s)).toNat, hr _⟩) := by
  have hnlt : q.val * 32 + s.val < 65536 := by have := q.isLt; have := s.isLt; omega
  rw [refTail_eq]
  by_cases h : ch.val < 3
  · rw [dif_pos h]
    refine (concatenate_pair_apply_left (s₁ := S2x3x2048x32) (s₂ := S2x64x2048x32) 1 _ _ _ (ix4 b ch q s) rfl
      (ix4 b (⟨ch.val, h⟩ : Fin 3) q s) ?_).trans ?_
    · intro bb
      match bb with
      | ⟨0, _⟩ => rfl
      | ⟨1, _⟩ => rfl
      | ⟨2, _⟩ => rfl
      | ⟨3, _⟩ => rfl
    · exact congrArg₂ (fun (x y : EReal) => x - y)
        ((unflat_apply _ shapeCasts_S2x3x65536_S2x3x2048x32 b (⟨ch.val, h⟩ : Fin 3) q s ⟨q.val * 32 + s.val, hnlt⟩ rfl).trans
          (takeXyz_at idx hr a0 b ⟨ch.val, h⟩ q s ⟨q.val * 32 + s.val, hnlt⟩ rfl))
        (centre_apply a1 b ⟨ch.val, h⟩ q s)
  · rw [dif_neg h]
    have hc : ch.val - 3 < 64 := by have := ch.isLt; omega
    refine (concatenate_pair_apply_right (s₁ := S2x3x2048x32) (s₂ := S2x64x2048x32) 1 _ _ _ (ix4 b ch q s) rfl rfl
      (ix4 b (⟨ch.val - 3, hc⟩ : Fin 64) q s) ?_ ?_).trans ?_
    · intro bb hbb
      match bb with
      | ⟨0, _⟩ => rfl
      | ⟨1, _⟩ => exact absurd rfl hbb
      | ⟨2, _⟩ => rfl
      | ⟨3, _⟩ => rfl
    · show ch.val - 3 + 3 = ch.val
      omega
    · exact (unflat_apply _ shapeCasts_S2x64x65536_S2x64x2048x32 b (⟨ch.val - 3, hc⟩ : Fin 64) q s ⟨q.val * 32 + s.val, hnlt⟩ rfl).trans
        (takeFeat_at idx hr a2 b ⟨ch.val - 3, hc⟩ q s ⟨q.val * 32 + s.val, hnlt⟩ rfl)

end Cert.ReferenceIdeal.Hand

end
-- ==== Proof.Ideal.Bridge.lean ====
/-
  The bridge between the two programs' tails, at the ideal values: what the region computes from the kernel
  program's four arrays (the table row named by the index word, as first half plus second half, less the padded
  centre), sliced, reshaped and transposed, is the reference's gather-and-concatenate tail over the same index
  table — entry by entry: on the three coordinate channels (xyz + (xyz − xyz)) − centre = xyz − centre, on the 64
  feature channels (feature + (feature − feature)) − 0 = feature, the table's entries being real numbers.
-/
import proofs.«128314_j31576599560762_2_alg».proof.Proof.Ideal.BridgeOps
import proofs.«128314_j31576599560762_2_alg».proof.Proof.RefRead

noncomputable section

namespace Cert.KernelIdeal.HandValue

open Idealize.ShloMosaic Idealize.ShloMosaic.ValueIdx Cert.KernelIdeal Cert.KernelIdeal.Facts₀

/-- The region's result at (b, q * 32 + s, ch): the table's entry at the row the index table names at (b, q, s),
    plus that entry less itself, less the padded centre's entry. -/
theorem gatherOut_apply (idx : IVec S2x2048x32 32) (hr : ∀ j, (idx j).toNat < 16384)
    (a0 : FVec Ideal S2x16384x3 .f32) (a1 : FVec Ideal S2x2048x3 .f32) (a2 : FVec Ideal S2x64x16384 .f32)
    (b : Fin 2) (q : Fin 2048) (s : Fin 32) (n : Fin 65536) (hn : n.val = q.val * 32 + s.val) (cc : Fin 128) :
    gatherOut (ixColOf idx) (hiOf a0 a2) (loOf a0 a2) (nxOf a1) (ix3 b n cc)
      = ((tableOf a0 a2 (ix3 b ⟨(idx (ix3 b q s)).toNat, hr _⟩ cc) : EReal)
          + ((tableOf a0 a2 (ix3 b ⟨(idx (ix3 b q s)).toNat, hr _⟩ cc) : EReal)
            - (tableOf a0 a2 (ix3 b ⟨(idx (ix3 b q s)).toNat, hr _⟩ cc) : EReal)))
        - (nxOf a1 (ix3 b n cc) : EReal) := by
  have hp : pick (ixColOf idx (ix3 b n 0)).toNat = ⟨(idx (ix3 b q s)).toNat, hr _⟩ := by
    rw [ixCol_apply idx b q s n hn]
    exact pick_of_lt _ (hr _)
  show ((hiOf a0 a2 (ix3 b (pick (ixColOf idx (ix3 b n 0)).toNat) cc) : EReal)
      + (loOf a0 a2 (ix3 b (pick (ixColOf idx (ix3 b n 0)).toNat) cc) : EReal)) - (nxOf a1 (ix3 b n cc) : EReal) = _
  rw [hp, hi_apply, lo_apply]

/-- The kernel program's tail of the region's exact result is the reference's tail. -/
theorem bridge (idx : IVec S2x2048x32 32) (hr : ∀ j, (idx j).toNat < 16384)
    (a0 : FVec Ideal S2x16384x3 .f32) (a1 : FVec Ideal S2x2048x3 .f32) (a2 : FVec Ideal S2x64x16384 .f32)
    (h0 : ∀ i, ∃ r : ℝ, a0 i = (r : EReal)) (h2 : ∀ i, ∃ r : ℝ, a2 i = (r : EReal)) :
    tailOf (gatherOut (ixColOf idx) (hiOf a0 a2) (loOf a0 a2) (nxOf a1))
      = Cert.ReferenceIdeal.Hand.refTail idx a0 a1 a2 := by
  funext j
  obtain ⟨b, ch, q, s, rfl⟩ : ∃ (b : Fin 2) (ch : Fin 67) (q : Fin 2048) (s : Fin 32), j = ix4 b ch q s :=
    ⟨j 0, j 1, j 2, j 3, eq_ix4 j⟩
  have hnlt : q.val * 32 + s.val < 65536 := by have := q.isLt; have := s.isLt; omega
  have hch : ch.val < 128 := by have := ch.isLt; omega
  refine (tail_apply _ b ch q s ⟨q.val * 32 + s.val, hnlt⟩ rfl).trans ?_
  refine (gatherOut_apply idx hr a0 a1 a2 b q s ⟨q.val * 32 + s.val, hnlt⟩ rfl ⟨ch.val, hch⟩).trans ?_
  refine Eq.trans ?_ (Cert.ReferenceIdeal.Hand.refTail_apply idx hr a0 a1 a2 b ch q s).symm
  by_cases h : ch.val < 3
  · rw [dif_pos h, table_apply_xyz a0 a2 b _ ⟨ch.val, hch⟩ h, nx_apply_lt a1 b q s _ rfl ⟨ch.val, hch⟩ h,
      real_add_sub_self _ (h0 _)]
  · rw [dif_neg h, table_apply_feat a0 a2 b _ ⟨ch.val, hch⟩ (by show 3 ≤ ch.val; omega) (by show ch.val < 67; exact ch.isLt),
      nx_apply_ge a1 b _ ⟨ch.val, hch⟩ (by show 3 ≤ ch.val; omega), real_add_sub_self _ (h2 _), sub_zero]

end Cert.KernelIdeal.HandValue

end
-- ==== Proof.Claims.lean ====
/-
  The five claims. The two kernel programs run, terminate and leave their argument arrays as launched (the frame runs
  around the region); the reference runs as a straight line of host operations. At exact arithmetic the kernel program's
  neighbour count is the reference's term by the same operations, and its second result is the region's result array —
  the table row each index word names, as the sum of its two halves, less the centre — sliced, split and transposed,
  which is the reference's gather-and-concatenate tail over the same index table: every index word is below 16384
  (it comes out of a scatter of point numbers into zeros) and every table entry is a real number (the precondition),
  so (x + (x − x)) − y = x − y entry by entry.
-/
import proofs.«128314_j31576599560762_2_alg».proof.Defs
import proofs.«128314_j31576599560762_2_alg».proof.Proof.Gen.Kernel
import proofs.«128314_j31576599560762_2_alg».proof.Proof.Gen.KernelIdeal
import proofs.«128314_j31576599560762_2_alg».proof.Proof.Gen.ReferenceIdeal
import proofs.«128314_j31576599560762_2_alg».proof.Proof.Gen.Pre_finite_inputs
import proofs.«128314_j31576599560762_2_alg».proof.Proof.Bits.Accum
import proofs.«128314_j31576599560762_2_alg».proof.Proof.Bits.Kept
import proofs.«128314_j31576599560762_2_alg».proof.Proof.Ideal.Accum
import proofs.«128314_j31576599560762_2_alg».proof.Proof.Ideal.Kept
import proofs.«128314_j31576599560762_2_alg».proof.Proof.Ideal.HostRead
import proofs.«128314_j31576599560762_2_alg».proof.Proof.Ideal.TailRead
import proofs.«128314_j31576599560762_2_alg».proof.Proof.Ideal.IxCol
import proofs.«128314_j31576599560762_2_alg».proof.Proof.RefRun
import proofs.«128314_j31576599560762_2_alg».proof.Proof.MathIdxRange
import proofs.«128314_j31576599560762_2_alg».proof.Proof.MathFinite
import proofs.«128314_j31576599560762_2_alg».proof.Proof.Ideal.Result
import proofs.«128314_j31576599560762_2_alg».proof.Proof.Ideal.Bridge

noncomputable section

namespace Cert.Proof.GatherClaims

open Idealize.ShloMosaic Idealize.ShloMosaic.TcCoe Idealize.SL.Sem

/- The fold over the host operations before the region is never opened here. -/
attribute [local irreducible] StableHlo.after

/-! ## The frames -/

theorem frame_k : Cert.frame_Kernel := fun m ρ _ =>
  Cert.Kernel.Hand.frame_of (F := Bits) m ρ (Cert.Kernel.Hand.dats m) (Cert.Kernel.Hand.run_main m ρ)

theorem frame_ki : Cert.frame_KernelIdeal := fun m ρ _ =>
  Cert.KernelIdeal.Hand.frame_of (F := Ideal) m ρ (Cert.KernelIdeal.Hand.dats m) (Cert.KernelIdeal.Hand.run_main m ρ)

theorem frame_ri : Cert.frame_ReferenceIdeal := fun m ρ _ =>
  (θ_run Cert.ReferenceIdeal.defs _ _).mono (fun _ h c => (h c).2.2) (Cert.ReferenceIdeal.Hand.run (F := Ideal) m ρ)

/-! ## The kernel program's results at exact arithmetic -/

section KernelSide

open Cert.KernelIdeal Cert.KernelIdeal.HandValue Cert.ReferenceIdeal.Hand

variable (m : (ℓ : Loc nD τ sig) → Buf (Elt Ideal) ℓ)

/-- The three argument arrays on a device, as launched. -/
abbrev arg0 (c : Dev nD) : FVec Ideal S2x16384x3 .f32 := m ((c.tc : Thread nD τ).loc main_arg0)
abbrev arg1 (c : Dev nD) : FVec Ideal S2x2048x3 .f32 := m ((c.tc : Thread nD τ).loc main_arg1)
abbrev arg2 (c : Dev nD) : FVec Ideal S2x64x16384 .f32 := m ((c.tc : Thread nD τ).loc main_arg2)

/-- Every index word the region is handed names a table row: the column is the reference's index table flattened. -/
theorem inRange (c : Dev nD) : InRange m c := fun k => by
  have e : Hand.V m c main_v69 = ixColOf (refIdx (F := Ideal) (arg0 m c) (arg1 m c)) := V_v69 m c
  show ((Hand.V m c main_v69 : S2x65536x1.Idx → Elt Ideal .i32) k).toNat < 16384
  rw [e]
  exact ixCol_lt _ (refIdx_lt (F := Ideal) _ _) k

/-- The region's result array, sliced, split and transposed, is the reference's second result. -/
theorem out_eq (hpre : Cert.Pre_KernelIdeal m) (c : Dev nD) :
    tailOf ((Hand.dats m 0 c).arrAt 4 cfg0.N) = refOut (F := Ideal) (arg0 m c) (arg1 m c) (arg2 m c) := by
  obtain ⟨h0, -, h2⟩ := Cert.Hand.Math.finite_of_pre m hpre c
  rw [final m c (inRange m c)]
  show tailOf (gatherOut (Hand.V m c main_v69 : S2x65536x1.Idx → Elt Ideal .i32) (Hand.V m c main_v65 : S2x16384x128.Idx → Elt Ideal .bf16)
      (Hand.V m c main_v68 : S2x16384x128.Idx → Elt Ideal .bf16) (Hand.V m c main_v72 : S2x65536x128.Idx → Elt Ideal .f32)) = _
  rw [V_v69 m c, V_v65 m c, V_v68 m c, V_v72 m c]
  exact bridge _ (refIdx_lt (F := Ideal) _ _) _ _ _ h0 h2

/-- The kernel program at exact arithmetic: it runs, its two results are the reference's terms of the arguments, the
    arguments are unchanged. -/
theorem kernel_run (ρ : Dev nD → PrngReg) (hpre : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v18) = refCnt (F := Ideal) (arg0 m c) (arg1 m c)
      ∧ r.2.mem ((c.tc : Thread nD τ).loc main_v76) = refOut (F := Ideal) (arg0 m c) (arg1 m c) (arg2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v18 (Pipeline.mem_restRefs_of main_v18 (by decide) (by decide))).trans ((tail_v18 m (Hand.dats m) c).trans (V_v18 m c)),
     ((h c).2 main_v76 (Pipeline.mem_restRefs_of main_v76 (by decide) (by decide))).trans ((tail_v76 m (Hand.dats m) c).trans (out_eq m hpre c)),
     ((h c).2 main_arg0 (Pipeline.mem_restRefs_of main_arg0 (by decide) (by decide))).trans (Hand.W_main_arg0 m (Hand.dats m) c),
     ((h c).2 main_arg1 (Pipeline.mem_restRefs_of main_arg1 (by decide) (by decide))).trans (Hand.W_main_arg1 m (Hand.dats m) c),
     ((h c).2 main_arg2 (Pipeline.mem_restRefs_of main_arg2 (by decide) (by decide))).trans (Hand.W_main_arg2 m (Hand.dats m) c)⟩)
    (Hand.run_main (F := Ideal) m ρ)

end KernelSide

/-! ## The two programs agree -/

/-- From memories agreeing on the arguments both programs run and end with the reference's terms of the arguments:
    the kernel program by `kernel_run`, the reference by its own run, the arguments rewritten along the agreement. -/
theorem algebraic : Cert.algebraic_KernelIdeal_ReferenceIdeal := by
  intro m ρ m' ρ' hpre hagree
  refine ⟨fun c => Cert.ReferenceIdeal.Hand.refCnt (F := Ideal) (arg0 m c) (arg1 m c),
    fun c => Cert.ReferenceIdeal.Hand.refOut (F := Ideal) (arg0 m c) (arg1 m c) (arg2 m c), kernel_run m ρ hpre, ?_⟩
  refine (θ_run Cert.ReferenceIdeal.defs _ _).mono (fun _ h c => ?_) (Cert.ReferenceIdeal.Hand.run (F := Ideal) m' ρ')
  obtain ⟨h18, h73, k0, k1, k2⟩ := h c
  obtain ⟨e0, e1, e2⟩ := hagree c
  refine ⟨h18.trans ?_, h73.trans ?_, k0, k1, k2⟩
  · rw [e0, e1]
  · rw [e0, e1, e2]

end Cert.Proof.GatherClaims

end
-- ==== Proof.lean ====
/-
  A one-hot gather against take_along_axis. Both programs first find, for each centre, the points of a spherical shell
  around it (the same host operations, so the same neighbour count and the same table of at most 32 point numbers, each
  below 16384). The kernel program then multiplies a one-hot matrix of the point numbers into the table
  [xyz | features] split into two bf16 halves, tile by tile, and subtracts the centre; the reference gathers along the
  point axis. At exact arithmetic a one-hot row of a product picks one table row, the two halves add up to the row since
  its entries are real numbers, and the two results agree entry by entry. The frames are the runs with their results
  dropped.
-/
import proofs.«128314_j31576599560762_2_alg».proof.Defs
import proofs.«128314_j31576599560762_2_alg».proof.Proof.Gen.Kernel
import proofs.«128314_j31576599560762_2_alg».proof.Proof.Gen.Kernel.Skeleton
import proofs.«128314_j31576599560762_2_alg».proof.Proof.Gen.Kernel.Launch
import proofs.«128314_j31576599560762_2_alg».proof.Proof.Gen.Kernel.Points
import proofs.«128314_j31576599560762_2_alg».proof.Proof.Gen.KernelIdeal
import proofs.«128314_j31576599560762_2_alg».proof.Proof.Gen.KernelIdeal.Skeleton
import proofs.«128314_j31576599560762_2_alg».proof.Proof.Gen.KernelIdeal.Launch
import proofs.«128314_j31576599560762_2_alg».proof.Proof.Gen.KernelIdeal.Points
import proofs.«128314_j31576599560762_2_alg».proof.Proof.Gen.ReferenceIdeal
import proofs.«128314_j31576599560762_2_alg».proof.Proof.Gen.Pre_finite_inputs
import Idealize.ShloMosaic.Adequacy
import Idealize.ShloMosaic.Init
import proofs.«128314_j31576599560762_2_alg».proof.Proof.Claims

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    GatherClaims.frame_k, GatherClaims.frame_ki, GatherClaims.frame_ri, trivial, GatherClaims.algebraic⟩

end Cert.Proof

end
